-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v80)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v80) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v129) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S3x128x128 : Shape := ⟨3, ![3, 128, 128]⟩
abbrev S3x128 : Shape := ⟨2, ![3, 128]⟩
abbrev S64x128 : Shape := ⟨2, ![64, 128]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg8 : FVec F S64 .f32) (main_arg9 : FVec F S64x128 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x128 .f32 := Host.absf main_arg9
  let main_cst_14 : FVec F S_ .f32 := constant S_ .f32 0x7F800000#32
  let main_v40 : FVec F S64x128 .f32 := broadcastInDim S64x128 ![] bcast_S_S64x128 main_cst_14
  let main_v41 : IVec S64x128 1 := cmpf .olt main_v39 main_v40
  let main_c_15 : IVec S_ 1 := constantI S_ 1 1#1
  let main_v42 : IVec S_ 1 := (fun x v => Host.reduce IntOp.andi x v reducesTo_S64x128_S_d0_1 h_S_) main_v41 main_c_15
  let main_v43 : IVec S_ 1 := andi main_v38 main_v42
  main_v43

def fn_part1 {F : FTy → Type} [FloatOps F] (main_arg5 : FVec F S3x128 .f32) (main_arg6 : FVec F S3x128x128 .f32) (main_arg7 : FVec F S64x128 .f32) (main_arg8 : FVec F S64 .f32) (main_arg9 : FVec F S64x128 .f32) (main_v13 : IVec S_ 1) (main_v16 : IVec S3x128x128 1) : IVec S_ 1 :=
  let main_c_5 : IVec S_ 1 := constantI S_ 1 1#1
  let main_v17 : IVec S_ 1 := (fun x v => Host.reduce IntOp.andi x v reducesTo_S3x128x128_S_d0_1_2 h_S_) main_v16 main_c_5
  let main_v18 : IVec S_ 1 := andi main_v13 main_v17
  let main_v19 : FVec F S3x128 .f32 := Host.absf main_arg5
  let main_cst_6 : FVec F S_ .f32 := constant S_ .f32 0x7F800000#32
  let main_v20 : FVec F S3x128 .f32 := broadcastInDim S3x128 ![] bcast_S_S3x128 main_cst_6
  let main_v21 : IVec S3x128 1 := cmpf .olt main_v19 main_v20
  let main_c_7 : IVec S_ 1 := constantI S_ 1 1#1
  let main_v22 : IVec S_ 1 := (fun x v => Host.reduce IntOp.andi x v reducesTo_S3x128_S_d0_1 h_S_) main_v21 main_c_7
  let main_v23 : IVec S_ 1 := andi main_v18 main_v22
  let main_v24 : FVec F S3x128x128 .f32 := Host.absf main_arg6
  let main_cst_8 : FVec F S_ .f32 := constant S_ .f32 0x7F800000#32
  let main_v25 : FVec F S3x128x128 .f32 := broadcastInDim S3x128x128 ![] bcast_S_S3x128x128 main_cst_8
  let main_v26 : IVec S3x128x128 1 := cmpf .olt main_v24 main_v25
  let main_c_9 : IVec S_ 1 := constantI S_ 1 1#1
  let main_v27 : IVec S_ 1 := (fun x v => Host.reduce IntOp.andi x v reducesTo_S3x128x128_S_d0_1_2 h_S_) main_v26 main_c_9
  let main_v28 : IVec S_ 1 := andi main_v23 main_v27
  let main_v29 : FVec F S64x128 .f32 := Host.absf main_arg7
  let main_cst_10 : FVec F S_ .f32 := constant S_ .f32 0x7F800000#32
  let main_v30 : FVec F S64x128 .f32 := broadcastInDim S64x128 ![] bcast_S_S64x128 main_cst_10
  let main_v31 : IVec S64x128 1 := cmpf .olt main_v29 main_v30
  let main_c_11 : IVec S_ 1 := constantI S_ 1 1#1
  let main_v32 : IVec S_ 1 := (fun x v => Host.reduce IntOp.andi x v reducesTo_S64x128_S_d0_1 h_S_) main_v31 main_c_11
  let main_v33 : IVec S_ 1 := andi main_v28 main_v32
  fn_part2 (F := F) main_arg8 main_arg9 main_v33

def fn {F : FTy → Type} [FloatOps F] (main_arg0 : FVec F S100000x128 .f32) (main_arg1 : IVec S2x1600000 32) (main_arg2 : FVec F S128x128 .f32) (main_arg3 : FVec F S128 .f32) (main_arg4 : FVec F S3x128x128 .f32) (main_arg5 : FVec F S3x128 .f32) (main_arg6 : FVec F S3x128x128 .f32) (main_arg7 : FVec F S64x128 .f32) (main_arg8 : FVec F S64 .f32) (main_arg9 : FVec F S64x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S3x128x128 .f32 := Host.absf main_arg4
  let main_cst_4 : FVec F S_ .f32 := constant S_ .f32 0x7F800000#32
  let main_v15 : FVec F S3x128x128 .f32 := broadcastInDim S3x128x128 ![] bcast_S_S3x128x128 main_cst_4
  let main_v16 : IVec S3x128x128 1 := cmpf .olt main_v14 main_v15
  fn_part1 (F := F) main_arg5 main_arg6 main_arg7 main_arg8 main_arg9 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S3x128x128 : Shape := ⟨3, ![3, 128, 128]⟩
abbrev S3x128 : Shape := ⟨2, ![3, 128]⟩
abbrev S64x128 : Shape := ⟨2, ![64, 128]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1x128 : Shape := ⟨2, ![1, 128]⟩
abbrev S4000x128 : Shape := ⟨2, ![4000, 128]⟩
abbrev S1600000x128 : Shape := ⟨2, ![1600000, 128]⟩
abbrev S1x128x128 : Shape := ⟨3, ![1, 128, 128]⟩
abbrev S4000x1 : Shape := ⟨2, ![4000, 1]⟩
abbrev S1x64 : Shape := ⟨2, ![1, 64]⟩
abbrev S100000x64 : Shape := ⟨2, ![100000, 64]⟩
abbrev S4000x64 : Shape := ⟨2, ![4000, 64]⟩
abbrev S4000 : Shape := ⟨1, ![4000]⟩

abbrev nBuf : Space → Nat
  | .hbm => 108
  | .vmem => 58
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S3x128x128, .f32⟩
  | .hbm, ⟨5, _⟩ => ⟨S3x128, .f32⟩
  | .hbm, ⟨6, _⟩ => ⟨S3x128x128, .f32⟩
  | .hbm, ⟨7, _⟩ => ⟨S64x128, .f32⟩
  | .hbm, ⟨8, _⟩ => ⟨S64, .f32⟩
  | .hbm, ⟨9, _⟩ => ⟨S64x128, .f32⟩
  | .hbm, ⟨10, _⟩ => ⟨S1x1600000, .i32⟩
  | .hbm, ⟨11, _⟩ => ⟨S1600000, .i32⟩
  | .hbm, ⟨12, _⟩ => ⟨S1x1600000, .i32⟩
  | .hbm, ⟨13, _⟩ => ⟨S1600000, .i32⟩
  | .hbm, ⟨14, _⟩ => ⟨S_, .f32⟩
  | .hbm, ⟨15, _⟩ => ⟨S1600000, .f32⟩
  | .hbm, ⟨16, _⟩ => ⟨S_, .f32⟩
  | .hbm, ⟨17, _⟩ => ⟨S100000, .f32⟩
  | .hbm, ⟨18, _⟩ => ⟨S1600000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S100000x1, .f32⟩
  | .hbm, ⟨27, _⟩ => ⟨S1x128, .f32⟩
  | .hbm, ⟨28, _⟩ => ⟨S100000x128, .f32⟩
  | .hbm, ⟨29, _⟩ => ⟨S100000x128, .f32⟩
  | .hbm, ⟨30, _⟩ => ⟨S_, .i32⟩
  | .hbm, ⟨31, _⟩ => ⟨S1600000, .i32⟩
  | .hbm, ⟨32, _⟩ => ⟨S1600000, .i1⟩
  | .hbm, ⟨33, _⟩ => ⟨S_, .i32⟩
  | .hbm, ⟨34, _⟩ => ⟨S1600000, .i32⟩
  | .hbm, ⟨35, _⟩ => ⟨S1600000, .i32⟩
  | .hbm, ⟨36, _⟩ => ⟨S1600000, .i32⟩
  | .hbm, ⟨37, _⟩ => ⟨S1600000x1, .i32⟩
  | .hbm, ⟨38, _⟩ => ⟨S1600000x128, .f32⟩
  | .hbm, ⟨39, _⟩ => ⟨S_, .f32⟩
  | .hbm, ⟨40, _⟩ => ⟨S100000x128, .f32⟩
  | .hbm, ⟨41, _⟩ => ⟨S1600000x1, .i32⟩
  | .hbm, ⟨42, _⟩ => ⟨S100000x128, .f32⟩
  | .hbm, ⟨43, _⟩ => ⟨S1x128x128, .f32⟩
  | .hbm, ⟨44, _⟩ => ⟨S128x128, .f32⟩
  | .hbm, ⟨45, _⟩ => ⟨S1x128, .f32⟩
  | .hbm, ⟨46, _⟩ => ⟨S128, .f32⟩
  | .hbm, ⟨47, _⟩ => ⟨S1x128x128, .f32⟩
  | .hbm, ⟨48, _⟩ => ⟨S128x128, .f32⟩
  | .hbm, ⟨49, _⟩ => ⟨S1x128, .f32⟩
  | .hbm, ⟨50, _⟩ => ⟨S100000x128, .f32⟩
  | .hbm, ⟨51, _⟩ => ⟨S_, .i32⟩
  | .hbm, ⟨52, _⟩ => ⟨S1600000, .i32⟩
  | .hbm, ⟨53, _⟩ => ⟨S1600000, .i1⟩
  | .hbm, ⟨54, _⟩ => ⟨S_, .i32⟩
  | .hbm, ⟨55, _⟩ => ⟨S1600000, .i32⟩
  | .hbm, ⟨56, _⟩ => ⟨S1600000, .i32⟩
  | .hbm, ⟨57, _⟩ => ⟨S1600000, .i32⟩
  | .hbm, ⟨58, _⟩ => ⟨S1600000x1, .i32⟩
  | .hbm, ⟨59, _⟩ => ⟨S1600000x128, .f32⟩
  | .hbm, ⟨60, _⟩ => ⟨S_, .f32⟩
  | .hbm, ⟨61, _⟩ => ⟨S100000x128, .f32⟩
  | .hbm, ⟨62, _⟩ => ⟨S1600000x1, .i32⟩
  | .hbm, ⟨63, _⟩ => ⟨S100000x128, .f32⟩
  | .hbm, ⟨64, _⟩ => ⟨S1x128x128, .f32⟩
  | .hbm, ⟨65, _⟩ => ⟨S128x128, .f32⟩
  | .hbm, ⟨66, _⟩ => ⟨S1x128, .f32⟩
  | .hbm, ⟨67, _⟩ => ⟨S128, .f32⟩
  | .hbm, ⟨68, _⟩ => ⟨S1x128x128, .f32⟩
  | .hbm, ⟨69, _⟩ => ⟨S128x128, .f32⟩
  | .hbm, ⟨70, _⟩ => ⟨S1x128, .f32⟩
  | .hbm, ⟨71, _⟩ => ⟨S100000x128, .f32⟩
  | .hbm, ⟨72, _⟩ => ⟨S_, .i32⟩
  | .hbm, ⟨73, _⟩ => ⟨S1600000, .i32⟩
  | .hbm, ⟨74, _⟩ => ⟨S1600000, .i1⟩
  | .hbm, ⟨75, _⟩ => ⟨S_, .i32⟩
  | .hbm, ⟨76, _⟩ => ⟨S1600000, .i32⟩
  | .hbm, ⟨77, _⟩ => ⟨S1600000, .i32⟩
  | .hbm, ⟨78, _⟩ => ⟨S1600000, .i32⟩
  | .hbm, ⟨79, _⟩ => ⟨S1600000x1, .i32⟩
  | .hbm, ⟨80, _⟩ => ⟨S1600000x128, .f32⟩
  | .hbm, ⟨81, _⟩ => ⟨S_, .f32⟩
  | .hbm, ⟨82, _⟩ => ⟨S100000x128, .f32⟩
  | .hbm, ⟨83, _⟩ => ⟨S1600000x1, .i32⟩
  | .hbm, ⟨84, _⟩ => ⟨S100000x128, .f32⟩
  | .hbm, ⟨85, _⟩ => ⟨S1x128x128, .f32⟩
  | .hbm, ⟨86, _⟩ => ⟨S128x128, .f32⟩
  | .hbm, ⟨87, _⟩ => ⟨S1x128, .f32⟩
  | .hbm, ⟨88, _⟩ => ⟨S128, .f32⟩
  | .hbm, ⟨89, _⟩ => ⟨S1x128x128, .f32⟩
  | .hbm, ⟨90, _⟩ => ⟨S128x128, .f32⟩
  | .hbm, ⟨91, _⟩ => ⟨S1x128, .f32⟩
  | .hbm, ⟨92, _⟩ => ⟨S100000x128, .f32⟩
  | .hbm, ⟨93, _⟩ => ⟨S_, .i32⟩
  | .hbm, ⟨94, _⟩ => ⟨S1600000, .i32⟩
  | .hbm, ⟨95, _⟩ => ⟨S1600000, .i1⟩
  | .hbm, ⟨96, _⟩ => ⟨S_, .i32⟩
  | .hbm, ⟨97, _⟩ => ⟨S1600000, .i32⟩
  | .hbm, ⟨98, _⟩ => ⟨S1600000, .i32⟩
  | .hbm, ⟨99, _⟩ => ⟨S1600000, .i32⟩
  | .hbm, ⟨100, _⟩ => ⟨S1600000x1, .i32⟩
  | .hbm, ⟨101, _⟩ => ⟨S1600000x128, .f32⟩
  | .hbm, ⟨102, _⟩ => ⟨S_, .f32⟩
  | .hbm, ⟨103, _⟩ => ⟨S100000x128, .f32⟩
  | .hbm, ⟨104, _⟩ => ⟨S1600000x1, .i32⟩
  | .hbm, ⟨105, _⟩ => ⟨S100000x128, .f32⟩
  | .hbm, ⟨106, _⟩ => ⟨S1x64, .f32⟩
  | .hbm, ⟨107, _⟩ => ⟨S100000x64, .f32⟩
  | .local _ .vmem, ⟨0, _⟩ => ⟨S4000x128, .f32⟩
  | .local _ .vmem, ⟨1, _⟩ => ⟨S4000x128, .f32⟩
  | .local _ .vmem, ⟨2, _⟩ => ⟨S128x128, .f32⟩
  | .local _ .vmem, ⟨3, _⟩ => ⟨S1x128, .f32⟩
  | .local _ .vmem, ⟨4, _⟩ => ⟨S4000x128, .f32⟩
  | .local _ .vmem, ⟨5, _⟩ => ⟨S4000x128, .f32⟩
  | .local _ .vmem, ⟨6, _⟩ => ⟨S4000x128, .f32⟩
  | .local _ .vmem, ⟨7, _⟩ => ⟨S4000x128, .f32⟩
  | .local _ .vmem, ⟨8, _⟩ => ⟨S4000x128, .f32⟩
  | .local _ .vmem, ⟨9, _⟩ => ⟨S4000x128, .f32⟩
  | .local _ .vmem, ⟨10, _⟩ => ⟨S4000x128, .f32⟩
  | .local _ .vmem, ⟨11, _⟩ => ⟨S4000x128, .f32⟩
  | .local _ .vmem, ⟨12, _⟩ => ⟨S4000x128, .f32⟩
  | .local _ .vmem, ⟨13, _⟩ => ⟨S4000x128, .f32⟩
  | .local _ .vmem, ⟨14, _⟩ => ⟨S4000x1, .f32⟩
  | .local _ .vmem, ⟨15, _⟩ => ⟨S4000x1, .f32⟩
  | .local _ .vmem, ⟨16, _⟩ => ⟨S128x128, .f32⟩
  | .local _ .vmem, ⟨17, _⟩ => ⟨S1x128, .f32⟩
  | .local _ .vmem, ⟨18, _⟩ => ⟨S128x128, .f32⟩
  | .local _ .vmem, ⟨19, _⟩ => ⟨S4000x128, .f32⟩
  | .local _ .vmem, ⟨20, _⟩ => ⟨S4000x128, .f32⟩
  | .local _ .vmem, ⟨21, _⟩ => ⟨S4000x128, .f32⟩
  | .local _ .vmem, ⟨22, _⟩ => ⟨S4000x128, .f32⟩
  | .local _ .vmem, ⟨23, _⟩ => ⟨S4000x128, .f32⟩
  | .local _ .vmem, ⟨24, _⟩ => ⟨S4000x128, .f32⟩
  | .local _ .vmem, ⟨25, _⟩ => ⟨S4000x128, .f32⟩
  | .local _ .vmem, ⟨26, _⟩ => ⟨S4000x128, .f32⟩
  | .local _ .vmem, ⟨27, _⟩ => ⟨S4000x1, .f32⟩
  | .local _ .vmem, ⟨28, _⟩ => ⟨S4000x1, .f32⟩
  | .local _ .vmem, ⟨29, _⟩ => ⟨S128x128, .f32⟩
  | .local _ .vmem, ⟨30, _⟩ => ⟨S1x128, .f32⟩
  | .local _ .vmem, ⟨31, _⟩ => ⟨S128x128, .f32⟩
  | .local _ .vmem, ⟨32, _⟩ => ⟨S4000x128, .f32⟩
  | .local _ .vmem, ⟨33, _⟩ => ⟨S4000x128, .f32⟩
  | .local _ .vmem, ⟨34, _⟩ => ⟨S4000x128, .f32⟩
  | .local _ .vmem, ⟨35, _⟩ => ⟨S4000x128, .f32⟩
  | .local _ .vmem, ⟨36, _⟩ => ⟨S4000x128, .f32⟩
  | .local _ .vmem, ⟨37, _⟩ => ⟨S4000x128, .f32⟩
  | .local _ .vmem, ⟨38, _⟩ => ⟨S4000x128, .f32⟩
  | .local _ .vmem, ⟨39, _⟩ => ⟨S4000x128, .f32⟩
  | .local _ .vmem, ⟨40, _⟩ => ⟨S4000x1, .f32⟩
  | .local _ .vmem, ⟨41, _⟩ => ⟨S4000x1, .f32⟩
  | .local _ .vmem, ⟨42, _⟩ => ⟨S128x128, .f32⟩
  | .local _ .vmem, ⟨43, _⟩ => ⟨S1x128, .f32⟩
  | .local _ .vmem, ⟨44, _⟩ => ⟨S128x128, .f32⟩
  | .local _ .vmem, ⟨45, _⟩ => ⟨S4000x128, .f32⟩
  | .local _ .vmem, ⟨46, _⟩ => ⟨S4000x128, .f32⟩
  | .local _ .vmem, ⟨47, _⟩ => ⟨S4000x128, .f32⟩
  | .local _ .vmem, ⟨48, _⟩ => ⟨S4000x128, .f32⟩
  | .local _ .vmem, ⟨49, _⟩ => ⟨S4000x128, .f32⟩
  | .local _ .vmem, ⟨50, _⟩ => ⟨S4000x128, .f32⟩
  | .local _ .vmem, ⟨51, _⟩ => ⟨S4000x1, .f32⟩
  | .local _ .vmem, ⟨52, _⟩ => ⟨S4000x1, .f32⟩
  | .local _ .vmem, ⟨53, _⟩ => ⟨S64x128, .f32⟩
  | .local _ .vmem, ⟨54, _⟩ => ⟨S1x64, .f32⟩
  | .local _ .vmem, ⟨55, _⟩ => ⟨S64x128, .f32⟩
  | .local _ .vmem, ⟨56, _⟩ => ⟨S4000x64, .f32⟩
  | .local _ .vmem, ⟨57, _⟩ => ⟨S4000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | _, _ => false

abbrev semScoped : Fin 0 → Bool
  | ⟨_, h⟩ => absurd h (Nat.not_lt_zero _)

abbrev dmaSemScoped : Fin 58 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | _ => false

abbrev sig : RefSig :=
  ofTc nBuf bufTy 0 58 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14_0 : Ref sig .tc := ⟨.hbm, 28, rfl⟩
abbrev main_v14_1 : Ref sig .tc := ⟨.hbm, 29, rfl⟩
abbrev main_c : Ref sig .tc := ⟨.hbm, 30, rfl⟩
abbrev main_v15 : Ref sig .tc := ⟨.hbm, 31, rfl⟩
abbrev main_v16 : Ref sig .tc := ⟨.hbm, 32, rfl⟩
abbrev main_c_3 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst_4 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_c_5 : Ref sig .tc := ⟨.hbm, 51, rfl⟩
abbrev main_v33 : Ref sig .tc := ⟨.hbm, 52, rfl⟩
abbrev main_v34 : Ref sig .tc := ⟨.hbm, 53, rfl⟩
abbrev main_c_6 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_7 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_c_8 : Ref sig .tc := ⟨.hbm, 72, rfl⟩
abbrev main_v51 : Ref sig .tc := ⟨.hbm, 73, rfl⟩
abbrev main_v52 : Ref sig .tc := ⟨.hbm, 74, rfl⟩
abbrev main_c_9 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_cst_10 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_c_11 : Ref sig .tc := ⟨.hbm, 93, rfl⟩
abbrev main_v69 : Ref sig .tc := ⟨.hbm, 94, rfl⟩
abbrev main_v70 : Ref sig .tc := ⟨.hbm, 95, rfl⟩
abbrev main_c_12 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_cst_13 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg7_0 : Ref sig .tc := ⟨.vmem, 19, rfl⟩
abbrev cc1_stg7_1 : Ref sig .tc := ⟨.vmem, 20, rfl⟩
abbrev cc2_stg0_0 : Ref sig .tc := ⟨.vmem, 21, rfl⟩
abbrev cc2_stg0_1 : Ref sig .tc := ⟨.vmem, 22, rfl⟩
abbrev cc2_stg1_0 : Ref sig .tc := ⟨.vmem, 23, rfl⟩
abbrev cc2_stg1_1 : Ref sig .tc := ⟨.vmem, 24, rfl⟩
abbrev cc2_stg2_0 : Ref sig .tc := ⟨.vmem, 25, rfl⟩
abbrev cc2_stg2_1 : Ref sig .tc := ⟨.vmem, 26, rfl⟩
abbrev cc2_stg3_0 : Ref sig .tc := ⟨.vmem, 27, rfl⟩
abbrev cc2_stg3_1 : Ref sig .tc := ⟨.vmem, 28, rfl⟩
abbrev cc2_stg4_0 : Ref sig .tc := ⟨.vmem, 29, rfl⟩
abbrev cc2_stg5_0 : Ref sig .tc := ⟨.vmem, 30, rfl⟩
abbrev cc2_stg6_0 : Ref sig .tc := ⟨.vmem, 31, rfl⟩
abbrev cc2_stg7_0 : Ref sig .tc := ⟨.vmem, 32, rfl⟩
abbrev cc2_stg7_1 : Ref sig .tc := ⟨.vmem, 33, rfl⟩
abbrev cc3_stg0_0 : Ref sig .tc := ⟨.vmem, 34, rfl⟩
abbrev cc3_stg0_1 : Ref sig .tc := ⟨.vmem, 35, rfl⟩
abbrev cc3_stg1_0 : Ref sig .tc := ⟨.vmem, 36, rfl⟩
abbrev cc3_stg1_1 : Ref sig .tc := ⟨.vmem, 37, rfl⟩
abbrev cc3_stg2_0 : Ref sig .tc := ⟨.vmem, 38, rfl⟩
abbrev cc3_stg2_1 : Ref sig .tc := ⟨.vmem, 39, rfl⟩
abbrev cc3_stg3_0 : Ref sig .tc := ⟨.vmem, 40, rfl⟩
abbrev cc3_stg3_1 : Ref sig .tc := ⟨.vmem, 41, rfl⟩
abbrev cc3_stg4_0 : Ref sig .tc := ⟨.vmem, 42, rfl⟩
abbrev cc3_stg5_0 : Ref sig .tc := ⟨.vmem, 43, rfl⟩
abbrev cc3_stg6_0 : Ref sig .tc := ⟨.vmem, 44, rfl⟩
abbrev cc3_stg7_0 : Ref sig .tc := ⟨.vmem, 45, rfl⟩
abbrev cc3_stg7_1 : Ref sig .tc := ⟨.vmem, 46, rfl⟩
abbrev cc4_stg0_0 : Ref sig .tc := ⟨.vmem, 47, rfl⟩
abbrev cc4_stg0_1 : Ref sig .tc := ⟨.vmem, 48, rfl⟩
abbrev cc4_stg1_0 : Ref sig .tc := ⟨.vmem, 49, rfl⟩
abbrev cc4_stg1_1 : Ref sig .tc := ⟨.vmem, 50, rfl⟩
abbrev cc4_stg2_0 : Ref sig .tc := ⟨.vmem, 51, rfl⟩
abbrev cc4_stg2_1 : Ref sig .tc := ⟨.vmem, 52, rfl⟩
abbrev cc4_stg3_0 : Ref sig .tc := ⟨.vmem, 53, rfl⟩
abbrev cc4_stg4_0 : Ref sig .tc := ⟨.vmem, 54, rfl⟩
abbrev cc4_stg5_0 : Ref sig .tc := ⟨.vmem, 55, rfl⟩
abbrev cc4_stg6_0 : Ref sig .tc := ⟨.vmem, 56, rfl⟩
abbrev cc4_stg6_1 : Ref sig .tc := ⟨.vmem, 57, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc1_sem4_0 : DmaSem sig := 16
abbrev cc1_sem5_0 : DmaSem sig := 17
abbrev cc1_sem6_0 : DmaSem sig := 18
abbrev cc1_sem7_0 : DmaSem sig := 19
abbrev cc1_sem7_1 : DmaSem sig := 20
abbrev cc2_sem0_0 : DmaSem sig := 21
abbrev cc2_sem0_1 : DmaSem sig := 22
abbrev cc2_sem1_0 : DmaSem sig := 23
abbrev cc2_sem1_1 : DmaSem sig := 24
abbrev cc2_sem2_0 : DmaSem sig := 25
abbrev cc2_sem2_1 : DmaSem sig := 26
abbrev cc2_sem3_0 : DmaSem sig := 27
abbrev cc2_sem3_1 : DmaSem sig := 28
abbrev cc2_sem4_0 : DmaSem sig := 29
abbrev cc2_sem5_0 : DmaSem sig := 30
abbrev cc2_sem6_0 : DmaSem sig := 31
abbrev cc2_sem7_0 : DmaSem sig := 32
abbrev cc2_sem7_1 : DmaSem sig := 33
abbrev cc3_sem0_0 : DmaSem sig := 34
abbrev cc3_sem0_1 : DmaSem sig := 35
abbrev cc3_sem1_0 : DmaSem sig := 36
abbrev cc3_sem1_1 : DmaSem sig := 37
abbrev cc3_sem2_0 : DmaSem sig := 38
abbrev cc3_sem2_1 : DmaSem sig := 39
abbrev cc3_sem3_0 : DmaSem sig := 40
abbrev cc3_sem3_1 : DmaSem sig := 41
abbrev cc3_sem4_0 : DmaSem sig := 42
abbrev cc3_sem5_0 : DmaSem sig := 43
abbrev cc3_sem6_0 : DmaSem sig := 44
abbrev cc3_sem7_0 : DmaSem sig := 45
abbrev cc3_sem7_1 : DmaSem sig := 46
abbrev cc4_sem0_0 : DmaSem sig := 47
abbrev cc4_sem0_1 : DmaSem sig := 48
abbrev cc4_sem1_0 : DmaSem sig := 49
abbrev cc4_sem1_1 : DmaSem sig := 50
abbrev cc4_sem2_0 : DmaSem sig := 51
abbrev cc4_sem2_1 : DmaSem sig := 52
abbrev cc4_sem3_0 : DmaSem sig := 53
abbrev cc4_sem4_0 : DmaSem sig := 54
abbrev cc4_sem5_0 : DmaSem sig := 55
abbrev cc4_sem6_0 : DmaSem sig := 56
abbrev cc4_sem6_1 : DmaSem sig := 57

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S4000x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S4000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S4000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S4000x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S128x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S4000x128 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S4000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S4000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S4000x1 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 1 → Memref sig .tc .vmem S128x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S128x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 2 → Memref sig .tc .vmem S4000x128 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S4000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S4000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S4000x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S64x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x64 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S64x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S4000x64 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  shapeCasts_S128_S1x128 : S128.ShapeCasts S1x128
  inb_S4000x128_S4000x128_0_0 : ∀ a, (![0, 0] : Fin 2 → Nat) a + S4000x128.size a ≤ S4000x128.size a
  h_S4000x128 : 0 < S4000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  bcast_S_S100000x128 : S_.BroadcastsInDim S100000x128 (![] : Fin 0 → Fin S100000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  shapeCasts_S4000x128_S4000x128 : S4000x128.ShapeCasts S4000x128
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x128 : S4000x1.Broadcasts S4000x128
  shapeCasts_S128x128_S128x128 : S128x128.ShapeCasts S128x128
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  shapeCasts_S64_S1x64 : S64.ShapeCasts S1x64
  inb_S64x128_S64x128_0_0 : ∀ a, (![0, 0] : Fin 2 → Nat) a + S64x128.size a ≤ S64x128.size a
  h_S64x128 : 0 < S64x128.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4000x64 : S1x64.Broadcasts S4000x64
  reduces_S4000x64_S4000 : S4000x64.Reduces [1] S4000
  shapeCasts_S4000_S4000x1 : S4000.ShapeCasts S4000x1
  broadcasts_S4000x1_S4000x64 : S4000x1.Broadcasts S4000x64
  inb_S4000x64_S4000x64_0_0 : ∀ a, (![0, 0] : Fin 2 → Nat) a + S4000x64.size a ≤ S4000x64.size a
  h_S4000x64 : 0 < S4000x64.numel
  scatter_S100000_S1600000x1_S1600000_n_0_0_1_wf : ScatterDims.WF S100000 S1600000x1 S1600000 [] [0] [0] 1
  dot_S4000x128_S128x128_S4000x128_1_1_0_0_n_n_wf : DotDims.WF S4000x128 S128x128 S4000x128 [1] [1] [0] [0] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S4000x128_S64x128_S4000x64_1_1_0_0_n_n_wf : DotDims.WF S4000x128 S64x128 S4000x64 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x128.size a ≤ S100000x128.size a
  hwx0_3 : ∀ i : grid0.Coords, EltTy.bits .f32 = 32 ∨ (Rect.block (s := S100000x128) S4000x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4000x128.size a ≤ S100000x128.size a
  hwx0_4 : ∀ i : grid0.Coords, EltTy.bits .f32 = 32 ∨ (Rect.block (s := S100000x128) S4000x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x128.size a ≤ S100000x128.size a
  hwx1_1 : ∀ i : grid1.Coords, EltTy.bits .f32 = 32 ∨ (Rect.block (s := S100000x128) S4000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x128.size a ≤ S100000x128.size a
  hwx1_2 : ∀ i : grid1.Coords, EltTy.bits .f32 = 32 ∨ (Rect.block (s := S100000x128) S4000x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4000x1.size a ≤ S100000x1.size a
  hwx1_3 : ∀ i : grid1.Coords, EltTy.bits .f32 = 32 ∨ (Rect.block (s := S100000x1) S4000x1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128x128.size a ≤ S128x128.size a
  hwx1_6 : ∀ i : grid1.Coords, EltTy.bits .f32 = 32 ∨ (Rect.block (s := S128x128) S128x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S4000x128.size a ≤ S100000x128.size a
  hwx1_7 : ∀ i : grid1.Coords, EltTy.bits .f32 = 32 ∨ (Rect.block (s := S100000x128) S4000x128.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S100000x128.size a
  hwx2_0 : ∀ i : grid2.Coords, EltTy.bits .f32 = 32 ∨ (Rect.block (s := S100000x128) S4000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x128.size a ≤ S100000x128.size a
  hwx2_1 : ∀ i : grid2.Coords, EltTy.bits .f32 = 32 ∨ (Rect.block (s := S100000x128) S4000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4000x128.size a ≤ S100000x128.size a
  hwx2_2 : ∀ i : grid2.Coords, EltTy.bits .f32 = 32 ∨ (Rect.block (s := S100000x128) S4000x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S4000x1.size a ≤ S100000x1.size a
  hwx2_3 : ∀ i : grid2.Coords, EltTy.bits .f32 = 32 ∨ (Rect.block (s := S100000x1) S4000x1.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S128x128.size a ≤ S128x128.size a
  hwx2_6 : ∀ i : grid2.Coords, EltTy.bits .f32 = 32 ∨ (Rect.block (s := S128x128) S128x128.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S4000x128.size a ≤ S100000x128.size a
  hwx2_7 : ∀ i : grid2.Coords, EltTy.bits .f32 = 32 ∨ (Rect.block (s := S100000x128) S4000x128.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x128.size a ≤ S100000x128.size a
  hwx3_0 : ∀ i : grid3.Coords, EltTy.bits .f32 = 32 ∨ (Rect.block (s := S100000x128) S4000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S4000x128.size a ≤ S100000x128.size a
  hwx3_1 : ∀ i : grid3.Coords, EltTy.bits .f32 = 32 ∨ (Rect.block (s := S100000x128) S4000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S4000x128.size a ≤ S100000x128.size a
  hwx3_2 : ∀ i : grid3.Coords, EltTy.bits .f32 = 32 ∨ (Rect.block (s := S100000x128) S4000x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S4000x1.size a ≤ S100000x1.size a
  hwx3_3 : ∀ i : grid3.Coords, EltTy.bits .f32 = 32 ∨ (Rect.block (s := S100000x1) S4000x1.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128x128.size a ≤ S128x128.size a
  hwx3_4 : ∀ i : grid3.Coords, EltTy.bits .f32 = 32 ∨ (Rect.block (s := S128x128) S128x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x128.size a ≤ S1x128.size a
  hwx3_5 : ∀ i : grid3.Coords, EltTy.bits .f32 = 32 ∨ (Rect.block (s := S1x128) S1x128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S128x128.size a ≤ S128x128.size a
  hwx3_6 : ∀ i : grid3.Coords, EltTy.bits .f32 = 32 ∨ (Rect.block (s := S128x128) S128x128.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S4000x128.size a ≤ S100000x128.size a
  hwx3_7 : ∀ i : grid3.Coords, EltTy.bits .f32 = 32 ∨ (Rect.block (s := S100000x128) S4000x128.size (cc3_transform_7 i) (hinb3_7 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S4000x128.size a ≤ S100000x128.size a
  hwx4_0 : ∀ i : grid4.Coords, EltTy.bits .f32 = 32 ∨ (Rect.block (s := S100000x128) S4000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S4000x128.size a ≤ S100000x128.size a
  hwx4_1 : ∀ i : grid4.Coords, EltTy.bits .f32 = 32 ∨ (Rect.block (s := S100000x128) S4000x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S4000x1.size a ≤ S100000x1.size a
  hwx4_2 : ∀ i : grid4.Coords, EltTy.bits .f32 = 32 ∨ (Rect.block (s := S100000x1) S4000x1.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S64x128.size a ≤ S64x128.size a
  hwx4_3 : ∀ i : grid4.Coords, EltTy.bits .f32 = 32 ∨ (Rect.block (s := S64x128) S64x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x64.size a ≤ S1x64.size a
  hwx4_4 : ∀ i : grid4.Coords, EltTy.bits .f32 = 32 ∨ (Rect.block (s := S1x64) S1x64.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S64x128.size a ≤ S64x128.size a
  hwx4_5 : ∀ i : grid4.Coords, EltTy.bits .f32 = 32 ∨ (Rect.block (s := S64x128) S64x128.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S4000x64.size a ≤ S100000x64.size a
  hwx4_6 : ∀ i : grid4.Coords, EltTy.bits .f32 = 32 ∨ (Rect.block (s := S100000x64) S4000x64.size (cc4_transform_6 i) (hinb4_6 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S4000x128_S128x128_S4000x128_1_1_0_0_n_n : DotDims S4000x128 S128x128 S4000x128 where
  lhsContracting := [1]
  rhsContracting := [1]
  lhsNonContracting := [0]
  rhsNonContracting := [0]
  lhsBatch := []
  rhsBatch := []
  wf := dot_S4000x128_S128x128_S4000x128_1_1_0_0_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S4000x128_S64x128_S4000x64_1_1_0_0_n_n : DotDims S4000x128 S64x128 S4000x64 where
  lhsContracting := [1]
  rhsContracting := [1]
  lhsNonContracting := [0]
  rhsNonContracting := [0]
  lhsBatch := []
  rhsBatch := []
  wf := dot_S4000x128_S64x128_S4000x64_1_1_0_0_n_n_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v13) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14_0) S4000x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v14_1) S4000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v24) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14_1) S4000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v14_0) S4000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v12) S4000x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v26) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v31) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v30) S128x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v32) S4000x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v42) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v32) S4000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v14_0) S4000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v12) S4000x1.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v44) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v49) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v48) S128x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v50) S4000x128.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_v60) S4000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v50) S4000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v14_0) S4000x128.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v12) S4000x1.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v62) S128x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v67) S1x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v66) S128x128.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v68) S4000x128.size cc3_transform_7 reads3_7 true false 2 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

abbrev win4_0 : Pipeline.Window sig grid4 :=
  Pipeline.Window.ofSpec (Memref.whole main_v78) S4000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v68) S4000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v12) S4000x1.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_arg7) S64x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v79) S1x64.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_arg9) S64x128.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v80) S4000x64.size cc4_transform_6 reads4_6 true false 2 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S3x128x128 : Shape := ⟨3, ![3, 128, 128]⟩
abbrev S3x128 : Shape := ⟨2, ![3, 128]⟩
abbrev S64x128 : Shape := ⟨2, ![64, 128]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1x128 : Shape := ⟨2, ![1, 128]⟩
abbrev S1x128x128 : Shape := ⟨3, ![1, 128, 128]⟩
abbrev S1600000x128 : Shape := ⟨2, ![1600000, 128]⟩
abbrev S128x64 : Shape := ⟨2, ![128, 64]⟩
abbrev S100000x64 : Shape := ⟨2, ![100000, 64]⟩
abbrev S1x64 : Shape := ⟨2, ![1, 64]⟩

abbrev nBuf : Space → Nat
  | .hbm => 181
  | .vmem => 0
  | .smem => 0
  | _ => 0

abbrev hbmTy0_0 (i : Nat) : BufTy := match i % 128 with
  | 0 => ⟨S100000x128, .f32⟩
  | 1 => ⟨S2x1600000, .i32⟩
  | 2 => ⟨S128x128, .f32⟩
  | 3 => ⟨S128, .f32⟩
  | 4 => ⟨S3x128x128, .f32⟩
  | 5 => ⟨S3x128, .f32⟩
  | 6 => ⟨S3x128x128, .f32⟩
  | 7 => ⟨S64x128, .f32⟩
  | 8 => ⟨S64, .f32⟩
  | 9 => ⟨S64x128, .f32⟩
  | 10 => ⟨S1x1600000, .i32⟩
  | 11 => ⟨S1600000, .i32⟩
  | 12 => ⟨S1x1600000, .i32⟩
  | 13 => ⟨S1600000, .i32⟩
  | 14 => ⟨S_, .f32⟩
  | 15 => ⟨S1600000, .f32⟩
  | 16 => ⟨S_, .f32⟩
  | 17 => ⟨S100000, .f32⟩
  | 18 => ⟨S1600000x1, .i32⟩
  | 19 => ⟨S100000, .f32⟩
  | 20 => ⟨S_, .f32⟩
  | 21 => ⟨S100000, .f32⟩
  | 22 => ⟨S100000, .f32⟩
  | 23 => ⟨S_, .f32⟩
  | 24 => ⟨S100000, .f32⟩
  | 25 => ⟨S100000, .f32⟩
  | 26 => ⟨S100000x1, .f32⟩
  | 27 => ⟨S128x128, .f32⟩
  | 28 => ⟨S100000x128, .f32⟩
  | 29 => ⟨S1x128, .f32⟩
  | 30 => ⟨S100000x128, .f32⟩
  | 31 => ⟨S100000x128, .f32⟩
  | 32 => ⟨S_, .f32⟩
  | 33 => ⟨S100000x128, .f32⟩
  | 34 => ⟨S100000x128, .f32⟩
  | 35 => ⟨S1x128x128, .f32⟩
  | 36 => ⟨S128x128, .f32⟩
  | 37 => ⟨S1x128, .f32⟩
  | 38 => ⟨S128, .f32⟩
  | 39 => ⟨S1x128x128, .f32⟩
  | 40 => ⟨S128x128, .f32⟩
  | 41 => ⟨S_, .i32⟩
  | 42 => ⟨S1600000, .i32⟩
  | 43 => ⟨S1600000, .i1⟩
  | 44 => ⟨S_, .i32⟩
  | 45 => ⟨S1600000, .i32⟩
  | 46 => ⟨S1600000, .i32⟩
  | 47 => ⟨S1600000, .i32⟩
  | 48 => ⟨S1600000x1, .i32⟩
  | 49 => ⟨S1600000x128, .f32⟩
  | 50 => ⟨S_, .f32⟩
  | 51 => ⟨S100000x128, .f32⟩
  | 52 => ⟨S1600000x1, .i32⟩
  | 53 => ⟨S100000x128, .f32⟩
  | 54 => ⟨S100000x128, .f32⟩
  | 55 => ⟨S100000x128, .f32⟩
  | 56 => ⟨S128x128, .f32⟩
  | 57 => ⟨S100000x128, .f32⟩
  | 58 => ⟨S1x128, .f32⟩
  | 59 => ⟨S100000x128, .f32⟩
  | 60 => ⟨S100000x128, .f32⟩
  | 61 => ⟨S128x128, .f32⟩
  | 62 => ⟨S100000x128, .f32⟩
  | 63 => ⟨S100000x128, .f32⟩
  | 64 => ⟨S_, .f32⟩
  | 65 => ⟨S100000x128, .f32⟩
  | 66 => ⟨S100000x128, .f32⟩
  | 67 => ⟨S_, .f32⟩
  | 68 => ⟨S100000x128, .f32⟩
  | 69 => ⟨S100000x128, .f32⟩
  | 70 => ⟨S100000x128, .f32⟩
  | 71 => ⟨S1x128x128, .f32⟩
  | 72 => ⟨S128x128, .f32⟩
  | 73 => ⟨S1x128, .f32⟩
  | 74 => ⟨S128, .f32⟩
  | 75 => ⟨S1x128x128, .f32⟩
  | 76 => ⟨S128x128, .f32⟩
  | 77 => ⟨S_, .i32⟩
  | 78 => ⟨S1600000, .i32⟩
  | 79 => ⟨S1600000, .i1⟩
  | 80 => ⟨S_, .i32⟩
  | 81 => ⟨S1600000, .i32⟩
  | 82 => ⟨S1600000, .i32⟩
  | 83 => ⟨S1600000, .i32⟩
  | 84 => ⟨S1600000x1, .i32⟩
  | 85 => ⟨S1600000x128, .f32⟩
  | 86 => ⟨S_, .f32⟩
  | 87 => ⟨S100000x128, .f32⟩
  | 88 => ⟨S1600000x1, .i32⟩
  | 89 => ⟨S100000x128, .f32⟩
  | 90 => ⟨S100000x128, .f32⟩
  | 91 => ⟨S100000x128, .f32⟩
  | 92 => ⟨S128x128, .f32⟩
  | 93 => ⟨S100000x128, .f32⟩
  | 94 => ⟨S1x128, .f32⟩
  | 95 => ⟨S100000x128, .f32⟩
  | 96 => ⟨S100000x128, .f32⟩
  | 97 => ⟨S128x128, .f32⟩
  | 98 => ⟨S100000x128, .f32⟩
  | 99 => ⟨S100000x128, .f32⟩
  | 100 => ⟨S_, .f32⟩
  | 101 => ⟨S100000x128, .f32⟩
  | 102 => ⟨S100000x128, .f32⟩
  | 103 => ⟨S_, .f32⟩
  | 104 => ⟨S100000x128, .f32⟩
  | 105 => ⟨S100000x128, .f32⟩
  | 106 => ⟨S100000x128, .f32⟩
  | 107 => ⟨S1x128x128, .f32⟩
  | 108 => ⟨S128x128, .f32⟩
  | 109 => ⟨S1x128, .f32⟩
  | 110 => ⟨S128, .f32⟩
  | 111 => ⟨S1x128x128, .f32⟩
  | 112 => ⟨S128x128, .f32⟩
  | 113 => ⟨S_, .i32⟩
  | 114 => ⟨S1600000, .i32⟩
  | 115 => ⟨S1600000, .i1⟩
  | 116 => ⟨S_, .i32⟩
  | 117 => ⟨S1600000, .i32⟩
  | 118 => ⟨S1600000, .i32⟩
  | 119 => ⟨S1600000, .i32⟩
  | 120 => ⟨S1600000x1, .i32⟩
  | 121 => ⟨S1600000x128, .f32⟩
  | 122 => ⟨S_, .f32⟩
  | 123 => ⟨S100000x128, .f32⟩
  | 124 => ⟨S1600000x1, .i32⟩
  | 125 => ⟨S100000x128, .f32⟩
  | 126 => ⟨S100000x128, .f32⟩
  | 127 => ⟨S100000x128, .f32⟩
  | _ => ⟨S100000x128, .f32⟩

abbrev hbmTy0_1 (i : Nat) : BufTy := match i % 128 with
  | 0 => ⟨S128x128, .f32⟩
  | 1 => ⟨S100000x128, .f32⟩
  | 2 => ⟨S1x128, .f32⟩
  | 3 => ⟨S100000x128, .f32⟩
  | 4 => ⟨S100000x128, .f32⟩
  | 5 => ⟨S128x128, .f32⟩
  | 6 => ⟨S100000x128, .f32⟩
  | 7 => ⟨S100000x128, .f32⟩
  | 8 => ⟨S_, .f32⟩
  | 9 => ⟨S100000x128, .f32⟩
  | 10 => ⟨S100000x128, .f32⟩
  | 11 => ⟨S_, .f32⟩
  | 12 => ⟨S100000x128, .f32⟩
  | 13 => ⟨S100000x128, .f32⟩
  | 14 => ⟨S100000x128, .f32⟩
  | 15 => ⟨S_, .i32⟩
  | 16 => ⟨S1600000, .i32⟩
  | 17 => ⟨S1600000, .i1⟩
  | 18 => ⟨S_, .i32⟩
  | 19 => ⟨S1600000, .i32⟩
  | 20 => ⟨S1600000, .i32⟩
  | 21 => ⟨S1600000, .i32⟩
  | 22 => ⟨S1600000x1, .i32⟩
  | 23 => ⟨S1600000x128, .f32⟩
  | 24 => ⟨S_, .f32⟩
  | 25 => ⟨S100000x128, .f32⟩
  | 26 => ⟨S1600000x1, .i32⟩
  | 27 => ⟨S100000x128, .f32⟩
  | 28 => ⟨S100000x128, .f32⟩
  | 29 => ⟨S100000x128, .f32⟩
  | 30 => ⟨S128x64, .f32⟩
  | 31 => ⟨S100000x64, .f32⟩
  | 32 => ⟨S1x64, .f32⟩
  | 33 => ⟨S100000x64, .f32⟩
  | 34 => ⟨S100000x64, .f32⟩
  | 35 => ⟨S128x64, .f32⟩
  | 36 => ⟨S100000x64, .f32⟩
  | 37 => ⟨S100000x64, .f32⟩
  | 38 => ⟨S_, .f32⟩
  | 39 => ⟨S100000, .f32⟩
  | 40 => ⟨S_, .f32⟩
  | 41 => ⟨S100000, .f32⟩
  | 42 => ⟨S100000, .f32⟩
  | 43 => ⟨S100000x1, .f32⟩
  | 44 => ⟨S100000x64, .f32⟩
  | 45 => ⟨S100000x64, .f32⟩
  | 46 => ⟨S100000x64, .f32⟩
  | 47 => ⟨S_, .f32⟩
  | 48 => ⟨S100000, .f32⟩
  | 49 => ⟨S100000x1, .f32⟩
  | 50 => ⟨S100000x1, .f32⟩
  | 51 => ⟨S100000x64, .f32⟩
  | 52 => ⟨S100000x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_call0_cst : Ref sig .tc := ⟨.hbm, 32, rfl⟩
abbrev main_call0_v0 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_c : Ref sig .tc := ⟨.hbm, 41, rfl⟩
abbrev main_v25 : Ref sig .tc := ⟨.hbm, 42, rfl⟩
abbrev main_v26 : Ref sig .tc := ⟨.hbm, 43, rfl⟩
abbrev main_c_3 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_4 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_call1_cst : Ref sig .tc := ⟨.hbm, 64, rfl⟩
abbrev main_call1_v0 : Ref sig .tc := ⟨.hbm, 65, rfl⟩
abbrev main_v45 : Ref sig .tc := ⟨.hbm, 66, rfl⟩
abbrev main_cst_5 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_c_6 : Ref sig .tc := ⟨.hbm, 77, rfl⟩
abbrev main_v55 : Ref sig .tc := ⟨.hbm, 78, rfl⟩
abbrev main_v56 : Ref sig .tc := ⟨.hbm, 79, rfl⟩
abbrev main_c_7 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_cst_8 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_call2_cst : Ref sig .tc := ⟨.hbm, 100, rfl⟩
abbrev main_call2_v0 : Ref sig .tc := ⟨.hbm, 101, rfl⟩
abbrev main_v75 : Ref sig .tc := ⟨.hbm, 102, rfl⟩
abbrev main_cst_9 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_c_10 : Ref sig .tc := ⟨.hbm, 113, rfl⟩
abbrev main_v85 : Ref sig .tc := ⟨.hbm, 114, rfl⟩
abbrev main_v86 : Ref sig .tc := ⟨.hbm, 115, rfl⟩
abbrev main_c_11 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_cst_12 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_call3_cst : Ref sig .tc := ⟨.hbm, 136, rfl⟩
abbrev main_call3_v0 : Ref sig .tc := ⟨.hbm, 137, rfl⟩
abbrev main_v105 : Ref sig .tc := ⟨.hbm, 138, rfl⟩
abbrev main_cst_13 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_c_14 : Ref sig .tc := ⟨.hbm, 143, rfl⟩
abbrev main_v109 : Ref sig .tc := ⟨.hbm, 144, rfl⟩
abbrev main_v110 : Ref sig .tc := ⟨.hbm, 145, rfl⟩
abbrev main_c_15 : Ref sig .tc := ⟨.hbm, 146, rfl⟩
abbrev main_v111 : Ref sig .tc := ⟨.hbm, 147, rfl⟩
abbrev main_v112 : Ref sig .tc := ⟨.hbm, 148, rfl⟩
abbrev main_v113 : Ref sig .tc := ⟨.hbm, 149, rfl⟩
abbrev main_v114 : Ref sig .tc := ⟨.hbm, 150, rfl⟩
abbrev main_v115 : Ref sig .tc := ⟨.hbm, 151, rfl⟩
abbrev main_cst_16 : Ref sig .tc := ⟨.hbm, 152, rfl⟩
abbrev main_v116 : Ref sig .tc := ⟨.hbm, 153, rfl⟩
abbrev main_v117 : Ref sig .tc := ⟨.hbm, 154, rfl⟩
abbrev main_v118 : Ref sig .tc := ⟨.hbm, 155, rfl⟩
abbrev main_v119 : Ref sig .tc := ⟨.hbm, 156, rfl⟩
abbrev main_v120 : Ref sig .tc := ⟨.hbm, 157, rfl⟩
abbrev main_v121 : Ref sig .tc := ⟨.hbm, 158, rfl⟩
abbrev main_v122 : Ref sig .tc := ⟨.hbm, 159, rfl⟩
abbrev main_v123 : Ref sig .tc := ⟨.hbm, 160, rfl⟩
abbrev main_v124 : Ref sig .tc := ⟨.hbm, 161, rfl⟩
abbrev main_v125 : Ref sig .tc := ⟨.hbm, 162, rfl⟩
abbrev main_v126 : Ref sig .tc := ⟨.hbm, 163, rfl⟩
abbrev main_v127 : Ref sig .tc := ⟨.hbm, 164, rfl⟩
abbrev main_v128 : Ref sig .tc := ⟨.hbm, 165, rfl⟩
abbrev main_call4_cst : Ref sig .tc := ⟨.hbm, 166, rfl⟩
abbrev main_call4_v0 : Ref sig .tc := ⟨.hbm, 167, rfl⟩
abbrev main_call4_cst_0 : Ref sig .tc := ⟨.hbm, 168, rfl⟩
abbrev main_call4_v1 : Ref sig .tc := ⟨.hbm, 169, rfl⟩
abbrev main_call4_v2 : Ref sig .tc := ⟨.hbm, 170, rfl⟩
abbrev main_call4_v3 : Ref sig .tc := ⟨.hbm, 171, rfl⟩
abbrev main_call4_v4 : Ref sig .tc := ⟨.hbm, 172, rfl⟩
abbrev main_call4_v5 : Ref sig .tc := ⟨.hbm, 173, rfl⟩
abbrev main_call4_v6 : Ref sig .tc := ⟨.hbm, 174, rfl⟩
abbrev main_call4_cst_1 : Ref sig .tc := ⟨.hbm, 175, rfl⟩
abbrev main_call4_v7 : Ref sig .tc := ⟨.hbm, 176, rfl⟩
abbrev main_call4_v8 : Ref sig .tc := ⟨.hbm, 177, rfl⟩
abbrev main_call4_v9 : Ref sig .tc := ⟨.hbm, 178, rfl⟩
abbrev main_call4_v10 : Ref sig .tc := ⟨.hbm, 179, rfl⟩
abbrev main_v129 : Ref sig .tc := ⟨.hbm, 180, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  bcast_S100000x1_S100000x128_0_1 : S100000x1.BroadcastsInDim S100000x128 (![0, 1] : Fin 2 → Fin S100000x128.rank)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  transposes_S64x128_S128x64_1_0 : S64x128.Transposes [1, 0] S128x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S100000_d1 : S100000x64.ReducesTo [1] S100000
  h_S_ : 0 < S_.numel
  bcast_S100000x1_S100000x64_0_1 : S100000x1.BroadcastsInDim S100000x64 (![0, 1] : Fin 2 → Fin S100000x64.rank)
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x64_S100000x64_1_0_0_1_n_n_wf : DotDims.WF S100000x128 S128x64 S100000x64 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.RefAfter.lean ====
/-
  The reference program's result, read through its 171 host operations one at a time.

  The program is a straight line of operations, each writing one fresh buffer from buffers written before it.  From
  any contents that hold the ten arguments, peel the operations off the front in order: after each one, the buffer it
  wrote holds that operation's stage of the reading of the reference (the value the operation computes, as a
  function of the arguments), because its operands hold theirs — a step that looks at one operation over opaque
  operands and never through a gather, a scatter or a reduction —, and every buffer still read later keeps its
  stage.  After the last operation the result buffer holds the last stage of the arguments.
-/
import proofs.«179555_j16097537425900_1_alg».proof.Proof.RefOps
import proofs.«179555_j16097537425900_1_alg».proof.Proof.RefRead

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

/-- One operation peeled off the front: the rest runs from the valuation the operation leaves. -/
theorem after_step {op : HloOp τ sig (Elt F)} {l : List (HloOp τ sig (Elt F))} {V : Valuation τ sig (Elt F)} {b : DevRef τ sig}
    {r : b.ty.Contents (Elt F)} (h : ∀ W, op.result V = W → after l W b = r) : after (op :: l) V b = r := h _ rfl

set_option maxRecDepth 8192 in
set_option maxHeartbeats 68400000 in
/-- From any valuation holding the ten arguments, the operations leave at `main_v129` the last stage of the reading
    (RefRead.lean's `val_main_v129`) of the arguments: one operation at a time, each value read so far kept as its stage. -/
theorem after_main_v129 (V : Valuation τ sig (Elt F)) (x0 : (⟨S100000x128, .f32⟩ : BufTy).Contents (Elt F)) (x1 : (⟨S2x1600000, .i32⟩ : BufTy).Contents (Elt F)) (x2 : (⟨S128x128, .f32⟩ : BufTy).Contents (Elt F)) (x3 : (⟨S128, .f32⟩ : BufTy).Contents (Elt F)) (x4 : (⟨S3x128x128, .f32⟩ : BufTy).Contents (Elt F)) (x5 : (⟨S3x128, .f32⟩ : BufTy).Contents (Elt F)) (x6 : (⟨S3x128x128, .f32⟩ : BufTy).Contents (Elt F)) (x7 : (⟨S64x128, .f32⟩ : BufTy).Contents (Elt F)) (x8 : (⟨S64, .f32⟩ : BufTy).Contents (Elt F)) (x9 : (⟨S64x128, .f32⟩ : BufTy).Contents (Elt F))
    (e0_main_arg0 : V (Proc.devRef .tc main_arg0) = x0) (e0_main_arg1 : V (Proc.devRef .tc main_arg1) = x1) (e0_main_arg2 : V (Proc.devRef .tc main_arg2) = x2) (e0_main_arg3 : V (Proc.devRef .tc main_arg3) = x3) (e0_main_arg4 : V (Proc.devRef .tc main_arg4) = x4) (e0_main_arg5 : V (Proc.devRef .tc main_arg5) = x5) (e0_main_arg6 : V (Proc.devRef .tc main_arg6) = x6) (e0_main_arg7 : V (Proc.devRef .tc main_arg7) = x7) (e0_main_arg8 : V (Proc.devRef .tc main_arg8) = x8) (e0_main_arg9 : V (Proc.devRef .tc main_arg9) = x9) :
    after (ops (F := F)) V (Proc.devRef .tc main_v129) = Read.val_main_v129 (F := F) x0 x1 x2 x3 x4 x5 x6 x7 x8 x9 := by
  -- operation 0: unary main_arg1 → main_v0
  apply after_step; intro W1 hW1
  have e1_main_arg9 : W1 (Proc.devRef .tc main_arg9) = x9 := by rw [← hW1]; after_results_simp; exact e0_main_arg9
  have e1_main_arg8 : W1 (Proc.devRef .tc main_arg8) = x8 := by rw [← hW1]; after_results_simp; exact e0_main_arg8
  have e1_main_arg7 : W1 (Proc.devRef .tc main_arg7) = x7 := by rw [← hW1]; after_results_simp; exact e0_main_arg7
  have e1_main_arg6 : W1 (Proc.devRef .tc main_arg6) = x6 := by rw [← hW1]; after_results_simp; exact e0_main_arg6
  have e1_main_arg5 : W1 (Proc.devRef .tc main_arg5) = x5 := by rw [← hW1]; after_results_simp; exact e0_main_arg5
  have e1_main_arg4 : W1 (Proc.devRef .tc main_arg4) = x4 := by rw [← hW1]; after_results_simp; exact e0_main_arg4
  have e1_main_arg3 : W1 (Proc.devRef .tc main_arg3) = x3 := by rw [← hW1]; after_results_simp; exact e0_main_arg3
  have e1_main_arg0 : W1 (Proc.devRef .tc main_arg0) = x0 := by rw [← hW1]; after_results_simp; exact e0_main_arg0
  have e1_main_arg2 : W1 (Proc.devRef .tc main_arg2) = x2 := by rw [← hW1]; after_results_simp; exact e0_main_arg2
  have e1_main_arg1 : W1 (Proc.devRef .tc main_arg1) = x1 := by rw [← hW1]; after_results_simp; exact e0_main_arg1
  have e1_main_v0 : W1 (Proc.devRef .tc main_v0) = Read.val_main_v0 (F := F) x1 := by
    rw [← hW1]; after_results_simp; simp only [e0_main_arg1]
    unfold Read.val_main_v0; rfl
  clear hW1 e0_main_arg0 e0_main_arg1 e0_main_arg2 e0_main_arg3 e0_main_arg4 e0_main_arg5 e0_main_arg6 e0_main_arg7 e0_main_arg8 e0_main_arg9 V
  -- operation 1: reshape main_v0 → main_v1
  apply after_step; intro W2 hW2
  have e2_main_arg9 : W2 (Proc.devRef .tc main_arg9) = x9 := by rw [← hW2]; after_results_simp; exact e1_main_arg9
  have e2_main_arg8 : W2 (Proc.devRef .tc main_arg8) = x8 := by rw [← hW2]; after_results_simp; exact e1_main_arg8
  have e2_main_arg7 : W2 (Proc.devRef .tc main_arg7) = x7 := by rw [← hW2]; after_results_simp; exact e1_main_arg7
  have e2_main_v1 : W2 (Proc.devRef .tc main_v1) = Read.val_main_v1 (F := F) x1 := by
    rw [← hW2]; after_results_simp; simp only [e1_main_v0]
    unfold Read.val_main_v1; generalize Read.val_main_v0 (F := F) x1 = A_main_v0; rfl
  have e2_main_arg6 : W2 (Proc.devRef .tc main_arg6) = x6 := by rw [← hW2]; after_results_simp; exact e1_main_arg6
  have e2_main_arg5 : W2 (Proc.devRef .tc main_arg5) = x5 := by rw [← hW2]; after_results_simp; exact e1_main_arg5
  have e2_main_arg4 : W2 (Proc.devRef .tc main_arg4) = x4 := by rw [← hW2]; after_results_simp; exact e1_main_arg4
  have e2_main_arg3 : W2 (Proc.devRef .tc main_arg3) = x3 := by rw [← hW2]; after_results_simp; exact e1_main_arg3
  have e2_main_arg0 : W2 (Proc.devRef .tc main_arg0) = x0 := by rw [← hW2]; after_results_simp; exact e1_main_arg0
  have e2_main_arg2 : W2 (Proc.devRef .tc main_arg2) = x2 := by rw [← hW2]; after_results_simp; exact e1_main_arg2
  have e2_main_arg1 : W2 (Proc.devRef .tc main_arg1) = x1 := by rw [← hW2]; after_results_simp; exact e1_main_arg1
  clear hW2 e1_main_arg9 e1_main_arg8 e1_main_arg7 e1_main_arg6 e1_main_arg5 e1_main_arg4 e1_main_arg3 e1_main_arg0 e1_main_arg2 e1_main_arg1 e1_main_v0 W1
  -- operation 2: unary main_arg1 → main_v2
  apply after_step; intro W3 hW3
  have e3_main_arg9 : W3 (Proc.devRef .tc main_arg9) = x9 := by rw [← hW3]; after_results_simp; exact e2_main_arg9
  have e3_main_arg8 : W3 (Proc.devRef .tc main_arg8) = x8 := by rw [← hW3]; after_results_simp; exact e2_main_arg8
  have e3_main_arg7 : W3 (Proc.devRef .tc main_arg7) = x7 := by rw [← hW3]; after_results_simp; exact e2_main_arg7
  have e3_main_v1 : W3 (Proc.devRef .tc main_v1) = Read.val_main_v1 (F := F) x1 := by rw [← hW3]; after_results_simp; exact e2_main_v1
  have e3_main_arg6 : W3 (Proc.devRef .tc main_arg6) = x6 := by rw [← hW3]; after_results_simp; exact e2_main_arg6
  have e3_main_arg5 : W3 (Proc.devRef .tc main_arg5) = x5 := by rw [← hW3]; after_results_simp; exact e2_main_arg5
  have e3_main_arg4 : W3 (Proc.devRef .tc main_arg4) = x4 := by rw [← hW3]; after_results_simp; exact e2_main_arg4
  have e3_main_arg3 : W3 (Proc.devRef .tc main_arg3) = x3 := by rw [← hW3]; after_results_simp; exact e2_main_arg3
  have e3_main_arg0 : W3 (Proc.devRef .tc main_arg0) = x0 := by rw [← hW3]; after_results_simp; exact e2_main_arg0
  have e3_main_arg2 : W3 (Proc.devRef .tc main_arg2) = x2 := by rw [← hW3]; after_results_simp; exact e2_main_arg2
  have e3_main_v2 : W3 (Proc.devRef .tc main_v2) = Read.val_main_v2 (F := F) x1 := by
    rw [← hW3]; after_results_simp; simp only [e2_main_arg1]
    unfold Read.val_main_v2; rfl
  clear hW3 e2_main_arg9 e2_main_arg8 e2_main_arg7 e2_main_v1 e2_main_arg6 e2_main_arg5 e2_main_arg4 e2_main_arg3 e2_main_arg0 e2_main_arg2 e2_main_arg1 W2
  -- operation 3: reshape main_v2 → main_v3
  apply after_step; intro W4 hW4
  have e4_main_arg9 : W4 (Proc.devRef .tc main_arg9) = x9 := by rw [← hW4]; after_results_simp; exact e3_main_arg9
  have e4_main_arg8 : W4 (Proc.devRef .tc main_arg8) = x8 := by rw [← hW4]; after_results_simp; exact e3_main_arg8
  have e4_main_arg7 : W4 (Proc.devRef .tc main_arg7) = x7 := by rw [← hW4]; after_results_simp; exact e3_main_arg7
  have e4_main_v3 : W4 (Proc.devRef .tc main_v3) = Read.val_main_v3 (F := F) x1 := by
    rw [← hW4]; after_results_simp; simp only [e3_main_v2]
    unfold Read.val_main_v3; generalize Read.val_main_v2 (F := F) x1 = A_main_v2; rfl
  have e4_main_v1 : W4 (Proc.devRef .tc main_v1) = Read.val_main_v1 (F := F) x1 := by rw [← hW4]; after_results_simp; exact e3_main_v1
  have e4_main_arg6 : W4 (Proc.devRef .tc main_arg6) = x6 := by rw [← hW4]; after_results_simp; exact e3_main_arg6
  have e4_main_arg5 : W4 (Proc.devRef .tc main_arg5) = x5 := by rw [← hW4]; after_results_simp; exact e3_main_arg5
  have e4_main_arg4 : W4 (Proc.devRef .tc main_arg4) = x4 := by rw [← hW4]; after_results_simp; exact e3_main_arg4
  have e4_main_arg3 : W4 (Proc.devRef .tc main_arg3) = x3 := by rw [← hW4]; after_results_simp; exact e3_main_arg3
  have e4_main_arg0 : W4 (Proc.devRef .tc main_arg0) = x0 := by rw [← hW4]; after_results_simp; exact e3_main_arg0
  have e4_main_arg2 : W4 (Proc.devRef .tc main_arg2) = x2 := by rw [← hW4]; after_results_simp; exact e3_main_arg2
  clear hW4 e3_main_arg9 e3_main_arg8 e3_main_arg7 e3_main_v1 e3_main_arg6 e3_main_arg5 e3_main_arg4 e3_main_arg3 e3_main_arg0 e3_main_arg2 e3_main_v2 W3
  -- operation 4: nullary  → main_cst
  apply after_step; intro W5 hW5
  have e5_main_arg9 : W5 (Proc.devRef .tc main_arg9) = x9 := by rw [← hW5]; after_results_simp; exact e4_main_arg9
  have e5_main_arg8 : W5 (Proc.devRef .tc main_arg8) = x8 := by rw [← hW5]; after_results_simp; exact e4_main_arg8
  have e5_main_arg7 : W5 (Proc.devRef .tc main_arg7) = x7 := by rw [← hW5]; after_results_simp; exact e4_main_arg7
  have e5_main_v3 : W5 (Proc.devRef .tc main_v3) = Read.val_main_v3 (F := F) x1 := by rw [← hW5]; after_results_simp; exact e4_main_v3
  have e5_main_v1 : W5 (Proc.devRef .tc main_v1) = Read.val_main_v1 (F := F) x1 := by rw [← hW5]; after_results_simp; exact e4_main_v1
  have e5_main_arg6 : W5 (Proc.devRef .tc main_arg6) = x6 := by rw [← hW5]; after_results_simp; exact e4_main_arg6
  have e5_main_arg5 : W5 (Proc.devRef .tc main_arg5) = x5 := by rw [← hW5]; after_results_simp; exact e4_main_arg5
  have e5_main_arg4 : W5 (Proc.devRef .tc main_arg4) = x4 := by rw [← hW5]; after_results_simp; exact e4_main_arg4
  have e5_main_arg3 : W5 (Proc.devRef .tc main_arg3) = x3 := by rw [← hW5]; after_results_simp; exact e4_main_arg3
  have e5_main_arg0 : W5 (Proc.devRef .tc main_arg0) = x0 := by rw [← hW5]; after_results_simp; exact e4_main_arg0
  have e5_main_arg2 : W5 (Proc.devRef .tc main_arg2) = x2 := by rw [← hW5]; after_results_simp; exact e4_main_arg2
  have e5_main_cst : W5 (Proc.devRef .tc main_cst) = Read.val_main_cst (F := F) := by
    rw [← hW5]; after_results_simp
    unfold Read.val_main_cst; rfl
  clear hW5 e4_main_arg9 e4_main_arg8 e4_main_arg7 e4_main_v3 e4_main_v1 e4_main_arg6 e4_main_arg5 e4_main_arg4 e4_main_arg3 e4_main_arg0 e4_main_arg2 W4
  -- operation 5: unary main_cst → main_v4
  apply after_step; intro W6 hW6
  have e6_main_arg9 : W6 (Proc.devRef .tc main_arg9) = x9 := by rw [← hW6]; after_results_simp; exact e5_main_arg9
  have e6_main_arg8 : W6 (Proc.devRef .tc main_arg8) = x8 := by rw [← hW6]; after_results_simp; exact e5_main_arg8
  have e6_main_arg7 : W6 (Proc.devRef .tc main_arg7) = x7 := by rw [← hW6]; after_results_simp; exact e5_main_arg7
  have e6_main_v3 : W6 (Proc.devRef .tc main_v3) = Read.val_main_v3 (F := F) x1 := by rw [← hW6]; after_results_simp; exact e5_main_v3
  have e6_main_v1 : W6 (Proc.devRef .tc main_v1) = Read.val_main_v1 (F := F) x1 := by rw [← hW6]; after_results_simp; exact e5_main_v1
  have e6_main_arg6 : W6 (Proc.devRef .tc main_arg6) = x6 := by rw [← hW6]; after_results_simp; exact e5_main_arg6
  have e6_main_arg5 : W6 (Proc.devRef .tc main_arg5) = x5 := by rw [← hW6]; after_results_simp; exact e5_main_arg5
  have e6_main_arg4 : W6 (Proc.devRef .tc main_arg4) = x4 := by rw [← hW6]; after_results_simp; exact e5_main_arg4
  have e6_main_arg3 : W6 (Proc.devRef .tc main_arg3) = x3 := by rw [← hW6]; after_results_simp; exact e5_main_arg3
  have e6_main_arg0 : W6 (Proc.devRef .tc main_arg0) = x0 := by rw [← hW6]; after_results_simp; exact e5_main_arg0
  have e6_main_arg2 : W6 (Proc.devRef .tc main_arg2) = x2 := by rw [← hW6]; after_results_simp; exact e5_main_arg2
  have e6_main_v4 : W6 (Proc.devRef .tc main_v4) = Read.val_main_v4 (F := F) := by
    rw [← hW6]; after_results_simp; simp only [e5_main_cst]
    unfold Read.val_main_v4; generalize Read.val_main_cst (F := F) = A_main_cst; rfl
  clear hW6 e5_main_arg9 e5_main_arg8 e5_main_arg7 e5_main_v3 e5_main_v1 e5_main_arg6 e5_main_arg5 e5_main_arg4 e5_main_arg3 e5_main_arg0 e5_main_arg2 e5_main_cst W5
  -- operation 6: nullary  → main_cst_0
  apply after_step; intro W7 hW7
  have e7_main_arg9 : W7 (Proc.devRef .tc main_arg9) = x9 := by rw [← hW7]; after_results_simp; exact e6_main_arg9
  have e7_main_arg8 : W7 (Proc.devRef .tc main_arg8) = x8 := by rw [← hW7]; after_results_simp; exact e6_main_arg8
  have e7_main_arg7 : W7 (Proc.devRef .tc main_arg7) = x7 := by rw [← hW7]; after_results_simp; exact e6_main_arg7
  have e7_main_v3 : W7 (Proc.devRef .tc main_v3) = Read.val_main_v3 (F := F) x1 := by rw [← hW7]; after_results_simp; exact e6_main_v3
  have e7_main_v1 : W7 (Proc.devRef .tc main_v1) = Read.val_main_v1 (F := F) x1 := by rw [← hW7]; after_results_simp; exact e6_main_v1
  have e7_main_arg6 : W7 (Proc.devRef .tc main_arg6) = x6 := by rw [← hW7]; after_results_simp; exact e6_main_arg6
  have e7_main_arg5 : W7 (Proc.devRef .tc main_arg5) = x5 := by rw [← hW7]; after_results_simp; exact e6_main_arg5
  have e7_main_arg4 : W7 (Proc.devRef .tc main_arg4) = x4 := by rw [← hW7]; after_results_simp; exact e6_main_arg4
  have e7_main_arg3 : W7 (Proc.devRef .tc main_arg3) = x3 := by rw [← hW7]; after_results_simp; exact e6_main_arg3
  have e7_main_arg0 : W7 (Proc.devRef .tc main_arg0) = x0 := by rw [← hW7]; after_results_simp; exact e6_main_arg0
  have e7_main_arg2 : W7 (Proc.devRef .tc main_arg2) = x2 := by rw [← hW7]; after_results_simp; exact e6_main_arg2
  have e7_main_v4 : W7 (Proc.devRef .tc main_v4) = Read.val_main_v4 (F := F) := by rw [← hW7]; after_results_simp; exact e6_main_v4
  have e7_main_cst_0 : W7 (Proc.devRef .tc main_cst_0) = Read.val_main_cst_0 (F := F) := by
    rw [← hW7]; after_results_simp
    unfold Read.val_main_cst_0; rfl
  clear hW7 e6_main_arg9 e6_main_arg8 e6_main_arg7 e6_main_v3 e6_main_v1 e6_main_arg6 e6_main_arg5 e6_main_arg4 e6_main_arg3 e6_main_arg0 e6_main_arg2 e6_main_v4 W6
  -- operation 7: unary main_cst_0 → main_v5
  apply after_step; intro W8 hW8
  have e8_main_arg9 : W8 (Proc.devRef .tc main_arg9) = x9 := by rw [← hW8]; after_results_simp; exact e7_main_arg9
  have e8_main_arg8 : W8 (Proc.devRef .tc main_arg8) = x8 := by rw [← hW8]; after_results_simp; exact e7_main_arg8
  have e8_main_arg7 : W8 (Proc.devRef .tc main_arg7) = x7 := by rw [← hW8]; after_results_simp; exact e7_main_arg7
  have e8_main_v3 : W8 (Proc.devRef .tc main_v3) = Read.val_main_v3 (F := F) x1 := by rw [← hW8]; after_results_simp; exact e7_main_v3
  have e8_main_v1 : W8 (Proc.devRef .tc main_v1) = Read.val_main_v1 (F := F) x1 := by rw [← hW8]; after_results_simp; exact e7_main_v1
  have e8_main_arg6 : W8 (Proc.devRef .tc main_arg6) = x6 := by rw [← hW8]; after_results_simp; exact e7_main_arg6
  have e8_main_arg5 : W8 (Proc.devRef .tc main_arg5) = x5 := by rw [← hW8]; after_results_simp; exact e7_main_arg5
  have e8_main_arg4 : W8 (Proc.devRef .tc main_arg4) = x4 := by rw [← hW8]; after_results_simp; exact e7_main_arg4
  have e8_main_arg3 : W8 (Proc.devRef .tc main_arg3) = x3 := by rw [← hW8]; after_results_simp; exact e7_main_arg3
  have e8_main_arg0 : W8 (Proc.devRef .tc main_arg0) = x0 := by rw [← hW8]; after_results_simp; exact e7_main_arg0
  have e8_main_arg2 : W8 (Proc.devRef .tc main_arg2) = x2 := by rw [← hW8]; after_results_simp; exact e7_main_arg2
  have e8_main_v5 : W8 (Proc.devRef .tc main_v5) = Read.val_main_v5 (F := F) := by
    rw [← hW8]; after_results_simp; simp only [e7_main_cst_0]
    unfold Read.val_main_v5; generalize Read.val_main_cst_0 (F := F) = A_main_cst_0; rfl
  have e8_main_v4 : W8 (Proc.devRef .tc main_v4) = Read.val_main_v4 (F := F) := by rw [← hW8]; after_results_simp; exact e7_main_v4
  clear hW8 e7_main_arg9 e7_main_arg8 e7_main_arg7 e7_main_v3 e7_main_v1 e7_main_arg6 e7_main_arg5 e7_main_arg4 e7_main_arg3 e7_main_arg0 e7_main_arg2 e7_main_v4 e7_main_cst_0 W7
  -- operation 8: unary main_v3 → main_v6
  apply after_step; intro W9 hW9
  have e9_main_arg9 : W9 (Proc.devRef .tc main_arg9) = x9 := by rw [← hW9]; after_results_simp; exact e8_main_arg9
  have e9_main_arg8 : W9 (Proc.devRef .tc main_arg8) = x8 := by rw [← hW9]; after_results_simp; exact e8_main_arg8
  have e9_main_arg7 : W9 (Proc.devRef .tc main_arg7) = x7 := by rw [← hW9]; after_results_simp; exact e8_main_arg7
  have e9_main_v3 : W9 (Proc.devRef .tc main_v3) = Read.val_main_v3 (F := F) x1 := by rw [← hW9]; after_results_simp; exact e8_main_v3
  have e9_main_v1 : W9 (Proc.devRef .tc main_v1) = Read.val_main_v1 (F := F) x1 := by rw [← hW9]; after_results_simp; exact e8_main_v1
  have e9_main_arg6 : W9 (Proc.devRef .tc main_arg6) = x6 := by rw [← hW9]; after_results_simp; exact e8_main_arg6
  have e9_main_arg5 : W9 (Proc.devRef .tc main_arg5) = x5 := by rw [← hW9]; after_results_simp; exact e8_main_arg5
  have e9_main_arg4 : W9 (Proc.devRef .tc main_arg4) = x4 := by rw [← hW9]; after_results_simp; exact e8_main_arg4
  have e9_main_arg3 : W9 (Proc.devRef .tc main_arg3) = x3 := by rw [← hW9]; after_results_simp; exact e8_main_arg3
  have e9_main_arg0 : W9 (Proc.devRef .tc main_arg0) = x0 := by rw [← hW9]; after_results_simp; exact e8_main_arg0
  have e9_main_arg2 : W9 (Proc.devRef .tc main_arg2) = x2 := by rw [← hW9]; after_results_simp; exact e8_main_arg2
  have e9_main_v5 : W9 (Proc.devRef .tc main_v5) = Read.val_main_v5 (F := F) := by rw [← hW9]; after_results_simp; exact e8_main_v5
  have e9_main_v6 : W9 (Proc.devRef .tc main_v6) = Read.val_main_v6 (F := F) x1 := by
    rw [← hW9]; after_results_simp; simp only [e8_main_v3]
    unfold Read.val_main_v6; generalize Read.val_main_v3 (F := F) x1 = A_main_v3; rfl
  have e9_main_v4 : W9 (Proc.devRef .tc main_v4) = Read.val_main_v4 (F := F) := by rw [← hW9]; after_results_simp; exact e8_main_v4
  clear hW9 e8_main_arg9 e8_main_arg8 e8_main_arg7 e8_main_v3 e8_main_v1 e8_main_arg6 e8_main_arg5 e8_main_arg4 e8_main_arg3 e8_main_arg0 e8_main_arg2 e8_main_v5 e8_main_v4 W8
  -- operation 9: ternary main_v5 main_v6 main_v4 → main_v7
  apply after_step; intro W10 hW10
  have e10_main_arg9 : W10 (Proc.devRef .tc main_arg9) = x9 := by rw [← hW10]; after_results_simp; exact e9_main_arg9
  have e10_main_arg8 : W10 (Proc.devRef .tc main_arg8) = x8 := by rw [← hW10]; after_results_simp; exact e9_main_arg8
  have e10_main_arg7 : W10 (Proc.devRef .tc main_arg7) = x7 := by rw [← hW10]; after_results_simp; exact e9_main_arg7
  have e10_main_v3 : W10 (Proc.devRef .tc main_v3) = Read.val_main_v3 (F := F) x1 := by rw [← hW10]; after_results_simp; exact e9_main_v3
  have e10_main_v1 : W10 (Proc.devRef .tc main_v1) = Read.val_main_v1 (F := F) x1 := by rw [← hW10]; after_results_simp; exact e9_main_v1
  have e10_main_arg6 : W10 (Proc.devRef .tc main_arg6) = x6 := by rw [← hW10]; after_results_simp; exact e9_main_arg6
  have e10_main_arg5 : W10 (Proc.devRef .tc main_arg5) = x5 := by rw [← hW10]; after_results_simp; exact e9_main_arg5
  have e10_main_arg4 : W10 (Proc.devRef .tc main_arg4) = x4 := by rw [← hW10]; after_results_simp; exact e9_main_arg4
  have e10_main_arg3 : W10 (Proc.devRef .tc main_arg3) = x3 := by rw [← hW10]; after_results_simp; exact e9_main_arg3
  have e10_main_arg0 : W10 (Proc.devRef .tc main_arg0) = x0 := by rw [← hW10]; after_results_simp; exact e9_main_arg0
  have e10_main_arg2 : W10 (Proc.devRef .tc main_arg2) = x2 := by rw [← hW10]; after_results_simp; exact e9_main_arg2
  have e10_main_v7 : W10 (Proc.devRef .tc main_v7) = Read.val_main_v7 (F := F) x1 := by
    rw [← hW10]; after_results_simp; simp only [e9_main_v5, e9_main_v6, e9_main_v4]
    unfold Read.val_main_v7; generalize Read.val_main_v5 (F := F) = A_main_v5; generalize Read.val_main_v6 (F := F) x1 = A_main_v6; generalize Read.val_main_v4 (F := F) = A_main_v4; rfl
  clear hW10 e9_main_arg9 e9_main_arg8 e9_main_arg7 e9_main_v3 e9_main_v1 e9_main_arg6 e9_main_arg5 e9_main_arg4 e9_main_arg3 e9_main_arg0 e9_main_arg2 e9_main_v5 e9_main_v6 e9_main_v4 W9
  -- operation 10: nullary  → main_cst_1
  apply after_step; intro W11 hW11
  have e11_main_arg9 : W11 (Proc.devRef .tc main_arg9) = x9 := by rw [← hW11]; after_results_simp; exact e10_main_arg9
  have e11_main_arg8 : W11 (Proc.devRef .tc main_arg8) = x8 := by rw [← hW11]; after_results_simp; exact e10_main_arg8
  have e11_main_arg7 : W11 (Proc.devRef .tc main_arg7) = x7 := by rw [← hW11]; after_results_simp; exact e10_main_arg7
  have e11_main_v3 : W11 (Proc.devRef .tc main_v3) = Read.val_main_v3 (F := F) x1 := by rw [← hW11]; after_results_simp; exact e10_main_v3
  have e11_main_v1 : W11 (Proc.devRef .tc main_v1) = Read.val_main_v1 (F := F) x1 := by rw [← hW11]; after_results_simp; exact e10_main_v1
  have e11_main_arg6 : W11 (Proc.devRef .tc main_arg6) = x6 := by rw [← hW11]; after_results_simp; exact e10_main_arg6
  have e11_main_arg5 : W11 (Proc.devRef .tc main_arg5) = x5 := by rw [← hW11]; after_results_simp; exact e10_main_arg5
  have e11_main_arg4 : W11 (Proc.devRef .tc main_arg4) = x4 := by rw [← hW11]; after_results_simp; exact e10_main_arg4
  have e11_main_arg3 : W11 (Proc.devRef .tc main_arg3) = x3 := by rw [← hW11]; after_results_simp; exact e10_main_arg3
  have e11_main_arg0 : W11 (Proc.devRef .tc main_arg0) = x0 := by rw [← hW11]; after_results_simp; exact e10_main_arg0
  have e11_main_arg2 : W11 (Proc.devRef .tc main_arg2) = x2 := by rw [← hW11]; after_results_simp; exact e10_main_arg2
  have e11_main_v7 : W11 (Proc.devRef .tc main_v7) = Read.val_main_v7 (F := F) x1 := by rw [← hW11]; after_results_simp; exact e10_main_v7
  have e11_main_cst_1 : W11 (Proc.devRef .tc main_cst_1) = Read.val_main_cst_1 (F := F) := by
    rw [← hW11]; after_results_simp
    unfold Read.val_main_cst_1; rfl
  clear hW11 e10_main_arg9 e10_main_arg8 e10_main_arg7 e10_main_v3 e10_main_v1 e10_main_arg6 e10_main_arg5 e10_main_arg4 e10_main_arg3 e10_main_arg0 e10_main_arg2 e10_main_v7 W10
  -- operation 11: unary main_cst_1 → main_v8
  apply after_step; intro W12 hW12
  have e12_main_arg9 : W12 (Proc.devRef .tc main_arg9) = x9 := by rw [← hW12]; after_results_simp; exact e11_main_arg9
  have e12_main_arg8 : W12 (Proc.devRef .tc main_arg8) = x8 := by rw [← hW12]; after_results_simp; exact e11_main_arg8
  have e12_main_arg7 : W12 (Proc.devRef .tc main_arg7) = x7 := by rw [← hW12]; after_results_simp; exact e11_main_arg7
  have e12_main_v3 : W12 (Proc.devRef .tc main_v3) = Read.val_main_v3 (F := F) x1 := by rw [← hW12]; after_results_simp; exact e11_main_v3
  have e12_main_v1 : W12 (Proc.devRef .tc main_v1) = Read.val_main_v1 (F := F) x1 := by rw [← hW12]; after_results_simp; exact e11_main_v1
  have e12_main_arg6 : W12 (Proc.devRef .tc main_arg6) = x6 := by rw [← hW12]; after_results_simp; exact e11_main_arg6
  have e12_main_arg5 : W12 (Proc.devRef .tc main_arg5) = x5 := by rw [← hW12]; after_results_simp; exact e11_main_arg5
  have e12_main_arg4 : W12 (Proc.devRef .tc main_arg4) = x4 := by rw [← hW12]; after_results_simp; exact e11_main_arg4
  have e12_main_arg3 : W12 (Proc.devRef .tc main_arg3) = x3 := by rw [← hW12]; after_results_simp; exact e11_main_arg3
  have e12_main_arg0 : W12 (Proc.devRef .tc main_arg0) = x0 := by rw [← hW12]; after_results_simp; exact e11_main_arg0
  have e12_main_arg2 : W12 (Proc.devRef .tc main_arg2) = x2 := by rw [← hW12]; after_results_simp; exact e11_main_arg2
  have e12_main_v7 : W12 (Proc.devRef .tc main_v7) = Read.val_main_v7 (F := F) x1 := by rw [← hW12]; after_results_simp; exact e11_main_v7
  have e12_main_v8 : W12 (Proc.devRef .tc main_v8) = Read.val_main_v8 (F := F) := by
    rw [← hW12]; after_results_simp; simp only [e11_main_cst_1]
    unfold Read.val_main_v8; generalize Read.val_main_cst_1 (F := F) = A_main_cst_1; rfl
  clear hW12 e11_main_arg9 e11_main_arg8 e11_main_arg7 e11_main_v3 e11_main_v1 e11_main_arg6 e11_main_arg5 e11_main_arg4 e11_main_arg3 e11_main_arg0 e11_main_arg2 e11_main_v7 e11_main_cst_1 W11
  -- operation 12: binary main_v7 main_v8 → main_v9
  apply after_step; intro W13 hW13
  have e13_main_arg9 : W13 (Proc.devRef .tc main_arg9) = x9 := by rw [← hW13]; after_results_simp; exact e12_main_arg9
  have e13_main_arg8 : W13 (Proc.devRef .tc main_arg8) = x8 := by rw [← hW13]; after_results_simp; exact e12_main_arg8
  have e13_main_arg7 : W13 (Proc.devRef .tc main_arg7) = x7 := by rw [← hW13]; after_results_simp; exact e12_main_arg7
  have e13_main_v3 : W13 (Proc.devRef .tc main_v3) = Read.val_main_v3 (F := F) x1 := by rw [← hW13]; after_results_simp; exact e12_main_v3
  have e13_main_v1 : W13 (Proc.devRef .tc main_v1) = Read.val_main_v1 (F := F) x1 := by rw [← hW13]; after_results_simp; exact e12_main_v1
  have e13_main_arg6 : W13 (Proc.devRef .tc main_arg6) = x6 := by rw [← hW13]; after_results_simp; exact e12_main_arg6
  have e13_main_arg5 : W13 (Proc.devRef .tc main_arg5) = x5 := by rw [← hW13]; after_results_simp; exact e12_main_arg5
  have e13_main_arg4 : W13 (Proc.devRef .tc main_arg4) = x4 := by rw [← hW13]; after_results_simp; exact e12_main_arg4
  have e13_main_arg3 : W13 (Proc.devRef .tc main_arg3) = x3 := by rw [← hW13]; after_results_simp; exact e12_main_arg3
  have e13_main_arg0 : W13 (Proc.devRef .tc main_arg0) = x0 := by rw [← hW13]; after_results_simp; exact e12_main_arg0
  have e13_main_arg2 : W13 (Proc.devRef .tc main_arg2) = x2 := by rw [← hW13]; after_results_simp; exact e12_main_arg2
  have e13_main_v9 : W13 (Proc.devRef .tc main_v9) = Read.val_main_v9 (F := F) x1 := by
    rw [← hW13]; after_results_simp; simp only [e12_main_v7, e12_main_v8]
    unfold Read.val_main_v9; generalize Read.val_main_v7 (F := F) x1 = A_main_v7; generalize Read.val_main_v8 (F := F) = A_main_v8; rfl
  clear hW13 e12_main_arg9 e12_main_arg8 e12_main_arg7 e12_main_v3 e12_main_v1 e12_main_arg6 e12_main_arg5 e12_main_arg4 e12_main_arg3 e12_main_arg0 e12_main_arg2 e12_main_v7 e12_main_v8 W12
  -- operation 13: nullary  → main_cst_2
  apply after_step; intro W14 hW14
  have e14_main_arg9 : W14 (Proc.devRef .tc main_arg9) = x9 := by rw [← hW14]; after_results_simp; exact e13_main_arg9
  have e14_main_arg8 : W14 (Proc.devRef .tc main_arg8) = x8 := by rw [← hW14]; after_results_simp; exact e13_main_arg8
  have e14_main_arg7 : W14 (Proc.devRef .tc main_arg7) = x7 := by rw [← hW14]; after_results_simp; exact e13_main_arg7
  have e14_main_v3 : W14 (Proc.devRef .tc main_v3) = Read.val_main_v3 (F := F) x1 := by rw [← hW14]; after_results_simp; exact e13_main_v3
  have e14_main_v1 : W14 (Proc.devRef .tc main_v1) = Read.val_main_v1 (F := F) x1 := by rw [← hW14]; after_results_simp; exact e13_main_v1
  have e14_main_arg6 : W14 (Proc.devRef .tc main_arg6) = x6 := by rw [← hW14]; after_results_simp; exact e13_main_arg6
  have e14_main_arg5 : W14 (Proc.devRef .tc main_arg5) = x5 := by rw [← hW14]; after_results_simp; exact e13_main_arg5
  have e14_main_arg4 : W14 (Proc.devRef .tc main_arg4) = x4 := by rw [← hW14]; after_results_simp; exact e13_main_arg4
  have e14_main_arg3 : W14 (Proc.devRef .tc main_arg3) = x3 := by rw [← hW14]; after_results_simp; exact e13_main_arg3
  have e14_main_arg0 : W14 (Proc.devRef .tc main_arg0) = x0 := by rw [← hW14]; after_results_simp; exact e13_main_arg0
  have e14_main_arg2 : W14 (Proc.devRef .tc main_arg2) = x2 := by rw [← hW14]; after_results_simp; exact e13_main_arg2
  have e14_main_v9 : W14 (Proc.devRef .tc main_v9) = Read.val_main_v9 (F := F) x1 := by rw [← hW14]; after_results_simp; exact e13_main_v9
  have e14_main_cst_2 : W14 (Proc.devRef .tc main_cst_2) = Read.val_main_cst_2 (F := F) := by
    rw [← hW14]; after_results_simp
    unfold Read.val_main_cst_2; rfl
  clear hW14 e13_main_arg9 e13_main_arg8 e13_main_arg7 e13_main_v3 e13_main_v1 e13_main_arg6 e13_main_arg5 e13_main_arg4 e13_main_arg3 e13_main_arg0 e13_main_arg2 e13_main_v9 W13
  -- operation 14: unary main_cst_2 → main_v10
  apply after_step; intro W15 hW15
  have e15_main_arg9 : W15 (Proc.devRef .tc main_arg9) = x9 := by rw [← hW15]; after_results_simp; exact e14_main_arg9
  have e15_main_arg8 : W15 (Proc.devRef .tc main_arg8) = x8 := by rw [← hW15]; after_results_simp; exact e14_main_arg8
  have e15_main_arg7 : W15 (Proc.devRef .tc main_arg7) = x7 := by rw [← hW15]; after_results_simp; exact e14_main_arg7
  have e15_main_v3 : W15 (Proc.devRef .tc main_v3) = Read.val_main_v3 (F := F) x1 := by rw [← hW15]; after_results_simp; exact e14_main_v3
  have e15_main_v1 : W15 (Proc.devRef .tc main_v1) = Read.val_main_v1 (F := F) x1 := by rw [← hW15]; after_results_simp; exact e14_main_v1
  have e15_main_arg6 : W15 (Proc.devRef .tc main_arg6) = x6 := by rw [← hW15]; after_results_simp; exact e14_main_arg6
  have e15_main_arg5 : W15 (Proc.devRef .tc main_arg5) = x5 := by rw [← hW15]; after_results_simp; exact e14_main_arg5
  have e15_main_arg4 : W15 (Proc.devRef .tc main_arg4) = x4 := by rw [← hW15]; after_results_simp; exact e14_main_arg4
  have e15_main_arg3 : W15 (Proc.devRef .tc main_arg3) = x3 := by rw [← hW15]; after_results_simp; exact e14_main_arg3
  have e15_main_arg0 : W15 (Proc.devRef .tc main_arg0) = x0 := by rw [← hW15]; after_results_simp; exact e14_main_arg0
  have e15_main_arg2 : W15 (Proc.devRef .tc main_arg2) = x2 := by rw [← hW15]; after_results_simp; exact e14_main_arg2
  have e15_main_v10 : W15 (Proc.devRef .tc main_v10) = Read.val_main_v10 (F := F) := by
    rw [← hW15]; after_results_simp; simp only [e14_main_cst_2]
    unfold Read.val_main_v10; generalize Read.val_main_cst_2 (F := F) = A_main_cst_2; rfl
  have e15_main_v9 : W15 (Proc.devRef .tc main_v9) = Read.val_main_v9 (F := F) x1 := by rw [← hW15]; after_results_simp; exact e14_main_v9
  clear hW15 e14_main_arg9 e14_main_arg8 e14_main_arg7 e14_main_v3 e14_main_v1 e14_main_arg6 e14_main_arg5 e14_main_arg4 e14_main_arg3 e14_main_arg0 e14_main_arg2 e14_main_v9 e14_main_cst_2 W14
  -- operation 15: binary main_v10 main_v9 → main_v11
  apply after_step; intro W16 hW16
  have e16_main_arg9 : W16 (Proc.devRef .tc main_arg9) = x9 := by rw [← hW16]; after_results_simp; exact e15_main_arg9
  have e16_main_arg8 : W16 (Proc.devRef .tc main_arg8) = x8 := by rw [← hW16]; after_results_simp; exact e15_main_arg8
  have e16_main_arg7 : W16 (Proc.devRef .tc main_arg7) = x7 := by rw [← hW16]; after_results_simp; exact e15_main_arg7
  have e16_main_v3 : W16 (Proc.devRef .tc main_v3) = Read.val_main_v3 (F := F) x1 := by rw [← hW16]; after_results_simp; exact e15_main_v3
  have e16_main_v1 : W16 (Proc.devRef .tc main_v1) = Read.val_main_v1 (F := F) x1 := by rw [← hW16]; after_results_simp; exact e15_main_v1
  have e16_main_arg6 : W16 (Proc.devRef .tc main_arg6) = x6 := by rw [← hW16]; after_results_simp; exact e15_main_arg6
  have e16_main_arg5 : W16 (Proc.devRef .tc main_arg5) = x5 := by rw [← hW16]; after_results_simp; exact e15_main_arg5
  have e16_main_arg4 : W16 (Proc.devRef .tc main_arg4) = x4 := by rw [← hW16]; after_results_simp; exact e15_main_arg4
  have e16_main_arg3 : W16 (Proc.devRef .tc main_arg3) = x3 := by rw [← hW16]; after_results_simp; exact e15_main_arg3
  have e16_main_arg0 : W16 (Proc.devRef .tc main_arg0) = x0 := by rw [← hW16]; after_results_simp; exact e15_main_arg0
  have e16_main_arg2 : W16 (Proc.devRef .tc main_arg2) = x2 := by rw [← hW16]; after_results_simp; exact e15_main_arg2
  have e16_main_v11 : W16 (Proc.devRef .tc main_v11) = Read.val_main_v11 (F := F) x1 := by
    rw [← hW16]; after_results_simp; simp only [e15_main_v10, e15_main_v9]
    unfold Read.val_main_v11; generalize Read.val_main_v10 (F := F) = A_main_v10; generalize Read.val_main_v9 (F := F) x1 = A_main_v9; rfl
  clear hW16 e15_main_arg9 e15_main_arg8 e15_main_arg7 e15_main_v3 e15_main_v1 e15_main_arg6 e15_main_arg5 e15_main_arg4 e15_main_arg3 e15_main_arg0 e15_main_arg2 e15_main_v10 e15_main_v9 W15
  -- operation 16: unary main_v11 → main_v12
  apply after_step; intro W17 hW17
  have e17_main_arg9 : W17 (Proc.devRef .tc main_arg9) = x9 := by rw [← hW17]; after_results_simp; exact e16_main_arg9
  have e17_main_arg8 : W17 (Proc.devRef .tc main_arg8) = x8 := by rw [← hW17]; after_results_simp; exact e16_main_arg8
  have e17_main_arg7 : W17 (Proc.devRef .tc main_arg7) = x7 := by rw [← hW17]; after_results_simp; exact e16_main_arg7
  have e17_main_v12 : W17 (Proc.devRef .tc main_v12) = Read.val_main_v12 (F := F) x1 := by
    rw [← hW17]; after_results_simp; simp only [e16_main_v11]
    unfold Read.val_main_v12; generalize Read.val_main_v11 (F := F) x1 = A_main_v11; rfl
  have e17_main_v3 : W17 (Proc.devRef .tc main_v3) = Read.val_main_v3 (F := F) x1 := by rw [← hW17]; after_results_simp; exact e16_main_v3
  have e17_main_v1 : W17 (Proc.devRef .tc main_v1) = Read.val_main_v1 (F := F) x1 := by rw [← hW17]; after_results_simp; exact e16_main_v1
  have e17_main_arg6 : W17 (Proc.devRef .tc main_arg6) = x6 := by rw [← hW17]; after_results_simp; exact e16_main_arg6
  have e17_main_arg5 : W17 (Proc.devRef .tc main_arg5) = x5 := by rw [← hW17]; after_results_simp; exact e16_main_arg5
  have e17_main_arg4 : W17 (Proc.devRef .tc main_arg4) = x4 := by rw [← hW17]; after_results_simp; exact e16_main_arg4
  have e17_main_arg3 : W17 (Proc.devRef .tc main_arg3) = x3 := by rw [← hW17]; after_results_simp; exact e16_main_arg3
  have e17_main_arg0 : W17 (Proc.devRef .tc main_arg0) = x0 := by rw [← hW17]; after_results_simp; exact e16_main_arg0
  have e17_main_arg2 : W17 (Proc.devRef .tc main_arg2) = x2 := by rw [← hW17]; after_results_simp; exact e16_main_arg2
  clear hW17 e16_main_arg9 e16_main_arg8 e16_main_arg7 e16_main_v3 e16_main_v1 e16_main_arg6 e16_main_arg5 e16_main_arg4 e16_main_arg3 e16_main_arg0 e16_main_arg2 e16_main_v11 W16
  -- operation 17: unary main_arg2 → main_v13
  apply after_step; intro W18 hW18
  have e18_main_arg9 : W18 (Proc.devRef .tc main_arg9) = x9 := by rw [← hW18]; after_results_simp; exact e17_main_arg9
  have e18_main_arg8 : W18 (Proc.devRef .tc main_arg8) = x8 := by rw [← hW18]; after_results_simp; exact e17_main_arg8
  have e18_main_arg7 : W18 (Proc.devRef .tc main_arg7) = x7 := by rw [← hW18]; after_results_simp; exact e17_main_arg7
  have e18_main_v12 : W18 (Proc.devRef .tc main_v12) = Read.val_main_v12 (F := F) x1 := by rw [← hW18]; after_results_simp; exact e17_main_v12
  have e18_main_v3 : W18 (Proc.devRef .tc main_v3) = Read.val_main_v3 (F := F) x1 := by rw [← hW18]; after_results_simp; exact e17_main_v3
  have e18_main_v1 : W18 (Proc.devRef .tc main_v1) = Read.val_main_v1 (F := F) x1 := by rw [← hW18]; after_results_simp; exact e17_main_v1
  have e18_main_arg6 : W18 (Proc.devRef .tc main_arg6) = x6 := by rw [← hW18]; after_results_simp; exact e17_main_arg6
  have e18_main_arg5 : W18 (Proc.devRef .tc main_arg5) = x5 := by rw [← hW18]; after_results_simp; exact e17_main_arg5
  have e18_main_arg4 : W18 (Proc.devRef .tc main_arg4) = x4 := by rw [← hW18]; after_results_simp; exact e17_main_arg4
  have e18_main_arg3 : W18 (Proc.devRef .tc main_arg3) = x3 := by rw [← hW18]; after_results_simp; exact e17_main_arg3
  have e18_main_arg0 : W18 (Proc.devRef .tc main_arg0) = x0 := by rw [← hW18]; after_results_simp; exact e17_main_arg0
  have e18_main_v13 : W18 (Proc.devRef .tc main_v13) = Read.val_main_v13 (F := F) x2 := by
    rw [← hW18]; after_results_simp; simp only [e17_main_arg2]
    unfold Read.val_main_v13; rfl
  clear hW18 e17_main_arg9 e17_main_arg8 e17_main_arg7 e17_main_v12 e17_main_v3 e17_main_v1 e17_main_arg6 e17_main_arg5 e17_main_arg4 e17_main_arg3 e17_main_arg0 e17_main_arg2 W17
  -- operation 18: binary main_arg0 main_v13 → main_v14
  apply after_step; intro W19 hW19
  have e19_main_arg9 : W19 (Proc.devRef .tc main_arg9) = x9 := by rw [← hW19]; after_results_simp; exact e18_main_arg9
  have e19_main_arg8 : W19 (Proc.devRef .tc main_arg8) = x8 := by rw [← hW19]; after_results_simp; exact e18_main_arg8
  have e19_main_arg7 : W19 (Proc.devRef .tc main_arg7) = x7 := by rw [← hW19]; after_results_simp; exact e18_main_arg7
  have e19_main_v12 : W19 (Proc.devRef .tc main_v12) = Read.val_main_v12 (F := F) x1 := by rw [← hW19]; after_results_simp; exact e18_main_v12
  have e19_main_v3 : W19 (Proc.devRef .tc main_v3) = Read.val_main_v3 (F := F) x1 := by rw [← hW19]; after_results_simp; exact e18_main_v3
  have e19_main_v1 : W19 (Proc.devRef .tc main_v1) = Read.val_main_v1 (F := F) x1 := by rw [← hW19]; after_results_simp; exact e18_main_v1
  have e19_main_arg6 : W19 (Proc.devRef .tc main_arg6) = x6 := by rw [← hW19]; after_results_simp; exact e18_main_arg6
  have e19_main_arg5 : W19 (Proc.devRef .tc main_arg5) = x5 := by rw [← hW19]; after_results_simp; exact e18_main_arg5
  have e19_main_arg4 : W19 (Proc.devRef .tc main_arg4) = x4 := by rw [← hW19]; after_results_simp; exact e18_main_arg4
  have e19_main_v14 : W19 (Proc.devRef .tc main_v14) = Read.val_main_v14 (F := F) x0 x2 := by
    rw [← hW19]; after_results_simp; simp only [e18_main_arg0, e18_main_v13]
    unfold Read.val_main_v14; generalize Read.val_main_v13 (F := F) x2 = A_main_v13; rfl
  have e19_main_arg3 : W19 (Proc.devRef .tc main_arg3) = x3 := by rw [← hW19]; after_results_simp; exact e18_main_arg3
  clear hW19 e18_main_arg9 e18_main_arg8 e18_main_arg7 e18_main_v12 e18_main_v3 e18_main_v1 e18_main_arg6 e18_main_arg5 e18_main_arg4 e18_main_arg3 e18_main_arg0 e18_main_v13 W18
  -- operation 19: unary main_arg3 → main_v15
  apply after_step; intro W20 hW20
  have e20_main_arg9 : W20 (Proc.devRef .tc main_arg9) = x9 := by rw [← hW20]; after_results_simp; exact e19_main_arg9
  have e20_main_arg8 : W20 (Proc.devRef .tc main_arg8) = x8 := by rw [← hW20]; after_results_simp; exact e19_main_arg8
  have e20_main_arg7 : W20 (Proc.devRef .tc main_arg7) = x7 := by rw [← hW20]; after_results_simp; exact e19_main_arg7
  have e20_main_v12 : W20 (Proc.devRef .tc main_v12) = Read.val_main_v12 (F := F) x1 := by rw [← hW20]; after_results_simp; exact e19_main_v12
  have e20_main_v3 : W20 (Proc.devRef .tc main_v3) = Read.val_main_v3 (F := F) x1 := by rw [← hW20]; after_results_simp; exact e19_main_v3
  have e20_main_v1 : W20 (Proc.devRef .tc main_v1) = Read.val_main_v1 (F := F) x1 := by rw [← hW20]; after_results_simp; exact e19_main_v1
  have e20_main_arg6 : W20 (Proc.devRef .tc main_arg6) = x6 := by rw [← hW20]; after_results_simp; exact e19_main_arg6
  have e20_main_arg5 : W20 (Proc.devRef .tc main_arg5) = x5 := by rw [← hW20]; after_results_simp; exact e19_main_arg5
  have e20_main_arg4 : W20 (Proc.devRef .tc main_arg4) = x4 := by rw [← hW20]; after_results_simp; exact e19_main_arg4
  have e20_main_v14 : W20 (Proc.devRef .tc main_v14) = Read.val_main_v14 (F := F) x0 x2 := by rw [← hW20]; after_results_simp; exact e19_main_v14
  have e20_main_v15 : W20 (Proc.devRef .tc main_v15) = Read.val_main_v15 (F := F) x3 := by
    rw [← hW20]; after_results_simp; simp only [e19_main_arg3]
    unfold Read.val_main_v15; rfl
  clear hW20 e19_main_arg9 e19_main_arg8 e19_main_arg7 e19_main_v12 e19_main_v3 e19_main_v1 e19_main_arg6 e19_main_arg5 e19_main_arg4 e19_main_v14 e19_main_arg3 W19
  -- operation 20: unary main_v15 → main_v16
  apply after_step; intro W21 hW21
  have e21_main_arg9 : W21 (Proc.devRef .tc main_arg9) = x9 := by rw [← hW21]; after_results_simp; exact e20_main_arg9
  have e21_main_arg8 : W21 (Proc.devRef .tc main_arg8) = x8 := by rw [← hW21]; after_results_simp; exact e20_main_arg8
  have e21_main_arg7 : W21 (Proc.devRef .tc main_arg7) = x7 := by rw [← hW21]; after_results_simp; exact e20_main_arg7
  have e21_main_v12 : W21 (Proc.devRef .tc main_v12) = Read.val_main_v12 (F := F) x1 := by rw [← hW21]; after_results_simp; exact e20_main_v12
  have e21_main_v3 : W21 (Proc.devRef .tc main_v3) = Read.val_main_v3 (F := F) x1 := by rw [← hW21]; after_results_simp; exact e20_main_v3
  have e21_main_v1 : W21 (Proc.devRef .tc main_v1) = Read.val_main_v1 (F := F) x1 := by rw [← hW21]; after_results_simp; exact e20_main_v1
  have e21_main_arg6 : W21 (Proc.devRef .tc main_arg6) = x6 := by rw [← hW21]; after_results_simp; exact e20_main_arg6
  have e21_main_arg5 : W21 (Proc.devRef .tc main_arg5) = x5 := by rw [← hW21]; after_results_simp; exact e20_main_arg5
  have e21_main_arg4 : W21 (Proc.devRef .tc main_arg4) = x4 := by rw [← hW21]; after_results_simp; exact e20_main_arg4
  have e21_main_v14 : W21 (Proc.devRef .tc main_v14) = Read.val_main_v14 (F := F) x0 x2 := by rw [← hW21]; after_results_simp; exact e20_main_v14
  have e21_main_v16 : W21 (Proc.devRef .tc main_v16) = Read.val_main_v16 (F := F) x3 := by
    rw [← hW21]; after_results_simp; simp only [e20_main_v15]
    unfold Read.val_main_v16; generalize Read.val_main_v15 (F := F) x3 = A_main_v15; rfl
  clear hW21 e20_main_arg9 e20_main_arg8 e20_main_arg7 e20_main_v12 e20_main_v3 e20_main_v1 e20_main_arg6 e20_main_arg5 e20_main_arg4 e20_main_v14 e20_main_v15 W20
  -- operation 21: binary main_v14 main_v16 → main_v17
  apply after_step; intro W22 hW22
  have e22_main_arg9 : W22 (Proc.devRef .tc main_arg9) = x9 := by rw [← hW22]; after_results_simp; exact e21_main_arg9
  have e22_main_arg8 : W22 (Proc.devRef .tc main_arg8) = x8 := by rw [← hW22]; after_results_simp; exact e21_main_arg8
  have e22_main_arg7 : W22 (Proc.devRef .tc main_arg7) = x7 := by rw [← hW22]; after_results_simp; exact e21_main_arg7
  have e22_main_v12 : W22 (Proc.devRef .tc main_v12) = Read.val_main_v12 (F := F) x1 := by rw [← hW22]; after_results_simp; exact e21_main_v12
  have e22_main_v3 : W22 (Proc.devRef .tc main_v3) = Read.val_main_v3 (F := F) x1 := by rw [← hW22]; after_results_simp; exact e21_main_v3
  have e22_main_v1 : W22 (Proc.devRef .tc main_v1) = Read.val_main_v1 (F := F) x1 := by rw [← hW22]; after_results_simp; exact e21_main_v1
  have e22_main_v17 : W22 (Proc.devRef .tc main_v17) = Read.val_main_v17 (F := F) x0 x2 x3 := by
    rw [← hW22]; after_results_simp; simp only [e21_main_v14, e21_main_v16]
    unfold Read.val_main_v17; generalize Read.val_main_v14 (F := F) x0 x2 = A_main_v14; generalize Read.val_main_v16 (F := F) x3 = A_main_v16; rfl
  have e22_main_arg6 : W22 (Proc.devRef .tc main_arg6) = x6 := by rw [← hW22]; after_results_simp; exact e21_main_arg6
  have e22_main_arg5 : W22 (Proc.devRef .tc main_arg5) = x5 := by rw [← hW22]; after_results_simp; exact e21_main_arg5
  have e22_main_arg4 : W22 (Proc.devRef .tc main_arg4) = x4 := by rw [← hW22]; after_results_simp; exact e21_main_arg4
  clear hW22 e21_main_arg9 e21_main_arg8 e21_main_arg7 e21_main_v12 e21_main_v3 e21_main_v1 e21_main_arg6 e21_main_arg5 e21_main_arg4 e21_main_v14 e21_main_v16 W21
  -- operation 22: TRef.nullary  → main_call0_cst
  apply after_step; intro W23 hW23
  have e23_main_arg9 : W23 (Proc.devRef .tc main_arg9) = x9 := by rw [← hW23]; after_results_simp; exact e22_main_arg9
  have e23_main_arg8 : W23 (Proc.devRef .tc main_arg8) = x8 := by rw [← hW23]; after_results_simp; exact e22_main_arg8
  have e23_main_arg7 : W23 (Proc.devRef .tc main_arg7) = x7 := by rw [← hW23]; after_results_simp; exact e22_main_arg7
  have e23_main_v12 : W23 (Proc.devRef .tc main_v12) = Read.val_main_v12 (F := F) x1 := by rw [← hW23]; after_results_simp; exact e22_main_v12
  have e23_main_v3 : W23 (Proc.devRef .tc main_v3) = Read.val_main_v3 (F := F) x1 := by rw [← hW23]; after_results_simp; exact e22_main_v3
  have e23_main_v1 : W23 (Proc.devRef .tc main_v1) = Read.val_main_v1 (F := F) x1 := by rw [← hW23]; after_results_simp; exact e22_main_v1
  have e23_main_v17 : W23 (Proc.devRef .tc main_v17) = Read.val_main_v17 (F := F) x0 x2 x3 := by rw [← hW23]; after_results_simp; exact e22_main_v17
  have e23_main_arg6 : W23 (Proc.devRef .tc main_arg6) = x6 := by rw [← hW23]; after_results_simp; exact e22_main_arg6
  have e23_main_arg5 : W23 (Proc.devRef .tc main_arg5) = x5 := by rw [← hW23]; after_results_simp; exact e22_main_arg5
  have e23_main_arg4 : W23 (Proc.devRef .tc main_arg4) = x4 := by rw [← hW23]; after_results_simp; exact e22_main_arg4
  have e23_main_call0_cst : W23 (Proc.devRef .tc main_call0_cst) = Read.val_main_call0_cst (F := F) := by
    rw [← hW23]; after_results_simp
    unfold Read.val_main_call0_cst; refine (cast_eq _ _).trans ?_; rfl
  clear hW23 e22_main_arg9 e22_main_arg8 e22_main_arg7 e22_main_v12 e22_main_v3 e22_main_v1 e22_main_v17 e22_main_arg6 e22_main_arg5 e22_main_arg4 W22
  -- operation 23: TRef.unary main_call0_cst → main_call0_v0
  apply after_step; intro W24 hW24
  have e24_main_arg9 : W24 (Proc.devRef .tc main_arg9) = x9 := by rw [← hW24]; after_results_simp; exact e23_main_arg9
  have e24_main_arg8 : W24 (Proc.devRef .tc main_arg8) = x8 := by rw [← hW24]; after_results_simp; exact e23_main_arg8
  have e24_main_arg7 : W24 (Proc.devRef .tc main_arg7) = x7 := by rw [← hW24]; after_results_simp; exact e23_main_arg7
  have e24_main_v12 : W24 (Proc.devRef .tc main_v12) = Read.val_main_v12 (F := F) x1 := by rw [← hW24]; after_results_simp; exact e23_main_v12
  have e24_main_v3 : W24 (Proc.devRef .tc main_v3) = Read.val_main_v3 (F := F) x1 := by rw [← hW24]; after_results_simp; exact e23_main_v3
  have e24_main_v1 : W24 (Proc.devRef .tc main_v1) = Read.val_main_v1 (F := F) x1 := by rw [← hW24]; after_results_simp; exact e23_main_v1
  have e24_main_v17 : W24 (Proc.devRef .tc main_v17) = Read.val_main_v17 (F := F) x0 x2 x3 := by rw [← hW24]; after_results_simp; exact e23_main_v17
  have e24_main_arg6 : W24 (Proc.devRef .tc main_arg6) = x6 := by rw [← hW24]; after_results_simp; exact e23_main_arg6
  have e24_main_arg5 : W24 (Proc.devRef .tc main_arg5) = x5 := by rw [← hW24]; after_results_simp; exact e23_main_arg5
  have e24_main_arg4 : W24 (Proc.devRef .tc main_arg4) = x4 := by rw [← hW24]; after_results_simp; exact e23_main_arg4
  have e24_main_call0_v0 : W24 (Proc.devRef .tc main_call0_v0) = Read.val_main_call0_v0 (F := F) := by
    rw [← hW24]; after_results_simp; simp only [e23_main_call0_cst]
    unfold Read.val_main_call0_v0; generalize Read.val_main_call0_cst (F := F) = A_main_call0_cst; refine (cast_eq _ _).trans ?_; rfl
  clear hW24 e23_main_arg9 e23_main_arg8 e23_main_arg7 e23_main_v12 e23_main_v3 e23_main_v1 e23_main_v17 e23_main_arg6 e23_main_arg5 e23_main_arg4 e23_main_call0_cst W23
  -- operation 24: TRef.binary main_v17 main_call0_v0 → main_v18
  apply after_step; intro W25 hW25
  have e25_main_arg9 : W25 (Proc.devRef .tc main_arg9) = x9 := by rw [← hW25]; after_results_simp; exact e24_main_arg9
  have e25_main_arg8 : W25 (Proc.devRef .tc main_arg8) = x8 := by rw [← hW25]; after_results_simp; exact e24_main_arg8
  have e25_main_arg7 : W25 (Proc.devRef .tc main_arg7) = x7 := by rw [← hW25]; after_results_simp; exact e24_main_arg7
  have e25_main_v12 : W25 (Proc.devRef .tc main_v12) = Read.val_main_v12 (F := F) x1 := by rw [← hW25]; after_results_simp; exact e24_main_v12
  have e25_main_v3 : W25 (Proc.devRef .tc main_v3) = Read.val_main_v3 (F := F) x1 := by rw [← hW25]; after_results_simp; exact e24_main_v3
  have e25_main_v1 : W25 (Proc.devRef .tc main_v1) = Read.val_main_v1 (F := F) x1 := by rw [← hW25]; after_results_simp; exact e24_main_v1
  have e25_main_v17 : W25 (Proc.devRef .tc main_v17) = Read.val_main_v17 (F := F) x0 x2 x3 := by rw [← hW25]; after_results_simp; exact e24_main_v17
  have e25_main_arg6 : W25 (Proc.devRef .tc main_arg6) = x6 := by rw [← hW25]; after_results_simp; exact e24_main_arg6
  have e25_main_arg5 : W25 (Proc.devRef .tc main_arg5) = x5 := by rw [← hW25]; after_results_simp; exact e24_main_arg5
  have e25_main_arg4 : W25 (Proc.devRef .tc main_arg4) = x4 := by rw [← hW25]; after_results_simp; exact e24_main_arg4
  have e25_main_v18 : W25 (Proc.devRef .tc main_v18) = Read.val_main_v18 (F := F) x0 x2 x3 := by
    rw [← hW25]; after_results_simp; simp only [e24_main_v17, e24_main_call0_v0]
    unfold Read.val_main_v18; generalize Read.val_main_v17 (F := F) x0 x2 x3 = A_main_v17; generalize Read.val_main_call0_v0 (F := F) = A_main_call0_v0; refine (cast_eq _ _).trans ?_; rfl
  clear hW25 e24_main_arg9 e24_main_arg8 e24_main_arg7 e24_main_v12 e24_main_v3 e24_main_v1 e24_main_v17 e24_main_arg6 e24_main_arg5 e24_main_arg4 e24_main_call0_v0 W24
  -- operation 25: unary main_arg4 → main_v19
  apply after_step; intro W26 hW26
  have e26_main_arg9 : W26 (Proc.devRef .tc main_arg9) = x9 := by rw [← hW26]; after_results_simp; exact e25_main_arg9
  have e26_main_arg8 : W26 (Proc.devRef .tc main_arg8) = x8 := by rw [← hW26]; after_results_simp; exact e25_main_arg8
  have e26_main_arg7 : W26 (Proc.devRef .tc main_arg7) = x7 := by rw [← hW26]; after_results_simp; exact e25_main_arg7
  have e26_main_v12 : W26 (Proc.devRef .tc main_v12) = Read.val_main_v12 (F := F) x1 := by rw [← hW26]; after_results_simp; exact e25_main_v12
  have e26_main_v3 : W26 (Proc.devRef .tc main_v3) = Read.val_main_v3 (F := F) x1 := by rw [← hW26]; after_results_simp; exact e25_main_v3
  have e26_main_v1 : W26 (Proc.devRef .tc main_v1) = Read.val_main_v1 (F := F) x1 := by rw [← hW26]; after_results_simp; exact e25_main_v1
  have e26_main_v17 : W26 (Proc.devRef .tc main_v17) = Read.val_main_v17 (F := F) x0 x2 x3 := by rw [← hW26]; after_results_simp; exact e25_main_v17
  have e26_main_arg6 : W26 (Proc.devRef .tc main_arg6) = x6 := by rw [← hW26]; after_results_simp; exact e25_main_arg6
  have e26_main_arg5 : W26 (Proc.devRef .tc main_arg5) = x5 := by rw [← hW26]; after_results_simp; exact e25_main_arg5
  have e26_main_arg4 : W26 (Proc.devRef .tc main_arg4) = x4 := by rw [← hW26]; after_results_simp; exact e25_main_arg4
  have e26_main_v18 : W26 (Proc.devRef .tc main_v18) = Read.val_main_v18 (F := F) x0 x2 x3 := by rw [← hW26]; after_results_simp; exact e25_main_v18
  have e26_main_v19 : W26 (Proc.devRef .tc main_v19) = Read.val_main_v19 (F := F) x4 := by
    rw [← hW26]; after_results_simp; simp only [e25_main_arg4]
    unfold Read.val_main_v19; rfl
  clear hW26 e25_main_arg9 e25_main_arg8 e25_main_arg7 e25_main_v12 e25_main_v3 e25_main_v1 e25_main_v17 e25_main_arg6 e25_main_arg5 e25_main_arg4 e25_main_v18 W25
  -- operation 26: reshape main_v19 → main_v20
  apply after_step; intro W27 hW27
  have e27_main_arg9 : W27 (Proc.devRef .tc main_arg9) = x9 := by rw [← hW27]; after_results_simp; exact e26_main_arg9
  have e27_main_arg8 : W27 (Proc.devRef .tc main_arg8) = x8 := by rw [← hW27]; after_results_simp; exact e26_main_arg8
  have e27_main_arg7 : W27 (Proc.devRef .tc main_arg7) = x7 := by rw [← hW27]; after_results_simp; exact e26_main_arg7
  have e27_main_v12 : W27 (Proc.devRef .tc main_v12) = Read.val_main_v12 (F := F) x1 := by rw [← hW27]; after_results_simp; exact e26_main_v12
  have e27_main_v3 : W27 (Proc.devRef .tc main_v3) = Read.val_main_v3 (F := F) x1 := by rw [← hW27]; after_results_simp; exact e26_main_v3
  have e27_main_v1 : W27 (Proc.devRef .tc main_v1) = Read.val_main_v1 (F := F) x1 := by rw [← hW27]; after_results_simp; exact e26_main_v1
  have e27_main_v17 : W27 (Proc.devRef .tc main_v17) = Read.val_main_v17 (F := F) x0 x2 x3 := by rw [← hW27]; after_results_simp; exact e26_main_v17
  have e27_main_arg6 : W27 (Proc.devRef .tc main_arg6) = x6 := by rw [← hW27]; after_results_simp; exact e26_main_arg6
  have e27_main_arg5 : W27 (Proc.devRef .tc main_arg5) = x5 := by rw [← hW27]; after_results_simp; exact e26_main_arg5
  have e27_main_arg4 : W27 (Proc.devRef .tc main_arg4) = x4 := by rw [← hW27]; after_results_simp; exact e26_main_arg4
  have e27_main_v18 : W27 (Proc.devRef .tc main_v18) = Read.val_main_v18 (F := F) x0 x2 x3 := by rw [← hW27]; after_results_simp; exact e26_main_v18
  have e27_main_v20 : W27 (Proc.devRef .tc main_v20) = Read.val_main_v20 (F := F) x4 := by
    rw [← hW27]; after_results_simp; simp only [e26_main_v19]
    unfold Read.val_main_v20; generalize Read.val_main_v19 (F := F) x4 = A_main_v19; rfl
  clear hW27 e26_main_arg9 e26_main_arg8 e26_main_arg7 e26_main_v12 e26_main_v3 e26_main_v1 e26_main_v17 e26_main_arg6 e26_main_arg5 e26_main_arg4 e26_main_v18 e26_main_v19 W26
  -- operation 27: unary main_arg5 → main_v21
  apply after_step; intro W28 hW28
  have e28_main_arg9 : W28 (Proc.devRef .tc main_arg9) = x9 := by rw [← hW28]; after_results_simp; exact e27_main_arg9
  have e28_main_arg8 : W28 (Proc.devRef .tc main_arg8) = x8 := by rw [← hW28]; after_results_simp; exact e27_main_arg8
  have e28_main_arg7 : W28 (Proc.devRef .tc main_arg7) = x7 := by rw [← hW28]; after_results_simp; exact e27_main_arg7
  have e28_main_v12 : W28 (Proc.devRef .tc main_v12) = Read.val_main_v12 (F := F) x1 := by rw [← hW28]; after_results_simp; exact e27_main_v12
  have e28_main_v3 : W28 (Proc.devRef .tc main_v3) = Read.val_main_v3 (F := F) x1 := by rw [← hW28]; after_results_simp; exact e27_main_v3
  have e28_main_v1 : W28 (Proc.devRef .tc main_v1) = Read.val_main_v1 (F := F) x1 := by rw [← hW28]; after_results_simp; exact e27_main_v1
  have e28_main_v17 : W28 (Proc.devRef .tc main_v17) = Read.val_main_v17 (F := F) x0 x2 x3 := by rw [← hW28]; after_results_simp; exact e27_main_v17
  have e28_main_arg6 : W28 (Proc.devRef .tc main_arg6) = x6 := by rw [← hW28]; after_results_simp; exact e27_main_arg6
  have e28_main_arg5 : W28 (Proc.devRef .tc main_arg5) = x5 := by rw [← hW28]; after_results_simp; exact e27_main_arg5
  have e28_main_arg4 : W28 (Proc.devRef .tc main_arg4) = x4 := by rw [← hW28]; after_results_simp; exact e27_main_arg4
  have e28_main_v18 : W28 (Proc.devRef .tc main_v18) = Read.val_main_v18 (F := F) x0 x2 x3 := by rw [← hW28]; after_results_simp; exact e27_main_v18
  have e28_main_v20 : W28 (Proc.devRef .tc main_v20) = Read.val_main_v20 (F := F) x4 := by rw [← hW28]; after_results_simp; exact e27_main_v20
  have e28_main_v21 : W28 (Proc.devRef .tc main_v21) = Read.val_main_v21 (F := F) x5 := by
    rw [← hW28]; after_results_simp; simp only [e27_main_arg5]
    unfold Read.val_main_v21; rfl
  clear hW28 e27_main_arg9 e27_main_arg8 e27_main_arg7 e27_main_v12 e27_main_v3 e27_main_v1 e27_main_v17 e27_main_arg6 e27_main_arg5 e27_main_arg4 e27_main_v18 e27_main_v20 W27
  -- operation 28: reshape main_v21 → main_v22
  apply after_step; intro W29 hW29
  have e29_main_arg9 : W29 (Proc.devRef .tc main_arg9) = x9 := by rw [← hW29]; after_results_simp; exact e28_main_arg9
  have e29_main_arg8 : W29 (Proc.devRef .tc main_arg8) = x8 := by rw [← hW29]; after_results_simp; exact e28_main_arg8
  have e29_main_arg7 : W29 (Proc.devRef .tc main_arg7) = x7 := by rw [← hW29]; after_results_simp; exact e28_main_arg7
  have e29_main_v12 : W29 (Proc.devRef .tc main_v12) = Read.val_main_v12 (F := F) x1 := by rw [← hW29]; after_results_simp; exact e28_main_v12
  have e29_main_v3 : W29 (Proc.devRef .tc main_v3) = Read.val_main_v3 (F := F) x1 := by rw [← hW29]; after_results_simp; exact e28_main_v3
  have e29_main_v1 : W29 (Proc.devRef .tc main_v1) = Read.val_main_v1 (F := F) x1 := by rw [← hW29]; after_results_simp; exact e28_main_v1
  have e29_main_v17 : W29 (Proc.devRef .tc main_v17) = Read.val_main_v17 (F := F) x0 x2 x3 := by rw [← hW29]; after_results_simp; exact e28_main_v17
  have e29_main_arg6 : W29 (Proc.devRef .tc main_arg6) = x6 := by rw [← hW29]; after_results_simp; exact e28_main_arg6
  have e29_main_arg5 : W29 (Proc.devRef .tc main_arg5) = x5 := by rw [← hW29]; after_results_simp; exact e28_main_arg5
  have e29_main_arg4 : W29 (Proc.devRef .tc main_arg4) = x4 := by rw [← hW29]; after_results_simp; exact e28_main_arg4
  have e29_main_v18 : W29 (Proc.devRef .tc main_v18) = Read.val_main_v18 (F := F) x0 x2 x3 := by rw [← hW29]; after_results_simp; exact e28_main_v18
  have e29_main_v22 : W29 (Proc.devRef .tc main_v22) = Read.val_main_v22 (F := F) x5 := by
    rw [← hW29]; after_results_simp; simp only [e28_main_v21]
    unfold Read.val_main_v22; generalize Read.val_main_v21 (F := F) x5 = A_main_v21; rfl
  have e29_main_v20 : W29 (Proc.devRef .tc main_v20) = Read.val_main_v20 (F := F) x4 := by rw [← hW29]; after_results_simp; exact e28_main_v20
  clear hW29 e28_main_arg9 e28_main_arg8 e28_main_arg7 e28_main_v12 e28_main_v3 e28_main_v1 e28_main_v17 e28_main_arg6 e28_main_arg5 e28_main_arg4 e28_main_v18 e28_main_v20 e28_main_v21 W28
  -- operation 29: unary main_arg6 → main_v23
  apply after_step; intro W30 hW30
  have e30_main_arg9 : W30 (Proc.devRef .tc main_arg9) = x9 := by rw [← hW30]; after_results_simp; exact e29_main_arg9
  have e30_main_arg8 : W30 (Proc.devRef .tc main_arg8) = x8 := by rw [← hW30]; after_results_simp; exact e29_main_arg8
  have e30_main_arg7 : W30 (Proc.devRef .tc main_arg7) = x7 := by rw [← hW30]; after_results_simp; exact e29_main_arg7
  have e30_main_v12 : W30 (Proc.devRef .tc main_v12) = Read.val_main_v12 (F := F) x1 := by rw [← hW30]; after_results_simp; exact e29_main_v12
  have e30_main_v3 : W30 (Proc.devRef .tc main_v3) = Read.val_main_v3 (F := F) x1 := by rw [← hW30]; after_results_simp; exact e29_main_v3
  have e30_main_v1 : W30 (Proc.devRef .tc main_v1) = Read.val_main_v1 (F := F) x1 := by rw [← hW30]; after_results_simp; exact e29_main_v1
  have e30_main_v17 : W30 (Proc.devRef .tc main_v17) = Read.val_main_v17 (F := F) x0 x2 x3 := by rw [← hW30]; after_results_simp; exact e29_main_v17
  have e30_main_arg6 : W30 (Proc.devRef .tc main_arg6) = x6 := by rw [← hW30]; after_results_simp; exact e29_main_arg6
  have e30_main_arg5 : W30 (Proc.devRef .tc main_arg5) = x5 := by rw [← hW30]; after_results_simp; exact e29_main_arg5
  have e30_main_arg4 : W30 (Proc.devRef .tc main_arg4) = x4 := by rw [← hW30]; after_results_simp; exact e29_main_arg4
  have e30_main_v18 : W30 (Proc.devRef .tc main_v18) = Read.val_main_v18 (F := F) x0 x2 x3 := by rw [← hW30]; after_results_simp; exact e29_main_v18
  have e30_main_v22 : W30 (Proc.devRef .tc main_v22) = Read.val_main_v22 (F := F) x5 := by rw [← hW30]; after_results_simp; exact e29_main_v22
  have e30_main_v20 : W30 (Proc.devRef .tc main_v20) = Read.val_main_v20 (F := F) x4 := by rw [← hW30]; after_results_simp; exact e29_main_v20
  have e30_main_v23 : W30 (Proc.devRef .tc main_v23) = Read.val_main_v23 (F := F) x6 := by
    rw [← hW30]; after_results_simp; simp only [e29_main_arg6]
    unfold Read.val_main_v23; rfl
  clear hW30 e29_main_arg9 e29_main_arg8 e29_main_arg7 e29_main_v12 e29_main_v3 e29_main_v1 e29_main_v17 e29_main_arg6 e29_main_arg5 e29_main_arg4 e29_main_v18 e29_main_v22 e29_main_v20 W29
  -- operation 30: reshape main_v23 → main_v24
  apply after_step; intro W31 hW31
  have e31_main_arg9 : W31 (Proc.devRef .tc main_arg9) = x9 := by rw [← hW31]; after_results_simp; exact e30_main_arg9
  have e31_main_arg8 : W31 (Proc.devRef .tc main_arg8) = x8 := by rw [← hW31]; after_results_simp; exact e30_main_arg8
  have e31_main_arg7 : W31 (Proc.devRef .tc main_arg7) = x7 := by rw [← hW31]; after_results_simp; exact e30_main_arg7
  have e31_main_v12 : W31 (Proc.devRef .tc main_v12) = Read.val_main_v12 (F := F) x1 := by rw [← hW31]; after_results_simp; exact e30_main_v12
  have e31_main_v3 : W31 (Proc.devRef .tc main_v3) = Read.val_main_v3 (F := F) x1 := by rw [← hW31]; after_results_simp; exact e30_main_v3
  have e31_main_v1 : W31 (Proc.devRef .tc main_v1) = Read.val_main_v1 (F := F) x1 := by rw [← hW31]; after_results_simp; exact e30_main_v1
  have e31_main_v17 : W31 (Proc.devRef .tc main_v17) = Read.val_main_v17 (F := F) x0 x2 x3 := by rw [← hW31]; after_results_simp; exact e30_main_v17
  have e31_main_arg6 : W31 (Proc.devRef .tc main_arg6) = x6 := by rw [← hW31]; after_results_simp; exact e30_main_arg6
  have e31_main_arg5 : W31 (Proc.devRef .tc main_arg5) = x5 := by rw [← hW31]; after_results_simp; exact e30_main_arg5
  have e31_main_arg4 : W31 (Proc.devRef .tc main_arg4) = x4 := by rw [← hW31]; after_results_simp; exact e30_main_arg4
  have e31_main_v18 : W31 (Proc.devRef .tc main_v18) = Read.val_main_v18 (F := F) x0 x2 x3 := by rw [← hW31]; after_results_simp; exact e30_main_v18
  have e31_main_v24 : W31 (Proc.devRef .tc main_v24) = Read.val_main_v24 (F := F) x6 := by
    rw [← hW31]; after_results_simp; simp only [e30_main_v23]
    unfold Read.val_main_v24; generalize Read.val_main_v23 (F := F) x6 = A_main_v23; rfl
  have e31_main_v22 : W31 (Proc.devRef .tc main_v22) = Read.val_main_v22 (F := F) x5 := by rw [← hW31]; after_results_simp; exact e30_main_v22
  have e31_main_v20 : W31 (Proc.devRef .tc main_v20) = Read.val_main_v20 (F := F) x4 := by rw [← hW31]; after_results_simp; exact e30_main_v20
  clear hW31 e30_main_arg9 e30_main_arg8 e30_main_arg7 e30_main_v12 e30_main_v3 e30_main_v1 e30_main_v17 e30_main_arg6 e30_main_arg5 e30_main_arg4 e30_main_v18 e30_main_v22 e30_main_v20 e30_main_v23 W30
  -- operation 31: nullary  → main_c
  apply after_step; intro W32 hW32
  have e32_main_arg9 : W32 (Proc.devRef .tc main_arg9) = x9 := by rw [← hW32]; after_results_simp; exact e31_main_arg9
  have e32_main_arg8 : W32 (Proc.devRef .tc main_arg8) = x8 := by rw [← hW32]; after_results_simp; exact e31_main_arg8
  have e32_main_arg7 : W32 (Proc.devRef .tc main_arg7) = x7 := by rw [← hW32]; after_results_simp; exact e31_main_arg7
  have e32_main_v12 : W32 (Proc.devRef .tc main_v12) = Read.val_main_v12 (F := F) x1 := by rw [← hW32]; after_results_simp; exact e31_main_v12
  have e32_main_v3 : W32 (Proc.devRef .tc main_v3) = Read.val_main_v3 (F := F) x1 := by rw [← hW32]; after_results_simp; exact e31_main_v3
  have e32_main_v1 : W32 (Proc.devRef .tc main_v1) = Read.val_main_v1 (F := F) x1 := by rw [← hW32]; after_results_simp; exact e31_main_v1
  have e32_main_v17 : W32 (Proc.devRef .tc main_v17) = Read.val_main_v17 (F := F) x0 x2 x3 := by rw [← hW32]; after_results_simp; exact e31_main_v17
  have e32_main_arg6 : W32 (Proc.devRef .tc main_arg6) = x6 := by rw [← hW32]; after_results_simp; exact e31_main_arg6
  have e32_main_arg5 : W32 (Proc.devRef .tc main_arg5) = x5 := by rw [← hW32]; after_results_simp; exact e31_main_arg5
  have e32_main_arg4 : W32 (Proc.devRef .tc main_arg4) = x4 := by rw [← hW32]; after_results_simp; exact e31_main_arg4
  have e32_main_v18 : W32 (Proc.devRef .tc main_v18) = Read.val_main_v18 (F := F) x0 x2 x3 := by rw [← hW32]; after_results_simp; exact e31_main_v18
  have e32_main_v24 : W32 (Proc.devRef .tc main_v24) = Read.val_main_v24 (F := F) x6 := by rw [← hW32]; after_results_simp; exact e31_main_v24
  have e32_main_v22 : W32 (Proc.devRef .tc main_v22) = Read.val_main_v22 (F := F) x5 := by rw [← hW32]; after_results_simp; exact e31_main_v22
  have e32_main_v20 : W32 (Proc.devRef .tc main_v20) = Read.val_main_v20 (F := F) x4 := by rw [← hW32]; after_results_simp; exact e31_main_v20
  have e32_main_c : W32 (Proc.devRef .tc main_c) = Read.val_main_c (F := F) := by
    rw [← hW32]; after_results_simp
    unfold Read.val_main_c; rfl
  clear hW32 e31_main_arg9 e31_main_arg8 e31_main_arg7 e31_main_v12 e31_main_v3 e31_main_v1 e31_main_v17 e31_main_arg6 e31_main_arg5 e31_main_arg4 e31_main_v18 e31_main_v24 e31_main_v22 e31_main_v20 W31
  -- operation 32: unary main_c → main_v25
  apply after_step; intro W33 hW33
  have e33_main_arg9 : W33 (Proc.devRef .tc main_arg9) = x9 := by rw [← hW33]; after_results_simp; exact e32_main_arg9
  have e33_main_arg8 : W33 (Proc.devRef .tc main_arg8) = x8 := by rw [← hW33]; after_results_simp; exact e32_main_arg8
  have e33_main_arg7 : W33 (Proc.devRef .tc main_arg7) = x7 := by rw [← hW33]; after_results_simp; exact e32_main_arg7
  have e33_main_v12 : W33 (Proc.devRef .tc main_v12) = Read.val_main_v12 (F := F) x1 := by rw [← hW33]; after_results_simp; exact e32_main_v12
  have e33_main_v3 : W33 (Proc.devRef .tc main_v3) = Read.val_main_v3 (F := F) x1 := by rw [← hW33]; after_results_simp; exact e32_main_v3
  have e33_main_v1 : W33 (Proc.devRef .tc main_v1) = Read.val_main_v1 (F := F) x1 := by rw [← hW33]; after_results_simp; exact e32_main_v1
  have e33_main_v17 : W33 (Proc.devRef .tc main_v17) = Read.val_main_v17 (F := F) x0 x2 x3 := by rw [← hW33]; after_results_simp; exact e32_main_v17
  have e33_main_arg6 : W33 (Proc.devRef .tc main_arg6) = x6 := by rw [← hW33]; after_results_simp; exact e32_main_arg6
  have e33_main_arg5 : W33 (Proc.devRef .tc main_arg5) = x5 := by rw [← hW33]; after_results_simp; exact e32_main_arg5
  have e33_main_arg4 : W33 (Proc.devRef .tc main_arg4) = x4 := by rw [← hW33]; after_results_simp; exact e32_main_arg4
  have e33_main_v18 : W33 (Proc.devRef .tc main_v18) = Read.val_main_v18 (F := F) x0 x2 x3 := by rw [← hW33]; after_results_simp; exact e32_main_v18
  have e33_main_v24 : W33 (Proc.devRef .tc main_v24) = Read.val_main_v24 (F := F) x6 := by rw [← hW33]; after_results_simp; exact e32_main_v24
  have e33_main_v22 : W33 (Proc.devRef .tc main_v22) = Read.val_main_v22 (F := F) x5 := by rw [← hW33]; after_results_simp; exact e32_main_v22
  have e33_main_v20 : W33 (Proc.devRef .tc main_v20) = Read.val_main_v20 (F := F) x4 := by rw [← hW33]; after_results_simp; exact e32_main_v20
  have e33_main_v25 : W33 (Proc.devRef .tc main_v25) = Read.val_main_v25 (F := F) := by
    rw [← hW33]; after_results_simp; simp only [e32_main_c]
    unfold Read.val_main_v25; generalize Read.val_main_c (F := F) = A_main_c; rfl
  clear hW33 e32_main_arg9 e32_main_arg8 e32_main_arg7 e32_main_v12 e32_main_v3 e32_main_v1 e32_main_v17 e32_main_arg6 e32_main_arg5 e32_main_arg4 e32_main_v18 e32_main_v24 e32_main_v22 e32_main_v20 e32_main_c W32
  -- operation 33: binary main_v1 main_v25 → main_v26
  apply after_step; intro W34 hW34
  have e34_main_arg9 : W34 (Proc.devRef .tc main_arg9) = x9 := by rw [← hW34]; after_results_simp; exact e33_main_arg9
  have e34_main_arg8 : W34 (Proc.devRef .tc main_arg8) = x8 := by rw [← hW34]; after_results_simp; exact e33_main_arg8
  have e34_main_arg7 : W34 (Proc.devRef .tc main_arg7) = x7 := by rw [← hW34]; after_results_simp; exact e33_main_arg7
  have e34_main_v12 : W34 (Proc.devRef .tc main_v12) = Read.val_main_v12 (F := F) x1 := by rw [← hW34]; after_results_simp; exact e33_main_v12
  have e34_main_v3 : W34 (Proc.devRef .tc main_v3) = Read.val_main_v3 (F := F) x1 := by rw [← hW34]; after_results_simp; exact e33_main_v3
  have e34_main_v1 : W34 (Proc.devRef .tc main_v1) = Read.val_main_v1 (F := F) x1 := by rw [← hW34]; after_results_simp; exact e33_main_v1
  have e34_main_v17 : W34 (Proc.devRef .tc main_v17) = Read.val_main_v17 (F := F) x0 x2 x3 := by rw [← hW34]; after_results_simp; exact e33_main_v17
  have e34_main_arg6 : W34 (Proc.devRef .tc main_arg6) = x6 := by rw [← hW34]; after_results_simp; exact e33_main_arg6
  have e34_main_arg5 : W34 (Proc.devRef .tc main_arg5) = x5 := by rw [← hW34]; after_results_simp; exact e33_main_arg5
  have e34_main_arg4 : W34 (Proc.devRef .tc main_arg4) = x4 := by rw [← hW34]; after_results_simp; exact e33_main_arg4
  have e34_main_v18 : W34 (Proc.devRef .tc main_v18) = Read.val_main_v18 (F := F) x0 x2 x3 := by rw [← hW34]; after_results_simp; exact e33_main_v18
  have e34_main_v24 : W34 (Proc.devRef .tc main_v24) = Read.val_main_v24 (F := F) x6 := by rw [← hW34]; after_results_simp; exact e33_main_v24
  have e34_main_v22 : W34 (Proc.devRef .tc main_v22) = Read.val_main_v22 (F := F) x5 := by rw [← hW34]; after_results_simp; exact e33_main_v22
  have e34_main_v20 : W34 (Proc.devRef .tc main_v20) = Read.val_main_v20 (F := F) x4 := by rw [← hW34]; after_results_simp; exact e33_main_v20
  have e34_main_v26 : W34 (Proc.devRef .tc main_v26) = Read.val_main_v26 (F := F) x1 := by
    rw [← hW34]; after_results_simp; simp only [e33_main_v1, e33_main_v25]
    unfold Read.val_main_v26; generalize Read.val_main_v1 (F := F) x1 = A_main_v1; generalize Read.val_main_v25 (F := F) = A_main_v25; rfl
  clear hW34 e33_main_arg9 e33_main_arg8 e33_main_arg7 e33_main_v12 e33_main_v3 e33_main_v1 e33_main_v17 e33_main_arg6 e33_main_arg5 e33_main_arg4 e33_main_v18 e33_main_v24 e33_main_v22 e33_main_v20 e33_main_v25 W33
  -- operation 34: nullary  → main_c_3
  apply after_step; intro W35 hW35
  have e35_main_arg9 : W35 (Proc.devRef .tc main_arg9) = x9 := by rw [← hW35]; after_results_simp; exact e34_main_arg9
  have e35_main_arg8 : W35 (Proc.devRef .tc main_arg8) = x8 := by rw [← hW35]; after_results_simp; exact e34_main_arg8
  have e35_main_arg7 : W35 (Proc.devRef .tc main_arg7) = x7 := by rw [← hW35]; after_results_simp; exact e34_main_arg7
  have e35_main_v12 : W35 (Proc.devRef .tc main_v12) = Read.val_main_v12 (F := F) x1 := by rw [← hW35]; after_results_simp; exact e34_main_v12
  have e35_main_v3 : W35 (Proc.devRef .tc main_v3) = Read.val_main_v3 (F := F) x1 := by rw [← hW35]; after_results_simp; exact e34_main_v3
  have e35_main_v1 : W35 (Proc.devRef .tc main_v1) = Read.val_main_v1 (F := F) x1 := by rw [← hW35]; after_results_simp; exact e34_main_v1
  have e35_main_v17 : W35 (Proc.devRef .tc main_v17) = Read.val_main_v17 (F := F) x0 x2 x3 := by rw [← hW35]; after_results_simp; exact e34_main_v17
  have e35_main_arg6 : W35 (Proc.devRef .tc main_arg6) = x6 := by rw [← hW35]; after_results_simp; exact e34_main_arg6
  have e35_main_arg5 : W35 (Proc.devRef .tc main_arg5) = x5 := by rw [← hW35]; after_results_simp; exact e34_main_arg5
  have e35_main_arg4 : W35 (Proc.devRef .tc main_arg4) = x4 := by rw [← hW35]; after_results_simp; exact e34_main_arg4
  have e35_main_v18 : W35 (Proc.devRef .tc main_v18) = Read.val_main_v18 (F := F) x0 x2 x3 := by rw [← hW35]; after_results_simp; exact e34_main_v18
  have e35_main_v24 : W35 (Proc.devRef .tc main_v24) = Read.val_main_v24 (F := F) x6 := by rw [← hW35]; after_results_simp; exact e34_main_v24
  have e35_main_v22 : W35 (Proc.devRef .tc main_v22) = Read.val_main_v22 (F := F) x5 := by rw [← hW35]; after_results_simp; exact e34_main_v22
  have e35_main_v20 : W35 (Proc.devRef .tc main_v20) = Read.val_main_v20 (F := F) x4 := by rw [← hW35]; after_results_simp; exact e34_main_v20
  have e35_main_v26 : W35 (Proc.devRef .tc main_v26) = Read.val_main_v26 (F := F) x1 := by rw [← hW35]; after_results_simp; exact e34_main_v26
  have e35_main_c_3 : W35 (Proc.devRef .tc main_c_3) = Read.val_main_c_3 (F := F) := by
    rw [← hW35]; after_results_simp
    unfold Read.val_main_c_3; rfl
  clear hW35 e34_main_arg9 e34_main_arg8 e34_main_arg7 e34_main_v12 e34_main_v3 e34_main_v1 e34_main_v17 e34_main_arg6 e34_main_arg5 e34_main_arg4 e34_main_v18 e34_main_v24 e34_main_v22 e34_main_v20 e34_main_v26 W34
  -- operation 35: unary main_c_3 → main_v27
  apply after_step; intro W36 hW36
  have e36_main_arg9 : W36 (Proc.devRef .tc main_arg9) = x9 := by rw [← hW36]; after_results_simp; exact e35_main_arg9
  have e36_main_arg8 : W36 (Proc.devRef .tc main_arg8) = x8 := by rw [← hW36]; after_results_simp; exact e35_main_arg8
  have e36_main_arg7 : W36 (Proc.devRef .tc main_arg7) = x7 := by rw [← hW36]; after_results_simp; exact e35_main_arg7
  have e36_main_v12 : W36 (Proc.devRef .tc main_v12) = Read.val_main_v12 (F := F) x1 := by rw [← hW36]; after_results_simp; exact e35_main_v12
  have e36_main_v3 : W36 (Proc.devRef .tc main_v3) = Read.val_main_v3 (F := F) x1 := by rw [← hW36]; after_results_simp; exact e35_main_v3
  have e36_main_v1 : W36 (Proc.devRef .tc main_v1) = Read.val_main_v1 (F := F) x1 := by rw [← hW36]; after_results_simp; exact e35_main_v1
  have e36_main_v17 : W36 (Proc.devRef .tc main_v17) = Read.val_main_v17 (F := F) x0 x2 x3 := by rw [← hW36]; after_results_simp; exact e35_main_v17
  have e36_main_arg6 : W36 (Proc.devRef .tc main_arg6) = x6 := by rw [← hW36]; after_results_simp; exact e35_main_arg6
  have e36_main_arg5 : W36 (Proc.devRef .tc main_arg5) = x5 := by rw [← hW36]; after_results_simp; exact e35_main_arg5
  have e36_main_arg4 : W36 (Proc.devRef .tc main_arg4) = x4 := by rw [← hW36]; after_results_simp; exact e35_main_arg4
  have e36_main_v18 : W36 (Proc.devRef .tc main_v18) = Read.val_main_v18 (F := F) x0 x2 x3 := by rw [← hW36]; after_results_simp; exact e35_main_v18
  have e36_main_v24 : W36 (Proc.devRef .tc main_v24) = Read.val_main_v24 (F := F) x6 := by rw [← hW36]; after_results_simp; exact e35_main_v24
  have e36_main_v22 : W36 (Proc.devRef .tc main_v22) = Read.val_main_v22 (F := F) x5 := by rw [← hW36]; after_results_simp; exact e35_main_v22
  have e36_main_v20 : W36 (Proc.devRef .tc main_v20) = Read.val_main_v20 (F := F) x4 := by rw [← hW36]; after_results_simp; exact e35_main_v20
  have e36_main_v26 : W36 (Proc.devRef .tc main_v26) = Read.val_main_v26 (F := F) x1 := by rw [← hW36]; after_results_simp; exact e35_main_v26
  have e36_main_v27 : W36 (Proc.devRef .tc main_v27) = Read.val_main_v27 (F := F) := by
    rw [← hW36]; after_results_simp; simp only [e35_main_c_3]
    unfold Read.val_main_v27; generalize Read.val_main_c_3 (F := F) = A_main_c_3; rfl
  clear hW36 e35_main_arg9 e35_main_arg8 e35_main_arg7 e35_main_v12 e35_main_v3 e35_main_v1 e35_main_v17 e35_main_arg6 e35_main_arg5 e35_main_arg4 e35_main_v18 e35_main_v24 e35_main_v22 e35_main_v20 e35_main_v26 e35_main_c_3 W35
  -- operation 36: binary main_v1 main_v27 → main_v28
  apply after_step; intro W37 hW37
  have e37_main_arg9 : W37 (Proc.devRef .tc main_arg9) = x9 := by rw [← hW37]; after_results_simp; exact e36_main_arg9
  have e37_main_arg8 : W37 (Proc.devRef .tc main_arg8) = x8 := by rw [← hW37]; after_results_simp; exact e36_main_arg8
  have e37_main_arg7 : W37 (Proc.devRef .tc main_arg7) = x7 := by rw [← hW37]; after_results_simp; exact e36_main_arg7
  have e37_main_v12 : W37 (Proc.devRef .tc main_v12) = Read.val_main_v12 (F := F) x1 := by rw [← hW37]; after_results_simp; exact e36_main_v12
  have e37_main_v3 : W37 (Proc.devRef .tc main_v3) = Read.val_main_v3 (F := F) x1 := by rw [← hW37]; after_results_simp; exact e36_main_v3
  have e37_main_v1 : W37 (Proc.devRef .tc main_v1) = Read.val_main_v1 (F := F) x1 := by rw [← hW37]; after_results_simp; exact e36_main_v1
  have e37_main_v17 : W37 (Proc.devRef .tc main_v17) = Read.val_main_v17 (F := F) x0 x2 x3 := by rw [← hW37]; after_results_simp; exact e36_main_v17
  have e37_main_arg6 : W37 (Proc.devRef .tc main_arg6) = x6 := by rw [← hW37]; after_results_simp; exact e36_main_arg6
  have e37_main_arg5 : W37 (Proc.devRef .tc main_arg5) = x5 := by rw [← hW37]; after_results_simp; exact e36_main_arg5
  have e37_main_arg4 : W37 (Proc.devRef .tc main_arg4) = x4 := by rw [← hW37]; after_results_simp; exact e36_main_arg4
  have e37_main_v18 : W37 (Proc.devRef .tc main_v18) = Read.val_main_v18 (F := F) x0 x2 x3 := by rw [← hW37]; after_results_simp; exact e36_main_v18
  have e37_main_v24 : W37 (Proc.devRef .tc main_v24) = Read.val_main_v24 (F := F) x6 := by rw [← hW37]; after_results_simp; exact e36_main_v24
  have e37_main_v22 : W37 (Proc.devRef .tc main_v22) = Read.val_main_v22 (F := F) x5 := by rw [← hW37]; after_results_simp; exact e36_main_v22
  have e37_main_v20 : W37 (Proc.devRef .tc main_v20) = Read.val_main_v20 (F := F) x4 := by rw [← hW37]; after_results_simp; exact e36_main_v20
  have e37_main_v26 : W37 (Proc.devRef .tc main_v26) = Read.val_main_v26 (F := F) x1 := by rw [← hW37]; after_results_simp; exact e36_main_v26
  have e37_main_v28 : W37 (Proc.devRef .tc main_v28) = Read.val_main_v28 (F := F) x1 := by
    rw [← hW37]; after_results_simp; simp only [e36_main_v1, e36_main_v27]
    unfold Read.val_main_v28; generalize Read.val_main_v1 (F := F) x1 = A_main_v1; generalize Read.val_main_v27 (F := F) = A_main_v27; rfl
  clear hW37 e36_main_arg9 e36_main_arg8 e36_main_arg7 e36_main_v12 e36_main_v3 e36_main_v1 e36_main_v17 e36_main_arg6 e36_main_arg5 e36_main_arg4 e36_main_v18 e36_main_v24 e36_main_v22 e36_main_v20 e36_main_v26 e36_main_v27 W36
  -- operation 37: ternary main_v26 main_v28 main_v1 → main_v29
  apply after_step; intro W38 hW38
  have e38_main_arg9 : W38 (Proc.devRef .tc main_arg9) = x9 := by rw [← hW38]; after_results_simp; exact e37_main_arg9
  have e38_main_arg8 : W38 (Proc.devRef .tc main_arg8) = x8 := by rw [← hW38]; after_results_simp; exact e37_main_arg8
  have e38_main_arg7 : W38 (Proc.devRef .tc main_arg7) = x7 := by rw [← hW38]; after_results_simp; exact e37_main_arg7
  have e38_main_v12 : W38 (Proc.devRef .tc main_v12) = Read.val_main_v12 (F := F) x1 := by rw [← hW38]; after_results_simp; exact e37_main_v12
  have e38_main_v3 : W38 (Proc.devRef .tc main_v3) = Read.val_main_v3 (F := F) x1 := by rw [← hW38]; after_results_simp; exact e37_main_v3
  have e38_main_v1 : W38 (Proc.devRef .tc main_v1) = Read.val_main_v1 (F := F) x1 := by rw [← hW38]; after_results_simp; exact e37_main_v1
  have e38_main_v17 : W38 (Proc.devRef .tc main_v17) = Read.val_main_v17 (F := F) x0 x2 x3 := by rw [← hW38]; after_results_simp; exact e37_main_v17
  have e38_main_arg6 : W38 (Proc.devRef .tc main_arg6) = x6 := by rw [← hW38]; after_results_simp; exact e37_main_arg6
  have e38_main_arg5 : W38 (Proc.devRef .tc main_arg5) = x5 := by rw [← hW38]; after_results_simp; exact e37_main_arg5
  have e38_main_arg4 : W38 (Proc.devRef .tc main_arg4) = x4 := by rw [← hW38]; after_results_simp; exact e37_main_arg4
  have e38_main_v18 : W38 (Proc.devRef .tc main_v18) = Read.val_main_v18 (F := F) x0 x2 x3 := by rw [← hW38]; after_results_simp; exact e37_main_v18
  have e38_main_v24 : W38 (Proc.devRef .tc main_v24) = Read.val_main_v24 (F := F) x6 := by rw [← hW38]; after_results_simp; exact e37_main_v24
  have e38_main_v22 : W38 (Proc.devRef .tc main_v22) = Read.val_main_v22 (F := F) x5 := by rw [← hW38]; after_results_simp; exact e37_main_v22
  have e38_main_v20 : W38 (Proc.devRef .tc main_v20) = Read.val_main_v20 (F := F) x4 := by rw [← hW38]; after_results_simp; exact e37_main_v20
  have e38_main_v29 : W38 (Proc.devRef .tc main_v29) = Read.val_main_v29 (F := F) x1 := by
    rw [← hW38]; after_results_simp; simp only [e37_main_v26, e37_main_v28, e37_main_v1]
    unfold Read.val_main_v29; generalize Read.val_main_v26 (F := F) x1 = A_main_v26; generalize Read.val_main_v28 (F := F) x1 = A_main_v28; generalize Read.val_main_v1 (F := F) x1 = A_main_v1; rfl
  clear hW38 e37_main_arg9 e37_main_arg8 e37_main_arg7 e37_main_v12 e37_main_v3 e37_main_v1 e37_main_v17 e37_main_arg6 e37_main_arg5 e37_main_arg4 e37_main_v18 e37_main_v24 e37_main_v22 e37_main_v20 e37_main_v26 e37_main_v28 W37
  -- operation 38: unary main_v29 → main_v30
  apply after_step; intro W39 hW39
  have e39_main_arg9 : W39 (Proc.devRef .tc main_arg9) = x9 := by rw [← hW39]; after_results_simp; exact e38_main_arg9
  have e39_main_arg8 : W39 (Proc.devRef .tc main_arg8) = x8 := by rw [← hW39]; after_results_simp; exact e38_main_arg8
  have e39_main_arg7 : W39 (Proc.devRef .tc main_arg7) = x7 := by rw [← hW39]; after_results_simp; exact e38_main_arg7
  have e39_main_v12 : W39 (Proc.devRef .tc main_v12) = Read.val_main_v12 (F := F) x1 := by rw [← hW39]; after_results_simp; exact e38_main_v12
  have e39_main_v3 : W39 (Proc.devRef .tc main_v3) = Read.val_main_v3 (F := F) x1 := by rw [← hW39]; after_results_simp; exact e38_main_v3
  have e39_main_v1 : W39 (Proc.devRef .tc main_v1) = Read.val_main_v1 (F := F) x1 := by rw [← hW39]; after_results_simp; exact e38_main_v1
  have e39_main_v17 : W39 (Proc.devRef .tc main_v17) = Read.val_main_v17 (F := F) x0 x2 x3 := by rw [← hW39]; after_results_simp; exact e38_main_v17
  have e39_main_arg6 : W39 (Proc.devRef .tc main_arg6) = x6 := by rw [← hW39]; after_results_simp; exact e38_main_arg6
  have e39_main_arg5 : W39 (Proc.devRef .tc main_arg5) = x5 := by rw [← hW39]; after_results_simp; exact e38_main_arg5
  have e39_main_arg4 : W39 (Proc.devRef .tc main_arg4) = x4 := by rw [← hW39]; after_results_simp; exact e38_main_arg4
  have e39_main_v18 : W39 (Proc.devRef .tc main_v18) = Read.val_main_v18 (F := F) x0 x2 x3 := by rw [← hW39]; after_results_simp; exact e38_main_v18
  have e39_main_v24 : W39 (Proc.devRef .tc main_v24) = Read.val_main_v24 (F := F) x6 := by rw [← hW39]; after_results_simp; exact e38_main_v24
  have e39_main_v22 : W39 (Proc.devRef .tc main_v22) = Read.val_main_v22 (F := F) x5 := by rw [← hW39]; after_results_simp; exact e38_main_v22
  have e39_main_v20 : W39 (Proc.devRef .tc main_v20) = Read.val_main_v20 (F := F) x4 := by rw [← hW39]; after_results_simp; exact e38_main_v20
  have e39_main_v30 : W39 (Proc.devRef .tc main_v30) = Read.val_main_v30 (F := F) x1 := by
    rw [← hW39]; after_results_simp; simp only [e38_main_v29]
    unfold Read.val_main_v30; generalize Read.val_main_v29 (F := F) x1 = A_main_v29; rfl
  clear hW39 e38_main_arg9 e38_main_arg8 e38_main_arg7 e38_main_v12 e38_main_v3 e38_main_v1 e38_main_v17 e38_main_arg6 e38_main_arg5 e38_main_arg4 e38_main_v18 e38_main_v24 e38_main_v22 e38_main_v20 e38_main_v29 W38
  -- operation 39: binary main_v18 main_v30 → main_v31
  apply after_step; intro W40 hW40
  have e40_main_arg9 : W40 (Proc.devRef .tc main_arg9) = x9 := by rw [← hW40]; after_results_simp; exact e39_main_arg9
  have e40_main_arg8 : W40 (Proc.devRef .tc main_arg8) = x8 := by rw [← hW40]; after_results_simp; exact e39_main_arg8
  have e40_main_arg7 : W40 (Proc.devRef .tc main_arg7) = x7 := by rw [← hW40]; after_results_simp; exact e39_main_arg7
  have e40_main_v12 : W40 (Proc.devRef .tc main_v12) = Read.val_main_v12 (F := F) x1 := by rw [← hW40]; after_results_simp; exact e39_main_v12
  have e40_main_v3 : W40 (Proc.devRef .tc main_v3) = Read.val_main_v3 (F := F) x1 := by rw [← hW40]; after_results_simp; exact e39_main_v3
  have e40_main_v1 : W40 (Proc.devRef .tc main_v1) = Read.val_main_v1 (F := F) x1 := by rw [← hW40]; after_results_simp; exact e39_main_v1
  have e40_main_v17 : W40 (Proc.devRef .tc main_v17) = Read.val_main_v17 (F := F) x0 x2 x3 := by rw [← hW40]; after_results_simp; exact e39_main_v17
  have e40_main_arg6 : W40 (Proc.devRef .tc main_arg6) = x6 := by rw [← hW40]; after_results_simp; exact e39_main_arg6
  have e40_main_arg5 : W40 (Proc.devRef .tc main_arg5) = x5 := by rw [← hW40]; after_results_simp; exact e39_main_arg5
  have e40_main_arg4 : W40 (Proc.devRef .tc main_arg4) = x4 := by rw [← hW40]; after_results_simp; exact e39_main_arg4
  have e40_main_v18 : W40 (Proc.devRef .tc main_v18) = Read.val_main_v18 (F := F) x0 x2 x3 := by rw [← hW40]; after_results_simp; exact e39_main_v18
  have e40_main_v24 : W40 (Proc.devRef .tc main_v24) = Read.val_main_v24 (F := F) x6 := by rw [← hW40]; after_results_simp; exact e39_main_v24
  have e40_main_v22 : W40 (Proc.devRef .tc main_v22) = Read.val_main_v22 (F := F) x5 := by rw [← hW40]; after_results_simp; exact e39_main_v22
  have e40_main_v20 : W40 (Proc.devRef .tc main_v20) = Read.val_main_v20 (F := F) x4 := by rw [← hW40]; after_results_simp; exact e39_main_v20
  have e40_main_v31 : W40 (Proc.devRef .tc main_v31) = Read.val_main_v31 (F := F) x0 x1 x2 x3 := by
    rw [← hW40]; after_results_simp; simp only [e39_main_v18, e39_main_v30]
    unfold Read.val_main_v31; generalize Read.val_main_v18 (F := F) x0 x2 x3 = A_main_v18; generalize Read.val_main_v30 (F := F) x1 = A_main_v30; rfl
  clear hW40 e39_main_arg9 e39_main_arg8 e39_main_arg7 e39_main_v12 e39_main_v3 e39_main_v1 e39_main_v17 e39_main_arg6 e39_main_arg5 e39_main_arg4 e39_main_v18 e39_main_v24 e39_main_v22 e39_main_v20 e39_main_v30 W39
  -- operation 40: nullary  → main_cst_4
  apply after_step; intro W41 hW41
  have e41_main_arg9 : W41 (Proc.devRef .tc main_arg9) = x9 := by rw [← hW41]; after_results_simp; exact e40_main_arg9
  have e41_main_arg8 : W41 (Proc.devRef .tc main_arg8) = x8 := by rw [← hW41]; after_results_simp; exact e40_main_arg8
  have e41_main_arg7 : W41 (Proc.devRef .tc main_arg7) = x7 := by rw [← hW41]; after_results_simp; exact e40_main_arg7
  have e41_main_v12 : W41 (Proc.devRef .tc main_v12) = Read.val_main_v12 (F := F) x1 := by rw [← hW41]; after_results_simp; exact e40_main_v12
  have e41_main_v3 : W41 (Proc.devRef .tc main_v3) = Read.val_main_v3 (F := F) x1 := by rw [← hW41]; after_results_simp; exact e40_main_v3
  have e41_main_v1 : W41 (Proc.devRef .tc main_v1) = Read.val_main_v1 (F := F) x1 := by rw [← hW41]; after_results_simp; exact e40_main_v1
  have e41_main_v17 : W41 (Proc.devRef .tc main_v17) = Read.val_main_v17 (F := F) x0 x2 x3 := by rw [← hW41]; after_results_simp; exact e40_main_v17
  have e41_main_arg6 : W41 (Proc.devRef .tc main_arg6) = x6 := by rw [← hW41]; after_results_simp; exact e40_main_arg6
  have e41_main_arg5 : W41 (Proc.devRef .tc main_arg5) = x5 := by rw [← hW41]; after_results_simp; exact e40_main_arg5
  have e41_main_arg4 : W41 (Proc.devRef .tc main_arg4) = x4 := by rw [← hW41]; after_results_simp; exact e40_main_arg4
  have e41_main_v18 : W41 (Proc.devRef .tc main_v18) = Read.val_main_v18 (F := F) x0 x2 x3 := by rw [← hW41]; after_results_simp; exact e40_main_v18
  have e41_main_v24 : W41 (Proc.devRef .tc main_v24) = Read.val_main_v24 (F := F) x6 := by rw [← hW41]; after_results_simp; exact e40_main_v24
  have e41_main_v22 : W41 (Proc.devRef .tc main_v22) = Read.val_main_v22 (F := F) x5 := by rw [← hW41]; after_results_simp; exact e40_main_v22
  have e41_main_v20 : W41 (Proc.devRef .tc main_v20) = Read.val_main_v20 (F := F) x4 := by rw [← hW41]; after_results_simp; exact e40_main_v20
  have e41_main_v31 : W41 (Proc.devRef .tc main_v31) = Read.val_main_v31 (F := F) x0 x1 x2 x3 := by rw [← hW41]; after_results_simp; exact e40_main_v31
  have e41_main_cst_4 : W41 (Proc.devRef .tc main_cst_4) = Read.val_main_cst_4 (F := F) := by
    rw [← hW41]; after_results_simp
    unfold Read.val_main_cst_4; rfl
  clear hW41 e40_main_arg9 e40_main_arg8 e40_main_arg7 e40_main_v12 e40_main_v3 e40_main_v1 e40_main_v17 e40_main_arg6 e40_main_arg5 e40_main_arg4 e40_main_v18 e40_main_v24 e40_main_v22 e40_main_v20 e40_main_v31 W40
  -- operation 41: unary main_cst_4 → main_v32
  apply after_step; intro W42 hW42
  have e42_main_arg9 : W42 (Proc.devRef .tc main_arg9) = x9 := by rw [← hW42]; after_results_simp; exact e41_main_arg9
  have e42_main_arg8 : W42 (Proc.devRef .tc main_arg8) = x8 := by rw [← hW42]; after_results_simp; exact e41_main_arg8
  have e42_main_arg7 : W42 (Proc.devRef .tc main_arg7) = x7 := by rw [← hW42]; after_results_simp; exact e41_main_arg7
  have e42_main_v12 : W42 (Proc.devRef .tc main_v12) = Read.val_main_v12 (F := F) x1 := by rw [← hW42]; after_results_simp; exact e41_main_v12
  have e42_main_v3 : W42 (Proc.devRef .tc main_v3) = Read.val_main_v3 (F := F) x1 := by rw [← hW42]; after_results_simp; exact e41_main_v3
  have e42_main_v1 : W42 (Proc.devRef .tc main_v1) = Read.val_main_v1 (F := F) x1 := by rw [← hW42]; after_results_simp; exact e41_main_v1
  have e42_main_v17 : W42 (Proc.devRef .tc main_v17) = Read.val_main_v17 (F := F) x0 x2 x3 := by rw [← hW42]; after_results_simp; exact e41_main_v17
  have e42_main_arg6 : W42 (Proc.devRef .tc main_arg6) = x6 := by rw [← hW42]; after_results_simp; exact e41_main_arg6
  have e42_main_arg5 : W42 (Proc.devRef .tc main_arg5) = x5 := by rw [← hW42]; after_results_simp; exact e41_main_arg5
  have e42_main_arg4 : W42 (Proc.devRef .tc main_arg4) = x4 := by rw [← hW42]; after_results_simp; exact e41_main_arg4
  have e42_main_v18 : W42 (Proc.devRef .tc main_v18) = Read.val_main_v18 (F := F) x0 x2 x3 := by rw [← hW42]; after_results_simp; exact e41_main_v18
  have e42_main_v24 : W42 (Proc.devRef .tc main_v24) = Read.val_main_v24 (F := F) x6 := by rw [← hW42]; after_results_simp; exact e41_main_v24
  have e42_main_v22 : W42 (Proc.devRef .tc main_v22) = Read.val_main_v22 (F := F) x5 := by rw [← hW42]; after_results_simp; exact e41_main_v22
  have e42_main_v20 : W42 (Proc.devRef .tc main_v20) = Read.val_main_v20 (F := F) x4 := by rw [← hW42]; after_results_simp; exact e41_main_v20
  have e42_main_v32 : W42 (Proc.devRef .tc main_v32) = Read.val_main_v32 (F := F) := by
    rw [← hW42]; after_results_simp; simp only [e41_main_cst_4]
    unfold Read.val_main_v32; generalize Read.val_main_cst_4 (F := F) = A_main_cst_4; rfl
  have e42_main_v31 : W42 (Proc.devRef .tc main_v31) = Read.val_main_v31 (F := F) x0 x1 x2 x3 := by rw [← hW42]; after_results_simp; exact e41_main_v31
  clear hW42 e41_main_arg9 e41_main_arg8 e41_main_arg7 e41_main_v12 e41_main_v3 e41_main_v1 e41_main_v17 e41_main_arg6 e41_main_arg5 e41_main_arg4 e41_main_v18 e41_main_v24 e41_main_v22 e41_main_v20 e41_main_v31 e41_main_cst_4 W41
  -- operation 42: unary main_v3 → main_v33
  apply after_step; intro W43 hW43
  have e43_main_arg9 : W43 (Proc.devRef .tc main_arg9) = x9 := by rw [← hW43]; after_results_simp; exact e42_main_arg9
  have e43_main_arg8 : W43 (Proc.devRef .tc main_arg8) = x8 := by rw [← hW43]; after_results_simp; exact e42_main_arg8
  have e43_main_arg7 : W43 (Proc.devRef .tc main_arg7) = x7 := by rw [← hW43]; after_results_simp; exact e42_main_arg7
  have e43_main_v12 : W43 (Proc.devRef .tc main_v12) = Read.val_main_v12 (F := F) x1 := by rw [← hW43]; after_results_simp; exact e42_main_v12
  have e43_main_v3 : W43 (Proc.devRef .tc main_v3) = Read.val_main_v3 (F := F) x1 := by rw [← hW43]; after_results_simp; exact e42_main_v3
  have e43_main_v1 : W43 (Proc.devRef .tc main_v1) = Read.val_main_v1 (F := F) x1 := by rw [← hW43]; after_results_simp; exact e42_main_v1
  have e43_main_v17 : W43 (Proc.devRef .tc main_v17) = Read.val_main_v17 (F := F) x0 x2 x3 := by rw [← hW43]; after_results_simp; exact e42_main_v17
  have e43_main_arg6 : W43 (Proc.devRef .tc main_arg6) = x6 := by rw [← hW43]; after_results_simp; exact e42_main_arg6
  have e43_main_arg5 : W43 (Proc.devRef .tc main_arg5) = x5 := by rw [← hW43]; after_results_simp; exact e42_main_arg5
  have e43_main_arg4 : W43 (Proc.devRef .tc main_arg4) = x4 := by rw [← hW43]; after_results_simp; exact e42_main_arg4
  have e43_main_v18 : W43 (Proc.devRef .tc main_v18) = Read.val_main_v18 (F := F) x0 x2 x3 := by rw [← hW43]; after_results_simp; exact e42_main_v18
  have e43_main_v24 : W43 (Proc.devRef .tc main_v24) = Read.val_main_v24 (F := F) x6 := by rw [← hW43]; after_results_simp; exact e42_main_v24
  have e43_main_v22 : W43 (Proc.devRef .tc main_v22) = Read.val_main_v22 (F := F) x5 := by rw [← hW43]; after_results_simp; exact e42_main_v22
  have e43_main_v20 : W43 (Proc.devRef .tc main_v20) = Read.val_main_v20 (F := F) x4 := by rw [← hW43]; after_results_simp; exact e42_main_v20
  have e43_main_v32 : W43 (Proc.devRef .tc main_v32) = Read.val_main_v32 (F := F) := by rw [← hW43]; after_results_simp; exact e42_main_v32
  have e43_main_v33 : W43 (Proc.devRef .tc main_v33) = Read.val_main_v33 (F := F) x1 := by
    rw [← hW43]; after_results_simp; simp only [e42_main_v3]
    unfold Read.val_main_v33; generalize Read.val_main_v3 (F := F) x1 = A_main_v3; rfl
  have e43_main_v31 : W43 (Proc.devRef .tc main_v31) = Read.val_main_v31 (F := F) x0 x1 x2 x3 := by rw [← hW43]; after_results_simp; exact e42_main_v31
  clear hW43 e42_main_arg9 e42_main_arg8 e42_main_arg7 e42_main_v12 e42_main_v3 e42_main_v1 e42_main_v17 e42_main_arg6 e42_main_arg5 e42_main_arg4 e42_main_v18 e42_main_v24 e42_main_v22 e42_main_v20 e42_main_v32 e42_main_v31 W42
  -- operation 43: ternary main_v32 main_v33 main_v31 → main_v34
  apply after_step; intro W44 hW44
  have e44_main_arg9 : W44 (Proc.devRef .tc main_arg9) = x9 := by rw [← hW44]; after_results_simp; exact e43_main_arg9
  have e44_main_arg8 : W44 (Proc.devRef .tc main_arg8) = x8 := by rw [← hW44]; after_results_simp; exact e43_main_arg8
  have e44_main_arg7 : W44 (Proc.devRef .tc main_arg7) = x7 := by rw [← hW44]; after_results_simp; exact e43_main_arg7
  have e44_main_v12 : W44 (Proc.devRef .tc main_v12) = Read.val_main_v12 (F := F) x1 := by rw [← hW44]; after_results_simp; exact e43_main_v12
  have e44_main_v3 : W44 (Proc.devRef .tc main_v3) = Read.val_main_v3 (F := F) x1 := by rw [← hW44]; after_results_simp; exact e43_main_v3
  have e44_main_v1 : W44 (Proc.devRef .tc main_v1) = Read.val_main_v1 (F := F) x1 := by rw [← hW44]; after_results_simp; exact e43_main_v1
  have e44_main_v17 : W44 (Proc.devRef .tc main_v17) = Read.val_main_v17 (F := F) x0 x2 x3 := by rw [← hW44]; after_results_simp; exact e43_main_v17
  have e44_main_arg6 : W44 (Proc.devRef .tc main_arg6) = x6 := by rw [← hW44]; after_results_simp; exact e43_main_arg6
  have e44_main_arg5 : W44 (Proc.devRef .tc main_arg5) = x5 := by rw [← hW44]; after_results_simp; exact e43_main_arg5
  have e44_main_arg4 : W44 (Proc.devRef .tc main_arg4) = x4 := by rw [← hW44]; after_results_simp; exact e43_main_arg4
  have e44_main_v18 : W44 (Proc.devRef .tc main_v18) = Read.val_main_v18 (F := F) x0 x2 x3 := by rw [← hW44]; after_results_simp; exact e43_main_v18
  have e44_main_v24 : W44 (Proc.devRef .tc main_v24) = Read.val_main_v24 (F := F) x6 := by rw [← hW44]; after_results_simp; exact e43_main_v24
  have e44_main_v22 : W44 (Proc.devRef .tc main_v22) = Read.val_main_v22 (F := F) x5 := by rw [← hW44]; after_results_simp; exact e43_main_v22
  have e44_main_v20 : W44 (Proc.devRef .tc main_v20) = Read.val_main_v20 (F := F) x4 := by rw [← hW44]; after_results_simp; exact e43_main_v20
  have e44_main_v34 : W44 (Proc.devRef .tc main_v34) = Read.val_main_v34 (F := F) x0 x1 x2 x3 := by
    rw [← hW44]; after_results_simp; simp only [e43_main_v32, e43_main_v33, e43_main_v31]
    unfold Read.val_main_v34; generalize Read.val_main_v32 (F := F) = A_main_v32; generalize Read.val_main_v33 (F := F) x1 = A_main_v33; generalize Read.val_main_v31 (F := F) x0 x1 x2 x3 = A_main_v31; rfl
  clear hW44 e43_main_arg9 e43_main_arg8 e43_main_arg7 e43_main_v12 e43_main_v3 e43_main_v1 e43_main_v17 e43_main_arg6 e43_main_arg5 e43_main_arg4 e43_main_v18 e43_main_v24 e43_main_v22 e43_main_v20 e43_main_v32 e43_main_v33 e43_main_v31 W43
  -- operation 44: unary main_v12 → main_v35
  apply after_step; intro W45 hW45
  have e45_main_arg9 : W45 (Proc.devRef .tc main_arg9) = x9 := by rw [← hW45]; after_results_simp; exact e44_main_arg9
  have e45_main_arg8 : W45 (Proc.devRef .tc main_arg8) = x8 := by rw [← hW45]; after_results_simp; exact e44_main_arg8
  have e45_main_arg7 : W45 (Proc.devRef .tc main_arg7) = x7 := by rw [← hW45]; after_results_simp; exact e44_main_arg7
  have e45_main_v12 : W45 (Proc.devRef .tc main_v12) = Read.val_main_v12 (F := F) x1 := by rw [← hW45]; after_results_simp; exact e44_main_v12
  have e45_main_v3 : W45 (Proc.devRef .tc main_v3) = Read.val_main_v3 (F := F) x1 := by rw [← hW45]; after_results_simp; exact e44_main_v3
  have e45_main_v1 : W45 (Proc.devRef .tc main_v1) = Read.val_main_v1 (F := F) x1 := by rw [← hW45]; after_results_simp; exact e44_main_v1
  have e45_main_v17 : W45 (Proc.devRef .tc main_v17) = Read.val_main_v17 (F := F) x0 x2 x3 := by rw [← hW45]; after_results_simp; exact e44_main_v17
  have e45_main_arg6 : W45 (Proc.devRef .tc main_arg6) = x6 := by rw [← hW45]; after_results_simp; exact e44_main_arg6
  have e45_main_arg5 : W45 (Proc.devRef .tc main_arg5) = x5 := by rw [← hW45]; after_results_simp; exact e44_main_arg5
  have e45_main_arg4 : W45 (Proc.devRef .tc main_arg4) = x4 := by rw [← hW45]; after_results_simp; exact e44_main_arg4
  have e45_main_v18 : W45 (Proc.devRef .tc main_v18) = Read.val_main_v18 (F := F) x0 x2 x3 := by rw [← hW45]; after_results_simp; exact e44_main_v18
  have e45_main_v24 : W45 (Proc.devRef .tc main_v24) = Read.val_main_v24 (F := F) x6 := by rw [← hW45]; after_results_simp; exact e44_main_v24
  have e45_main_v22 : W45 (Proc.devRef .tc main_v22) = Read.val_main_v22 (F := F) x5 := by rw [← hW45]; after_results_simp; exact e44_main_v22
  have e45_main_v20 : W45 (Proc.devRef .tc main_v20) = Read.val_main_v20 (F := F) x4 := by rw [← hW45]; after_results_simp; exact e44_main_v20
  have e45_main_v34 : W45 (Proc.devRef .tc main_v34) = Read.val_main_v34 (F := F) x0 x1 x2 x3 := by rw [← hW45]; after_results_simp; exact e44_main_v34
  have e45_main_v35 : W45 (Proc.devRef .tc main_v35) = Read.val_main_v35 (F := F) x1 := by
    rw [← hW45]; after_results_simp; simp only [e44_main_v12]
    unfold Read.val_main_v35; generalize Read.val_main_v12 (F := F) x1 = A_main_v12; rfl
  clear hW45 e44_main_arg9 e44_main_arg8 e44_main_arg7 e44_main_v12 e44_main_v3 e44_main_v1 e44_main_v17 e44_main_arg6 e44_main_arg5 e44_main_arg4 e44_main_v18 e44_main_v24 e44_main_v22 e44_main_v20 e44_main_v34 W44
  -- operation 45: binary main_v34 main_v35 → main_v36
  apply after_step; intro W46 hW46
  have e46_main_arg9 : W46 (Proc.devRef .tc main_arg9) = x9 := by rw [← hW46]; after_results_simp; exact e45_main_arg9
  have e46_main_arg8 : W46 (Proc.devRef .tc main_arg8) = x8 := by rw [← hW46]; after_results_simp; exact e45_main_arg8
  have e46_main_arg7 : W46 (Proc.devRef .tc main_arg7) = x7 := by rw [← hW46]; after_results_simp; exact e45_main_arg7
  have e46_main_v12 : W46 (Proc.devRef .tc main_v12) = Read.val_main_v12 (F := F) x1 := by rw [← hW46]; after_results_simp; exact e45_main_v12
  have e46_main_v3 : W46 (Proc.devRef .tc main_v3) = Read.val_main_v3 (F := F) x1 := by rw [← hW46]; after_results_simp; exact e45_main_v3
  have e46_main_v1 : W46 (Proc.devRef .tc main_v1) = Read.val_main_v1 (F := F) x1 := by rw [← hW46]; after_results_simp; exact e45_main_v1
  have e46_main_v17 : W46 (Proc.devRef .tc main_v17) = Read.val_main_v17 (F := F) x0 x2 x3 := by rw [← hW46]; after_results_simp; exact e45_main_v17
  have e46_main_arg6 : W46 (Proc.devRef .tc main_arg6) = x6 := by rw [← hW46]; after_results_simp; exact e45_main_arg6
  have e46_main_arg5 : W46 (Proc.devRef .tc main_arg5) = x5 := by rw [← hW46]; after_results_simp; exact e45_main_arg5
  have e46_main_arg4 : W46 (Proc.devRef .tc main_arg4) = x4 := by rw [← hW46]; after_results_simp; exact e45_main_arg4
  have e46_main_v18 : W46 (Proc.devRef .tc main_v18) = Read.val_main_v18 (F := F) x0 x2 x3 := by rw [← hW46]; after_results_simp; exact e45_main_v18
  have e46_main_v24 : W46 (Proc.devRef .tc main_v24) = Read.val_main_v24 (F := F) x6 := by rw [← hW46]; after_results_simp; exact e45_main_v24
  have e46_main_v22 : W46 (Proc.devRef .tc main_v22) = Read.val_main_v22 (F := F) x5 := by rw [← hW46]; after_results_simp; exact e45_main_v22
  have e46_main_v36 : W46 (Proc.devRef .tc main_v36) = Read.val_main_v36 (F := F) x0 x1 x2 x3 := by
    rw [← hW46]; after_results_simp; simp only [e45_main_v34, e45_main_v35]
    unfold Read.val_main_v36; generalize Read.val_main_v34 (F := F) x0 x1 x2 x3 = A_main_v34; generalize Read.val_main_v35 (F := F) x1 = A_main_v35; rfl
  have e46_main_v20 : W46 (Proc.devRef .tc main_v20) = Read.val_main_v20 (F := F) x4 := by rw [← hW46]; after_results_simp; exact e45_main_v20
  clear hW46 e45_main_arg9 e45_main_arg8 e45_main_arg7 e45_main_v12 e45_main_v3 e45_main_v1 e45_main_v17 e45_main_arg6 e45_main_arg5 e45_main_arg4 e45_main_v18 e45_main_v24 e45_main_v22 e45_main_v20 e45_main_v34 e45_main_v35 W45
  -- operation 46: unary main_v20 → main_v37
  apply after_step; intro W47 hW47
  have e47_main_arg9 : W47 (Proc.devRef .tc main_arg9) = x9 := by rw [← hW47]; after_results_simp; exact e46_main_arg9
  have e47_main_arg8 : W47 (Proc.devRef .tc main_arg8) = x8 := by rw [← hW47]; after_results_simp; exact e46_main_arg8
  have e47_main_arg7 : W47 (Proc.devRef .tc main_arg7) = x7 := by rw [← hW47]; after_results_simp; exact e46_main_arg7
  have e47_main_v12 : W47 (Proc.devRef .tc main_v12) = Read.val_main_v12 (F := F) x1 := by rw [← hW47]; after_results_simp; exact e46_main_v12
  have e47_main_v3 : W47 (Proc.devRef .tc main_v3) = Read.val_main_v3 (F := F) x1 := by rw [← hW47]; after_results_simp; exact e46_main_v3
  have e47_main_v1 : W47 (Proc.devRef .tc main_v1) = Read.val_main_v1 (F := F) x1 := by rw [← hW47]; after_results_simp; exact e46_main_v1
  have e47_main_v17 : W47 (Proc.devRef .tc main_v17) = Read.val_main_v17 (F := F) x0 x2 x3 := by rw [← hW47]; after_results_simp; exact e46_main_v17
  have e47_main_arg6 : W47 (Proc.devRef .tc main_arg6) = x6 := by rw [← hW47]; after_results_simp; exact e46_main_arg6
  have e47_main_arg5 : W47 (Proc.devRef .tc main_arg5) = x5 := by rw [← hW47]; after_results_simp; exact e46_main_arg5
  have e47_main_arg4 : W47 (Proc.devRef .tc main_arg4) = x4 := by rw [← hW47]; after_results_simp; exact e46_main_arg4
  have e47_main_v18 : W47 (Proc.devRef .tc main_v18) = Read.val_main_v18 (F := F) x0 x2 x3 := by rw [← hW47]; after_results_simp; exact e46_main_v18
  have e47_main_v24 : W47 (Proc.devRef .tc main_v24) = Read.val_main_v24 (F := F) x6 := by rw [← hW47]; after_results_simp; exact e46_main_v24
  have e47_main_v22 : W47 (Proc.devRef .tc main_v22) = Read.val_main_v22 (F := F) x5 := by rw [← hW47]; after_results_simp; exact e46_main_v22
  have e47_main_v36 : W47 (Proc.devRef .tc main_v36) = Read.val_main_v36 (F := F) x0 x1 x2 x3 := by rw [← hW47]; after_results_simp; exact e46_main_v36
  have e47_main_v37 : W47 (Proc.devRef .tc main_v37) = Read.val_main_v37 (F := F) x4 := by
    rw [← hW47]; after_results_simp; simp only [e46_main_v20]
    unfold Read.val_main_v37; generalize Read.val_main_v20 (F := F) x4 = A_main_v20; rfl
  clear hW47 e46_main_arg9 e46_main_arg8 e46_main_arg7 e46_main_v12 e46_main_v3 e46_main_v1 e46_main_v17 e46_main_arg6 e46_main_arg5 e46_main_arg4 e46_main_v18 e46_main_v24 e46_main_v22 e46_main_v36 e46_main_v20 W46
  -- operation 47: binary main_v36 main_v37 → main_v38
  apply after_step; intro W48 hW48
  have e48_main_arg9 : W48 (Proc.devRef .tc main_arg9) = x9 := by rw [← hW48]; after_results_simp; exact e47_main_arg9
  have e48_main_arg8 : W48 (Proc.devRef .tc main_arg8) = x8 := by rw [← hW48]; after_results_simp; exact e47_main_arg8
  have e48_main_arg7 : W48 (Proc.devRef .tc main_arg7) = x7 := by rw [← hW48]; after_results_simp; exact e47_main_arg7
  have e48_main_v12 : W48 (Proc.devRef .tc main_v12) = Read.val_main_v12 (F := F) x1 := by rw [← hW48]; after_results_simp; exact e47_main_v12
  have e48_main_v3 : W48 (Proc.devRef .tc main_v3) = Read.val_main_v3 (F := F) x1 := by rw [← hW48]; after_results_simp; exact e47_main_v3
  have e48_main_v1 : W48 (Proc.devRef .tc main_v1) = Read.val_main_v1 (F := F) x1 := by rw [← hW48]; after_results_simp; exact e47_main_v1
  have e48_main_v17 : W48 (Proc.devRef .tc main_v17) = Read.val_main_v17 (F := F) x0 x2 x3 := by rw [← hW48]; after_results_simp; exact e47_main_v17
  have e48_main_arg6 : W48 (Proc.devRef .tc main_arg6) = x6 := by rw [← hW48]; after_results_simp; exact e47_main_arg6
  have e48_main_arg5 : W48 (Proc.devRef .tc main_arg5) = x5 := by rw [← hW48]; after_results_simp; exact e47_main_arg5
  have e48_main_arg4 : W48 (Proc.devRef .tc main_arg4) = x4 := by rw [← hW48]; after_results_simp; exact e47_main_arg4
  have e48_main_v18 : W48 (Proc.devRef .tc main_v18) = Read.val_main_v18 (F := F) x0 x2 x3 := by rw [← hW48]; after_results_simp; exact e47_main_v18
  have e48_main_v24 : W48 (Proc.devRef .tc main_v24) = Read.val_main_v24 (F := F) x6 := by rw [← hW48]; after_results_simp; exact e47_main_v24
  have e48_main_v38 : W48 (Proc.devRef .tc main_v38) = Read.val_main_v38 (F := F) x0 x1 x2 x3 x4 := by
    rw [← hW48]; after_results_simp; simp only [e47_main_v36, e47_main_v37]
    unfold Read.val_main_v38; generalize Read.val_main_v36 (F := F) x0 x1 x2 x3 = A_main_v36; generalize Read.val_main_v37 (F := F) x4 = A_main_v37; rfl
  have e48_main_v22 : W48 (Proc.devRef .tc main_v22) = Read.val_main_v22 (F := F) x5 := by rw [← hW48]; after_results_simp; exact e47_main_v22
  clear hW48 e47_main_arg9 e47_main_arg8 e47_main_arg7 e47_main_v12 e47_main_v3 e47_main_v1 e47_main_v17 e47_main_arg6 e47_main_arg5 e47_main_arg4 e47_main_v18 e47_main_v24 e47_main_v22 e47_main_v36 e47_main_v37 W47
  -- operation 48: unary main_v22 → main_v39
  apply after_step; intro W49 hW49
  have e49_main_arg9 : W49 (Proc.devRef .tc main_arg9) = x9 := by rw [← hW49]; after_results_simp; exact e48_main_arg9
  have e49_main_arg8 : W49 (Proc.devRef .tc main_arg8) = x8 := by rw [← hW49]; after_results_simp; exact e48_main_arg8
  have e49_main_arg7 : W49 (Proc.devRef .tc main_arg7) = x7 := by rw [← hW49]; after_results_simp; exact e48_main_arg7
  have e49_main_v12 : W49 (Proc.devRef .tc main_v12) = Read.val_main_v12 (F := F) x1 := by rw [← hW49]; after_results_simp; exact e48_main_v12
  have e49_main_v3 : W49 (Proc.devRef .tc main_v3) = Read.val_main_v3 (F := F) x1 := by rw [← hW49]; after_results_simp; exact e48_main_v3
  have e49_main_v1 : W49 (Proc.devRef .tc main_v1) = Read.val_main_v1 (F := F) x1 := by rw [← hW49]; after_results_simp; exact e48_main_v1
  have e49_main_v17 : W49 (Proc.devRef .tc main_v17) = Read.val_main_v17 (F := F) x0 x2 x3 := by rw [← hW49]; after_results_simp; exact e48_main_v17
  have e49_main_arg6 : W49 (Proc.devRef .tc main_arg6) = x6 := by rw [← hW49]; after_results_simp; exact e48_main_arg6
  have e49_main_arg5 : W49 (Proc.devRef .tc main_arg5) = x5 := by rw [← hW49]; after_results_simp; exact e48_main_arg5
  have e49_main_arg4 : W49 (Proc.devRef .tc main_arg4) = x4 := by rw [← hW49]; after_results_simp; exact e48_main_arg4
  have e49_main_v18 : W49 (Proc.devRef .tc main_v18) = Read.val_main_v18 (F := F) x0 x2 x3 := by rw [← hW49]; after_results_simp; exact e48_main_v18
  have e49_main_v24 : W49 (Proc.devRef .tc main_v24) = Read.val_main_v24 (F := F) x6 := by rw [← hW49]; after_results_simp; exact e48_main_v24
  have e49_main_v38 : W49 (Proc.devRef .tc main_v38) = Read.val_main_v38 (F := F) x0 x1 x2 x3 x4 := by rw [← hW49]; after_results_simp; exact e48_main_v38
  have e49_main_v39 : W49 (Proc.devRef .tc main_v39) = Read.val_main_v39 (F := F) x5 := by
    rw [← hW49]; after_results_simp; simp only [e48_main_v22]
    unfold Read.val_main_v39; generalize Read.val_main_v22 (F := F) x5 = A_main_v22; rfl
  clear hW49 e48_main_arg9 e48_main_arg8 e48_main_arg7 e48_main_v12 e48_main_v3 e48_main_v1 e48_main_v17 e48_main_arg6 e48_main_arg5 e48_main_arg4 e48_main_v18 e48_main_v24 e48_main_v38 e48_main_v22 W48
  -- operation 49: unary main_v39 → main_v40
  apply after_step; intro W50 hW50
  have e50_main_arg9 : W50 (Proc.devRef .tc main_arg9) = x9 := by rw [← hW50]; after_results_simp; exact e49_main_arg9
  have e50_main_arg8 : W50 (Proc.devRef .tc main_arg8) = x8 := by rw [← hW50]; after_results_simp; exact e49_main_arg8
  have e50_main_arg7 : W50 (Proc.devRef .tc main_arg7) = x7 := by rw [← hW50]; after_results_simp; exact e49_main_arg7
  have e50_main_v12 : W50 (Proc.devRef .tc main_v12) = Read.val_main_v12 (F := F) x1 := by rw [← hW50]; after_results_simp; exact e49_main_v12
  have e50_main_v3 : W50 (Proc.devRef .tc main_v3) = Read.val_main_v3 (F := F) x1 := by rw [← hW50]; after_results_simp; exact e49_main_v3
  have e50_main_v1 : W50 (Proc.devRef .tc main_v1) = Read.val_main_v1 (F := F) x1 := by rw [← hW50]; after_results_simp; exact e49_main_v1
  have e50_main_v17 : W50 (Proc.devRef .tc main_v17) = Read.val_main_v17 (F := F) x0 x2 x3 := by rw [← hW50]; after_results_simp; exact e49_main_v17
  have e50_main_arg6 : W50 (Proc.devRef .tc main_arg6) = x6 := by rw [← hW50]; after_results_simp; exact e49_main_arg6
  have e50_main_arg5 : W50 (Proc.devRef .tc main_arg5) = x5 := by rw [← hW50]; after_results_simp; exact e49_main_arg5
  have e50_main_arg4 : W50 (Proc.devRef .tc main_arg4) = x4 := by rw [← hW50]; after_results_simp; exact e49_main_arg4
  have e50_main_v18 : W50 (Proc.devRef .tc main_v18) = Read.val_main_v18 (F := F) x0 x2 x3 := by rw [← hW50]; after_results_simp; exact e49_main_v18
  have e50_main_v24 : W50 (Proc.devRef .tc main_v24) = Read.val_main_v24 (F := F) x6 := by rw [← hW50]; after_results_simp; exact e49_main_v24
  have e50_main_v38 : W50 (Proc.devRef .tc main_v38) = Read.val_main_v38 (F := F) x0 x1 x2 x3 x4 := by rw [← hW50]; after_results_simp; exact e49_main_v38
  have e50_main_v40 : W50 (Proc.devRef .tc main_v40) = Read.val_main_v40 (F := F) x5 := by
    rw [← hW50]; after_results_simp; simp only [e49_main_v39]
    unfold Read.val_main_v40; generalize Read.val_main_v39 (F := F) x5 = A_main_v39; rfl
  clear hW50 e49_main_arg9 e49_main_arg8 e49_main_arg7 e49_main_v12 e49_main_v3 e49_main_v1 e49_main_v17 e49_main_arg6 e49_main_arg5 e49_main_arg4 e49_main_v18 e49_main_v24 e49_main_v38 e49_main_v39 W49
  -- operation 50: binary main_v38 main_v40 → main_v41
  apply after_step; intro W51 hW51
  have e51_main_arg9 : W51 (Proc.devRef .tc main_arg9) = x9 := by rw [← hW51]; after_results_simp; exact e50_main_arg9
  have e51_main_arg8 : W51 (Proc.devRef .tc main_arg8) = x8 := by rw [← hW51]; after_results_simp; exact e50_main_arg8
  have e51_main_arg7 : W51 (Proc.devRef .tc main_arg7) = x7 := by rw [← hW51]; after_results_simp; exact e50_main_arg7
  have e51_main_v12 : W51 (Proc.devRef .tc main_v12) = Read.val_main_v12 (F := F) x1 := by rw [← hW51]; after_results_simp; exact e50_main_v12
  have e51_main_v3 : W51 (Proc.devRef .tc main_v3) = Read.val_main_v3 (F := F) x1 := by rw [← hW51]; after_results_simp; exact e50_main_v3
  have e51_main_v1 : W51 (Proc.devRef .tc main_v1) = Read.val_main_v1 (F := F) x1 := by rw [← hW51]; after_results_simp; exact e50_main_v1
  have e51_main_v17 : W51 (Proc.devRef .tc main_v17) = Read.val_main_v17 (F := F) x0 x2 x3 := by rw [← hW51]; after_results_simp; exact e50_main_v17
  have e51_main_arg6 : W51 (Proc.devRef .tc main_arg6) = x6 := by rw [← hW51]; after_results_simp; exact e50_main_arg6
  have e51_main_arg5 : W51 (Proc.devRef .tc main_arg5) = x5 := by rw [← hW51]; after_results_simp; exact e50_main_arg5
  have e51_main_arg4 : W51 (Proc.devRef .tc main_arg4) = x4 := by rw [← hW51]; after_results_simp; exact e50_main_arg4
  have e51_main_v41 : W51 (Proc.devRef .tc main_v41) = Read.val_main_v41 (F := F) x0 x1 x2 x3 x4 x5 := by
    rw [← hW51]; after_results_simp; simp only [e50_main_v38, e50_main_v40]
    unfold Read.val_main_v41; generalize Read.val_main_v38 (F := F) x0 x1 x2 x3 x4 = A_main_v38; generalize Read.val_main_v40 (F := F) x5 = A_main_v40; rfl
  have e51_main_v18 : W51 (Proc.devRef .tc main_v18) = Read.val_main_v18 (F := F) x0 x2 x3 := by rw [← hW51]; after_results_simp; exact e50_main_v18
  have e51_main_v24 : W51 (Proc.devRef .tc main_v24) = Read.val_main_v24 (F := F) x6 := by rw [← hW51]; after_results_simp; exact e50_main_v24
  clear hW51 e50_main_arg9 e50_main_arg8 e50_main_arg7 e50_main_v12 e50_main_v3 e50_main_v1 e50_main_v17 e50_main_arg6 e50_main_arg5 e50_main_arg4 e50_main_v18 e50_main_v24 e50_main_v38 e50_main_v40 W50
  -- operation 51: unary main_v24 → main_v42
  apply after_step; intro W52 hW52
  have e52_main_arg9 : W52 (Proc.devRef .tc main_arg9) = x9 := by rw [← hW52]; after_results_simp; exact e51_main_arg9
  have e52_main_arg8 : W52 (Proc.devRef .tc main_arg8) = x8 := by rw [← hW52]; after_results_simp; exact e51_main_arg8
  have e52_main_arg7 : W52 (Proc.devRef .tc main_arg7) = x7 := by rw [← hW52]; after_results_simp; exact e51_main_arg7
  have e52_main_v12 : W52 (Proc.devRef .tc main_v12) = Read.val_main_v12 (F := F) x1 := by rw [← hW52]; after_results_simp; exact e51_main_v12
  have e52_main_v3 : W52 (Proc.devRef .tc main_v3) = Read.val_main_v3 (F := F) x1 := by rw [← hW52]; after_results_simp; exact e51_main_v3
  have e52_main_v1 : W52 (Proc.devRef .tc main_v1) = Read.val_main_v1 (F := F) x1 := by rw [← hW52]; after_results_simp; exact e51_main_v1
  have e52_main_v17 : W52 (Proc.devRef .tc main_v17) = Read.val_main_v17 (F := F) x0 x2 x3 := by rw [← hW52]; after_results_simp; exact e51_main_v17
  have e52_main_arg6 : W52 (Proc.devRef .tc main_arg6) = x6 := by rw [← hW52]; after_results_simp; exact e51_main_arg6
  have e52_main_arg5 : W52 (Proc.devRef .tc main_arg5) = x5 := by rw [← hW52]; after_results_simp; exact e51_main_arg5
  have e52_main_arg4 : W52 (Proc.devRef .tc main_arg4) = x4 := by rw [← hW52]; after_results_simp; exact e51_main_arg4
  have e52_main_v41 : W52 (Proc.devRef .tc main_v41) = Read.val_main_v41 (F := F) x0 x1 x2 x3 x4 x5 := by rw [← hW52]; after_results_simp; exact e51_main_v41
  have e52_main_v18 : W52 (Proc.devRef .tc main_v18) = Read.val_main_v18 (F := F) x0 x2 x3 := by rw [← hW52]; after_results_simp; exact e51_main_v18
  have e52_main_v42 : W52 (Proc.devRef .tc main_v42) = Read.val_main_v42 (F := F) x6 := by
    rw [← hW52]; after_results_simp; simp only [e51_main_v24]
    unfold Read.val_main_v42; generalize Read.val_main_v24 (F := F) x6 = A_main_v24; rfl
  clear hW52 e51_main_arg9 e51_main_arg8 e51_main_arg7 e51_main_v12 e51_main_v3 e51_main_v1 e51_main_v17 e51_main_arg6 e51_main_arg5 e51_main_arg4 e51_main_v41 e51_main_v18 e51_main_v24 W51
  -- operation 52: binary main_v18 main_v42 → main_v43
  apply after_step; intro W53 hW53
  have e53_main_arg9 : W53 (Proc.devRef .tc main_arg9) = x9 := by rw [← hW53]; after_results_simp; exact e52_main_arg9
  have e53_main_arg8 : W53 (Proc.devRef .tc main_arg8) = x8 := by rw [← hW53]; after_results_simp; exact e52_main_arg8
  have e53_main_arg7 : W53 (Proc.devRef .tc main_arg7) = x7 := by rw [← hW53]; after_results_simp; exact e52_main_arg7
  have e53_main_v12 : W53 (Proc.devRef .tc main_v12) = Read.val_main_v12 (F := F) x1 := by rw [← hW53]; after_results_simp; exact e52_main_v12
  have e53_main_v3 : W53 (Proc.devRef .tc main_v3) = Read.val_main_v3 (F := F) x1 := by rw [← hW53]; after_results_simp; exact e52_main_v3
  have e53_main_v1 : W53 (Proc.devRef .tc main_v1) = Read.val_main_v1 (F := F) x1 := by rw [← hW53]; after_results_simp; exact e52_main_v1
  have e53_main_v17 : W53 (Proc.devRef .tc main_v17) = Read.val_main_v17 (F := F) x0 x2 x3 := by rw [← hW53]; after_results_simp; exact e52_main_v17
  have e53_main_arg6 : W53 (Proc.devRef .tc main_arg6) = x6 := by rw [← hW53]; after_results_simp; exact e52_main_arg6
  have e53_main_arg5 : W53 (Proc.devRef .tc main_arg5) = x5 := by rw [← hW53]; after_results_simp; exact e52_main_arg5
  have e53_main_arg4 : W53 (Proc.devRef .tc main_arg4) = x4 := by rw [← hW53]; after_results_simp; exact e52_main_arg4
  have e53_main_v41 : W53 (Proc.devRef .tc main_v41) = Read.val_main_v41 (F := F) x0 x1 x2 x3 x4 x5 := by rw [← hW53]; after_results_simp; exact e52_main_v41
  have e53_main_v43 : W53 (Proc.devRef .tc main_v43) = Read.val_main_v43 (F := F) x0 x2 x3 x6 := by
    rw [← hW53]; after_results_simp; simp only [e52_main_v18, e52_main_v42]
    unfold Read.val_main_v43; generalize Read.val_main_v18 (F := F) x0 x2 x3 = A_main_v18; generalize Read.val_main_v42 (F := F) x6 = A_main_v42; rfl
  clear hW53 e52_main_arg9 e52_main_arg8 e52_main_arg7 e52_main_v12 e52_main_v3 e52_main_v1 e52_main_v17 e52_main_arg6 e52_main_arg5 e52_main_arg4 e52_main_v41 e52_main_v18 e52_main_v42 W52
  -- operation 53: binary main_v41 main_v43 → main_v44
  apply after_step; intro W54 hW54
  have e54_main_arg9 : W54 (Proc.devRef .tc main_arg9) = x9 := by rw [← hW54]; after_results_simp; exact e53_main_arg9
  have e54_main_arg8 : W54 (Proc.devRef .tc main_arg8) = x8 := by rw [← hW54]; after_results_simp; exact e53_main_arg8
  have e54_main_arg7 : W54 (Proc.devRef .tc main_arg7) = x7 := by rw [← hW54]; after_results_simp; exact e53_main_arg7
  have e54_main_v12 : W54 (Proc.devRef .tc main_v12) = Read.val_main_v12 (F := F) x1 := by rw [← hW54]; after_results_simp; exact e53_main_v12
  have e54_main_v3 : W54 (Proc.devRef .tc main_v3) = Read.val_main_v3 (F := F) x1 := by rw [← hW54]; after_results_simp; exact e53_main_v3
  have e54_main_v1 : W54 (Proc.devRef .tc main_v1) = Read.val_main_v1 (F := F) x1 := by rw [← hW54]; after_results_simp; exact e53_main_v1
  have e54_main_v17 : W54 (Proc.devRef .tc main_v17) = Read.val_main_v17 (F := F) x0 x2 x3 := by rw [← hW54]; after_results_simp; exact e53_main_v17
  have e54_main_arg6 : W54 (Proc.devRef .tc main_arg6) = x6 := by rw [← hW54]; after_results_simp; exact e53_main_arg6
  have e54_main_arg5 : W54 (Proc.devRef .tc main_arg5) = x5 := by rw [← hW54]; after_results_simp; exact e53_main_arg5
  have e54_main_arg4 : W54 (Proc.devRef .tc main_arg4) = x4 := by rw [← hW54]; after_results_simp; exact e53_main_arg4
  have e54_main_v44 : W54 (Proc.devRef .tc main_v44) = Read.val_main_v44 (F := F) x0 x1 x2 x3 x4 x5 x6 := by
    rw [← hW54]; after_results_simp; simp only [e53_main_v41, e53_main_v43]
    unfold Read.val_main_v44; generalize Read.val_main_v41 (F := F) x0 x1 x2 x3 x4 x5 = A_main_v41; generalize Read.val_main_v43 (F := F) x0 x2 x3 x6 = A_main_v43; rfl
  clear hW54 e53_main_arg9 e53_main_arg8 e53_main_arg7 e53_main_v12 e53_main_v3 e53_main_v1 e53_main_v17 e53_main_arg6 e53_main_arg5 e53_main_arg4 e53_main_v41 e53_main_v43 W53
  -- operation 54: TRef.nullary  → main_call1_cst
  apply after_step; intro W55 hW55
  have e55_main_arg9 : W55 (Proc.devRef .tc main_arg9) = x9 := by rw [← hW55]; after_results_simp; exact e54_main_arg9
  have e55_main_arg8 : W55 (Proc.devRef .tc main_arg8) = x8 := by rw [← hW55]; after_results_simp; exact e54_main_arg8
  have e55_main_arg7 : W55 (Proc.devRef .tc main_arg7) = x7 := by rw [← hW55]; after_results_simp; exact e54_main_arg7
  have e55_main_v12 : W55 (Proc.devRef .tc main_v12) = Read.val_main_v12 (F := F) x1 := by rw [← hW55]; after_results_simp; exact e54_main_v12
  have e55_main_v3 : W55 (Proc.devRef .tc main_v3) = Read.val_main_v3 (F := F) x1 := by rw [← hW55]; after_results_simp; exact e54_main_v3
  have e55_main_v1 : W55 (Proc.devRef .tc main_v1) = Read.val_main_v1 (F := F) x1 := by rw [← hW55]; after_results_simp; exact e54_main_v1
  have e55_main_v17 : W55 (Proc.devRef .tc main_v17) = Read.val_main_v17 (F := F) x0 x2 x3 := by rw [← hW55]; after_results_simp; exact e54_main_v17
  have e55_main_arg6 : W55 (Proc.devRef .tc main_arg6) = x6 := by rw [← hW55]; after_results_simp; exact e54_main_arg6
  have e55_main_arg5 : W55 (Proc.devRef .tc main_arg5) = x5 := by rw [← hW55]; after_results_simp; exact e54_main_arg5
  have e55_main_arg4 : W55 (Proc.devRef .tc main_arg4) = x4 := by rw [← hW55]; after_results_simp; exact e54_main_arg4
  have e55_main_v44 : W55 (Proc.devRef .tc main_v44) = Read.val_main_v44 (F := F) x0 x1 x2 x3 x4 x5 x6 := by rw [← hW55]; after_results_simp; exact e54_main_v44
  have e55_main_call1_cst : W55 (Proc.devRef .tc main_call1_cst) = Read.val_main_call1_cst (F := F) := by
    rw [← hW55]; after_results_simp
    unfold Read.val_main_call1_cst; refine (cast_eq _ _).trans ?_; rfl
  clear hW55 e54_main_arg9 e54_main_arg8 e54_main_arg7 e54_main_v12 e54_main_v3 e54_main_v1 e54_main_v17 e54_main_arg6 e54_main_arg5 e54_main_arg4 e54_main_v44 W54
  -- operation 55: TRef.unary main_call1_cst → main_call1_v0
  apply after_step; intro W56 hW56
  have e56_main_arg9 : W56 (Proc.devRef .tc main_arg9) = x9 := by rw [← hW56]; after_results_simp; exact e55_main_arg9
  have e56_main_arg8 : W56 (Proc.devRef .tc main_arg8) = x8 := by rw [← hW56]; after_results_simp; exact e55_main_arg8
  have e56_main_arg7 : W56 (Proc.devRef .tc main_arg7) = x7 := by rw [← hW56]; after_results_simp; exact e55_main_arg7
  have e56_main_v12 : W56 (Proc.devRef .tc main_v12) = Read.val_main_v12 (F := F) x1 := by rw [← hW56]; after_results_simp; exact e55_main_v12
  have e56_main_v3 : W56 (Proc.devRef .tc main_v3) = Read.val_main_v3 (F := F) x1 := by rw [← hW56]; after_results_simp; exact e55_main_v3
  have e56_main_v1 : W56 (Proc.devRef .tc main_v1) = Read.val_main_v1 (F := F) x1 := by rw [← hW56]; after_results_simp; exact e55_main_v1
  have e56_main_v17 : W56 (Proc.devRef .tc main_v17) = Read.val_main_v17 (F := F) x0 x2 x3 := by rw [← hW56]; after_results_simp; exact e55_main_v17
  have e56_main_arg6 : W56 (Proc.devRef .tc main_arg6) = x6 := by rw [← hW56]; after_results_simp; exact e55_main_arg6
  have e56_main_arg5 : W56 (Proc.devRef .tc main_arg5) = x5 := by rw [← hW56]; after_results_simp; exact e55_main_arg5
  have e56_main_arg4 : W56 (Proc.devRef .tc main_arg4) = x4 := by rw [← hW56]; after_results_simp; exact e55_main_arg4
  have e56_main_v44 : W56 (Proc.devRef .tc main_v44) = Read.val_main_v44 (F := F) x0 x1 x2 x3 x4 x5 x6 := by rw [← hW56]; after_results_simp; exact e55_main_v44
  have e56_main_call1_v0 : W56 (Proc.devRef .tc main_call1_v0) = Read.val_main_call1_v0 (F := F) := by
    rw [← hW56]; after_results_simp; simp only [e55_main_call1_cst]
    unfold Read.val_main_call1_v0; generalize Read.val_main_call1_cst (F := F) = A_main_call1_cst; refine (cast_eq _ _).trans ?_; rfl
  clear hW56 e55_main_arg9 e55_main_arg8 e55_main_arg7 e55_main_v12 e55_main_v3 e55_main_v1 e55_main_v17 e55_main_arg6 e55_main_arg5 e55_main_arg4 e55_main_v44 e55_main_call1_cst W55
  -- operation 56: TRef.binary main_v44 main_call1_v0 → main_v45
  apply after_step; intro W57 hW57
  have e57_main_arg9 : W57 (Proc.devRef .tc main_arg9) = x9 := by rw [← hW57]; after_results_simp; exact e56_main_arg9
  have e57_main_arg8 : W57 (Proc.devRef .tc main_arg8) = x8 := by rw [← hW57]; after_results_simp; exact e56_main_arg8
  have e57_main_arg7 : W57 (Proc.devRef .tc main_arg7) = x7 := by rw [← hW57]; after_results_simp; exact e56_main_arg7
  have e57_main_v12 : W57 (Proc.devRef .tc main_v12) = Read.val_main_v12 (F := F) x1 := by rw [← hW57]; after_results_simp; exact e56_main_v12
  have e57_main_v3 : W57 (Proc.devRef .tc main_v3) = Read.val_main_v3 (F := F) x1 := by rw [← hW57]; after_results_simp; exact e56_main_v3
  have e57_main_v1 : W57 (Proc.devRef .tc main_v1) = Read.val_main_v1 (F := F) x1 := by rw [← hW57]; after_results_simp; exact e56_main_v1
  have e57_main_v17 : W57 (Proc.devRef .tc main_v17) = Read.val_main_v17 (F := F) x0 x2 x3 := by rw [← hW57]; after_results_simp; exact e56_main_v17
  have e57_main_arg6 : W57 (Proc.devRef .tc main_arg6) = x6 := by rw [← hW57]; after_results_simp; exact e56_main_arg6
  have e57_main_arg5 : W57 (Proc.devRef .tc main_arg5) = x5 := by rw [← hW57]; after_results_simp; exact e56_main_arg5
  have e57_main_arg4 : W57 (Proc.devRef .tc main_arg4) = x4 := by rw [← hW57]; after_results_simp; exact e56_main_arg4
  have e57_main_v45 : W57 (Proc.devRef .tc main_v45) = Read.val_main_v45 (F := F) x0 x1 x2 x3 x4 x5 x6 := by
    rw [← hW57]; after_results_simp; simp only [e56_main_v44, e56_main_call1_v0]
    unfold Read.val_main_v45; generalize Read.val_main_v44 (F := F) x0 x1 x2 x3 x4 x5 x6 = A_main_v44; generalize Read.val_main_call1_v0 (F := F) = A_main_call1_v0; refine (cast_eq _ _).trans ?_; rfl
  clear hW57 e56_main_arg9 e56_main_arg8 e56_main_arg7 e56_main_v12 e56_main_v3 e56_main_v1 e56_main_v17 e56_main_arg6 e56_main_arg5 e56_main_arg4 e56_main_v44 e56_main_call1_v0 W56
  -- operation 57: nullary  → main_cst_5
  apply after_step; intro W58 hW58
  have e58_main_arg9 : W58 (Proc.devRef .tc main_arg9) = x9 := by rw [← hW58]; after_results_simp; exact e57_main_arg9
  have e58_main_arg8 : W58 (Proc.devRef .tc main_arg8) = x8 := by rw [← hW58]; after_results_simp; exact e57_main_arg8
  have e58_main_arg7 : W58 (Proc.devRef .tc main_arg7) = x7 := by rw [← hW58]; after_results_simp; exact e57_main_arg7
  have e58_main_v12 : W58 (Proc.devRef .tc main_v12) = Read.val_main_v12 (F := F) x1 := by rw [← hW58]; after_results_simp; exact e57_main_v12
  have e58_main_v3 : W58 (Proc.devRef .tc main_v3) = Read.val_main_v3 (F := F) x1 := by rw [← hW58]; after_results_simp; exact e57_main_v3
  have e58_main_v1 : W58 (Proc.devRef .tc main_v1) = Read.val_main_v1 (F := F) x1 := by rw [← hW58]; after_results_simp; exact e57_main_v1
  have e58_main_v17 : W58 (Proc.devRef .tc main_v17) = Read.val_main_v17 (F := F) x0 x2 x3 := by rw [← hW58]; after_results_simp; exact e57_main_v17
  have e58_main_arg6 : W58 (Proc.devRef .tc main_arg6) = x6 := by rw [← hW58]; after_results_simp; exact e57_main_arg6
  have e58_main_arg5 : W58 (Proc.devRef .tc main_arg5) = x5 := by rw [← hW58]; after_results_simp; exact e57_main_arg5
  have e58_main_arg4 : W58 (Proc.devRef .tc main_arg4) = x4 := by rw [← hW58]; after_results_simp; exact e57_main_arg4
  have e58_main_v45 : W58 (Proc.devRef .tc main_v45) = Read.val_main_v45 (F := F) x0 x1 x2 x3 x4 x5 x6 := by rw [← hW58]; after_results_simp; exact e57_main_v45
  have e58_main_cst_5 : W58 (Proc.devRef .tc main_cst_5) = Read.val_main_cst_5 (F := F) := by
    rw [← hW58]; after_results_simp
    unfold Read.val_main_cst_5; rfl
  clear hW58 e57_main_arg9 e57_main_arg8 e57_main_arg7 e57_main_v12 e57_main_v3 e57_main_v1 e57_main_v17 e57_main_arg6 e57_main_arg5 e57_main_arg4 e57_main_v45 W57
  -- operation 58: unary main_cst_5 → main_v46
  apply after_step; intro W59 hW59
  have e59_main_arg9 : W59 (Proc.devRef .tc main_arg9) = x9 := by rw [← hW59]; after_results_simp; exact e58_main_arg9
  have e59_main_arg8 : W59 (Proc.devRef .tc main_arg8) = x8 := by rw [← hW59]; after_results_simp; exact e58_main_arg8
  have e59_main_arg7 : W59 (Proc.devRef .tc main_arg7) = x7 := by rw [← hW59]; after_results_simp; exact e58_main_arg7
  have e59_main_v12 : W59 (Proc.devRef .tc main_v12) = Read.val_main_v12 (F := F) x1 := by rw [← hW59]; after_results_simp; exact e58_main_v12
  have e59_main_v3 : W59 (Proc.devRef .tc main_v3) = Read.val_main_v3 (F := F) x1 := by rw [← hW59]; after_results_simp; exact e58_main_v3
  have e59_main_v1 : W59 (Proc.devRef .tc main_v1) = Read.val_main_v1 (F := F) x1 := by rw [← hW59]; after_results_simp; exact e58_main_v1
  have e59_main_v17 : W59 (Proc.devRef .tc main_v17) = Read.val_main_v17 (F := F) x0 x2 x3 := by rw [← hW59]; after_results_simp; exact e58_main_v17
  have e59_main_arg6 : W59 (Proc.devRef .tc main_arg6) = x6 := by rw [← hW59]; after_results_simp; exact e58_main_arg6
  have e59_main_arg5 : W59 (Proc.devRef .tc main_arg5) = x5 := by rw [← hW59]; after_results_simp; exact e58_main_arg5
  have e59_main_arg4 : W59 (Proc.devRef .tc main_arg4) = x4 := by rw [← hW59]; after_results_simp; exact e58_main_arg4
  have e59_main_v45 : W59 (Proc.devRef .tc main_v45) = Read.val_main_v45 (F := F) x0 x1 x2 x3 x4 x5 x6 := by rw [← hW59]; after_results_simp; exact e58_main_v45
  have e59_main_v46 : W59 (Proc.devRef .tc main_v46) = Read.val_main_v46 (F := F) := by
    rw [← hW59]; after_results_simp; simp only [e58_main_cst_5]
    unfold Read.val_main_v46; generalize Read.val_main_cst_5 (F := F) = A_main_cst_5; rfl
  clear hW59 e58_main_arg9 e58_main_arg8 e58_main_arg7 e58_main_v12 e58_main_v3 e58_main_v1 e58_main_v17 e58_main_arg6 e58_main_arg5 e58_main_arg4 e58_main_v45 e58_main_cst_5 W58
  -- operation 59: binary main_v46 main_v17 → main_v47
  apply after_step; intro W60 hW60
  have e60_main_arg9 : W60 (Proc.devRef .tc main_arg9) = x9 := by rw [← hW60]; after_results_simp; exact e59_main_arg9
  have e60_main_arg8 : W60 (Proc.devRef .tc main_arg8) = x8 := by rw [← hW60]; after_results_simp; exact e59_main_arg8
  have e60_main_arg7 : W60 (Proc.devRef .tc main_arg7) = x7 := by rw [← hW60]; after_results_simp; exact e59_main_arg7
  have e60_main_v12 : W60 (Proc.devRef .tc main_v12) = Read.val_main_v12 (F := F) x1 := by rw [← hW60]; after_results_simp; exact e59_main_v12
  have e60_main_v3 : W60 (Proc.devRef .tc main_v3) = Read.val_main_v3 (F := F) x1 := by rw [← hW60]; after_results_simp; exact e59_main_v3
  have e60_main_v1 : W60 (Proc.devRef .tc main_v1) = Read.val_main_v1 (F := F) x1 := by rw [← hW60]; after_results_simp; exact e59_main_v1
  have e60_main_v17 : W60 (Proc.devRef .tc main_v17) = Read.val_main_v17 (F := F) x0 x2 x3 := by rw [← hW60]; after_results_simp; exact e59_main_v17
  have e60_main_arg6 : W60 (Proc.devRef .tc main_arg6) = x6 := by rw [← hW60]; after_results_simp; exact e59_main_arg6
  have e60_main_arg5 : W60 (Proc.devRef .tc main_arg5) = x5 := by rw [← hW60]; after_results_simp; exact e59_main_arg5
  have e60_main_arg4 : W60 (Proc.devRef .tc main_arg4) = x4 := by rw [← hW60]; after_results_simp; exact e59_main_arg4
  have e60_main_v45 : W60 (Proc.devRef .tc main_v45) = Read.val_main_v45 (F := F) x0 x1 x2 x3 x4 x5 x6 := by rw [← hW60]; after_results_simp; exact e59_main_v45
  have e60_main_v47 : W60 (Proc.devRef .tc main_v47) = Read.val_main_v47 (F := F) x0 x2 x3 := by
    rw [← hW60]; after_results_simp; simp only [e59_main_v46, e59_main_v17]
    unfold Read.val_main_v47; generalize Read.val_main_v46 (F := F) = A_main_v46; generalize Read.val_main_v17 (F := F) x0 x2 x3 = A_main_v17; rfl
  clear hW60 e59_main_arg9 e59_main_arg8 e59_main_arg7 e59_main_v12 e59_main_v3 e59_main_v1 e59_main_v17 e59_main_arg6 e59_main_arg5 e59_main_arg4 e59_main_v45 e59_main_v46 W59
  -- operation 60: binary main_v45 main_v47 → main_v48
  apply after_step; intro W61 hW61
  have e61_main_arg9 : W61 (Proc.devRef .tc main_arg9) = x9 := by rw [← hW61]; after_results_simp; exact e60_main_arg9
  have e61_main_arg8 : W61 (Proc.devRef .tc main_arg8) = x8 := by rw [← hW61]; after_results_simp; exact e60_main_arg8
  have e61_main_arg7 : W61 (Proc.devRef .tc main_arg7) = x7 := by rw [← hW61]; after_results_simp; exact e60_main_arg7
  have e61_main_v12 : W61 (Proc.devRef .tc main_v12) = Read.val_main_v12 (F := F) x1 := by rw [← hW61]; after_results_simp; exact e60_main_v12
  have e61_main_v3 : W61 (Proc.devRef .tc main_v3) = Read.val_main_v3 (F := F) x1 := by rw [← hW61]; after_results_simp; exact e60_main_v3
  have e61_main_v1 : W61 (Proc.devRef .tc main_v1) = Read.val_main_v1 (F := F) x1 := by rw [← hW61]; after_results_simp; exact e60_main_v1
  have e61_main_v17 : W61 (Proc.devRef .tc main_v17) = Read.val_main_v17 (F := F) x0 x2 x3 := by rw [← hW61]; after_results_simp; exact e60_main_v17
  have e61_main_arg6 : W61 (Proc.devRef .tc main_arg6) = x6 := by rw [← hW61]; after_results_simp; exact e60_main_arg6
  have e61_main_arg5 : W61 (Proc.devRef .tc main_arg5) = x5 := by rw [← hW61]; after_results_simp; exact e60_main_arg5
  have e61_main_arg4 : W61 (Proc.devRef .tc main_arg4) = x4 := by rw [← hW61]; after_results_simp; exact e60_main_arg4
  have e61_main_v48 : W61 (Proc.devRef .tc main_v48) = Read.val_main_v48 (F := F) x0 x1 x2 x3 x4 x5 x6 := by
    rw [← hW61]; after_results_simp; simp only [e60_main_v45, e60_main_v47]
    unfold Read.val_main_v48; generalize Read.val_main_v45 (F := F) x0 x1 x2 x3 x4 x5 x6 = A_main_v45; generalize Read.val_main_v47 (F := F) x0 x2 x3 = A_main_v47; rfl
  clear hW61 e60_main_arg9 e60_main_arg8 e60_main_arg7 e60_main_v12 e60_main_v3 e60_main_v1 e60_main_v17 e60_main_arg6 e60_main_arg5 e60_main_arg4 e60_main_v45 e60_main_v47 W60
  -- operation 61: unary main_arg4 → main_v49
  apply after_step; intro W62 hW62
  have e62_main_arg9 : W62 (Proc.devRef .tc main_arg9) = x9 := by rw [← hW62]; after_results_simp; exact e61_main_arg9
  have e62_main_arg8 : W62 (Proc.devRef .tc main_arg8) = x8 := by rw [← hW62]; after_results_simp; exact e61_main_arg8
  have e62_main_arg7 : W62 (Proc.devRef .tc main_arg7) = x7 := by rw [← hW62]; after_results_simp; exact e61_main_arg7
  have e62_main_v12 : W62 (Proc.devRef .tc main_v12) = Read.val_main_v12 (F := F) x1 := by rw [← hW62]; after_results_simp; exact e61_main_v12
  have e62_main_v3 : W62 (Proc.devRef .tc main_v3) = Read.val_main_v3 (F := F) x1 := by rw [← hW62]; after_results_simp; exact e61_main_v3
  have e62_main_v1 : W62 (Proc.devRef .tc main_v1) = Read.val_main_v1 (F := F) x1 := by rw [← hW62]; after_results_simp; exact e61_main_v1
  have e62_main_v17 : W62 (Proc.devRef .tc main_v17) = Read.val_main_v17 (F := F) x0 x2 x3 := by rw [← hW62]; after_results_simp; exact e61_main_v17
  have e62_main_arg6 : W62 (Proc.devRef .tc main_arg6) = x6 := by rw [← hW62]; after_results_simp; exact e61_main_arg6
  have e62_main_arg5 : W62 (Proc.devRef .tc main_arg5) = x5 := by rw [← hW62]; after_results_simp; exact e61_main_arg5
  have e62_main_arg4 : W62 (Proc.devRef .tc main_arg4) = x4 := by rw [← hW62]; after_results_simp; exact e61_main_arg4
  have e62_main_v48 : W62 (Proc.devRef .tc main_v48) = Read.val_main_v48 (F := F) x0 x1 x2 x3 x4 x5 x6 := by rw [← hW62]; after_results_simp; exact e61_main_v48
  have e62_main_v49 : W62 (Proc.devRef .tc main_v49) = Read.val_main_v49 (F := F) x4 := by
    rw [← hW62]; after_results_simp; simp only [e61_main_arg4]
    unfold Read.val_main_v49; rfl
  clear hW62 e61_main_arg9 e61_main_arg8 e61_main_arg7 e61_main_v12 e61_main_v3 e61_main_v1 e61_main_v17 e61_main_arg6 e61_main_arg5 e61_main_arg4 e61_main_v48 W61
  -- operation 62: reshape main_v49 → main_v50
  apply after_step; intro W63 hW63
  have e63_main_arg9 : W63 (Proc.devRef .tc main_arg9) = x9 := by rw [← hW63]; after_results_simp; exact e62_main_arg9
  have e63_main_arg8 : W63 (Proc.devRef .tc main_arg8) = x8 := by rw [← hW63]; after_results_simp; exact e62_main_arg8
  have e63_main_arg7 : W63 (Proc.devRef .tc main_arg7) = x7 := by rw [← hW63]; after_results_simp; exact e62_main_arg7
  have e63_main_v12 : W63 (Proc.devRef .tc main_v12) = Read.val_main_v12 (F := F) x1 := by rw [← hW63]; after_results_simp; exact e62_main_v12
  have e63_main_v3 : W63 (Proc.devRef .tc main_v3) = Read.val_main_v3 (F := F) x1 := by rw [← hW63]; after_results_simp; exact e62_main_v3
  have e63_main_v1 : W63 (Proc.devRef .tc main_v1) = Read.val_main_v1 (F := F) x1 := by rw [← hW63]; after_results_simp; exact e62_main_v1
  have e63_main_v17 : W63 (Proc.devRef .tc main_v17) = Read.val_main_v17 (F := F) x0 x2 x3 := by rw [← hW63]; after_results_simp; exact e62_main_v17
  have e63_main_arg6 : W63 (Proc.devRef .tc main_arg6) = x6 := by rw [← hW63]; after_results_simp; exact e62_main_arg6
  have e63_main_arg5 : W63 (Proc.devRef .tc main_arg5) = x5 := by rw [← hW63]; after_results_simp; exact e62_main_arg5
  have e63_main_arg4 : W63 (Proc.devRef .tc main_arg4) = x4 := by rw [← hW63]; after_results_simp; exact e62_main_arg4
  have e63_main_v48 : W63 (Proc.devRef .tc main_v48) = Read.val_main_v48 (F := F) x0 x1 x2 x3 x4 x5 x6 := by rw [← hW63]; after_results_simp; exact e62_main_v48
  have e63_main_v50 : W63 (Proc.devRef .tc main_v50) = Read.val_main_v50 (F := F) x4 := by
    rw [← hW63]; after_results_simp; simp only [e62_main_v49]
    unfold Read.val_main_v50; generalize Read.val_main_v49 (F := F) x4 = A_main_v49; rfl
  clear hW63 e62_main_arg9 e62_main_arg8 e62_main_arg7 e62_main_v12 e62_main_v3 e62_main_v1 e62_main_v17 e62_main_arg6 e62_main_arg5 e62_main_arg4 e62_main_v48 e62_main_v49 W62
  -- operation 63: unary main_arg5 → main_v51
  apply after_step; intro W64 hW64
  have e64_main_arg9 : W64 (Proc.devRef .tc main_arg9) = x9 := by rw [← hW64]; after_results_simp; exact e63_main_arg9
  have e64_main_arg8 : W64 (Proc.devRef .tc main_arg8) = x8 := by rw [← hW64]; after_results_simp; exact e63_main_arg8
  have e64_main_arg7 : W64 (Proc.devRef .tc main_arg7) = x7 := by rw [← hW64]; after_results_simp; exact e63_main_arg7
  have e64_main_v12 : W64 (Proc.devRef .tc main_v12) = Read.val_main_v12 (F := F) x1 := by rw [← hW64]; after_results_simp; exact e63_main_v12
  have e64_main_v3 : W64 (Proc.devRef .tc main_v3) = Read.val_main_v3 (F := F) x1 := by rw [← hW64]; after_results_simp; exact e63_main_v3
  have e64_main_v1 : W64 (Proc.devRef .tc main_v1) = Read.val_main_v1 (F := F) x1 := by rw [← hW64]; after_results_simp; exact e63_main_v1
  have e64_main_v17 : W64 (Proc.devRef .tc main_v17) = Read.val_main_v17 (F := F) x0 x2 x3 := by rw [← hW64]; after_results_simp; exact e63_main_v17
  have e64_main_arg6 : W64 (Proc.devRef .tc main_arg6) = x6 := by rw [← hW64]; after_results_simp; exact e63_main_arg6
  have e64_main_arg5 : W64 (Proc.devRef .tc main_arg5) = x5 := by rw [← hW64]; after_results_simp; exact e63_main_arg5
  have e64_main_arg4 : W64 (Proc.devRef .tc main_arg4) = x4 := by rw [← hW64]; after_results_simp; exact e63_main_arg4
  have e64_main_v48 : W64 (Proc.devRef .tc main_v48) = Read.val_main_v48 (F := F) x0 x1 x2 x3 x4 x5 x6 := by rw [← hW64]; after_results_simp; exact e63_main_v48
  have e64_main_v50 : W64 (Proc.devRef .tc main_v50) = Read.val_main_v50 (F := F) x4 := by rw [← hW64]; after_results_simp; exact e63_main_v50
  have e64_main_v51 : W64 (Proc.devRef .tc main_v51) = Read.val_main_v51 (F := F) x5 := by
    rw [← hW64]; after_results_simp; simp only [e63_main_arg5]
    unfold Read.val_main_v51; rfl
  clear hW64 e63_main_arg9 e63_main_arg8 e63_main_arg7 e63_main_v12 e63_main_v3 e63_main_v1 e63_main_v17 e63_main_arg6 e63_main_arg5 e63_main_arg4 e63_main_v48 e63_main_v50 W63
  -- operation 64: reshape main_v51 → main_v52
  apply after_step; intro W65 hW65
  have e65_main_arg9 : W65 (Proc.devRef .tc main_arg9) = x9 := by rw [← hW65]; after_results_simp; exact e64_main_arg9
  have e65_main_arg8 : W65 (Proc.devRef .tc main_arg8) = x8 := by rw [← hW65]; after_results_simp; exact e64_main_arg8
  have e65_main_arg7 : W65 (Proc.devRef .tc main_arg7) = x7 := by rw [← hW65]; after_results_simp; exact e64_main_arg7
  have e65_main_v12 : W65 (Proc.devRef .tc main_v12) = Read.val_main_v12 (F := F) x1 := by rw [← hW65]; after_results_simp; exact e64_main_v12
  have e65_main_v3 : W65 (Proc.devRef .tc main_v3) = Read.val_main_v3 (F := F) x1 := by rw [← hW65]; after_results_simp; exact e64_main_v3
  have e65_main_v1 : W65 (Proc.devRef .tc main_v1) = Read.val_main_v1 (F := F) x1 := by rw [← hW65]; after_results_simp; exact e64_main_v1
  have e65_main_v17 : W65 (Proc.devRef .tc main_v17) = Read.val_main_v17 (F := F) x0 x2 x3 := by rw [← hW65]; after_results_simp; exact e64_main_v17
  have e65_main_arg6 : W65 (Proc.devRef .tc main_arg6) = x6 := by rw [← hW65]; after_results_simp; exact e64_main_arg6
  have e65_main_arg5 : W65 (Proc.devRef .tc main_arg5) = x5 := by rw [← hW65]; after_results_simp; exact e64_main_arg5
  have e65_main_arg4 : W65 (Proc.devRef .tc main_arg4) = x4 := by rw [← hW65]; after_results_simp; exact e64_main_arg4
  have e65_main_v48 : W65 (Proc.devRef .tc main_v48) = Read.val_main_v48 (F := F) x0 x1 x2 x3 x4 x5 x6 := by rw [← hW65]; after_results_simp; exact e64_main_v48
  have e65_main_v52 : W65 (Proc.devRef .tc main_v52) = Read.val_main_v52 (F := F) x5 := by
    rw [← hW65]; after_results_simp; simp only [e64_main_v51]
    unfold Read.val_main_v52; generalize Read.val_main_v51 (F := F) x5 = A_main_v51; rfl
  have e65_main_v50 : W65 (Proc.devRef .tc main_v50) = Read.val_main_v50 (F := F) x4 := by rw [← hW65]; after_results_simp; exact e64_main_v50
  clear hW65 e64_main_arg9 e64_main_arg8 e64_main_arg7 e64_main_v12 e64_main_v3 e64_main_v1 e64_main_v17 e64_main_arg6 e64_main_arg5 e64_main_arg4 e64_main_v48 e64_main_v50 e64_main_v51 W64
  -- operation 65: unary main_arg6 → main_v53
  apply after_step; intro W66 hW66
  have e66_main_arg9 : W66 (Proc.devRef .tc main_arg9) = x9 := by rw [← hW66]; after_results_simp; exact e65_main_arg9
  have e66_main_arg8 : W66 (Proc.devRef .tc main_arg8) = x8 := by rw [← hW66]; after_results_simp; exact e65_main_arg8
  have e66_main_arg7 : W66 (Proc.devRef .tc main_arg7) = x7 := by rw [← hW66]; after_results_simp; exact e65_main_arg7
  have e66_main_v12 : W66 (Proc.devRef .tc main_v12) = Read.val_main_v12 (F := F) x1 := by rw [← hW66]; after_results_simp; exact e65_main_v12
  have e66_main_v3 : W66 (Proc.devRef .tc main_v3) = Read.val_main_v3 (F := F) x1 := by rw [← hW66]; after_results_simp; exact e65_main_v3
  have e66_main_v1 : W66 (Proc.devRef .tc main_v1) = Read.val_main_v1 (F := F) x1 := by rw [← hW66]; after_results_simp; exact e65_main_v1
  have e66_main_v17 : W66 (Proc.devRef .tc main_v17) = Read.val_main_v17 (F := F) x0 x2 x3 := by rw [← hW66]; after_results_simp; exact e65_main_v17
  have e66_main_arg6 : W66 (Proc.devRef .tc main_arg6) = x6 := by rw [← hW66]; after_results_simp; exact e65_main_arg6
  have e66_main_arg5 : W66 (Proc.devRef .tc main_arg5) = x5 := by rw [← hW66]; after_results_simp; exact e65_main_arg5
  have e66_main_arg4 : W66 (Proc.devRef .tc main_arg4) = x4 := by rw [← hW66]; after_results_simp; exact e65_main_arg4
  have e66_main_v48 : W66 (Proc.devRef .tc main_v48) = Read.val_main_v48 (F := F) x0 x1 x2 x3 x4 x5 x6 := by rw [← hW66]; after_results_simp; exact e65_main_v48
  have e66_main_v52 : W66 (Proc.devRef .tc main_v52) = Read.val_main_v52 (F := F) x5 := by rw [← hW66]; after_results_simp; exact e65_main_v52
  have e66_main_v50 : W66 (Proc.devRef .tc main_v50) = Read.val_main_v50 (F := F) x4 := by rw [← hW66]; after_results_simp; exact e65_main_v50
  have e66_main_v53 : W66 (Proc.devRef .tc main_v53) = Read.val_main_v53 (F := F) x6 := by
    rw [← hW66]; after_results_simp; simp only [e65_main_arg6]
    unfold Read.val_main_v53; rfl
  clear hW66 e65_main_arg9 e65_main_arg8 e65_main_arg7 e65_main_v12 e65_main_v3 e65_main_v1 e65_main_v17 e65_main_arg6 e65_main_arg5 e65_main_arg4 e65_main_v48 e65_main_v52 e65_main_v50 W65
  -- operation 66: reshape main_v53 → main_v54
  apply after_step; intro W67 hW67
  have e67_main_arg9 : W67 (Proc.devRef .tc main_arg9) = x9 := by rw [← hW67]; after_results_simp; exact e66_main_arg9
  have e67_main_arg8 : W67 (Proc.devRef .tc main_arg8) = x8 := by rw [← hW67]; after_results_simp; exact e66_main_arg8
  have e67_main_arg7 : W67 (Proc.devRef .tc main_arg7) = x7 := by rw [← hW67]; after_results_simp; exact e66_main_arg7
  have e67_main_v12 : W67 (Proc.devRef .tc main_v12) = Read.val_main_v12 (F := F) x1 := by rw [← hW67]; after_results_simp; exact e66_main_v12
  have e67_main_v3 : W67 (Proc.devRef .tc main_v3) = Read.val_main_v3 (F := F) x1 := by rw [← hW67]; after_results_simp; exact e66_main_v3
  have e67_main_v1 : W67 (Proc.devRef .tc main_v1) = Read.val_main_v1 (F := F) x1 := by rw [← hW67]; after_results_simp; exact e66_main_v1
  have e67_main_v17 : W67 (Proc.devRef .tc main_v17) = Read.val_main_v17 (F := F) x0 x2 x3 := by rw [← hW67]; after_results_simp; exact e66_main_v17
  have e67_main_arg6 : W67 (Proc.devRef .tc main_arg6) = x6 := by rw [← hW67]; after_results_simp; exact e66_main_arg6
  have e67_main_arg5 : W67 (Proc.devRef .tc main_arg5) = x5 := by rw [← hW67]; after_results_simp; exact e66_main_arg5
  have e67_main_arg4 : W67 (Proc.devRef .tc main_arg4) = x4 := by rw [← hW67]; after_results_simp; exact e66_main_arg4
  have e67_main_v48 : W67 (Proc.devRef .tc main_v48) = Read.val_main_v48 (F := F) x0 x1 x2 x3 x4 x5 x6 := by rw [← hW67]; after_results_simp; exact e66_main_v48
  have e67_main_v54 : W67 (Proc.devRef .tc main_v54) = Read.val_main_v54 (F := F) x6 := by
    rw [← hW67]; after_results_simp; simp only [e66_main_v53]
    unfold Read.val_main_v54; generalize Read.val_main_v53 (F := F) x6 = A_main_v53; rfl
  have e67_main_v52 : W67 (Proc.devRef .tc main_v52) = Read.val_main_v52 (F := F) x5 := by rw [← hW67]; after_results_simp; exact e66_main_v52
  have e67_main_v50 : W67 (Proc.devRef .tc main_v50) = Read.val_main_v50 (F := F) x4 := by rw [← hW67]; after_results_simp; exact e66_main_v50
  clear hW67 e66_main_arg9 e66_main_arg8 e66_main_arg7 e66_main_v12 e66_main_v3 e66_main_v1 e66_main_v17 e66_main_arg6 e66_main_arg5 e66_main_arg4 e66_main_v48 e66_main_v52 e66_main_v50 e66_main_v53 W66
  -- operation 67: nullary  → main_c_6
  apply after_step; intro W68 hW68
  have e68_main_arg9 : W68 (Proc.devRef .tc main_arg9) = x9 := by rw [← hW68]; after_results_simp; exact e67_main_arg9
  have e68_main_arg8 : W68 (Proc.devRef .tc main_arg8) = x8 := by rw [← hW68]; after_results_simp; exact e67_main_arg8
  have e68_main_arg7 : W68 (Proc.devRef .tc main_arg7) = x7 := by rw [← hW68]; after_results_simp; exact e67_main_arg7
  have e68_main_v12 : W68 (Proc.devRef .tc main_v12) = Read.val_main_v12 (F := F) x1 := by rw [← hW68]; after_results_simp; exact e67_main_v12
  have e68_main_v3 : W68 (Proc.devRef .tc main_v3) = Read.val_main_v3 (F := F) x1 := by rw [← hW68]; after_results_simp; exact e67_main_v3
  have e68_main_v1 : W68 (Proc.devRef .tc main_v1) = Read.val_main_v1 (F := F) x1 := by rw [← hW68]; after_results_simp; exact e67_main_v1
  have e68_main_v17 : W68 (Proc.devRef .tc main_v17) = Read.val_main_v17 (F := F) x0 x2 x3 := by rw [← hW68]; after_results_simp; exact e67_main_v17
  have e68_main_arg6 : W68 (Proc.devRef .tc main_arg6) = x6 := by rw [← hW68]; after_results_simp; exact e67_main_arg6
  have e68_main_arg5 : W68 (Proc.devRef .tc main_arg5) = x5 := by rw [← hW68]; after_results_simp; exact e67_main_arg5
  have e68_main_arg4 : W68 (Proc.devRef .tc main_arg4) = x4 := by rw [← hW68]; after_results_simp; exact e67_main_arg4
  have e68_main_v48 : W68 (Proc.devRef .tc main_v48) = Read.val_main_v48 (F := F) x0 x1 x2 x3 x4 x5 x6 := by rw [← hW68]; after_results_simp; exact e67_main_v48
  have e68_main_v54 : W68 (Proc.devRef .tc main_v54) = Read.val_main_v54 (F := F) x6 := by rw [← hW68]; after_results_simp; exact e67_main_v54
  have e68_main_v52 : W68 (Proc.devRef .tc main_v52) = Read.val_main_v52 (F := F) x5 := by rw [← hW68]; after_results_simp; exact e67_main_v52
  have e68_main_v50 : W68 (Proc.devRef .tc main_v50) = Read.val_main_v50 (F := F) x4 := by rw [← hW68]; after_results_simp; exact e67_main_v50
  have e68_main_c_6 : W68 (Proc.devRef .tc main_c_6) = Read.val_main_c_6 (F := F) := by
    rw [← hW68]; after_results_simp
    unfold Read.val_main_c_6; rfl
  clear hW68 e67_main_arg9 e67_main_arg8 e67_main_arg7 e67_main_v12 e67_main_v3 e67_main_v1 e67_main_v17 e67_main_arg6 e67_main_arg5 e67_main_arg4 e67_main_v48 e67_main_v54 e67_main_v52 e67_main_v50 W67
  -- operation 68: unary main_c_6 → main_v55
  apply after_step; intro W69 hW69
  have e69_main_arg9 : W69 (Proc.devRef .tc main_arg9) = x9 := by rw [← hW69]; after_results_simp; exact e68_main_arg9
  have e69_main_arg8 : W69 (Proc.devRef .tc main_arg8) = x8 := by rw [← hW69]; after_results_simp; exact e68_main_arg8
  have e69_main_arg7 : W69 (Proc.devRef .tc main_arg7) = x7 := by rw [← hW69]; after_results_simp; exact e68_main_arg7
  have e69_main_v12 : W69 (Proc.devRef .tc main_v12) = Read.val_main_v12 (F := F) x1 := by rw [← hW69]; after_results_simp; exact e68_main_v12
  have e69_main_v3 : W69 (Proc.devRef .tc main_v3) = Read.val_main_v3 (F := F) x1 := by rw [← hW69]; after_results_simp; exact e68_main_v3
  have e69_main_v1 : W69 (Proc.devRef .tc main_v1) = Read.val_main_v1 (F := F) x1 := by rw [← hW69]; after_results_simp; exact e68_main_v1
  have e69_main_v17 : W69 (Proc.devRef .tc main_v17) = Read.val_main_v17 (F := F) x0 x2 x3 := by rw [← hW69]; after_results_simp; exact e68_main_v17
  have e69_main_arg6 : W69 (Proc.devRef .tc main_arg6) = x6 := by rw [← hW69]; after_results_simp; exact e68_main_arg6
  have e69_main_arg5 : W69 (Proc.devRef .tc main_arg5) = x5 := by rw [← hW69]; after_results_simp; exact e68_main_arg5
  have e69_main_arg4 : W69 (Proc.devRef .tc main_arg4) = x4 := by rw [← hW69]; after_results_simp; exact e68_main_arg4
  have e69_main_v48 : W69 (Proc.devRef .tc main_v48) = Read.val_main_v48 (F := F) x0 x1 x2 x3 x4 x5 x6 := by rw [← hW69]; after_results_simp; exact e68_main_v48
  have e69_main_v54 : W69 (Proc.devRef .tc main_v54) = Read.val_main_v54 (F := F) x6 := by rw [← hW69]; after_results_simp; exact e68_main_v54
  have e69_main_v52 : W69 (Proc.devRef .tc main_v52) = Read.val_main_v52 (F := F) x5 := by rw [← hW69]; after_results_simp; exact e68_main_v52
  have e69_main_v50 : W69 (Proc.devRef .tc main_v50) = Read.val_main_v50 (F := F) x4 := by rw [← hW69]; after_results_simp; exact e68_main_v50
  have e69_main_v55 : W69 (Proc.devRef .tc main_v55) = Read.val_main_v55 (F := F) := by
    rw [← hW69]; after_results_simp; simp only [e68_main_c_6]
    unfold Read.val_main_v55; generalize Read.val_main_c_6 (F := F) = A_main_c_6; rfl
  clear hW69 e68_main_arg9 e68_main_arg8 e68_main_arg7 e68_main_v12 e68_main_v3 e68_main_v1 e68_main_v17 e68_main_arg6 e68_main_arg5 e68_main_arg4 e68_main_v48 e68_main_v54 e68_main_v52 e68_main_v50 e68_main_c_6 W68
  -- operation 69: binary main_v1 main_v55 → main_v56
  apply after_step; intro W70 hW70
  have e70_main_arg9 : W70 (Proc.devRef .tc main_arg9) = x9 := by rw [← hW70]; after_results_simp; exact e69_main_arg9
  have e70_main_arg8 : W70 (Proc.devRef .tc main_arg8) = x8 := by rw [← hW70]; after_results_simp; exact e69_main_arg8
  have e70_main_arg7 : W70 (Proc.devRef .tc main_arg7) = x7 := by rw [← hW70]; after_results_simp; exact e69_main_arg7
  have e70_main_v12 : W70 (Proc.devRef .tc main_v12) = Read.val_main_v12 (F := F) x1 := by rw [← hW70]; after_results_simp; exact e69_main_v12
  have e70_main_v3 : W70 (Proc.devRef .tc main_v3) = Read.val_main_v3 (F := F) x1 := by rw [← hW70]; after_results_simp; exact e69_main_v3
  have e70_main_v1 : W70 (Proc.devRef .tc main_v1) = Read.val_main_v1 (F := F) x1 := by rw [← hW70]; after_results_simp; exact e69_main_v1
  have e70_main_v17 : W70 (Proc.devRef .tc main_v17) = Read.val_main_v17 (F := F) x0 x2 x3 := by rw [← hW70]; after_results_simp; exact e69_main_v17
  have e70_main_arg6 : W70 (Proc.devRef .tc main_arg6) = x6 := by rw [← hW70]; after_results_simp; exact e69_main_arg6
  have e70_main_arg5 : W70 (Proc.devRef .tc main_arg5) = x5 := by rw [← hW70]; after_results_simp; exact e69_main_arg5
  have e70_main_arg4 : W70 (Proc.devRef .tc main_arg4) = x4 := by rw [← hW70]; after_results_simp; exact e69_main_arg4
  have e70_main_v48 : W70 (Proc.devRef .tc main_v48) = Read.val_main_v48 (F := F) x0 x1 x2 x3 x4 x5 x6 := by rw [← hW70]; after_results_simp; exact e69_main_v48
  have e70_main_v54 : W70 (Proc.devRef .tc main_v54) = Read.val_main_v54 (F := F) x6 := by rw [← hW70]; after_results_simp; exact e69_main_v54
  have e70_main_v52 : W70 (Proc.devRef .tc main_v52) = Read.val_main_v52 (F := F) x5 := by rw [← hW70]; after_results_simp; exact e69_main_v52
  have e70_main_v50 : W70 (Proc.devRef .tc main_v50) = Read.val_main_v50 (F := F) x4 := by rw [← hW70]; after_results_simp; exact e69_main_v50
  have e70_main_v56 : W70 (Proc.devRef .tc main_v56) = Read.val_main_v56 (F := F) x1 := by
    rw [← hW70]; after_results_simp; simp only [e69_main_v1, e69_main_v55]
    unfold Read.val_main_v56; generalize Read.val_main_v1 (F := F) x1 = A_main_v1; generalize Read.val_main_v55 (F := F) = A_main_v55; rfl
  clear hW70 e69_main_arg9 e69_main_arg8 e69_main_arg7 e69_main_v12 e69_main_v3 e69_main_v1 e69_main_v17 e69_main_arg6 e69_main_arg5 e69_main_arg4 e69_main_v48 e69_main_v54 e69_main_v52 e69_main_v50 e69_main_v55 W69
  -- operation 70: nullary  → main_c_7
  apply after_step; intro W71 hW71
  have e71_main_arg9 : W71 (Proc.devRef .tc main_arg9) = x9 := by rw [← hW71]; after_results_simp; exact e70_main_arg9
  have e71_main_arg8 : W71 (Proc.devRef .tc main_arg8) = x8 := by rw [← hW71]; after_results_simp; exact e70_main_arg8
  have e71_main_arg7 : W71 (Proc.devRef .tc main_arg7) = x7 := by rw [← hW71]; after_results_simp; exact e70_main_arg7
  have e71_main_v12 : W71 (Proc.devRef .tc main_v12) = Read.val_main_v12 (F := F) x1 := by rw [← hW71]; after_results_simp; exact e70_main_v12
  have e71_main_v3 : W71 (Proc.devRef .tc main_v3) = Read.val_main_v3 (F := F) x1 := by rw [← hW71]; after_results_simp; exact e70_main_v3
  have e71_main_v1 : W71 (Proc.devRef .tc main_v1) = Read.val_main_v1 (F := F) x1 := by rw [← hW71]; after_results_simp; exact e70_main_v1
  have e71_main_v17 : W71 (Proc.devRef .tc main_v17) = Read.val_main_v17 (F := F) x0 x2 x3 := by rw [← hW71]; after_results_simp; exact e70_main_v17
  have e71_main_arg6 : W71 (Proc.devRef .tc main_arg6) = x6 := by rw [← hW71]; after_results_simp; exact e70_main_arg6
  have e71_main_arg5 : W71 (Proc.devRef .tc main_arg5) = x5 := by rw [← hW71]; after_results_simp; exact e70_main_arg5
  have e71_main_arg4 : W71 (Proc.devRef .tc main_arg4) = x4 := by rw [← hW71]; after_results_simp; exact e70_main_arg4
  have e71_main_v48 : W71 (Proc.devRef .tc main_v48) = Read.val_main_v48 (F := F) x0 x1 x2 x3 x4 x5 x6 := by rw [← hW71]; after_results_simp; exact e70_main_v48
  have e71_main_v54 : W71 (Proc.devRef .tc main_v54) = Read.val_main_v54 (F := F) x6 := by rw [← hW71]; after_results_simp; exact e70_main_v54
  have e71_main_v52 : W71 (Proc.devRef .tc main_v52) = Read.val_main_v52 (F := F) x5 := by rw [← hW71]; after_results_simp; exact e70_main_v52
  have e71_main_v50 : W71 (Proc.devRef .tc main_v50) = Read.val_main_v50 (F := F) x4 := by rw [← hW71]; after_results_simp; exact e70_main_v50
  have e71_main_v56 : W71 (Proc.devRef .tc main_v56) = Read.val_main_v56 (F := F) x1 := by rw [← hW71]; after_results_simp; exact e70_main_v56
  have e71_main_c_7 : W71 (Proc.devRef .tc main_c_7) = Read.val_main_c_7 (F := F) := by
    rw [← hW71]; after_results_simp
    unfold Read.val_main_c_7; rfl
  clear hW71 e70_main_arg9 e70_main_arg8 e70_main_arg7 e70_main_v12 e70_main_v3 e70_main_v1 e70_main_v17 e70_main_arg6 e70_main_arg5 e70_main_arg4 e70_main_v48 e70_main_v54 e70_main_v52 e70_main_v50 e70_main_v56 W70
  -- operation 71: unary main_c_7 → main_v57
  apply after_step; intro W72 hW72
  have e72_main_arg9 : W72 (Proc.devRef .tc main_arg9) = x9 := by rw [← hW72]; after_results_simp; exact e71_main_arg9
  have e72_main_arg8 : W72 (Proc.devRef .tc main_arg8) = x8 := by rw [← hW72]; after_results_simp; exact e71_main_arg8
  have e72_main_arg7 : W72 (Proc.devRef .tc main_arg7) = x7 := by rw [← hW72]; after_results_simp; exact e71_main_arg7
  have e72_main_v12 : W72 (Proc.devRef .tc main_v12) = Read.val_main_v12 (F := F) x1 := by rw [← hW72]; after_results_simp; exact e71_main_v12
  have e72_main_v3 : W72 (Proc.devRef .tc main_v3) = Read.val_main_v3 (F := F) x1 := by rw [← hW72]; after_results_simp; exact e71_main_v3
  have e72_main_v1 : W72 (Proc.devRef .tc main_v1) = Read.val_main_v1 (F := F) x1 := by rw [← hW72]; after_results_simp; exact e71_main_v1
  have e72_main_v17 : W72 (Proc.devRef .tc main_v17) = Read.val_main_v17 (F := F) x0 x2 x3 := by rw [← hW72]; after_results_simp; exact e71_main_v17
  have e72_main_arg6 : W72 (Proc.devRef .tc main_arg6) = x6 := by rw [← hW72]; after_results_simp; exact e71_main_arg6
  have e72_main_arg5 : W72 (Proc.devRef .tc main_arg5) = x5 := by rw [← hW72]; after_results_simp; exact e71_main_arg5
  have e72_main_arg4 : W72 (Proc.devRef .tc main_arg4) = x4 := by rw [← hW72]; after_results_simp; exact e71_main_arg4
  have e72_main_v48 : W72 (Proc.devRef .tc main_v48) = Read.val_main_v48 (F := F) x0 x1 x2 x3 x4 x5 x6 := by rw [← hW72]; after_results_simp; exact e71_main_v48
  have e72_main_v54 : W72 (Proc.devRef .tc main_v54) = Read.val_main_v54 (F := F) x6 := by rw [← hW72]; after_results_simp; exact e71_main_v54
  have e72_main_v52 : W72 (Proc.devRef .tc main_v52) = Read.val_main_v52 (F := F) x5 := by rw [← hW72]; after_results_simp; exact e71_main_v52
  have e72_main_v50 : W72 (Proc.devRef .tc main_v50) = Read.val_main_v50 (F := F) x4 := by rw [← hW72]; after_results_simp; exact e71_main_v50
  have e72_main_v56 : W72 (Proc.devRef .tc main_v56) = Read.val_main_v56 (F := F) x1 := by rw [← hW72]; after_results_simp; exact e71_main_v56
  have e72_main_v57 : W72 (Proc.devRef .tc main_v57) = Read.val_main_v57 (F := F) := by
    rw [← hW72]; after_results_simp; simp only [e71_main_c_7]
    unfold Read.val_main_v57; generalize Read.val_main_c_7 (F := F) = A_main_c_7; rfl
  clear hW72 e71_main_arg9 e71_main_arg8 e71_main_arg7 e71_main_v12 e71_main_v3 e71_main_v1 e71_main_v17 e71_main_arg6 e71_main_arg5 e71_main_arg4 e71_main_v48 e71_main_v54 e71_main_v52 e71_main_v50 e71_main_v56 e71_main_c_7 W71
  -- operation 72: binary main_v1 main_v57 → main_v58
  apply after_step; intro W73 hW73
  have e73_main_arg9 : W73 (Proc.devRef .tc main_arg9) = x9 := by rw [← hW73]; after_results_simp; exact e72_main_arg9
  have e73_main_arg8 : W73 (Proc.devRef .tc main_arg8) = x8 := by rw [← hW73]; after_results_simp; exact e72_main_arg8
  have e73_main_arg7 : W73 (Proc.devRef .tc main_arg7) = x7 := by rw [← hW73]; after_results_simp; exact e72_main_arg7
  have e73_main_v12 : W73 (Proc.devRef .tc main_v12) = Read.val_main_v12 (F := F) x1 := by rw [← hW73]; after_results_simp; exact e72_main_v12
  have e73_main_v3 : W73 (Proc.devRef .tc main_v3) = Read.val_main_v3 (F := F) x1 := by rw [← hW73]; after_results_simp; exact e72_main_v3
  have e73_main_v1 : W73 (Proc.devRef .tc main_v1) = Read.val_main_v1 (F := F) x1 := by rw [← hW73]; after_results_simp; exact e72_main_v1
  have e73_main_v17 : W73 (Proc.devRef .tc main_v17) = Read.val_main_v17 (F := F) x0 x2 x3 := by rw [← hW73]; after_results_simp; exact e72_main_v17
  have e73_main_arg6 : W73 (Proc.devRef .tc main_arg6) = x6 := by rw [← hW73]; after_results_simp; exact e72_main_arg6
  have e73_main_arg5 : W73 (Proc.devRef .tc main_arg5) = x5 := by rw [← hW73]; after_results_simp; exact e72_main_arg5
  have e73_main_arg4 : W73 (Proc.devRef .tc main_arg4) = x4 := by rw [← hW73]; after_results_simp; exact e72_main_arg4
  have e73_main_v48 : W73 (Proc.devRef .tc main_v48) = Read.val_main_v48 (F := F) x0 x1 x2 x3 x4 x5 x6 := by rw [← hW73]; after_results_simp; exact e72_main_v48
  have e73_main_v54 : W73 (Proc.devRef .tc main_v54) = Read.val_main_v54 (F := F) x6 := by rw [← hW73]; after_results_simp; exact e72_main_v54
  have e73_main_v52 : W73 (Proc.devRef .tc main_v52) = Read.val_main_v52 (F := F) x5 := by rw [← hW73]; after_results_simp; exact e72_main_v52
  have e73_main_v50 : W73 (Proc.devRef .tc main_v50) = Read.val_main_v50 (F := F) x4 := by rw [← hW73]; after_results_simp; exact e72_main_v50
  have e73_main_v56 : W73 (Proc.devRef .tc main_v56) = Read.val_main_v56 (F := F) x1 := by rw [← hW73]; after_results_simp; exact e72_main_v56
  have e73_main_v58 : W73 (Proc.devRef .tc main_v58) = Read.val_main_v58 (F := F) x1 := by
    rw [← hW73]; after_results_simp; simp only [e72_main_v1, e72_main_v57]
    unfold Read.val_main_v58; generalize Read.val_main_v1 (F := F) x1 = A_main_v1; generalize Read.val_main_v57 (F := F) = A_main_v57; rfl
  clear hW73 e72_main_arg9 e72_main_arg8 e72_main_arg7 e72_main_v12 e72_main_v3 e72_main_v1 e72_main_v17 e72_main_arg6 e72_main_arg5 e72_main_arg4 e72_main_v48 e72_main_v54 e72_main_v52 e72_main_v50 e72_main_v56 e72_main_v57 W72
  -- operation 73: ternary main_v56 main_v58 main_v1 → main_v59
  apply after_step; intro W74 hW74
  have e74_main_arg9 : W74 (Proc.devRef .tc main_arg9) = x9 := by rw [← hW74]; after_results_simp; exact e73_main_arg9
  have e74_main_arg8 : W74 (Proc.devRef .tc main_arg8) = x8 := by rw [← hW74]; after_results_simp; exact e73_main_arg8
  have e74_main_arg7 : W74 (Proc.devRef .tc main_arg7) = x7 := by rw [← hW74]; after_results_simp; exact e73_main_arg7
  have e74_main_v12 : W74 (Proc.devRef .tc main_v12) = Read.val_main_v12 (F := F) x1 := by rw [← hW74]; after_results_simp; exact e73_main_v12
  have e74_main_v3 : W74 (Proc.devRef .tc main_v3) = Read.val_main_v3 (F := F) x1 := by rw [← hW74]; after_results_simp; exact e73_main_v3
  have e74_main_v1 : W74 (Proc.devRef .tc main_v1) = Read.val_main_v1 (F := F) x1 := by rw [← hW74]; after_results_simp; exact e73_main_v1
  have e74_main_v17 : W74 (Proc.devRef .tc main_v17) = Read.val_main_v17 (F := F) x0 x2 x3 := by rw [← hW74]; after_results_simp; exact e73_main_v17
  have e74_main_arg6 : W74 (Proc.devRef .tc main_arg6) = x6 := by rw [← hW74]; after_results_simp; exact e73_main_arg6
  have e74_main_arg5 : W74 (Proc.devRef .tc main_arg5) = x5 := by rw [← hW74]; after_results_simp; exact e73_main_arg5
  have e74_main_arg4 : W74 (Proc.devRef .tc main_arg4) = x4 := by rw [← hW74]; after_results_simp; exact e73_main_arg4
  have e74_main_v48 : W74 (Proc.devRef .tc main_v48) = Read.val_main_v48 (F := F) x0 x1 x2 x3 x4 x5 x6 := by rw [← hW74]; after_results_simp; exact e73_main_v48
  have e74_main_v54 : W74 (Proc.devRef .tc main_v54) = Read.val_main_v54 (F := F) x6 := by rw [← hW74]; after_results_simp; exact e73_main_v54
  have e74_main_v52 : W74 (Proc.devRef .tc main_v52) = Read.val_main_v52 (F := F) x5 := by rw [← hW74]; after_results_simp; exact e73_main_v52
  have e74_main_v50 : W74 (Proc.devRef .tc main_v50) = Read.val_main_v50 (F := F) x4 := by rw [← hW74]; after_results_simp; exact e73_main_v50
  have e74_main_v59 : W74 (Proc.devRef .tc main_v59) = Read.val_main_v59 (F := F) x1 := by
    rw [← hW74]; after_results_simp; simp only [e73_main_v56, e73_main_v58, e73_main_v1]
    unfold Read.val_main_v59; generalize Read.val_main_v56 (F := F) x1 = A_main_v56; generalize Read.val_main_v58 (F := F) x1 = A_main_v58; generalize Read.val_main_v1 (F := F) x1 = A_main_v1; rfl
  clear hW74 e73_main_arg9 e73_main_arg8 e73_main_arg7 e73_main_v12 e73_main_v3 e73_main_v1 e73_main_v17 e73_main_arg6 e73_main_arg5 e73_main_arg4 e73_main_v48 e73_main_v54 e73_main_v52 e73_main_v50 e73_main_v56 e73_main_v58 W73
  -- operation 74: unary main_v59 → main_v60
  apply after_step; intro W75 hW75
  have e75_main_arg9 : W75 (Proc.devRef .tc main_arg9) = x9 := by rw [← hW75]; after_results_simp; exact e74_main_arg9
  have e75_main_arg8 : W75 (Proc.devRef .tc main_arg8) = x8 := by rw [← hW75]; after_results_simp; exact e74_main_arg8
  have e75_main_arg7 : W75 (Proc.devRef .tc main_arg7) = x7 := by rw [← hW75]; after_results_simp; exact e74_main_arg7
  have e75_main_v12 : W75 (Proc.devRef .tc main_v12) = Read.val_main_v12 (F := F) x1 := by rw [← hW75]; after_results_simp; exact e74_main_v12
  have e75_main_v3 : W75 (Proc.devRef .tc main_v3) = Read.val_main_v3 (F := F) x1 := by rw [← hW75]; after_results_simp; exact e74_main_v3
  have e75_main_v1 : W75 (Proc.devRef .tc main_v1) = Read.val_main_v1 (F := F) x1 := by rw [← hW75]; after_results_simp; exact e74_main_v1
  have e75_main_v17 : W75 (Proc.devRef .tc main_v17) = Read.val_main_v17 (F := F) x0 x2 x3 := by rw [← hW75]; after_results_simp; exact e74_main_v17
  have e75_main_arg6 : W75 (Proc.devRef .tc main_arg6) = x6 := by rw [← hW75]; after_results_simp; exact e74_main_arg6
  have e75_main_arg5 : W75 (Proc.devRef .tc main_arg5) = x5 := by rw [← hW75]; after_results_simp; exact e74_main_arg5
  have e75_main_arg4 : W75 (Proc.devRef .tc main_arg4) = x4 := by rw [← hW75]; after_results_simp; exact e74_main_arg4
  have e75_main_v48 : W75 (Proc.devRef .tc main_v48) = Read.val_main_v48 (F := F) x0 x1 x2 x3 x4 x5 x6 := by rw [← hW75]; after_results_simp; exact e74_main_v48
  have e75_main_v54 : W75 (Proc.devRef .tc main_v54) = Read.val_main_v54 (F := F) x6 := by rw [← hW75]; after_results_simp; exact e74_main_v54
  have e75_main_v52 : W75 (Proc.devRef .tc main_v52) = Read.val_main_v52 (F := F) x5 := by rw [← hW75]; after_results_simp; exact e74_main_v52
  have e75_main_v50 : W75 (Proc.devRef .tc main_v50) = Read.val_main_v50 (F := F) x4 := by rw [← hW75]; after_results_simp; exact e74_main_v50
  have e75_main_v60 : W75 (Proc.devRef .tc main_v60) = Read.val_main_v60 (F := F) x1 := by
    rw [← hW75]; after_results_simp; simp only [e74_main_v59]
    unfold Read.val_main_v60; generalize Read.val_main_v59 (F := F) x1 = A_main_v59; rfl
  clear hW75 e74_main_arg9 e74_main_arg8 e74_main_arg7 e74_main_v12 e74_main_v3 e74_main_v1 e74_main_v17 e74_main_arg6 e74_main_arg5 e74_main_arg4 e74_main_v48 e74_main_v54 e74_main_v52 e74_main_v50 e74_main_v59 W74
  -- operation 75: binary main_v48 main_v60 → main_v61
  apply after_step; intro W76 hW76
  have e76_main_arg9 : W76 (Proc.devRef .tc main_arg9) = x9 := by rw [← hW76]; after_results_simp; exact e75_main_arg9
  have e76_main_arg8 : W76 (Proc.devRef .tc main_arg8) = x8 := by rw [← hW76]; after_results_simp; exact e75_main_arg8
  have e76_main_arg7 : W76 (Proc.devRef .tc main_arg7) = x7 := by rw [← hW76]; after_results_simp; exact e75_main_arg7
  have e76_main_v12 : W76 (Proc.devRef .tc main_v12) = Read.val_main_v12 (F := F) x1 := by rw [← hW76]; after_results_simp; exact e75_main_v12
  have e76_main_v3 : W76 (Proc.devRef .tc main_v3) = Read.val_main_v3 (F := F) x1 := by rw [← hW76]; after_results_simp; exact e75_main_v3
  have e76_main_v1 : W76 (Proc.devRef .tc main_v1) = Read.val_main_v1 (F := F) x1 := by rw [← hW76]; after_results_simp; exact e75_main_v1
  have e76_main_v17 : W76 (Proc.devRef .tc main_v17) = Read.val_main_v17 (F := F) x0 x2 x3 := by rw [← hW76]; after_results_simp; exact e75_main_v17
  have e76_main_arg6 : W76 (Proc.devRef .tc main_arg6) = x6 := by rw [← hW76]; after_results_simp; exact e75_main_arg6
  have e76_main_arg5 : W76 (Proc.devRef .tc main_arg5) = x5 := by rw [← hW76]; after_results_simp; exact e75_main_arg5
  have e76_main_arg4 : W76 (Proc.devRef .tc main_arg4) = x4 := by rw [← hW76]; after_results_simp; exact e75_main_arg4
  have e76_main_v48 : W76 (Proc.devRef .tc main_v48) = Read.val_main_v48 (F := F) x0 x1 x2 x3 x4 x5 x6 := by rw [← hW76]; after_results_simp; exact e75_main_v48
  have e76_main_v54 : W76 (Proc.devRef .tc main_v54) = Read.val_main_v54 (F := F) x6 := by rw [← hW76]; after_results_simp; exact e75_main_v54
  have e76_main_v52 : W76 (Proc.devRef .tc main_v52) = Read.val_main_v52 (F := F) x5 := by rw [← hW76]; after_results_simp; exact e75_main_v52
  have e76_main_v50 : W76 (Proc.devRef .tc main_v50) = Read.val_main_v50 (F := F) x4 := by rw [← hW76]; after_results_simp; exact e75_main_v50
  have e76_main_v61 : W76 (Proc.devRef .tc main_v61) = Read.val_main_v61 (F := F) x0 x1 x2 x3 x4 x5 x6 := by
    rw [← hW76]; after_results_simp; simp only [e75_main_v48, e75_main_v60]
    unfold Read.val_main_v61; generalize Read.val_main_v48 (F := F) x0 x1 x2 x3 x4 x5 x6 = A_main_v48; generalize Read.val_main_v60 (F := F) x1 = A_main_v60; rfl
  clear hW76 e75_main_arg9 e75_main_arg8 e75_main_arg7 e75_main_v12 e75_main_v3 e75_main_v1 e75_main_v17 e75_main_arg6 e75_main_arg5 e75_main_arg4 e75_main_v48 e75_main_v54 e75_main_v52 e75_main_v50 e75_main_v60 W75
  -- operation 76: nullary  → main_cst_8
  apply after_step; intro W77 hW77
  have e77_main_arg9 : W77 (Proc.devRef .tc main_arg9) = x9 := by rw [← hW77]; after_results_simp; exact e76_main_arg9
  have e77_main_arg8 : W77 (Proc.devRef .tc main_arg8) = x8 := by rw [← hW77]; after_results_simp; exact e76_main_arg8
  have e77_main_arg7 : W77 (Proc.devRef .tc main_arg7) = x7 := by rw [← hW77]; after_results_simp; exact e76_main_arg7
  have e77_main_v12 : W77 (Proc.devRef .tc main_v12) = Read.val_main_v12 (F := F) x1 := by rw [← hW77]; after_results_simp; exact e76_main_v12
  have e77_main_v3 : W77 (Proc.devRef .tc main_v3) = Read.val_main_v3 (F := F) x1 := by rw [← hW77]; after_results_simp; exact e76_main_v3
  have e77_main_v1 : W77 (Proc.devRef .tc main_v1) = Read.val_main_v1 (F := F) x1 := by rw [← hW77]; after_results_simp; exact e76_main_v1
  have e77_main_v17 : W77 (Proc.devRef .tc main_v17) = Read.val_main_v17 (F := F) x0 x2 x3 := by rw [← hW77]; after_results_simp; exact e76_main_v17
  have e77_main_arg6 : W77 (Proc.devRef .tc main_arg6) = x6 := by rw [← hW77]; after_results_simp; exact e76_main_arg6
  have e77_main_arg5 : W77 (Proc.devRef .tc main_arg5) = x5 := by rw [← hW77]; after_results_simp; exact e76_main_arg5
  have e77_main_arg4 : W77 (Proc.devRef .tc main_arg4) = x4 := by rw [← hW77]; after_results_simp; exact e76_main_arg4
  have e77_main_v48 : W77 (Proc.devRef .tc main_v48) = Read.val_main_v48 (F := F) x0 x1 x2 x3 x4 x5 x6 := by rw [← hW77]; after_results_simp; exact e76_main_v48
  have e77_main_v54 : W77 (Proc.devRef .tc main_v54) = Read.val_main_v54 (F := F) x6 := by rw [← hW77]; after_results_simp; exact e76_main_v54
  have e77_main_v52 : W77 (Proc.devRef .tc main_v52) = Read.val_main_v52 (F := F) x5 := by rw [← hW77]; after_results_simp; exact e76_main_v52
  have e77_main_v50 : W77 (Proc.devRef .tc main_v50) = Read.val_main_v50 (F := F) x4 := by rw [← hW77]; after_results_simp; exact e76_main_v50
  have e77_main_v61 : W77 (Proc.devRef .tc main_v61) = Read.val_main_v61 (F := F) x0 x1 x2 x3 x4 x5 x6 := by rw [← hW77]; after_results_simp; exact e76_main_v61
  have e77_main_cst_8 : W77 (Proc.devRef .tc main_cst_8) = Read.val_main_cst_8 (F := F) := by
    rw [← hW77]; after_results_simp
    unfold Read.val_main_cst_8; rfl
  clear hW77 e76_main_arg9 e76_main_arg8 e76_main_arg7 e76_main_v12 e76_main_v3 e76_main_v1 e76_main_v17 e76_main_arg6 e76_main_arg5 e76_main_arg4 e76_main_v48 e76_main_v54 e76_main_v52 e76_main_v50 e76_main_v61 W76
  -- operation 77: unary main_cst_8 → main_v62
  apply after_step; intro W78 hW78
  have e78_main_arg9 : W78 (Proc.devRef .tc main_arg9) = x9 := by rw [← hW78]; after_results_simp; exact e77_main_arg9
  have e78_main_arg8 : W78 (Proc.devRef .tc main_arg8) = x8 := by rw [← hW78]; after_results_simp; exact e77_main_arg8
  have e78_main_arg7 : W78 (Proc.devRef .tc main_arg7) = x7 := by rw [← hW78]; after_results_simp; exact e77_main_arg7
  have e78_main_v12 : W78 (Proc.devRef .tc main_v12) = Read.val_main_v12 (F := F) x1 := by rw [← hW78]; after_results_simp; exact e77_main_v12
  have e78_main_v3 : W78 (Proc.devRef .tc main_v3) = Read.val_main_v3 (F := F) x1 := by rw [← hW78]; after_results_simp; exact e77_main_v3
  have e78_main_v1 : W78 (Proc.devRef .tc main_v1) = Read.val_main_v1 (F := F) x1 := by rw [← hW78]; after_results_simp; exact e77_main_v1
  have e78_main_v17 : W78 (Proc.devRef .tc main_v17) = Read.val_main_v17 (F := F) x0 x2 x3 := by rw [← hW78]; after_results_simp; exact e77_main_v17
  have e78_main_arg6 : W78 (Proc.devRef .tc main_arg6) = x6 := by rw [← hW78]; after_results_simp; exact e77_main_arg6
  have e78_main_arg5 : W78 (Proc.devRef .tc main_arg5) = x5 := by rw [← hW78]; after_results_simp; exact e77_main_arg5
  have e78_main_arg4 : W78 (Proc.devRef .tc main_arg4) = x4 := by rw [← hW78]; after_results_simp; exact e77_main_arg4
  have e78_main_v48 : W78 (Proc.devRef .tc main_v48) = Read.val_main_v48 (F := F) x0 x1 x2 x3 x4 x5 x6 := by rw [← hW78]; after_results_simp; exact e77_main_v48
  have e78_main_v54 : W78 (Proc.devRef .tc main_v54) = Read.val_main_v54 (F := F) x6 := by rw [← hW78]; after_results_simp; exact e77_main_v54
  have e78_main_v52 : W78 (Proc.devRef .tc main_v52) = Read.val_main_v52 (F := F) x5 := by rw [← hW78]; after_results_simp; exact e77_main_v52
  have e78_main_v50 : W78 (Proc.devRef .tc main_v50) = Read.val_main_v50 (F := F) x4 := by rw [← hW78]; after_results_simp; exact e77_main_v50
  have e78_main_v62 : W78 (Proc.devRef .tc main_v62) = Read.val_main_v62 (F := F) := by
    rw [← hW78]; after_results_simp; simp only [e77_main_cst_8]
    unfold Read.val_main_v62; generalize Read.val_main_cst_8 (F := F) = A_main_cst_8; rfl
  have e78_main_v61 : W78 (Proc.devRef .tc main_v61) = Read.val_main_v61 (F := F) x0 x1 x2 x3 x4 x5 x6 := by rw [← hW78]; after_results_simp; exact e77_main_v61
  clear hW78 e77_main_arg9 e77_main_arg8 e77_main_arg7 e77_main_v12 e77_main_v3 e77_main_v1 e77_main_v17 e77_main_arg6 e77_main_arg5 e77_main_arg4 e77_main_v48 e77_main_v54 e77_main_v52 e77_main_v50 e77_main_v61 e77_main_cst_8 W77
  -- operation 78: unary main_v3 → main_v63
  apply after_step; intro W79 hW79
  have e79_main_arg9 : W79 (Proc.devRef .tc main_arg9) = x9 := by rw [← hW79]; after_results_simp; exact e78_main_arg9
  have e79_main_arg8 : W79 (Proc.devRef .tc main_arg8) = x8 := by rw [← hW79]; after_results_simp; exact e78_main_arg8
  have e79_main_arg7 : W79 (Proc.devRef .tc main_arg7) = x7 := by rw [← hW79]; after_results_simp; exact e78_main_arg7
  have e79_main_v12 : W79 (Proc.devRef .tc main_v12) = Read.val_main_v12 (F := F) x1 := by rw [← hW79]; after_results_simp; exact e78_main_v12
  have e79_main_v3 : W79 (Proc.devRef .tc main_v3) = Read.val_main_v3 (F := F) x1 := by rw [← hW79]; after_results_simp; exact e78_main_v3
  have e79_main_v1 : W79 (Proc.devRef .tc main_v1) = Read.val_main_v1 (F := F) x1 := by rw [← hW79]; after_results_simp; exact e78_main_v1
  have e79_main_v17 : W79 (Proc.devRef .tc main_v17) = Read.val_main_v17 (F := F) x0 x2 x3 := by rw [← hW79]; after_results_simp; exact e78_main_v17
  have e79_main_arg6 : W79 (Proc.devRef .tc main_arg6) = x6 := by rw [← hW79]; after_results_simp; exact e78_main_arg6
  have e79_main_arg5 : W79 (Proc.devRef .tc main_arg5) = x5 := by rw [← hW79]; after_results_simp; exact e78_main_arg5
  have e79_main_arg4 : W79 (Proc.devRef .tc main_arg4) = x4 := by rw [← hW79]; after_results_simp; exact e78_main_arg4
  have e79_main_v48 : W79 (Proc.devRef .tc main_v48) = Read.val_main_v48 (F := F) x0 x1 x2 x3 x4 x5 x6 := by rw [← hW79]; after_results_simp; exact e78_main_v48
  have e79_main_v54 : W79 (Proc.devRef .tc main_v54) = Read.val_main_v54 (F := F) x6 := by rw [← hW79]; after_results_simp; exact e78_main_v54
  have e79_main_v52 : W79 (Proc.devRef .tc main_v52) = Read.val_main_v52 (F := F) x5 := by rw [← hW79]; after_results_simp; exact e78_main_v52
  have e79_main_v50 : W79 (Proc.devRef .tc main_v50) = Read.val_main_v50 (F := F) x4 := by rw [← hW79]; after_results_simp; exact e78_main_v50
  have e79_main_v62 : W79 (Proc.devRef .tc main_v62) = Read.val_main_v62 (F := F) := by rw [← hW79]; after_results_simp; exact e78_main_v62
  have e79_main_v63 : W79 (Proc.devRef .tc main_v63) = Read.val_main_v63 (F := F) x1 := by
    rw [← hW79]; after_results_simp; simp only [e78_main_v3]
    unfold Read.val_main_v63; generalize Read.val_main_v3 (F := F) x1 = A_main_v3; rfl
  have e79_main_v61 : W79 (Proc.devRef .tc main_v61) = Read.val_main_v61 (F := F) x0 x1 x2 x3 x4 x5 x6 := by rw [← hW79]; after_results_simp; exact e78_main_v61
  clear hW79 e78_main_arg9 e78_main_arg8 e78_main_arg7 e78_main_v12 e78_main_v3 e78_main_v1 e78_main_v17 e78_main_arg6 e78_main_arg5 e78_main_arg4 e78_main_v48 e78_main_v54 e78_main_v52 e78_main_v50 e78_main_v62 e78_main_v61 W78
  -- operation 79: ternary main_v62 main_v63 main_v61 → main_v64
  apply after_step; intro W80 hW80
  have e80_main_arg9 : W80 (Proc.devRef .tc main_arg9) = x9 := by rw [← hW80]; after_results_simp; exact e79_main_arg9
  have e80_main_arg8 : W80 (Proc.devRef .tc main_arg8) = x8 := by rw [← hW80]; after_results_simp; exact e79_main_arg8
  have e80_main_arg7 : W80 (Proc.devRef .tc main_arg7) = x7 := by rw [← hW80]; after_results_simp; exact e79_main_arg7
  have e80_main_v12 : W80 (Proc.devRef .tc main_v12) = Read.val_main_v12 (F := F) x1 := by rw [← hW80]; after_results_simp; exact e79_main_v12
  have e80_main_v3 : W80 (Proc.devRef .tc main_v3) = Read.val_main_v3 (F := F) x1 := by rw [← hW80]; after_results_simp; exact e79_main_v3
  have e80_main_v1 : W80 (Proc.devRef .tc main_v1) = Read.val_main_v1 (F := F) x1 := by rw [← hW80]; after_results_simp; exact e79_main_v1
  have e80_main_v17 : W80 (Proc.devRef .tc main_v17) = Read.val_main_v17 (F := F) x0 x2 x3 := by rw [← hW80]; after_results_simp; exact e79_main_v17
  have e80_main_arg6 : W80 (Proc.devRef .tc main_arg6) = x6 := by rw [← hW80]; after_results_simp; exact e79_main_arg6
  have e80_main_arg5 : W80 (Proc.devRef .tc main_arg5) = x5 := by rw [← hW80]; after_results_simp; exact e79_main_arg5
  have e80_main_arg4 : W80 (Proc.devRef .tc main_arg4) = x4 := by rw [← hW80]; after_results_simp; exact e79_main_arg4
  have e80_main_v48 : W80 (Proc.devRef .tc main_v48) = Read.val_main_v48 (F := F) x0 x1 x2 x3 x4 x5 x6 := by rw [← hW80]; after_results_simp; exact e79_main_v48
  have e80_main_v54 : W80 (Proc.devRef .tc main_v54) = Read.val_main_v54 (F := F) x6 := by rw [← hW80]; after_results_simp; exact e79_main_v54
  have e80_main_v52 : W80 (Proc.devRef .tc main_v52) = Read.val_main_v52 (F := F) x5 := by rw [← hW80]; after_results_simp; exact e79_main_v52
  have e80_main_v50 : W80 (Proc.devRef .tc main_v50) = Read.val_main_v50 (F := F) x4 := by rw [← hW80]; after_results_simp; exact e79_main_v50
  have e80_main_v64 : W80 (Proc.devRef .tc main_v64) = Read.val_main_v64 (F := F) x0 x1 x2 x3 x4 x5 x6 := by
    rw [← hW80]; after_results_simp; simp only [e79_main_v62, e79_main_v63, e79_main_v61]
    unfold Read.val_main_v64; generalize Read.val_main_v62 (F := F) = A_main_v62; generalize Read.val_main_v63 (F := F) x1 = A_main_v63; generalize Read.val_main_v61 (F := F) x0 x1 x2 x3 x4 x5 x6 = A_main_v61; rfl
  clear hW80 e79_main_arg9 e79_main_arg8 e79_main_arg7 e79_main_v12 e79_main_v3 e79_main_v1 e79_main_v17 e79_main_arg6 e79_main_arg5 e79_main_arg4 e79_main_v48 e79_main_v54 e79_main_v52 e79_main_v50 e79_main_v62 e79_main_v63 e79_main_v61 W79
  -- operation 80: unary main_v12 → main_v65
  apply after_step; intro W81 hW81
  have e81_main_arg9 : W81 (Proc.devRef .tc main_arg9) = x9 := by rw [← hW81]; after_results_simp; exact e80_main_arg9
  have e81_main_arg8 : W81 (Proc.devRef .tc main_arg8) = x8 := by rw [← hW81]; after_results_simp; exact e80_main_arg8
  have e81_main_arg7 : W81 (Proc.devRef .tc main_arg7) = x7 := by rw [← hW81]; after_results_simp; exact e80_main_arg7
  have e81_main_v12 : W81 (Proc.devRef .tc main_v12) = Read.val_main_v12 (F := F) x1 := by rw [← hW81]; after_results_simp; exact e80_main_v12
  have e81_main_v3 : W81 (Proc.devRef .tc main_v3) = Read.val_main_v3 (F := F) x1 := by rw [← hW81]; after_results_simp; exact e80_main_v3
  have e81_main_v1 : W81 (Proc.devRef .tc main_v1) = Read.val_main_v1 (F := F) x1 := by rw [← hW81]; after_results_simp; exact e80_main_v1
  have e81_main_v17 : W81 (Proc.devRef .tc main_v17) = Read.val_main_v17 (F := F) x0 x2 x3 := by rw [← hW81]; after_results_simp; exact e80_main_v17
  have e81_main_arg6 : W81 (Proc.devRef .tc main_arg6) = x6 := by rw [← hW81]; after_results_simp; exact e80_main_arg6
  have e81_main_arg5 : W81 (Proc.devRef .tc main_arg5) = x5 := by rw [← hW81]; after_results_simp; exact e80_main_arg5
  have e81_main_arg4 : W81 (Proc.devRef .tc main_arg4) = x4 := by rw [← hW81]; after_results_simp; exact e80_main_arg4
  have e81_main_v48 : W81 (Proc.devRef .tc main_v48) = Read.val_main_v48 (F := F) x0 x1 x2 x3 x4 x5 x6 := by rw [← hW81]; after_results_simp; exact e80_main_v48
  have e81_main_v54 : W81 (Proc.devRef .tc main_v54) = Read.val_main_v54 (F := F) x6 := by rw [← hW81]; after_results_simp; exact e80_main_v54
  have e81_main_v52 : W81 (Proc.devRef .tc main_v52) = Read.val_main_v52 (F := F) x5 := by rw [← hW81]; after_results_simp; exact e80_main_v52
  have e81_main_v50 : W81 (Proc.devRef .tc main_v50) = Read.val_main_v50 (F := F) x4 := by rw [← hW81]; after_results_simp; exact e80_main_v50
  have e81_main_v64 : W81 (Proc.devRef .tc main_v64) = Read.val_main_v64 (F := F) x0 x1 x2 x3 x4 x5 x6 := by rw [← hW81]; after_results_simp; exact e80_main_v64
  have e81_main_v65 : W81 (Proc.devRef .tc main_v65) = Read.val_main_v65 (F := F) x1 := by
    rw [← hW81]; after_results_simp; simp only [e80_main_v12]
    unfold Read.val_main_v65; generalize Read.val_main_v12 (F := F) x1 = A_main_v12; rfl
  clear hW81 e80_main_arg9 e80_main_arg8 e80_main_arg7 e80_main_v12 e80_main_v3 e80_main_v1 e80_main_v17 e80_main_arg6 e80_main_arg5 e80_main_arg4 e80_main_v48 e80_main_v54 e80_main_v52 e80_main_v50 e80_main_v64 W80
  -- operation 81: binary main_v64 main_v65 → main_v66
  apply after_step; intro W82 hW82
  have e82_main_arg9 : W82 (Proc.devRef .tc main_arg9) = x9 := by rw [← hW82]; after_results_simp; exact e81_main_arg9
  have e82_main_arg8 : W82 (Proc.devRef .tc main_arg8) = x8 := by rw [← hW82]; after_results_simp; exact e81_main_arg8
  have e82_main_arg7 : W82 (Proc.devRef .tc main_arg7) = x7 := by rw [← hW82]; after_results_simp; exact e81_main_arg7
  have e82_main_v12 : W82 (Proc.devRef .tc main_v12) = Read.val_main_v12 (F := F) x1 := by rw [← hW82]; after_results_simp; exact e81_main_v12
  have e82_main_v3 : W82 (Proc.devRef .tc main_v3) = Read.val_main_v3 (F := F) x1 := by rw [← hW82]; after_results_simp; exact e81_main_v3
  have e82_main_v1 : W82 (Proc.devRef .tc main_v1) = Read.val_main_v1 (F := F) x1 := by rw [← hW82]; after_results_simp; exact e81_main_v1
  have e82_main_v17 : W82 (Proc.devRef .tc main_v17) = Read.val_main_v17 (F := F) x0 x2 x3 := by rw [← hW82]; after_results_simp; exact e81_main_v17
  have e82_main_arg6 : W82 (Proc.devRef .tc main_arg6) = x6 := by rw [← hW82]; after_results_simp; exact e81_main_arg6
  have e82_main_arg5 : W82 (Proc.devRef .tc main_arg5) = x5 := by rw [← hW82]; after_results_simp; exact e81_main_arg5
  have e82_main_arg4 : W82 (Proc.devRef .tc main_arg4) = x4 := by rw [← hW82]; after_results_simp; exact e81_main_arg4
  have e82_main_v48 : W82 (Proc.devRef .tc main_v48) = Read.val_main_v48 (F := F) x0 x1 x2 x3 x4 x5 x6 := by rw [← hW82]; after_results_simp; exact e81_main_v48
  have e82_main_v54 : W82 (Proc.devRef .tc main_v54) = Read.val_main_v54 (F := F) x6 := by rw [← hW82]; after_results_simp; exact e81_main_v54
  have e82_main_v52 : W82 (Proc.devRef .tc main_v52) = Read.val_main_v52 (F := F) x5 := by rw [← hW82]; after_results_simp; exact e81_main_v52
  have e82_main_v66 : W82 (Proc.devRef .tc main_v66) = Read.val_main_v66 (F := F) x0 x1 x2 x3 x4 x5 x6 := by
    rw [← hW82]; after_results_simp; simp only [e81_main_v64, e81_main_v65]
    unfold Read.val_main_v66; generalize Read.val_main_v64 (F := F) x0 x1 x2 x3 x4 x5 x6 = A_main_v64; generalize Read.val_main_v65 (F := F) x1 = A_main_v65; rfl
  have e82_main_v50 : W82 (Proc.devRef .tc main_v50) = Read.val_main_v50 (F := F) x4 := by rw [← hW82]; after_results_simp; exact e81_main_v50
  clear hW82 e81_main_arg9 e81_main_arg8 e81_main_arg7 e81_main_v12 e81_main_v3 e81_main_v1 e81_main_v17 e81_main_arg6 e81_main_arg5 e81_main_arg4 e81_main_v48 e81_main_v54 e81_main_v52 e81_main_v50 e81_main_v64 e81_main_v65 W81
  -- operation 82: unary main_v50 → main_v67
  apply after_step; intro W83 hW83
  have e83_main_arg9 : W83 (Proc.devRef .tc main_arg9) = x9 := by rw [← hW83]; after_results_simp; exact e82_main_arg9
  have e83_main_arg8 : W83 (Proc.devRef .tc main_arg8) = x8 := by rw [← hW83]; after_results_simp; exact e82_main_arg8
  have e83_main_arg7 : W83 (Proc.devRef .tc main_arg7) = x7 := by rw [← hW83]; after_results_simp; exact e82_main_arg7
  have e83_main_v12 : W83 (Proc.devRef .tc main_v12) = Read.val_main_v12 (F := F) x1 := by rw [← hW83]; after_results_simp; exact e82_main_v12
  have e83_main_v3 : W83 (Proc.devRef .tc main_v3) = Read.val_main_v3 (F := F) x1 := by rw [← hW83]; after_results_simp; exact e82_main_v3
  have e83_main_v1 : W83 (Proc.devRef .tc main_v1) = Read.val_main_v1 (F := F) x1 := by rw [← hW83]; after_results_simp; exact e82_main_v1
  have e83_main_v17 : W83 (Proc.devRef .tc main_v17) = Read.val_main_v17 (F := F) x0 x2 x3 := by rw [← hW83]; after_results_simp; exact e82_main_v17
  have e83_main_arg6 : W83 (Proc.devRef .tc main_arg6) = x6 := by rw [← hW83]; after_results_simp; exact e82_main_arg6
  have e83_main_arg5 : W83 (Proc.devRef .tc main_arg5) = x5 := by rw [← hW83]; after_results_simp; exact e82_main_arg5
  have e83_main_arg4 : W83 (Proc.devRef .tc main_arg4) = x4 := by rw [← hW83]; after_results_simp; exact e82_main_arg4
  have e83_main_v48 : W83 (Proc.devRef .tc main_v48) = Read.val_main_v48 (F := F) x0 x1 x2 x3 x4 x5 x6 := by rw [← hW83]; after_results_simp; exact e82_main_v48
  have e83_main_v54 : W83 (Proc.devRef .tc main_v54) = Read.val_main_v54 (F := F) x6 := by rw [← hW83]; after_results_simp; exact e82_main_v54
  have e83_main_v52 : W83 (Proc.devRef .tc main_v52) = Read.val_main_v52 (F := F) x5 := by rw [← hW83]; after_results_simp; exact e82_main_v52
  have e83_main_v66 : W83 (Proc.devRef .tc main_v66) = Read.val_main_v66 (F := F) x0 x1 x2 x3 x4 x5 x6 := by rw [← hW83]; after_results_simp; exact e82_main_v66
  have e83_main_v67 : W83 (Proc.devRef .tc main_v67) = Read.val_main_v67 (F := F) x4 := by
    rw [← hW83]; after_results_simp; simp only [e82_main_v50]
    unfold Read.val_main_v67; generalize Read.val_main_v50 (F := F) x4 = A_main_v50; rfl
  clear hW83 e82_main_arg9 e82_main_arg8 e82_main_arg7 e82_main_v12 e82_main_v3 e82_main_v1 e82_main_v17 e82_main_arg6 e82_main_arg5 e82_main_arg4 e82_main_v48 e82_main_v54 e82_main_v52 e82_main_v66 e82_main_v50 W82
  -- operation 83: binary main_v66 main_v67 → main_v68
  apply after_step; intro W84 hW84
  have e84_main_arg9 : W84 (Proc.devRef .tc main_arg9) = x9 := by rw [← hW84]; after_results_simp; exact e83_main_arg9
  have e84_main_arg8 : W84 (Proc.devRef .tc main_arg8) = x8 := by rw [← hW84]; after_results_simp; exact e83_main_arg8
  have e84_main_arg7 : W84 (Proc.devRef .tc main_arg7) = x7 := by rw [← hW84]; after_results_simp; exact e83_main_arg7
  have e84_main_v12 : W84 (Proc.devRef .tc main_v12) = Read.val_main_v12 (F := F) x1 := by rw [← hW84]; after_results_simp; exact e83_main_v12
  have e84_main_v3 : W84 (Proc.devRef .tc main_v3) = Read.val_main_v3 (F := F) x1 := by rw [← hW84]; after_results_simp; exact e83_main_v3
  have e84_main_v1 : W84 (Proc.devRef .tc main_v1) = Read.val_main_v1 (F := F) x1 := by rw [← hW84]; after_results_simp; exact e83_main_v1
  have e84_main_v17 : W84 (Proc.devRef .tc main_v17) = Read.val_main_v17 (F := F) x0 x2 x3 := by rw [← hW84]; after_results_simp; exact e83_main_v17
  have e84_main_arg6 : W84 (Proc.devRef .tc main_arg6) = x6 := by rw [← hW84]; after_results_simp; exact e83_main_arg6
  have e84_main_arg5 : W84 (Proc.devRef .tc main_arg5) = x5 := by rw [← hW84]; after_results_simp; exact e83_main_arg5
  have e84_main_arg4 : W84 (Proc.devRef .tc main_arg4) = x4 := by rw [← hW84]; after_results_simp; exact e83_main_arg4
  have e84_main_v48 : W84 (Proc.devRef .tc main_v48) = Read.val_main_v48 (F := F) x0 x1 x2 x3 x4 x5 x6 := by rw [← hW84]; after_results_simp; exact e83_main_v48
  have e84_main_v54 : W84 (Proc.devRef .tc main_v54) = Read.val_main_v54 (F := F) x6 := by rw [← hW84]; after_results_simp; exact e83_main_v54
  have e84_main_v68 : W84 (Proc.devRef .tc main_v68) = Read.val_main_v68 (F := F) x0 x1 x2 x3 x4 x5 x6 := by
    rw [← hW84]; after_results_simp; simp only [e83_main_v66, e83_main_v67]
    unfold Read.val_main_v68; generalize Read.val_main_v66 (F := F) x0 x1 x2 x3 x4 x5 x6 = A_main_v66; generalize Read.val_main_v67 (F := F) x4 = A_main_v67; rfl
  have e84_main_v52 : W84 (Proc.devRef .tc main_v52) = Read.val_main_v52 (F := F) x5 := by rw [← hW84]; after_results_simp; exact e83_main_v52
  clear hW84 e83_main_arg9 e83_main_arg8 e83_main_arg7 e83_main_v12 e83_main_v3 e83_main_v1 e83_main_v17 e83_main_arg6 e83_main_arg5 e83_main_arg4 e83_main_v48 e83_main_v54 e83_main_v52 e83_main_v66 e83_main_v67 W83
  -- operation 84: unary main_v52 → main_v69
  apply after_step; intro W85 hW85
  have e85_main_arg9 : W85 (Proc.devRef .tc main_arg9) = x9 := by rw [← hW85]; after_results_simp; exact e84_main_arg9
  have e85_main_arg8 : W85 (Proc.devRef .tc main_arg8) = x8 := by rw [← hW85]; after_results_simp; exact e84_main_arg8
  have e85_main_arg7 : W85 (Proc.devRef .tc main_arg7) = x7 := by rw [← hW85]; after_results_simp; exact e84_main_arg7
  have e85_main_v12 : W85 (Proc.devRef .tc main_v12) = Read.val_main_v12 (F := F) x1 := by rw [← hW85]; after_results_simp; exact e84_main_v12
  have e85_main_v3 : W85 (Proc.devRef .tc main_v3) = Read.val_main_v3 (F := F) x1 := by rw [← hW85]; after_results_simp; exact e84_main_v3
  have e85_main_v1 : W85 (Proc.devRef .tc main_v1) = Read.val_main_v1 (F := F) x1 := by rw [← hW85]; after_results_simp; exact e84_main_v1
  have e85_main_v17 : W85 (Proc.devRef .tc main_v17) = Read.val_main_v17 (F := F) x0 x2 x3 := by rw [← hW85]; after_results_simp; exact e84_main_v17
  have e85_main_arg6 : W85 (Proc.devRef .tc main_arg6) = x6 := by rw [← hW85]; after_results_simp; exact e84_main_arg6
  have e85_main_arg5 : W85 (Proc.devRef .tc main_arg5) = x5 := by rw [← hW85]; after_results_simp; exact e84_main_arg5
  have e85_main_arg4 : W85 (Proc.devRef .tc main_arg4) = x4 := by rw [← hW85]; after_results_simp; exact e84_main_arg4
  have e85_main_v48 : W85 (Proc.devRef .tc main_v48) = Read.val_main_v48 (F := F) x0 x1 x2 x3 x4 x5 x6 := by rw [← hW85]; after_results_simp; exact e84_main_v48
  have e85_main_v54 : W85 (Proc.devRef .tc main_v54) = Read.val_main_v54 (F := F) x6 := by rw [← hW85]; after_results_simp; exact e84_main_v54
  have e85_main_v68 : W85 (Proc.devRef .tc main_v68) = Read.val_main_v68 (F := F) x0 x1 x2 x3 x4 x5 x6 := by rw [← hW85]; after_results_simp; exact e84_main_v68
  have e85_main_v69 : W85 (Proc.devRef .tc main_v69) = Read.val_main_v69 (F := F) x5 := by
    rw [← hW85]; after_results_simp; simp only [e84_main_v52]
    unfold Read.val_main_v69; generalize Read.val_main_v52 (F := F) x5 = A_main_v52; rfl
  clear hW85 e84_main_arg9 e84_main_arg8 e84_main_arg7 e84_main_v12 e84_main_v3 e84_main_v1 e84_main_v17 e84_main_arg6 e84_main_arg5 e84_main_arg4 e84_main_v48 e84_main_v54 e84_main_v68 e84_main_v52 W84
  -- operation 85: unary main_v69 → main_v70
  apply after_step; intro W86 hW86
  have e86_main_arg9 : W86 (Proc.devRef .tc main_arg9) = x9 := by rw [← hW86]; after_results_simp; exact e85_main_arg9
  have e86_main_arg8 : W86 (Proc.devRef .tc main_arg8) = x8 := by rw [← hW86]; after_results_simp; exact e85_main_arg8
  have e86_main_arg7 : W86 (Proc.devRef .tc main_arg7) = x7 := by rw [← hW86]; after_results_simp; exact e85_main_arg7
  have e86_main_v12 : W86 (Proc.devRef .tc main_v12) = Read.val_main_v12 (F := F) x1 := by rw [← hW86]; after_results_simp; exact e85_main_v12
  have e86_main_v3 : W86 (Proc.devRef .tc main_v3) = Read.val_main_v3 (F := F) x1 := by rw [← hW86]; after_results_simp; exact e85_main_v3
  have e86_main_v1 : W86 (Proc.devRef .tc main_v1) = Read.val_main_v1 (F := F) x1 := by rw [← hW86]; after_results_simp; exact e85_main_v1
  have e86_main_v17 : W86 (Proc.devRef .tc main_v17) = Read.val_main_v17 (F := F) x0 x2 x3 := by rw [← hW86]; after_results_simp; exact e85_main_v17
  have e86_main_arg6 : W86 (Proc.devRef .tc main_arg6) = x6 := by rw [← hW86]; after_results_simp; exact e85_main_arg6
  have e86_main_arg5 : W86 (Proc.devRef .tc main_arg5) = x5 := by rw [← hW86]; after_results_simp; exact e85_main_arg5
  have e86_main_arg4 : W86 (Proc.devRef .tc main_arg4) = x4 := by rw [← hW86]; after_results_simp; exact e85_main_arg4
  have e86_main_v48 : W86 (Proc.devRef .tc main_v48) = Read.val_main_v48 (F := F) x0 x1 x2 x3 x4 x5 x6 := by rw [← hW86]; after_results_simp; exact e85_main_v48
  have e86_main_v54 : W86 (Proc.devRef .tc main_v54) = Read.val_main_v54 (F := F) x6 := by rw [← hW86]; after_results_simp; exact e85_main_v54
  have e86_main_v68 : W86 (Proc.devRef .tc main_v68) = Read.val_main_v68 (F := F) x0 x1 x2 x3 x4 x5 x6 := by rw [← hW86]; after_results_simp; exact e85_main_v68
  have e86_main_v70 : W86 (Proc.devRef .tc main_v70) = Read.val_main_v70 (F := F) x5 := by
    rw [← hW86]; after_results_simp; simp only [e85_main_v69]
    unfold Read.val_main_v70; generalize Read.val_main_v69 (F := F) x5 = A_main_v69; rfl
  clear hW86 e85_main_arg9 e85_main_arg8 e85_main_arg7 e85_main_v12 e85_main_v3 e85_main_v1 e85_main_v17 e85_main_arg6 e85_main_arg5 e85_main_arg4 e85_main_v48 e85_main_v54 e85_main_v68 e85_main_v69 W85
  -- operation 86: binary main_v68 main_v70 → main_v71
  apply after_step; intro W87 hW87
  have e87_main_arg9 : W87 (Proc.devRef .tc main_arg9) = x9 := by rw [← hW87]; after_results_simp; exact e86_main_arg9
  have e87_main_arg8 : W87 (Proc.devRef .tc main_arg8) = x8 := by rw [← hW87]; after_results_simp; exact e86_main_arg8
  have e87_main_arg7 : W87 (Proc.devRef .tc main_arg7) = x7 := by rw [← hW87]; after_results_simp; exact e86_main_arg7
  have e87_main_v12 : W87 (Proc.devRef .tc main_v12) = Read.val_main_v12 (F := F) x1 := by rw [← hW87]; after_results_simp; exact e86_main_v12
  have e87_main_v3 : W87 (Proc.devRef .tc main_v3) = Read.val_main_v3 (F := F) x1 := by rw [← hW87]; after_results_simp; exact e86_main_v3
  have e87_main_v1 : W87 (Proc.devRef .tc main_v1) = Read.val_main_v1 (F := F) x1 := by rw [← hW87]; after_results_simp; exact e86_main_v1
  have e87_main_v17 : W87 (Proc.devRef .tc main_v17) = Read.val_main_v17 (F := F) x0 x2 x3 := by rw [← hW87]; after_results_simp; exact e86_main_v17
  have e87_main_arg6 : W87 (Proc.devRef .tc main_arg6) = x6 := by rw [← hW87]; after_results_simp; exact e86_main_arg6
  have e87_main_arg5 : W87 (Proc.devRef .tc main_arg5) = x5 := by rw [← hW87]; after_results_simp; exact e86_main_arg5
  have e87_main_arg4 : W87 (Proc.devRef .tc main_arg4) = x4 := by rw [← hW87]; after_results_simp; exact e86_main_arg4
  have e87_main_v71 : W87 (Proc.devRef .tc main_v71) = Read.val_main_v71 (F := F) x0 x1 x2 x3 x4 x5 x6 := by
    rw [← hW87]; after_results_simp; simp only [e86_main_v68, e86_main_v70]
    unfold Read.val_main_v71; generalize Read.val_main_v68 (F := F) x0 x1 x2 x3 x4 x5 x6 = A_main_v68; generalize Read.val_main_v70 (F := F) x5 = A_main_v70; rfl
  have e87_main_v48 : W87 (Proc.devRef .tc main_v48) = Read.val_main_v48 (F := F) x0 x1 x2 x3 x4 x5 x6 := by rw [← hW87]; after_results_simp; exact e86_main_v48
  have e87_main_v54 : W87 (Proc.devRef .tc main_v54) = Read.val_main_v54 (F := F) x6 := by rw [← hW87]; after_results_simp; exact e86_main_v54
  clear hW87 e86_main_arg9 e86_main_arg8 e86_main_arg7 e86_main_v12 e86_main_v3 e86_main_v1 e86_main_v17 e86_main_arg6 e86_main_arg5 e86_main_arg4 e86_main_v48 e86_main_v54 e86_main_v68 e86_main_v70 W86
  -- operation 87: unary main_v54 → main_v72
  apply after_step; intro W88 hW88
  have e88_main_arg9 : W88 (Proc.devRef .tc main_arg9) = x9 := by rw [← hW88]; after_results_simp; exact e87_main_arg9
  have e88_main_arg8 : W88 (Proc.devRef .tc main_arg8) = x8 := by rw [← hW88]; after_results_simp; exact e87_main_arg8
  have e88_main_arg7 : W88 (Proc.devRef .tc main_arg7) = x7 := by rw [← hW88]; after_results_simp; exact e87_main_arg7
  have e88_main_v12 : W88 (Proc.devRef .tc main_v12) = Read.val_main_v12 (F := F) x1 := by rw [← hW88]; after_results_simp; exact e87_main_v12
  have e88_main_v3 : W88 (Proc.devRef .tc main_v3) = Read.val_main_v3 (F := F) x1 := by rw [← hW88]; after_results_simp; exact e87_main_v3
  have e88_main_v1 : W88 (Proc.devRef .tc main_v1) = Read.val_main_v1 (F := F) x1 := by rw [← hW88]; after_results_simp; exact e87_main_v1
  have e88_main_v17 : W88 (Proc.devRef .tc main_v17) = Read.val_main_v17 (F := F) x0 x2 x3 := by rw [← hW88]; after_results_simp; exact e87_main_v17
  have e88_main_arg6 : W88 (Proc.devRef .tc main_arg6) = x6 := by rw [← hW88]; after_results_simp; exact e87_main_arg6
  have e88_main_arg5 : W88 (Proc.devRef .tc main_arg5) = x5 := by rw [← hW88]; after_results_simp; exact e87_main_arg5
  have e88_main_arg4 : W88 (Proc.devRef .tc main_arg4) = x4 := by rw [← hW88]; after_results_simp; exact e87_main_arg4
  have e88_main_v71 : W88 (Proc.devRef .tc main_v71) = Read.val_main_v71 (F := F) x0 x1 x2 x3 x4 x5 x6 := by rw [← hW88]; after_results_simp; exact e87_main_v71
  have e88_main_v48 : W88 (Proc.devRef .tc main_v48) = Read.val_main_v48 (F := F) x0 x1 x2 x3 x4 x5 x6 := by rw [← hW88]; after_results_simp; exact e87_main_v48
  have e88_main_v72 : W88 (Proc.devRef .tc main_v72) = Read.val_main_v72 (F := F) x6 := by
    rw [← hW88]; after_results_simp; simp only [e87_main_v54]
    unfold Read.val_main_v72; generalize Read.val_main_v54 (F := F) x6 = A_main_v54; rfl
  clear hW88 e87_main_arg9 e87_main_arg8 e87_main_arg7 e87_main_v12 e87_main_v3 e87_main_v1 e87_main_v17 e87_main_arg6 e87_main_arg5 e87_main_arg4 e87_main_v71 e87_main_v48 e87_main_v54 W87
  -- operation 88: binary main_v48 main_v72 → main_v73
  apply after_step; intro W89 hW89
  have e89_main_arg9 : W89 (Proc.devRef .tc main_arg9) = x9 := by rw [← hW89]; after_results_simp; exact e88_main_arg9
  have e89_main_arg8 : W89 (Proc.devRef .tc main_arg8) = x8 := by rw [← hW89]; after_results_simp; exact e88_main_arg8
  have e89_main_arg7 : W89 (Proc.devRef .tc main_arg7) = x7 := by rw [← hW89]; after_results_simp; exact e88_main_arg7
  have e89_main_v12 : W89 (Proc.devRef .tc main_v12) = Read.val_main_v12 (F := F) x1 := by rw [← hW89]; after_results_simp; exact e88_main_v12
  have e89_main_v3 : W89 (Proc.devRef .tc main_v3) = Read.val_main_v3 (F := F) x1 := by rw [← hW89]; after_results_simp; exact e88_main_v3
  have e89_main_v1 : W89 (Proc.devRef .tc main_v1) = Read.val_main_v1 (F := F) x1 := by rw [← hW89]; after_results_simp; exact e88_main_v1
  have e89_main_v17 : W89 (Proc.devRef .tc main_v17) = Read.val_main_v17 (F := F) x0 x2 x3 := by rw [← hW89]; after_results_simp; exact e88_main_v17
  have e89_main_arg6 : W89 (Proc.devRef .tc main_arg6) = x6 := by rw [← hW89]; after_results_simp; exact e88_main_arg6
  have e89_main_arg5 : W89 (Proc.devRef .tc main_arg5) = x5 := by rw [← hW89]; after_results_simp; exact e88_main_arg5
  have e89_main_arg4 : W89 (Proc.devRef .tc main_arg4) = x4 := by rw [← hW89]; after_results_simp; exact e88_main_arg4
  have e89_main_v71 : W89 (Proc.devRef .tc main_v71) = Read.val_main_v71 (F := F) x0 x1 x2 x3 x4 x5 x6 := by rw [← hW89]; after_results_simp; exact e88_main_v71
  have e89_main_v73 : W89 (Proc.devRef .tc main_v73) = Read.val_main_v73 (F := F) x0 x1 x2 x3 x4 x5 x6 := by
    rw [← hW89]; after_results_simp; simp only [e88_main_v48, e88_main_v72]
    unfold Read.val_main_v73; generalize Read.val_main_v48 (F := F) x0 x1 x2 x3 x4 x5 x6 = A_main_v48; generalize Read.val_main_v72 (F := F) x6 = A_main_v72; rfl
  clear hW89 e88_main_arg9 e88_main_arg8 e88_main_arg7 e88_main_v12 e88_main_v3 e88_main_v1 e88_main_v17 e88_main_arg6 e88_main_arg5 e88_main_arg4 e88_main_v71 e88_main_v48 e88_main_v72 W88
  -- operation 89: binary main_v71 main_v73 → main_v74
  apply after_step; intro W90 hW90
  have e90_main_arg9 : W90 (Proc.devRef .tc main_arg9) = x9 := by rw [← hW90]; after_results_simp; exact e89_main_arg9
  have e90_main_arg8 : W90 (Proc.devRef .tc main_arg8) = x8 := by rw [← hW90]; after_results_simp; exact e89_main_arg8
  have e90_main_arg7 : W90 (Proc.devRef .tc main_arg7) = x7 := by rw [← hW90]; after_results_simp; exact e89_main_arg7
  have e90_main_v12 : W90 (Proc.devRef .tc main_v12) = Read.val_main_v12 (F := F) x1 := by rw [← hW90]; after_results_simp; exact e89_main_v12
  have e90_main_v3 : W90 (Proc.devRef .tc main_v3) = Read.val_main_v3 (F := F) x1 := by rw [← hW90]; after_results_simp; exact e89_main_v3
  have e90_main_v1 : W90 (Proc.devRef .tc main_v1) = Read.val_main_v1 (F := F) x1 := by rw [← hW90]; after_results_simp; exact e89_main_v1
  have e90_main_v17 : W90 (Proc.devRef .tc main_v17) = Read.val_main_v17 (F := F) x0 x2 x3 := by rw [← hW90]; after_results_simp; exact e89_main_v17
  have e90_main_arg6 : W90 (Proc.devRef .tc main_arg6) = x6 := by rw [← hW90]; after_results_simp; exact e89_main_arg6
  have e90_main_arg5 : W90 (Proc.devRef .tc main_arg5) = x5 := by rw [← hW90]; after_results_simp; exact e89_main_arg5
  have e90_main_arg4 : W90 (Proc.devRef .tc main_arg4) = x4 := by rw [← hW90]; after_results_simp; exact e89_main_arg4
  have e90_main_v74 : W90 (Proc.devRef .tc main_v74) = Read.val_main_v74 (F := F) x0 x1 x2 x3 x4 x5 x6 := by
    rw [← hW90]; after_results_simp; simp only [e89_main_v71, e89_main_v73]
    unfold Read.val_main_v74; generalize Read.val_main_v71 (F := F) x0 x1 x2 x3 x4 x5 x6 = A_main_v71; generalize Read.val_main_v73 (F := F) x0 x1 x2 x3 x4 x5 x6 = A_main_v73; rfl
  clear hW90 e89_main_arg9 e89_main_arg8 e89_main_arg7 e89_main_v12 e89_main_v3 e89_main_v1 e89_main_v17 e89_main_arg6 e89_main_arg5 e89_main_arg4 e89_main_v71 e89_main_v73 W89
  -- operation 90: TRef.nullary  → main_call2_cst
  apply after_step; intro W91 hW91
  have e91_main_arg9 : W91 (Proc.devRef .tc main_arg9) = x9 := by rw [← hW91]; after_results_simp; exact e90_main_arg9
  have e91_main_arg8 : W91 (Proc.devRef .tc main_arg8) = x8 := by rw [← hW91]; after_results_simp; exact e90_main_arg8
  have e91_main_arg7 : W91 (Proc.devRef .tc main_arg7) = x7 := by rw [← hW91]; after_results_simp; exact e90_main_arg7
  have e91_main_v12 : W91 (Proc.devRef .tc main_v12) = Read.val_main_v12 (F := F) x1 := by rw [← hW91]; after_results_simp; exact e90_main_v12
  have e91_main_v3 : W91 (Proc.devRef .tc main_v3) = Read.val_main_v3 (F := F) x1 := by rw [← hW91]; after_results_simp; exact e90_main_v3
  have e91_main_v1 : W91 (Proc.devRef .tc main_v1) = Read.val_main_v1 (F := F) x1 := by rw [← hW91]; after_results_simp; exact e90_main_v1
  have e91_main_v17 : W91 (Proc.devRef .tc main_v17) = Read.val_main_v17 (F := F) x0 x2 x3 := by rw [← hW91]; after_results_simp; exact e90_main_v17
  have e91_main_arg6 : W91 (Proc.devRef .tc main_arg6) = x6 := by rw [← hW91]; after_results_simp; exact e90_main_arg6
  have e91_main_arg5 : W91 (Proc.devRef .tc main_arg5) = x5 := by rw [← hW91]; after_results_simp; exact e90_main_arg5
  have e91_main_arg4 : W91 (Proc.devRef .tc main_arg4) = x4 := by rw [← hW91]; after_results_simp; exact e90_main_arg4
  have e91_main_v74 : W91 (Proc.devRef .tc main_v74) = Read.val_main_v74 (F := F) x0 x1 x2 x3 x4 x5 x6 := by rw [← hW91]; after_results_simp; exact e90_main_v74
  have e91_main_call2_cst : W91 (Proc.devRef .tc main_call2_cst) = Read.val_main_call2_cst (F := F) := by
    rw [← hW91]; after_results_simp
    unfold Read.val_main_call2_cst; refine (cast_eq _ _).trans ?_; rfl
  clear hW91 e90_main_arg9 e90_main_arg8 e90_main_arg7 e90_main_v12 e90_main_v3 e90_main_v1 e90_main_v17 e90_main_arg6 e90_main_arg5 e90_main_arg4 e90_main_v74 W90
  -- operation 91: TRef.unary main_call2_cst → main_call2_v0
  apply after_step; intro W92 hW92
  have e92_main_arg9 : W92 (Proc.devRef .tc main_arg9) = x9 := by rw [← hW92]; after_results_simp; exact e91_main_arg9
  have e92_main_arg8 : W92 (Proc.devRef .tc main_arg8) = x8 := by rw [← hW92]; after_results_simp; exact e91_main_arg8
  have e92_main_arg7 : W92 (Proc.devRef .tc main_arg7) = x7 := by rw [← hW92]; after_results_simp; exact e91_main_arg7
  have e92_main_v12 : W92 (Proc.devRef .tc main_v12) = Read.val_main_v12 (F := F) x1 := by rw [← hW92]; after_results_simp; exact e91_main_v12
  have e92_main_v3 : W92 (Proc.devRef .tc main_v3) = Read.val_main_v3 (F := F) x1 := by rw [← hW92]; after_results_simp; exact e91_main_v3
  have e92_main_v1 : W92 (Proc.devRef .tc main_v1) = Read.val_main_v1 (F := F) x1 := by rw [← hW92]; after_results_simp; exact e91_main_v1
  have e92_main_v17 : W92 (Proc.devRef .tc main_v17) = Read.val_main_v17 (F := F) x0 x2 x3 := by rw [← hW92]; after_results_simp; exact e91_main_v17
  have e92_main_arg6 : W92 (Proc.devRef .tc main_arg6) = x6 := by rw [← hW92]; after_results_simp; exact e91_main_arg6
  have e92_main_arg5 : W92 (Proc.devRef .tc main_arg5) = x5 := by rw [← hW92]; after_results_simp; exact e91_main_arg5
  have e92_main_arg4 : W92 (Proc.devRef .tc main_arg4) = x4 := by rw [← hW92]; after_results_simp; exact e91_main_arg4
  have e92_main_v74 : W92 (Proc.devRef .tc main_v74) = Read.val_main_v74 (F := F) x0 x1 x2 x3 x4 x5 x6 := by rw [← hW92]; after_results_simp; exact e91_main_v74
  have e92_main_call2_v0 : W92 (Proc.devRef .tc main_call2_v0) = Read.val_main_call2_v0 (F := F) := by
    rw [← hW92]; after_results_simp; simp only [e91_main_call2_cst]
    unfold Read.val_main_call2_v0; generalize Read.val_main_call2_cst (F := F) = A_main_call2_cst; refine (cast_eq _ _).trans ?_; rfl
  clear hW92 e91_main_arg9 e91_main_arg8 e91_main_arg7 e91_main_v12 e91_main_v3 e91_main_v1 e91_main_v17 e91_main_arg6 e91_main_arg5 e91_main_arg4 e91_main_v74 e91_main_call2_cst W91
  -- operation 92: TRef.binary main_v74 main_call2_v0 → main_v75
  apply after_step; intro W93 hW93
  have e93_main_arg9 : W93 (Proc.devRef .tc main_arg9) = x9 := by rw [← hW93]; after_results_simp; exact e92_main_arg9
  have e93_main_arg8 : W93 (Proc.devRef .tc main_arg8) = x8 := by rw [← hW93]; after_results_simp; exact e92_main_arg8
  have e93_main_arg7 : W93 (Proc.devRef .tc main_arg7) = x7 := by rw [← hW93]; after_results_simp; exact e92_main_arg7
  have e93_main_v12 : W93 (Proc.devRef .tc main_v12) = Read.val_main_v12 (F := F) x1 := by rw [← hW93]; after_results_simp; exact e92_main_v12
  have e93_main_v3 : W93 (Proc.devRef .tc main_v3) = Read.val_main_v3 (F := F) x1 := by rw [← hW93]; after_results_simp; exact e92_main_v3
  have e93_main_v1 : W93 (Proc.devRef .tc main_v1) = Read.val_main_v1 (F := F) x1 := by rw [← hW93]; after_results_simp; exact e92_main_v1
  have e93_main_v17 : W93 (Proc.devRef .tc main_v17) = Read.val_main_v17 (F := F) x0 x2 x3 := by rw [← hW93]; after_results_simp; exact e92_main_v17
  have e93_main_arg6 : W93 (Proc.devRef .tc main_arg6) = x6 := by rw [← hW93]; after_results_simp; exact e92_main_arg6
  have e93_main_arg5 : W93 (Proc.devRef .tc main_arg5) = x5 := by rw [← hW93]; after_results_simp; exact e92_main_arg5
  have e93_main_arg4 : W93 (Proc.devRef .tc main_arg4) = x4 := by rw [← hW93]; after_results_simp; exact e92_main_arg4
  have e93_main_v75 : W93 (Proc.devRef .tc main_v75) = Read.val_main_v75 (F := F) x0 x1 x2 x3 x4 x5 x6 := by
    rw [← hW93]; after_results_simp; simp only [e92_main_v74, e92_main_call2_v0]
    unfold Read.val_main_v75; generalize Read.val_main_v74 (F := F) x0 x1 x2 x3 x4 x5 x6 = A_main_v74; generalize Read.val_main_call2_v0 (F := F) = A_main_call2_v0; refine (cast_eq _ _).trans ?_; rfl
  clear hW93 e92_main_arg9 e92_main_arg8 e92_main_arg7 e92_main_v12 e92_main_v3 e92_main_v1 e92_main_v17 e92_main_arg6 e92_main_arg5 e92_main_arg4 e92_main_v74 e92_main_call2_v0 W92
  -- operation 93: nullary  → main_cst_9
  apply after_step; intro W94 hW94
  have e94_main_arg9 : W94 (Proc.devRef .tc main_arg9) = x9 := by rw [← hW94]; after_results_simp; exact e93_main_arg9
  have e94_main_arg8 : W94 (Proc.devRef .tc main_arg8) = x8 := by rw [← hW94]; after_results_simp; exact e93_main_arg8
  have e94_main_arg7 : W94 (Proc.devRef .tc main_arg7) = x7 := by rw [← hW94]; after_results_simp; exact e93_main_arg7
  have e94_main_v12 : W94 (Proc.devRef .tc main_v12) = Read.val_main_v12 (F := F) x1 := by rw [← hW94]; after_results_simp; exact e93_main_v12
  have e94_main_v3 : W94 (Proc.devRef .tc main_v3) = Read.val_main_v3 (F := F) x1 := by rw [← hW94]; after_results_simp; exact e93_main_v3
  have e94_main_v1 : W94 (Proc.devRef .tc main_v1) = Read.val_main_v1 (F := F) x1 := by rw [← hW94]; after_results_simp; exact e93_main_v1
  have e94_main_v17 : W94 (Proc.devRef .tc main_v17) = Read.val_main_v17 (F := F) x0 x2 x3 := by rw [← hW94]; after_results_simp; exact e93_main_v17
  have e94_main_arg6 : W94 (Proc.devRef .tc main_arg6) = x6 := by rw [← hW94]; after_results_simp; exact e93_main_arg6
  have e94_main_arg5 : W94 (Proc.devRef .tc main_arg5) = x5 := by rw [← hW94]; after_results_simp; exact e93_main_arg5
  have e94_main_arg4 : W94 (Proc.devRef .tc main_arg4) = x4 := by rw [← hW94]; after_results_simp; exact e93_main_arg4
  have e94_main_v75 : W94 (Proc.devRef .tc main_v75) = Read.val_main_v75 (F := F) x0 x1 x2 x3 x4 x5 x6 := by rw [← hW94]; after_results_simp; exact e93_main_v75
  have e94_main_cst_9 : W94 (Proc.devRef .tc main_cst_9) = Read.val_main_cst_9 (F := F) := by
    rw [← hW94]; after_results_simp
    unfold Read.val_main_cst_9; rfl
  clear hW94 e93_main_arg9 e93_main_arg8 e93_main_arg7 e93_main_v12 e93_main_v3 e93_main_v1 e93_main_v17 e93_main_arg6 e93_main_arg5 e93_main_arg4 e93_main_v75 W93
  -- operation 94: unary main_cst_9 → main_v76
  apply after_step; intro W95 hW95
  have e95_main_arg9 : W95 (Proc.devRef .tc main_arg9) = x9 := by rw [← hW95]; after_results_simp; exact e94_main_arg9
  have e95_main_arg8 : W95 (Proc.devRef .tc main_arg8) = x8 := by rw [← hW95]; after_results_simp; exact e94_main_arg8
  have e95_main_arg7 : W95 (Proc.devRef .tc main_arg7) = x7 := by rw [← hW95]; after_results_simp; exact e94_main_arg7
  have e95_main_v12 : W95 (Proc.devRef .tc main_v12) = Read.val_main_v12 (F := F) x1 := by rw [← hW95]; after_results_simp; exact e94_main_v12
  have e95_main_v3 : W95 (Proc.devRef .tc main_v3) = Read.val_main_v3 (F := F) x1 := by rw [← hW95]; after_results_simp; exact e94_main_v3
  have e95_main_v1 : W95 (Proc.devRef .tc main_v1) = Read.val_main_v1 (F := F) x1 := by rw [← hW95]; after_results_simp; exact e94_main_v1
  have e95_main_v17 : W95 (Proc.devRef .tc main_v17) = Read.val_main_v17 (F := F) x0 x2 x3 := by rw [← hW95]; after_results_simp; exact e94_main_v17
  have e95_main_arg6 : W95 (Proc.devRef .tc main_arg6) = x6 := by rw [← hW95]; after_results_simp; exact e94_main_arg6
  have e95_main_arg5 : W95 (Proc.devRef .tc main_arg5) = x5 := by rw [← hW95]; after_results_simp; exact e94_main_arg5
  have e95_main_arg4 : W95 (Proc.devRef .tc main_arg4) = x4 := by rw [← hW95]; after_results_simp; exact e94_main_arg4
  have e95_main_v75 : W95 (Proc.devRef .tc main_v75) = Read.val_main_v75 (F := F) x0 x1 x2 x3 x4 x5 x6 := by rw [← hW95]; after_results_simp; exact e94_main_v75
  have e95_main_v76 : W95 (Proc.devRef .tc main_v76) = Read.val_main_v76 (F := F) := by
    rw [← hW95]; after_results_simp; simp only [e94_main_cst_9]
    unfold Read.val_main_v76; generalize Read.val_main_cst_9 (F := F) = A_main_cst_9; rfl
  clear hW95 e94_main_arg9 e94_main_arg8 e94_main_arg7 e94_main_v12 e94_main_v3 e94_main_v1 e94_main_v17 e94_main_arg6 e94_main_arg5 e94_main_arg4 e94_main_v75 e94_main_cst_9 W94
  -- operation 95: binary main_v76 main_v17 → main_v77
  apply after_step; intro W96 hW96
  have e96_main_arg9 : W96 (Proc.devRef .tc main_arg9) = x9 := by rw [← hW96]; after_results_simp; exact e95_main_arg9
  have e96_main_arg8 : W96 (Proc.devRef .tc main_arg8) = x8 := by rw [← hW96]; after_results_simp; exact e95_main_arg8
  have e96_main_arg7 : W96 (Proc.devRef .tc main_arg7) = x7 := by rw [← hW96]; after_results_simp; exact e95_main_arg7
  have e96_main_v12 : W96 (Proc.devRef .tc main_v12) = Read.val_main_v12 (F := F) x1 := by rw [← hW96]; after_results_simp; exact e95_main_v12
  have e96_main_v3 : W96 (Proc.devRef .tc main_v3) = Read.val_main_v3 (F := F) x1 := by rw [← hW96]; after_results_simp; exact e95_main_v3
  have e96_main_v1 : W96 (Proc.devRef .tc main_v1) = Read.val_main_v1 (F := F) x1 := by rw [← hW96]; after_results_simp; exact e95_main_v1
  have e96_main_v17 : W96 (Proc.devRef .tc main_v17) = Read.val_main_v17 (F := F) x0 x2 x3 := by rw [← hW96]; after_results_simp; exact e95_main_v17
  have e96_main_arg6 : W96 (Proc.devRef .tc main_arg6) = x6 := by rw [← hW96]; after_results_simp; exact e95_main_arg6
  have e96_main_arg5 : W96 (Proc.devRef .tc main_arg5) = x5 := by rw [← hW96]; after_results_simp; exact e95_main_arg5
  have e96_main_arg4 : W96 (Proc.devRef .tc main_arg4) = x4 := by rw [← hW96]; after_results_simp; exact e95_main_arg4
  have e96_main_v75 : W96 (Proc.devRef .tc main_v75) = Read.val_main_v75 (F := F) x0 x1 x2 x3 x4 x5 x6 := by rw [← hW96]; after_results_simp; exact e95_main_v75
  have e96_main_v77 : W96 (Proc.devRef .tc main_v77) = Read.val_main_v77 (F := F) x0 x2 x3 := by
    rw [← hW96]; after_results_simp; simp only [e95_main_v76, e95_main_v17]
    unfold Read.val_main_v77; generalize Read.val_main_v76 (F := F) = A_main_v76; generalize Read.val_main_v17 (F := F) x0 x2 x3 = A_main_v17; rfl
  clear hW96 e95_main_arg9 e95_main_arg8 e95_main_arg7 e95_main_v12 e95_main_v3 e95_main_v1 e95_main_v17 e95_main_arg6 e95_main_arg5 e95_main_arg4 e95_main_v75 e95_main_v76 W95
  -- operation 96: binary main_v75 main_v77 → main_v78
  apply after_step; intro W97 hW97
  have e97_main_arg9 : W97 (Proc.devRef .tc main_arg9) = x9 := by rw [← hW97]; after_results_simp; exact e96_main_arg9
  have e97_main_arg8 : W97 (Proc.devRef .tc main_arg8) = x8 := by rw [← hW97]; after_results_simp; exact e96_main_arg8
  have e97_main_arg7 : W97 (Proc.devRef .tc main_arg7) = x7 := by rw [← hW97]; after_results_simp; exact e96_main_arg7
  have e97_main_v12 : W97 (Proc.devRef .tc main_v12) = Read.val_main_v12 (F := F) x1 := by rw [← hW97]; after_results_simp; exact e96_main_v12
  have e97_main_v3 : W97 (Proc.devRef .tc main_v3) = Read.val_main_v3 (F := F) x1 := by rw [← hW97]; after_results_simp; exact e96_main_v3
  have e97_main_v1 : W97 (Proc.devRef .tc main_v1) = Read.val_main_v1 (F := F) x1 := by rw [← hW97]; after_results_simp; exact e96_main_v1
  have e97_main_v17 : W97 (Proc.devRef .tc main_v17) = Read.val_main_v17 (F := F) x0 x2 x3 := by rw [← hW97]; after_results_simp; exact e96_main_v17
  have e97_main_v78 : W97 (Proc.devRef .tc main_v78) = Read.val_main_v78 (F := F) x0 x1 x2 x3 x4 x5 x6 := by
    rw [← hW97]; after_results_simp; simp only [e96_main_v75, e96_main_v77]
    unfold Read.val_main_v78; generalize Read.val_main_v75 (F := F) x0 x1 x2 x3 x4 x5 x6 = A_main_v75; generalize Read.val_main_v77 (F := F) x0 x2 x3 = A_main_v77; rfl
  have e97_main_arg6 : W97 (Proc.devRef .tc main_arg6) = x6 := by rw [← hW97]; after_results_simp; exact e96_main_arg6
  have e97_main_arg5 : W97 (Proc.devRef .tc main_arg5) = x5 := by rw [← hW97]; after_results_simp; exact e96_main_arg5
  have e97_main_arg4 : W97 (Proc.devRef .tc main_arg4) = x4 := by rw [← hW97]; after_results_simp; exact e96_main_arg4
  clear hW97 e96_main_arg9 e96_main_arg8 e96_main_arg7 e96_main_v12 e96_main_v3 e96_main_v1 e96_main_v17 e96_main_arg6 e96_main_arg5 e96_main_arg4 e96_main_v75 e96_main_v77 W96
  -- operation 97: unary main_arg4 → main_v79
  apply after_step; intro W98 hW98
  have e98_main_arg9 : W98 (Proc.devRef .tc main_arg9) = x9 := by rw [← hW98]; after_results_simp; exact e97_main_arg9
  have e98_main_arg8 : W98 (Proc.devRef .tc main_arg8) = x8 := by rw [← hW98]; after_results_simp; exact e97_main_arg8
  have e98_main_arg7 : W98 (Proc.devRef .tc main_arg7) = x7 := by rw [← hW98]; after_results_simp; exact e97_main_arg7
  have e98_main_v12 : W98 (Proc.devRef .tc main_v12) = Read.val_main_v12 (F := F) x1 := by rw [← hW98]; after_results_simp; exact e97_main_v12
  have e98_main_v3 : W98 (Proc.devRef .tc main_v3) = Read.val_main_v3 (F := F) x1 := by rw [← hW98]; after_results_simp; exact e97_main_v3
  have e98_main_v1 : W98 (Proc.devRef .tc main_v1) = Read.val_main_v1 (F := F) x1 := by rw [← hW98]; after_results_simp; exact e97_main_v1
  have e98_main_v17 : W98 (Proc.devRef .tc main_v17) = Read.val_main_v17 (F := F) x0 x2 x3 := by rw [← hW98]; after_results_simp; exact e97_main_v17
  have e98_main_v78 : W98 (Proc.devRef .tc main_v78) = Read.val_main_v78 (F := F) x0 x1 x2 x3 x4 x5 x6 := by rw [← hW98]; after_results_simp; exact e97_main_v78
  have e98_main_arg6 : W98 (Proc.devRef .tc main_arg6) = x6 := by rw [← hW98]; after_results_simp; exact e97_main_arg6
  have e98_main_arg5 : W98 (Proc.devRef .tc main_arg5) = x5 := by rw [← hW98]; after_results_simp; exact e97_main_arg5
  have e98_main_v79 : W98 (Proc.devRef .tc main_v79) = Read.val_main_v79 (F := F) x4 := by
    rw [← hW98]; after_results_simp; simp only [e97_main_arg4]
    unfold Read.val_main_v79; rfl
  clear hW98 e97_main_arg9 e97_main_arg8 e97_main_arg7 e97_main_v12 e97_main_v3 e97_main_v1 e97_main_v17 e97_main_v78 e97_main_arg6 e97_main_arg5 e97_main_arg4 W97
  -- operation 98: reshape main_v79 → main_v80
  apply after_step; intro W99 hW99
  have e99_main_arg9 : W99 (Proc.devRef .tc main_arg9) = x9 := by rw [← hW99]; after_results_simp; exact e98_main_arg9
  have e99_main_arg8 : W99 (Proc.devRef .tc main_arg8) = x8 := by rw [← hW99]; after_results_simp; exact e98_main_arg8
  have e99_main_arg7 : W99 (Proc.devRef .tc main_arg7) = x7 := by rw [← hW99]; after_results_simp; exact e98_main_arg7
  have e99_main_v12 : W99 (Proc.devRef .tc main_v12) = Read.val_main_v12 (F := F) x1 := by rw [← hW99]; after_results_simp; exact e98_main_v12
  have e99_main_v3 : W99 (Proc.devRef .tc main_v3) = Read.val_main_v3 (F := F) x1 := by rw [← hW99]; after_results_simp; exact e98_main_v3
  have e99_main_v1 : W99 (Proc.devRef .tc main_v1) = Read.val_main_v1 (F := F) x1 := by rw [← hW99]; after_results_simp; exact e98_main_v1
  have e99_main_v17 : W99 (Proc.devRef .tc main_v17) = Read.val_main_v17 (F := F) x0 x2 x3 := by rw [← hW99]; after_results_simp; exact e98_main_v17
  have e99_main_v78 : W99 (Proc.devRef .tc main_v78) = Read.val_main_v78 (F := F) x0 x1 x2 x3 x4 x5 x6 := by rw [← hW99]; after_results_simp; exact e98_main_v78
  have e99_main_v80 : W99 (Proc.devRef .tc main_v80) = Read.val_main_v80 (F := F) x4 := by
    rw [← hW99]; after_results_simp; simp only [e98_main_v79]
    unfold Read.val_main_v80; generalize Read.val_main_v79 (F := F) x4 = A_main_v79; rfl
  have e99_main_arg6 : W99 (Proc.devRef .tc main_arg6) = x6 := by rw [← hW99]; after_results_simp; exact e98_main_arg6
  have e99_main_arg5 : W99 (Proc.devRef .tc main_arg5) = x5 := by rw [← hW99]; after_results_simp; exact e98_main_arg5
  clear hW99 e98_main_arg9 e98_main_arg8 e98_main_arg7 e98_main_v12 e98_main_v3 e98_main_v1 e98_main_v17 e98_main_v78 e98_main_arg6 e98_main_arg5 e98_main_v79 W98
  -- operation 99: unary main_arg5 → main_v81
  apply after_step; intro W100 hW100
  have e100_main_arg9 : W100 (Proc.devRef .tc main_arg9) = x9 := by rw [← hW100]; after_results_simp; exact e99_main_arg9
  have e100_main_arg8 : W100 (Proc.devRef .tc main_arg8) = x8 := by rw [← hW100]; after_results_simp; exact e99_main_arg8
  have e100_main_arg7 : W100 (Proc.devRef .tc main_arg7) = x7 := by rw [← hW100]; after_results_simp; exact e99_main_arg7
  have e100_main_v12 : W100 (Proc.devRef .tc main_v12) = Read.val_main_v12 (F := F) x1 := by rw [← hW100]; after_results_simp; exact e99_main_v12
  have e100_main_v3 : W100 (Proc.devRef .tc main_v3) = Read.val_main_v3 (F := F) x1 := by rw [← hW100]; after_results_simp; exact e99_main_v3
  have e100_main_v1 : W100 (Proc.devRef .tc main_v1) = Read.val_main_v1 (F := F) x1 := by rw [← hW100]; after_results_simp; exact e99_main_v1
  have e100_main_v17 : W100 (Proc.devRef .tc main_v17) = Read.val_main_v17 (F := F) x0 x2 x3 := by rw [← hW100]; after_results_simp; exact e99_main_v17
  have e100_main_v78 : W100 (Proc.devRef .tc main_v78) = Read.val_main_v78 (F := F) x0 x1 x2 x3 x4 x5 x6 := by rw [← hW100]; after_results_simp; exact e99_main_v78
  have e100_main_v80 : W100 (Proc.devRef .tc main_v80) = Read.val_main_v80 (F := F) x4 := by rw [← hW100]; after_results_simp; exact e99_main_v80
  have e100_main_arg6 : W100 (Proc.devRef .tc main_arg6) = x6 := by rw [← hW100]; after_results_simp; exact e99_main_arg6
  have e100_main_v81 : W100 (Proc.devRef .tc main_v81) = Read.val_main_v81 (F := F) x5 := by
    rw [← hW100]; after_results_simp; simp only [e99_main_arg5]
    unfold Read.val_main_v81; rfl
  clear hW100 e99_main_arg9 e99_main_arg8 e99_main_arg7 e99_main_v12 e99_main_v3 e99_main_v1 e99_main_v17 e99_main_v78 e99_main_v80 e99_main_arg6 e99_main_arg5 W99
  -- operation 100: reshape main_v81 → main_v82
  apply after_step; intro W101 hW101
  have e101_main_arg9 : W101 (Proc.devRef .tc main_arg9) = x9 := by rw [← hW101]; after_results_simp; exact e100_main_arg9
  have e101_main_arg8 : W101 (Proc.devRef .tc main_arg8) = x8 := by rw [← hW101]; after_results_simp; exact e100_main_arg8
  have e101_main_arg7 : W101 (Proc.devRef .tc main_arg7) = x7 := by rw [← hW101]; after_results_simp; exact e100_main_arg7
  have e101_main_v12 : W101 (Proc.devRef .tc main_v12) = Read.val_main_v12 (F := F) x1 := by rw [← hW101]; after_results_simp; exact e100_main_v12
  have e101_main_v3 : W101 (Proc.devRef .tc main_v3) = Read.val_main_v3 (F := F) x1 := by rw [← hW101]; after_results_simp; exact e100_main_v3
  have e101_main_v1 : W101 (Proc.devRef .tc main_v1) = Read.val_main_v1 (F := F) x1 := by rw [← hW101]; after_results_simp; exact e100_main_v1
  have e101_main_v17 : W101 (Proc.devRef .tc main_v17) = Read.val_main_v17 (F := F) x0 x2 x3 := by rw [← hW101]; after_results_simp; exact e100_main_v17
  have e101_main_v78 : W101 (Proc.devRef .tc main_v78) = Read.val_main_v78 (F := F) x0 x1 x2 x3 x4 x5 x6 := by rw [← hW101]; after_results_simp; exact e100_main_v78
  have e101_main_v82 : W101 (Proc.devRef .tc main_v82) = Read.val_main_v82 (F := F) x5 := by
    rw [← hW101]; after_results_simp; simp only [e100_main_v81]
    unfold Read.val_main_v82; generalize Read.val_main_v81 (F := F) x5 = A_main_v81; rfl
  have e101_main_v80 : W101 (Proc.devRef .tc main_v80) = Read.val_main_v80 (F := F) x4 := by rw [← hW101]; after_results_simp; exact e100_main_v80
  have e101_main_arg6 : W101 (Proc.devRef .tc main_arg6) = x6 := by rw [← hW101]; after_results_simp; exact e100_main_arg6
  clear hW101 e100_main_arg9 e100_main_arg8 e100_main_arg7 e100_main_v12 e100_main_v3 e100_main_v1 e100_main_v17 e100_main_v78 e100_main_v80 e100_main_arg6 e100_main_v81 W100
  -- operation 101: unary main_arg6 → main_v83
  apply after_step; intro W102 hW102
  have e102_main_arg9 : W102 (Proc.devRef .tc main_arg9) = x9 := by rw [← hW102]; after_results_simp; exact e101_main_arg9
  have e102_main_arg8 : W102 (Proc.devRef .tc main_arg8) = x8 := by rw [← hW102]; after_results_simp; exact e101_main_arg8
  have e102_main_arg7 : W102 (Proc.devRef .tc main_arg7) = x7 := by rw [← hW102]; after_results_simp; exact e101_main_arg7
  have e102_main_v12 : W102 (Proc.devRef .tc main_v12) = Read.val_main_v12 (F := F) x1 := by rw [← hW102]; after_results_simp; exact e101_main_v12
  have e102_main_v3 : W102 (Proc.devRef .tc main_v3) = Read.val_main_v3 (F := F) x1 := by rw [← hW102]; after_results_simp; exact e101_main_v3
  have e102_main_v1 : W102 (Proc.devRef .tc main_v1) = Read.val_main_v1 (F := F) x1 := by rw [← hW102]; after_results_simp; exact e101_main_v1
  have e102_main_v17 : W102 (Proc.devRef .tc main_v17) = Read.val_main_v17 (F := F) x0 x2 x3 := by rw [← hW102]; after_results_simp; exact e101_main_v17
  have e102_main_v78 : W102 (Proc.devRef .tc main_v78) = Read.val_main_v78 (F := F) x0 x1 x2 x3 x4 x5 x6 := by rw [← hW102]; after_results_simp; exact e101_main_v78
  have e102_main_v82 : W102 (Proc.devRef .tc main_v82) = Read.val_main_v82 (F := F) x5 := by rw [← hW102]; after_results_simp; exact e101_main_v82
  have e102_main_v80 : W102 (Proc.devRef .tc main_v80) = Read.val_main_v80 (F := F) x4 := by rw [← hW102]; after_results_simp; exact e101_main_v80
  have e102_main_v83 : W102 (Proc.devRef .tc main_v83) = Read.val_main_v83 (F := F) x6 := by
    rw [← hW102]; after_results_simp; simp only [e101_main_arg6]
    unfold Read.val_main_v83; rfl
  clear hW102 e101_main_arg9 e101_main_arg8 e101_main_arg7 e101_main_v12 e101_main_v3 e101_main_v1 e101_main_v17 e101_main_v78 e101_main_v82 e101_main_v80 e101_main_arg6 W101
  -- operation 102: reshape main_v83 → main_v84
  apply after_step; intro W103 hW103
  have e103_main_arg9 : W103 (Proc.devRef .tc main_arg9) = x9 := by rw [← hW103]; after_results_simp; exact e102_main_arg9
  have e103_main_arg8 : W103 (Proc.devRef .tc main_arg8) = x8 := by rw [← hW103]; after_results_simp; exact e102_main_arg8
  have e103_main_arg7 : W103 (Proc.devRef .tc main_arg7) = x7 := by rw [← hW103]; after_results_simp; exact e102_main_arg7
  have e103_main_v12 : W103 (Proc.devRef .tc main_v12) = Read.val_main_v12 (F := F) x1 := by rw [← hW103]; after_results_simp; exact e102_main_v12
  have e103_main_v3 : W103 (Proc.devRef .tc main_v3) = Read.val_main_v3 (F := F) x1 := by rw [← hW103]; after_results_simp; exact e102_main_v3
  have e103_main_v1 : W103 (Proc.devRef .tc main_v1) = Read.val_main_v1 (F := F) x1 := by rw [← hW103]; after_results_simp; exact e102_main_v1
  have e103_main_v17 : W103 (Proc.devRef .tc main_v17) = Read.val_main_v17 (F := F) x0 x2 x3 := by rw [← hW103]; after_results_simp; exact e102_main_v17
  have e103_main_v78 : W103 (Proc.devRef .tc main_v78) = Read.val_main_v78 (F := F) x0 x1 x2 x3 x4 x5 x6 := by rw [← hW103]; after_results_simp; exact e102_main_v78
  have e103_main_v84 : W103 (Proc.devRef .tc main_v84) = Read.val_main_v84 (F := F) x6 := by
    rw [← hW103]; after_results_simp; simp only [e102_main_v83]
    unfold Read.val_main_v84; generalize Read.val_main_v83 (F := F) x6 = A_main_v83; rfl
  have e103_main_v82 : W103 (Proc.devRef .tc main_v82) = Read.val_main_v82 (F := F) x5 := by rw [← hW103]; after_results_simp; exact e102_main_v82
  have e103_main_v80 : W103 (Proc.devRef .tc main_v80) = Read.val_main_v80 (F := F) x4 := by rw [← hW103]; after_results_simp; exact e102_main_v80
  clear hW103 e102_main_arg9 e102_main_arg8 e102_main_arg7 e102_main_v12 e102_main_v3 e102_main_v1 e102_main_v17 e102_main_v78 e102_main_v82 e102_main_v80 e102_main_v83 W102
  -- operation 103: nullary  → main_c_10
  apply after_step; intro W104 hW104
  have e104_main_arg9 : W104 (Proc.devRef .tc main_arg9) = x9 := by rw [← hW104]; after_results_simp; exact e103_main_arg9
  have e104_main_arg8 : W104 (Proc.devRef .tc main_arg8) = x8 := by rw [← hW104]; after_results_simp; exact e103_main_arg8
  have e104_main_arg7 : W104 (Proc.devRef .tc main_arg7) = x7 := by rw [← hW104]; after_results_simp; exact e103_main_arg7
  have e104_main_v12 : W104 (Proc.devRef .tc main_v12) = Read.val_main_v12 (F := F) x1 := by rw [← hW104]; after_results_simp; exact e103_main_v12
  have e104_main_v3 : W104 (Proc.devRef .tc main_v3) = Read.val_main_v3 (F := F) x1 := by rw [← hW104]; after_results_simp; exact e103_main_v3
  have e104_main_v1 : W104 (Proc.devRef .tc main_v1) = Read.val_main_v1 (F := F) x1 := by rw [← hW104]; after_results_simp; exact e103_main_v1
  have e104_main_v17 : W104 (Proc.devRef .tc main_v17) = Read.val_main_v17 (F := F) x0 x2 x3 := by rw [← hW104]; after_results_simp; exact e103_main_v17
  have e104_main_v78 : W104 (Proc.devRef .tc main_v78) = Read.val_main_v78 (F := F) x0 x1 x2 x3 x4 x5 x6 := by rw [← hW104]; after_results_simp; exact e103_main_v78
  have e104_main_v84 : W104 (Proc.devRef .tc main_v84) = Read.val_main_v84 (F := F) x6 := by rw [← hW104]; after_results_simp; exact e103_main_v84
  have e104_main_v82 : W104 (Proc.devRef .tc main_v82) = Read.val_main_v82 (F := F) x5 := by rw [← hW104]; after_results_simp; exact e103_main_v82
  have e104_main_v80 : W104 (Proc.devRef .tc main_v80) = Read.val_main_v80 (F := F) x4 := by rw [← hW104]; after_results_simp; exact e103_main_v80
  have e104_main_c_10 : W104 (Proc.devRef .tc main_c_10) = Read.val_main_c_10 (F := F) := by
    rw [← hW104]; after_results_simp
    unfold Read.val_main_c_10; rfl
  clear hW104 e103_main_arg9 e103_main_arg8 e103_main_arg7 e103_main_v12 e103_main_v3 e103_main_v1 e103_main_v17 e103_main_v78 e103_main_v84 e103_main_v82 e103_main_v80 W103
  -- operation 104: unary main_c_10 → main_v85
  apply after_step; intro W105 hW105
  have e105_main_arg9 : W105 (Proc.devRef .tc main_arg9) = x9 := by rw [← hW105]; after_results_simp; exact e104_main_arg9
  have e105_main_arg8 : W105 (Proc.devRef .tc main_arg8) = x8 := by rw [← hW105]; after_results_simp; exact e104_main_arg8
  have e105_main_arg7 : W105 (Proc.devRef .tc main_arg7) = x7 := by rw [← hW105]; after_results_simp; exact e104_main_arg7
  have e105_main_v12 : W105 (Proc.devRef .tc main_v12) = Read.val_main_v12 (F := F) x1 := by rw [← hW105]; after_results_simp; exact e104_main_v12
  have e105_main_v3 : W105 (Proc.devRef .tc main_v3) = Read.val_main_v3 (F := F) x1 := by rw [← hW105]; after_results_simp; exact e104_main_v3
  have e105_main_v1 : W105 (Proc.devRef .tc main_v1) = Read.val_main_v1 (F := F) x1 := by rw [← hW105]; after_results_simp; exact e104_main_v1
  have e105_main_v17 : W105 (Proc.devRef .tc main_v17) = Read.val_main_v17 (F := F) x0 x2 x3 := by rw [← hW105]; after_results_simp; exact e104_main_v17
  have e105_main_v78 : W105 (Proc.devRef .tc main_v78) = Read.val_main_v78 (F := F) x0 x1 x2 x3 x4 x5 x6 := by rw [← hW105]; after_results_simp; exact e104_main_v78
  have e105_main_v84 : W105 (Proc.devRef .tc main_v84) = Read.val_main_v84 (F := F) x6 := by rw [← hW105]; after_results_simp; exact e104_main_v84
  have e105_main_v82 : W105 (Proc.devRef .tc main_v82) = Read.val_main_v82 (F := F) x5 := by rw [← hW105]; after_results_simp; exact e104_main_v82
  have e105_main_v80 : W105 (Proc.devRef .tc main_v80) = Read.val_main_v80 (F := F) x4 := by rw [← hW105]; after_results_simp; exact e104_main_v80
  have e105_main_v85 : W105 (Proc.devRef .tc main_v85) = Read.val_main_v85 (F := F) := by
    rw [← hW105]; after_results_simp; simp only [e104_main_c_10]
    unfold Read.val_main_v85; generalize Read.val_main_c_10 (F := F) = A_main_c_10; rfl
  clear hW105 e104_main_arg9 e104_main_arg8 e104_main_arg7 e104_main_v12 e104_main_v3 e104_main_v1 e104_main_v17 e104_main_v78 e104_main_v84 e104_main_v82 e104_main_v80 e104_main_c_10 W104
  -- operation 105: binary main_v1 main_v85 → main_v86
  apply after_step; intro W106 hW106
  have e106_main_arg9 : W106 (Proc.devRef .tc main_arg9) = x9 := by rw [← hW106]; after_results_simp; exact e105_main_arg9
  have e106_main_arg8 : W106 (Proc.devRef .tc main_arg8) = x8 := by rw [← hW106]; after_results_simp; exact e105_main_arg8
  have e106_main_arg7 : W106 (Proc.devRef .tc main_arg7) = x7 := by rw [← hW106]; after_results_simp; exact e105_main_arg7
  have e106_main_v12 : W106 (Proc.devRef .tc main_v12) = Read.val_main_v12 (F := F) x1 := by rw [← hW106]; after_results_simp; exact e105_main_v12
  have e106_main_v3 : W106 (Proc.devRef .tc main_v3) = Read.val_main_v3 (F := F) x1 := by rw [← hW106]; after_results_simp; exact e105_main_v3
  have e106_main_v1 : W106 (Proc.devRef .tc main_v1) = Read.val_main_v1 (F := F) x1 := by rw [← hW106]; after_results_simp; exact e105_main_v1
  have e106_main_v17 : W106 (Proc.devRef .tc main_v17) = Read.val_main_v17 (F := F) x0 x2 x3 := by rw [← hW106]; after_results_simp; exact e105_main_v17
  have e106_main_v78 : W106 (Proc.devRef .tc main_v78) = Read.val_main_v78 (F := F) x0 x1 x2 x3 x4 x5 x6 := by rw [← hW106]; after_results_simp; exact e105_main_v78
  have e106_main_v84 : W106 (Proc.devRef .tc main_v84) = Read.val_main_v84 (F := F) x6 := by rw [← hW106]; after_results_simp; exact e105_main_v84
  have e106_main_v82 : W106 (Proc.devRef .tc main_v82) = Read.val_main_v82 (F := F) x5 := by rw [← hW106]; after_results_simp; exact e105_main_v82
  have e106_main_v80 : W106 (Proc.devRef .tc main_v80) = Read.val_main_v80 (F := F) x4 := by rw [← hW106]; after_results_simp; exact e105_main_v80
  have e106_main_v86 : W106 (Proc.devRef .tc main_v86) = Read.val_main_v86 (F := F) x1 := by
    rw [← hW106]; after_results_simp; simp only [e105_main_v1, e105_main_v85]
    unfold Read.val_main_v86; generalize Read.val_main_v1 (F := F) x1 = A_main_v1; generalize Read.val_main_v85 (F := F) = A_main_v85; rfl
  clear hW106 e105_main_arg9 e105_main_arg8 e105_main_arg7 e105_main_v12 e105_main_v3 e105_main_v1 e105_main_v17 e105_main_v78 e105_main_v84 e105_main_v82 e105_main_v80 e105_main_v85 W105
  -- operation 106: nullary  → main_c_11
  apply after_step; intro W107 hW107
  have e107_main_arg9 : W107 (Proc.devRef .tc main_arg9) = x9 := by rw [← hW107]; after_results_simp; exact e106_main_arg9
  have e107_main_arg8 : W107 (Proc.devRef .tc main_arg8) = x8 := by rw [← hW107]; after_results_simp; exact e106_main_arg8
  have e107_main_arg7 : W107 (Proc.devRef .tc main_arg7) = x7 := by rw [← hW107]; after_results_simp; exact e106_main_arg7
  have e107_main_v12 : W107 (Proc.devRef .tc main_v12) = Read.val_main_v12 (F := F) x1 := by rw [← hW107]; after_results_simp; exact e106_main_v12
  have e107_main_v3 : W107 (Proc.devRef .tc main_v3) = Read.val_main_v3 (F := F) x1 := by rw [← hW107]; after_results_simp; exact e106_main_v3
  have e107_main_v1 : W107 (Proc.devRef .tc main_v1) = Read.val_main_v1 (F := F) x1 := by rw [← hW107]; after_results_simp; exact e106_main_v1
  have e107_main_v17 : W107 (Proc.devRef .tc main_v17) = Read.val_main_v17 (F := F) x0 x2 x3 := by rw [← hW107]; after_results_simp; exact e106_main_v17
  have e107_main_v78 : W107 (Proc.devRef .tc main_v78) = Read.val_main_v78 (F := F) x0 x1 x2 x3 x4 x5 x6 := by rw [← hW107]; after_results_simp; exact e106_main_v78
  have e107_main_v84 : W107 (Proc.devRef .tc main_v84) = Read.val_main_v84 (F := F) x6 := by rw [← hW107]; after_results_simp; exact e106_main_v84
  have e107_main_v82 : W107 (Proc.devRef .tc main_v82) = Read.val_main_v82 (F := F) x5 := by rw [← hW107]; after_results_simp; exact e106_main_v82
  have e107_main_v80 : W107 (Proc.devRef .tc main_v80) = Read.val_main_v80 (F := F) x4 := by rw [← hW107]; after_results_simp; exact e106_main_v80
  have e107_main_v86 : W107 (Proc.devRef .tc main_v86) = Read.val_main_v86 (F := F) x1 := by rw [← hW107]; after_results_simp; exact e106_main_v86
  have e107_main_c_11 : W107 (Proc.devRef .tc main_c_11) = Read.val_main_c_11 (F := F) := by
    rw [← hW107]; after_results_simp
    unfold Read.val_main_c_11; rfl
  clear hW107 e106_main_arg9 e106_main_arg8 e106_main_arg7 e106_main_v12 e106_main_v3 e106_main_v1 e106_main_v17 e106_main_v78 e106_main_v84 e106_main_v82 e106_main_v80 e106_main_v86 W106
  -- operation 107: unary main_c_11 → main_v87
  apply after_step; intro W108 hW108
  have e108_main_arg9 : W108 (Proc.devRef .tc main_arg9) = x9 := by rw [← hW108]; after_results_simp; exact e107_main_arg9
  have e108_main_arg8 : W108 (Proc.devRef .tc main_arg8) = x8 := by rw [← hW108]; after_results_simp; exact e107_main_arg8
  have e108_main_arg7 : W108 (Proc.devRef .tc main_arg7) = x7 := by rw [← hW108]; after_results_simp; exact e107_main_arg7
  have e108_main_v12 : W108 (Proc.devRef .tc main_v12) = Read.val_main_v12 (F := F) x1 := by rw [← hW108]; after_results_simp; exact e107_main_v12
  have e108_main_v3 : W108 (Proc.devRef .tc main_v3) = Read.val_main_v3 (F := F) x1 := by rw [← hW108]; after_results_simp; exact e107_main_v3
  have e108_main_v1 : W108 (Proc.devRef .tc main_v1) = Read.val_main_v1 (F := F) x1 := by rw [← hW108]; after_results_simp; exact e107_main_v1
  have e108_main_v17 : W108 (Proc.devRef .tc main_v17) = Read.val_main_v17 (F := F) x0 x2 x3 := by rw [← hW108]; after_results_simp; exact e107_main_v17
  have e108_main_v78 : W108 (Proc.devRef .tc main_v78) = Read.val_main_v78 (F := F) x0 x1 x2 x3 x4 x5 x6 := by rw [← hW108]; after_results_simp; exact e107_main_v78
  have e108_main_v84 : W108 (Proc.devRef .tc main_v84) = Read.val_main_v84 (F := F) x6 := by rw [← hW108]; after_results_simp; exact e107_main_v84
  have e108_main_v82 : W108 (Proc.devRef .tc main_v82) = Read.val_main_v82 (F := F) x5 := by rw [← hW108]; after_results_simp; exact e107_main_v82
  have e108_main_v80 : W108 (Proc.devRef .tc main_v80) = Read.val_main_v80 (F := F) x4 := by rw [← hW108]; after_results_simp; exact e107_main_v80
  have e108_main_v86 : W108 (Proc.devRef .tc main_v86) = Read.val_main_v86 (F := F) x1 := by rw [← hW108]; after_results_simp; exact e107_main_v86
  have e108_main_v87 : W108 (Proc.devRef .tc main_v87) = Read.val_main_v87 (F := F) := by
    rw [← hW108]; after_results_simp; simp only [e107_main_c_11]
    unfold Read.val_main_v87; generalize Read.val_main_c_11 (F := F) = A_main_c_11; rfl
  clear hW108 e107_main_arg9 e107_main_arg8 e107_main_arg7 e107_main_v12 e107_main_v3 e107_main_v1 e107_main_v17 e107_main_v78 e107_main_v84 e107_main_v82 e107_main_v80 e107_main_v86 e107_main_c_11 W107
  -- operation 108: binary main_v1 main_v87 → main_v88
  apply after_step; intro W109 hW109
  have e109_main_arg9 : W109 (Proc.devRef .tc main_arg9) = x9 := by rw [← hW109]; after_results_simp; exact e108_main_arg9
  have e109_main_arg8 : W109 (Proc.devRef .tc main_arg8) = x8 := by rw [← hW109]; after_results_simp; exact e108_main_arg8
  have e109_main_arg7 : W109 (Proc.devRef .tc main_arg7) = x7 := by rw [← hW109]; after_results_simp; exact e108_main_arg7
  have e109_main_v12 : W109 (Proc.devRef .tc main_v12) = Read.val_main_v12 (F := F) x1 := by rw [← hW109]; after_results_simp; exact e108_main_v12
  have e109_main_v3 : W109 (Proc.devRef .tc main_v3) = Read.val_main_v3 (F := F) x1 := by rw [← hW109]; after_results_simp; exact e108_main_v3
  have e109_main_v1 : W109 (Proc.devRef .tc main_v1) = Read.val_main_v1 (F := F) x1 := by rw [← hW109]; after_results_simp; exact e108_main_v1
  have e109_main_v17 : W109 (Proc.devRef .tc main_v17) = Read.val_main_v17 (F := F) x0 x2 x3 := by rw [← hW109]; after_results_simp; exact e108_main_v17
  have e109_main_v78 : W109 (Proc.devRef .tc main_v78) = Read.val_main_v78 (F := F) x0 x1 x2 x3 x4 x5 x6 := by rw [← hW109]; after_results_simp; exact e108_main_v78
  have e109_main_v84 : W109 (Proc.devRef .tc main_v84) = Read.val_main_v84 (F := F) x6 := by rw [← hW109]; after_results_simp; exact e108_main_v84
  have e109_main_v82 : W109 (Proc.devRef .tc main_v82) = Read.val_main_v82 (F := F) x5 := by rw [← hW109]; after_results_simp; exact e108_main_v82
  have e109_main_v80 : W109 (Proc.devRef .tc main_v80) = Read.val_main_v80 (F := F) x4 := by rw [← hW109]; after_results_simp; exact e108_main_v80
  have e109_main_v86 : W109 (Proc.devRef .tc main_v86) = Read.val_main_v86 (F := F) x1 := by rw [← hW109]; after_results_simp; exact e108_main_v86
  have e109_main_v88 : W109 (Proc.devRef .tc main_v88) = Read.val_main_v88 (F := F) x1 := by
    rw [← hW109]; after_results_simp; simp only [e108_main_v1, e108_main_v87]
    unfold Read.val_main_v88; generalize Read.val_main_v1 (F := F) x1 = A_main_v1; generalize Read.val_main_v87 (F := F) = A_main_v87; rfl
  clear hW109 e108_main_arg9 e108_main_arg8 e108_main_arg7 e108_main_v12 e108_main_v3 e108_main_v1 e108_main_v17 e108_main_v78 e108_main_v84 e108_main_v82 e108_main_v80 e108_main_v86 e108_main_v87 W108
  -- operation 109: ternary main_v86 main_v88 main_v1 → main_v89
  apply after_step; intro W110 hW110
  have e110_main_arg9 : W110 (Proc.devRef .tc main_arg9) = x9 := by rw [← hW110]; after_results_simp; exact e109_main_arg9
  have e110_main_arg8 : W110 (Proc.devRef .tc main_arg8) = x8 := by rw [← hW110]; after_results_simp; exact e109_main_arg8
  have e110_main_arg7 : W110 (Proc.devRef .tc main_arg7) = x7 := by rw [← hW110]; after_results_simp; exact e109_main_arg7
  have e110_main_v12 : W110 (Proc.devRef .tc main_v12) = Read.val_main_v12 (F := F) x1 := by rw [← hW110]; after_results_simp; exact e109_main_v12
  have e110_main_v3 : W110 (Proc.devRef .tc main_v3) = Read.val_main_v3 (F := F) x1 := by rw [← hW110]; after_results_simp; exact e109_main_v3
  have e110_main_v1 : W110 (Proc.devRef .tc main_v1) = Read.val_main_v1 (F := F) x1 := by rw [← hW110]; after_results_simp; exact e109_main_v1
  have e110_main_v17 : W110 (Proc.devRef .tc main_v17) = Read.val_main_v17 (F := F) x0 x2 x3 := by rw [← hW110]; after_results_simp; exact e109_main_v17
  have e110_main_v78 : W110 (Proc.devRef .tc main_v78) = Read.val_main_v78 (F := F) x0 x1 x2 x3 x4 x5 x6 := by rw [← hW110]; after_results_simp; exact e109_main_v78
  have e110_main_v84 : W110 (Proc.devRef .tc main_v84) = Read.val_main_v84 (F := F) x6 := by rw [← hW110]; after_results_simp; exact e109_main_v84
  have e110_main_v82 : W110 (Proc.devRef .tc main_v82) = Read.val_main_v82 (F := F) x5 := by rw [← hW110]; after_results_simp; exact e109_main_v82
  have e110_main_v80 : W110 (Proc.devRef .tc main_v80) = Read.val_main_v80 (F := F) x4 := by rw [← hW110]; after_results_simp; exact e109_main_v80
  have e110_main_v89 : W110 (Proc.devRef .tc main_v89) = Read.val_main_v89 (F := F) x1 := by
    rw [← hW110]; after_results_simp; simp only [e109_main_v86, e109_main_v88, e109_main_v1]
    unfold Read.val_main_v89; generalize Read.val_main_v86 (F := F) x1 = A_main_v86; generalize Read.val_main_v88 (F := F) x1 = A_main_v88; generalize Read.val_main_v1 (F := F) x1 = A_main_v1; rfl
  clear hW110 e109_main_arg9 e109_main_arg8 e109_main_arg7 e109_main_v12 e109_main_v3 e109_main_v1 e109_main_v17 e109_main_v78 e109_main_v84 e109_main_v82 e109_main_v80 e109_main_v86 e109_main_v88 W109
  -- operation 110: unary main_v89 → main_v90
  apply after_step; intro W111 hW111
  have e111_main_arg9 : W111 (Proc.devRef .tc main_arg9) = x9 := by rw [← hW111]; after_results_simp; exact e110_main_arg9
  have e111_main_arg8 : W111 (Proc.devRef .tc main_arg8) = x8 := by rw [← hW111]; after_results_simp; exact e110_main_arg8
  have e111_main_arg7 : W111 (Proc.devRef .tc main_arg7) = x7 := by rw [← hW111]; after_results_simp; exact e110_main_arg7
  have e111_main_v12 : W111 (Proc.devRef .tc main_v12) = Read.val_main_v12 (F := F) x1 := by rw [← hW111]; after_results_simp; exact e110_main_v12
  have e111_main_v3 : W111 (Proc.devRef .tc main_v3) = Read.val_main_v3 (F := F) x1 := by rw [← hW111]; after_results_simp; exact e110_main_v3
  have e111_main_v1 : W111 (Proc.devRef .tc main_v1) = Read.val_main_v1 (F := F) x1 := by rw [← hW111]; after_results_simp; exact e110_main_v1
  have e111_main_v17 : W111 (Proc.devRef .tc main_v17) = Read.val_main_v17 (F := F) x0 x2 x3 := by rw [← hW111]; after_results_simp; exact e110_main_v17
  have e111_main_v78 : W111 (Proc.devRef .tc main_v78) = Read.val_main_v78 (F := F) x0 x1 x2 x3 x4 x5 x6 := by rw [← hW111]; after_results_simp; exact e110_main_v78
  have e111_main_v84 : W111 (Proc.devRef .tc main_v84) = Read.val_main_v84 (F := F) x6 := by rw [← hW111]; after_results_simp; exact e110_main_v84
  have e111_main_v82 : W111 (Proc.devRef .tc main_v82) = Read.val_main_v82 (F := F) x5 := by rw [← hW111]; after_results_simp; exact e110_main_v82
  have e111_main_v80 : W111 (Proc.devRef .tc main_v80) = Read.val_main_v80 (F := F) x4 := by rw [← hW111]; after_results_simp; exact e110_main_v80
  have e111_main_v90 : W111 (Proc.devRef .tc main_v90) = Read.val_main_v90 (F := F) x1 := by
    rw [← hW111]; after_results_simp; simp only [e110_main_v89]
    unfold Read.val_main_v90; generalize Read.val_main_v89 (F := F) x1 = A_main_v89; rfl
  clear hW111 e110_main_arg9 e110_main_arg8 e110_main_arg7 e110_main_v12 e110_main_v3 e110_main_v1 e110_main_v17 e110_main_v78 e110_main_v84 e110_main_v82 e110_main_v80 e110_main_v89 W110
  -- operation 111: binary main_v78 main_v90 → main_v91
  apply after_step; intro W112 hW112
  have e112_main_arg9 : W112 (Proc.devRef .tc main_arg9) = x9 := by rw [← hW112]; after_results_simp; exact e111_main_arg9
  have e112_main_arg8 : W112 (Proc.devRef .tc main_arg8) = x8 := by rw [← hW112]; after_results_simp; exact e111_main_arg8
  have e112_main_arg7 : W112 (Proc.devRef .tc main_arg7) = x7 := by rw [← hW112]; after_results_simp; exact e111_main_arg7
  have e112_main_v12 : W112 (Proc.devRef .tc main_v12) = Read.val_main_v12 (F := F) x1 := by rw [← hW112]; after_results_simp; exact e111_main_v12
  have e112_main_v3 : W112 (Proc.devRef .tc main_v3) = Read.val_main_v3 (F := F) x1 := by rw [← hW112]; after_results_simp; exact e111_main_v3
  have e112_main_v1 : W112 (Proc.devRef .tc main_v1) = Read.val_main_v1 (F := F) x1 := by rw [← hW112]; after_results_simp; exact e111_main_v1
  have e112_main_v17 : W112 (Proc.devRef .tc main_v17) = Read.val_main_v17 (F := F) x0 x2 x3 := by rw [← hW112]; after_results_simp; exact e111_main_v17
  have e112_main_v78 : W112 (Proc.devRef .tc main_v78) = Read.val_main_v78 (F := F) x0 x1 x2 x3 x4 x5 x6 := by rw [← hW112]; after_results_simp; exact e111_main_v78
  have e112_main_v84 : W112 (Proc.devRef .tc main_v84) = Read.val_main_v84 (F := F) x6 := by rw [← hW112]; after_results_simp; exact e111_main_v84
  have e112_main_v82 : W112 (Proc.devRef .tc main_v82) = Read.val_main_v82 (F := F) x5 := by rw [← hW112]; after_results_simp; exact e111_main_v82
  have e112_main_v80 : W112 (Proc.devRef .tc main_v80) = Read.val_main_v80 (F := F) x4 := by rw [← hW112]; after_results_simp; exact e111_main_v80
  have e112_main_v91 : W112 (Proc.devRef .tc main_v91) = Read.val_main_v91 (F := F) x0 x1 x2 x3 x4 x5 x6 := by
    rw [← hW112]; after_results_simp; simp only [e111_main_v78, e111_main_v90]
    unfold Read.val_main_v91; generalize Read.val_main_v78 (F := F) x0 x1 x2 x3 x4 x5 x6 = A_main_v78; generalize Read.val_main_v90 (F := F) x1 = A_main_v90; rfl
  clear hW112 e111_main_arg9 e111_main_arg8 e111_main_arg7 e111_main_v12 e111_main_v3 e111_main_v1 e111_main_v17 e111_main_v78 e111_main_v84 e111_main_v82 e111_main_v80 e111_main_v90 W111
  -- operation 112: nullary  → main_cst_12
  apply after_step; intro W113 hW113
  have e113_main_arg9 : W113 (Proc.devRef .tc main_arg9) = x9 := by rw [← hW113]; after_results_simp; exact e112_main_arg9
  have e113_main_arg8 : W113 (Proc.devRef .tc main_arg8) = x8 := by rw [← hW113]; after_results_simp; exact e112_main_arg8
  have e113_main_arg7 : W113 (Proc.devRef .tc main_arg7) = x7 := by rw [← hW113]; after_results_simp; exact e112_main_arg7
  have e113_main_v12 : W113 (Proc.devRef .tc main_v12) = Read.val_main_v12 (F := F) x1 := by rw [← hW113]; after_results_simp; exact e112_main_v12
  have e113_main_v3 : W113 (Proc.devRef .tc main_v3) = Read.val_main_v3 (F := F) x1 := by rw [← hW113]; after_results_simp; exact e112_main_v3
  have e113_main_v1 : W113 (Proc.devRef .tc main_v1) = Read.val_main_v1 (F := F) x1 := by rw [← hW113]; after_results_simp; exact e112_main_v1
  have e113_main_v17 : W113 (Proc.devRef .tc main_v17) = Read.val_main_v17 (F := F) x0 x2 x3 := by rw [← hW113]; after_results_simp; exact e112_main_v17
  have e113_main_v78 : W113 (Proc.devRef .tc main_v78) = Read.val_main_v78 (F := F) x0 x1 x2 x3 x4 x5 x6 := by rw [← hW113]; after_results_simp; exact e112_main_v78
  have e113_main_v84 : W113 (Proc.devRef .tc main_v84) = Read.val_main_v84 (F := F) x6 := by rw [← hW113]; after_results_simp; exact e112_main_v84
  have e113_main_v82 : W113 (Proc.devRef .tc main_v82) = Read.val_main_v82 (F := F) x5 := by rw [← hW113]; after_results_simp; exact e112_main_v82
  have e113_main_v80 : W113 (Proc.devRef .tc main_v80) = Read.val_main_v80 (F := F) x4 := by rw [← hW113]; after_results_simp; exact e112_main_v80
  have e113_main_v91 : W113 (Proc.devRef .tc main_v91) = Read.val_main_v91 (F := F) x0 x1 x2 x3 x4 x5 x6 := by rw [← hW113]; after_results_simp; exact e112_main_v91
  have e113_main_cst_12 : W113 (Proc.devRef .tc main_cst_12) = Read.val_main_cst_12 (F := F) := by
    rw [← hW113]; after_results_simp
    unfold Read.val_main_cst_12; rfl
  clear hW113 e112_main_arg9 e112_main_arg8 e112_main_arg7 e112_main_v12 e112_main_v3 e112_main_v1 e112_main_v17 e112_main_v78 e112_main_v84 e112_main_v82 e112_main_v80 e112_main_v91 W112
  -- operation 113: unary main_cst_12 → main_v92
  apply after_step; intro W114 hW114
  have e114_main_arg9 : W114 (Proc.devRef .tc main_arg9) = x9 := by rw [← hW114]; after_results_simp; exact e113_main_arg9
  have e114_main_arg8 : W114 (Proc.devRef .tc main_arg8) = x8 := by rw [← hW114]; after_results_simp; exact e113_main_arg8
  have e114_main_arg7 : W114 (Proc.devRef .tc main_arg7) = x7 := by rw [← hW114]; after_results_simp; exact e113_main_arg7
  have e114_main_v12 : W114 (Proc.devRef .tc main_v12) = Read.val_main_v12 (F := F) x1 := by rw [← hW114]; after_results_simp; exact e113_main_v12
  have e114_main_v3 : W114 (Proc.devRef .tc main_v3) = Read.val_main_v3 (F := F) x1 := by rw [← hW114]; after_results_simp; exact e113_main_v3
  have e114_main_v1 : W114 (Proc.devRef .tc main_v1) = Read.val_main_v1 (F := F) x1 := by rw [← hW114]; after_results_simp; exact e113_main_v1
  have e114_main_v17 : W114 (Proc.devRef .tc main_v17) = Read.val_main_v17 (F := F) x0 x2 x3 := by rw [← hW114]; after_results_simp; exact e113_main_v17
  have e114_main_v78 : W114 (Proc.devRef .tc main_v78) = Read.val_main_v78 (F := F) x0 x1 x2 x3 x4 x5 x6 := by rw [← hW114]; after_results_simp; exact e113_main_v78
  have e114_main_v84 : W114 (Proc.devRef .tc main_v84) = Read.val_main_v84 (F := F) x6 := by rw [← hW114]; after_results_simp; exact e113_main_v84
  have e114_main_v82 : W114 (Proc.devRef .tc main_v82) = Read.val_main_v82 (F := F) x5 := by rw [← hW114]; after_results_simp; exact e113_main_v82
  have e114_main_v80 : W114 (Proc.devRef .tc main_v80) = Read.val_main_v80 (F := F) x4 := by rw [← hW114]; after_results_simp; exact e113_main_v80
  have e114_main_v92 : W114 (Proc.devRef .tc main_v92) = Read.val_main_v92 (F := F) := by
    rw [← hW114]; after_results_simp; simp only [e113_main_cst_12]
    unfold Read.val_main_v92; generalize Read.val_main_cst_12 (F := F) = A_main_cst_12; rfl
  have e114_main_v91 : W114 (Proc.devRef .tc main_v91) = Read.val_main_v91 (F := F) x0 x1 x2 x3 x4 x5 x6 := by rw [← hW114]; after_results_simp; exact e113_main_v91
  clear hW114 e113_main_arg9 e113_main_arg8 e113_main_arg7 e113_main_v12 e113_main_v3 e113_main_v1 e113_main_v17 e113_main_v78 e113_main_v84 e113_main_v82 e113_main_v80 e113_main_v91 e113_main_cst_12 W113
  -- operation 114: unary main_v3 → main_v93
  apply after_step; intro W115 hW115
  have e115_main_arg9 : W115 (Proc.devRef .tc main_arg9) = x9 := by rw [← hW115]; after_results_simp; exact e114_main_arg9
  have e115_main_arg8 : W115 (Proc.devRef .tc main_arg8) = x8 := by rw [← hW115]; after_results_simp; exact e114_main_arg8
  have e115_main_arg7 : W115 (Proc.devRef .tc main_arg7) = x7 := by rw [← hW115]; after_results_simp; exact e114_main_arg7
  have e115_main_v12 : W115 (Proc.devRef .tc main_v12) = Read.val_main_v12 (F := F) x1 := by rw [← hW115]; after_results_simp; exact e114_main_v12
  have e115_main_v3 : W115 (Proc.devRef .tc main_v3) = Read.val_main_v3 (F := F) x1 := by rw [← hW115]; after_results_simp; exact e114_main_v3
  have e115_main_v1 : W115 (Proc.devRef .tc main_v1) = Read.val_main_v1 (F := F) x1 := by rw [← hW115]; after_results_simp; exact e114_main_v1
  have e115_main_v17 : W115 (Proc.devRef .tc main_v17) = Read.val_main_v17 (F := F) x0 x2 x3 := by rw [← hW115]; after_results_simp; exact e114_main_v17
  have e115_main_v78 : W115 (Proc.devRef .tc main_v78) = Read.val_main_v78 (F := F) x0 x1 x2 x3 x4 x5 x6 := by rw [← hW115]; after_results_simp; exact e114_main_v78
  have e115_main_v84 : W115 (Proc.devRef .tc main_v84) = Read.val_main_v84 (F := F) x6 := by rw [← hW115]; after_results_simp; exact e114_main_v84
  have e115_main_v82 : W115 (Proc.devRef .tc main_v82) = Read.val_main_v82 (F := F) x5 := by rw [← hW115]; after_results_simp; exact e114_main_v82
  have e115_main_v80 : W115 (Proc.devRef .tc main_v80) = Read.val_main_v80 (F := F) x4 := by rw [← hW115]; after_results_simp; exact e114_main_v80
  have e115_main_v92 : W115 (Proc.devRef .tc main_v92) = Read.val_main_v92 (F := F) := by rw [← hW115]; after_results_simp; exact e114_main_v92
  have e115_main_v93 : W115 (Proc.devRef .tc main_v93) = Read.val_main_v93 (F := F) x1 := by
    rw [← hW115]; after_results_simp; simp only [e114_main_v3]
    unfold Read.val_main_v93; generalize Read.val_main_v3 (F := F) x1 = A_main_v3; rfl
  have e115_main_v91 : W115 (Proc.devRef .tc main_v91) = Read.val_main_v91 (F := F) x0 x1 x2 x3 x4 x5 x6 := by rw [← hW115]; after_results_simp; exact e114_main_v91
  clear hW115 e114_main_arg9 e114_main_arg8 e114_main_arg7 e114_main_v12 e114_main_v3 e114_main_v1 e114_main_v17 e114_main_v78 e114_main_v84 e114_main_v82 e114_main_v80 e114_main_v92 e114_main_v91 W114
  -- operation 115: ternary main_v92 main_v93 main_v91 → main_v94
  apply after_step; intro W116 hW116
  have e116_main_arg9 : W116 (Proc.devRef .tc main_arg9) = x9 := by rw [← hW116]; after_results_simp; exact e115_main_arg9
  have e116_main_arg8 : W116 (Proc.devRef .tc main_arg8) = x8 := by rw [← hW116]; after_results_simp; exact e115_main_arg8
  have e116_main_arg7 : W116 (Proc.devRef .tc main_arg7) = x7 := by rw [← hW116]; after_results_simp; exact e115_main_arg7
  have e116_main_v12 : W116 (Proc.devRef .tc main_v12) = Read.val_main_v12 (F := F) x1 := by rw [← hW116]; after_results_simp; exact e115_main_v12
  have e116_main_v3 : W116 (Proc.devRef .tc main_v3) = Read.val_main_v3 (F := F) x1 := by rw [← hW116]; after_results_simp; exact e115_main_v3
  have e116_main_v1 : W116 (Proc.devRef .tc main_v1) = Read.val_main_v1 (F := F) x1 := by rw [← hW116]; after_results_simp; exact e115_main_v1
  have e116_main_v17 : W116 (Proc.devRef .tc main_v17) = Read.val_main_v17 (F := F) x0 x2 x3 := by rw [← hW116]; after_results_simp; exact e115_main_v17
  have e116_main_v78 : W116 (Proc.devRef .tc main_v78) = Read.val_main_v78 (F := F) x0 x1 x2 x3 x4 x5 x6 := by rw [← hW116]; after_results_simp; exact e115_main_v78
  have e116_main_v84 : W116 (Proc.devRef .tc main_v84) = Read.val_main_v84 (F := F) x6 := by rw [← hW116]; after_results_simp; exact e115_main_v84
  have e116_main_v82 : W116 (Proc.devRef .tc main_v82) = Read.val_main_v82 (F := F) x5 := by rw [← hW116]; after_results_simp; exact e115_main_v82
  have e116_main_v80 : W116 (Proc.devRef .tc main_v80) = Read.val_main_v80 (F := F) x4 := by rw [← hW116]; after_results_simp; exact e115_main_v80
  have e116_main_v94 : W116 (Proc.devRef .tc main_v94) = Read.val_main_v94 (F := F) x0 x1 x2 x3 x4 x5 x6 := by
    rw [← hW116]; after_results_simp; simp only [e115_main_v92, e115_main_v93, e115_main_v91]
    unfold Read.val_main_v94; generalize Read.val_main_v92 (F := F) = A_main_v92; generalize Read.val_main_v93 (F := F) x1 = A_main_v93; generalize Read.val_main_v91 (F := F) x0 x1 x2 x3 x4 x5 x6 = A_main_v91; rfl
  clear hW116 e115_main_arg9 e115_main_arg8 e115_main_arg7 e115_main_v12 e115_main_v3 e115_main_v1 e115_main_v17 e115_main_v78 e115_main_v84 e115_main_v82 e115_main_v80 e115_main_v92 e115_main_v93 e115_main_v91 W115
  -- operation 116: unary main_v12 → main_v95
  apply after_step; intro W117 hW117
  have e117_main_arg9 : W117 (Proc.devRef .tc main_arg9) = x9 := by rw [← hW117]; after_results_simp; exact e116_main_arg9
  have e117_main_arg8 : W117 (Proc.devRef .tc main_arg8) = x8 := by rw [← hW117]; after_results_simp; exact e116_main_arg8
  have e117_main_arg7 : W117 (Proc.devRef .tc main_arg7) = x7 := by rw [← hW117]; after_results_simp; exact e116_main_arg7
  have e117_main_v12 : W117 (Proc.devRef .tc main_v12) = Read.val_main_v12 (F := F) x1 := by rw [← hW117]; after_results_simp; exact e116_main_v12
  have e117_main_v3 : W117 (Proc.devRef .tc main_v3) = Read.val_main_v3 (F := F) x1 := by rw [← hW117]; after_results_simp; exact e116_main_v3
  have e117_main_v1 : W117 (Proc.devRef .tc main_v1) = Read.val_main_v1 (F := F) x1 := by rw [← hW117]; after_results_simp; exact e116_main_v1
  have e117_main_v17 : W117 (Proc.devRef .tc main_v17) = Read.val_main_v17 (F := F) x0 x2 x3 := by rw [← hW117]; after_results_simp; exact e116_main_v17
  have e117_main_v78 : W117 (Proc.devRef .tc main_v78) = Read.val_main_v78 (F := F) x0 x1 x2 x3 x4 x5 x6 := by rw [← hW117]; after_results_simp; exact e116_main_v78
  have e117_main_v84 : W117 (Proc.devRef .tc main_v84) = Read.val_main_v84 (F := F) x6 := by rw [← hW117]; after_results_simp; exact e116_main_v84
  have e117_main_v82 : W117 (Proc.devRef .tc main_v82) = Read.val_main_v82 (F := F) x5 := by rw [← hW117]; after_results_simp; exact e116_main_v82
  have e117_main_v80 : W117 (Proc.devRef .tc main_v80) = Read.val_main_v80 (F := F) x4 := by rw [← hW117]; after_results_simp; exact e116_main_v80
  have e117_main_v94 : W117 (Proc.devRef .tc main_v94) = Read.val_main_v94 (F := F) x0 x1 x2 x3 x4 x5 x6 := by rw [← hW117]; after_results_simp; exact e116_main_v94
  have e117_main_v95 : W117 (Proc.devRef .tc main_v95) = Read.val_main_v95 (F := F) x1 := by
    rw [← hW117]; after_results_simp; simp only [e116_main_v12]
    unfold Read.val_main_v95; generalize Read.val_main_v12 (F := F) x1 = A_main_v12; rfl
  clear hW117 e116_main_arg9 e116_main_arg8 e116_main_arg7 e116_main_v12 e116_main_v3 e116_main_v1 e116_main_v17 e116_main_v78 e116_main_v84 e116_main_v82 e116_main_v80 e116_main_v94 W116
  -- operation 117: binary main_v94 main_v95 → main_v96
  apply after_step; intro W118 hW118
  have e118_main_arg9 : W118 (Proc.devRef .tc main_arg9) = x9 := by rw [← hW118]; after_results_simp; exact e117_main_arg9
  have e118_main_arg8 : W118 (Proc.devRef .tc main_arg8) = x8 := by rw [← hW118]; after_results_simp; exact e117_main_arg8
  have e118_main_arg7 : W118 (Proc.devRef .tc main_arg7) = x7 := by rw [← hW118]; after_results_simp; exact e117_main_arg7
  have e118_main_v12 : W118 (Proc.devRef .tc main_v12) = Read.val_main_v12 (F := F) x1 := by rw [← hW118]; after_results_simp; exact e117_main_v12
  have e118_main_v3 : W118 (Proc.devRef .tc main_v3) = Read.val_main_v3 (F := F) x1 := by rw [← hW118]; after_results_simp; exact e117_main_v3
  have e118_main_v1 : W118 (Proc.devRef .tc main_v1) = Read.val_main_v1 (F := F) x1 := by rw [← hW118]; after_results_simp; exact e117_main_v1
  have e118_main_v17 : W118 (Proc.devRef .tc main_v17) = Read.val_main_v17 (F := F) x0 x2 x3 := by rw [← hW118]; after_results_simp; exact e117_main_v17
  have e118_main_v78 : W118 (Proc.devRef .tc main_v78) = Read.val_main_v78 (F := F) x0 x1 x2 x3 x4 x5 x6 := by rw [← hW118]; after_results_simp; exact e117_main_v78
  have e118_main_v84 : W118 (Proc.devRef .tc main_v84) = Read.val_main_v84 (F := F) x6 := by rw [← hW118]; after_results_simp; exact e117_main_v84
  have e118_main_v82 : W118 (Proc.devRef .tc main_v82) = Read.val_main_v82 (F := F) x5 := by rw [← hW118]; after_results_simp; exact e117_main_v82
  have e118_main_v96 : W118 (Proc.devRef .tc main_v96) = Read.val_main_v96 (F := F) x0 x1 x2 x3 x4 x5 x6 := by
    rw [← hW118]; after_results_simp; simp only [e117_main_v94, e117_main_v95]
    unfold Read.val_main_v96; generalize Read.val_main_v94 (F := F) x0 x1 x2 x3 x4 x5 x6 = A_main_v94; generalize Read.val_main_v95 (F := F) x1 = A_main_v95; rfl
  have e118_main_v80 : W118 (Proc.devRef .tc main_v80) = Read.val_main_v80 (F := F) x4 := by rw [← hW118]; after_results_simp; exact e117_main_v80
  clear hW118 e117_main_arg9 e117_main_arg8 e117_main_arg7 e117_main_v12 e117_main_v3 e117_main_v1 e117_main_v17 e117_main_v78 e117_main_v84 e117_main_v82 e117_main_v80 e117_main_v94 e117_main_v95 W117
  -- operation 118: unary main_v80 → main_v97
  apply after_step; intro W119 hW119
  have e119_main_arg9 : W119 (Proc.devRef .tc main_arg9) = x9 := by rw [← hW119]; after_results_simp; exact e118_main_arg9
  have e119_main_arg8 : W119 (Proc.devRef .tc main_arg8) = x8 := by rw [← hW119]; after_results_simp; exact e118_main_arg8
  have e119_main_arg7 : W119 (Proc.devRef .tc main_arg7) = x7 := by rw [← hW119]; after_results_simp; exact e118_main_arg7
  have e119_main_v12 : W119 (Proc.devRef .tc main_v12) = Read.val_main_v12 (F := F) x1 := by rw [← hW119]; after_results_simp; exact e118_main_v12
  have e119_main_v3 : W119 (Proc.devRef .tc main_v3) = Read.val_main_v3 (F := F) x1 := by rw [← hW119]; after_results_simp; exact e118_main_v3
  have e119_main_v1 : W119 (Proc.devRef .tc main_v1) = Read.val_main_v1 (F := F) x1 := by rw [← hW119]; after_results_simp; exact e118_main_v1
  have e119_main_v17 : W119 (Proc.devRef .tc main_v17) = Read.val_main_v17 (F := F) x0 x2 x3 := by rw [← hW119]; after_results_simp; exact e118_main_v17
  have e119_main_v78 : W119 (Proc.devRef .tc main_v78) = Read.val_main_v78 (F := F) x0 x1 x2 x3 x4 x5 x6 := by rw [← hW119]; after_results_simp; exact e118_main_v78
  have e119_main_v84 : W119 (Proc.devRef .tc main_v84) = Read.val_main_v84 (F := F) x6 := by rw [← hW119]; after_results_simp; exact e118_main_v84
  have e119_main_v82 : W119 (Proc.devRef .tc main_v82) = Read.val_main_v82 (F := F) x5 := by rw [← hW119]; after_results_simp; exact e118_main_v82
  have e119_main_v96 : W119 (Proc.devRef .tc main_v96) = Read.val_main_v96 (F := F) x0 x1 x2 x3 x4 x5 x6 := by rw [← hW119]; after_results_simp; exact e118_main_v96
  have e119_main_v97 : W119 (Proc.devRef .tc main_v97) = Read.val_main_v97 (F := F) x4 := by
    rw [← hW119]; after_results_simp; simp only [e118_main_v80]
    unfold Read.val_main_v97; generalize Read.val_main_v80 (F := F) x4 = A_main_v80; rfl
  clear hW119 e118_main_arg9 e118_main_arg8 e118_main_arg7 e118_main_v12 e118_main_v3 e118_main_v1 e118_main_v17 e118_main_v78 e118_main_v84 e118_main_v82 e118_main_v96 e118_main_v80 W118
  -- operation 119: binary main_v96 main_v97 → main_v98
  apply after_step; intro W120 hW120
  have e120_main_arg9 : W120 (Proc.devRef .tc main_arg9) = x9 := by rw [← hW120]; after_results_simp; exact e119_main_arg9
  have e120_main_arg8 : W120 (Proc.devRef .tc main_arg8) = x8 := by rw [← hW120]; after_results_simp; exact e119_main_arg8
  have e120_main_arg7 : W120 (Proc.devRef .tc main_arg7) = x7 := by rw [← hW120]; after_results_simp; exact e119_main_arg7
  have e120_main_v12 : W120 (Proc.devRef .tc main_v12) = Read.val_main_v12 (F := F) x1 := by rw [← hW120]; after_results_simp; exact e119_main_v12
  have e120_main_v3 : W120 (Proc.devRef .tc main_v3) = Read.val_main_v3 (F := F) x1 := by rw [← hW120]; after_results_simp; exact e119_main_v3
  have e120_main_v1 : W120 (Proc.devRef .tc main_v1) = Read.val_main_v1 (F := F) x1 := by rw [← hW120]; after_results_simp; exact e119_main_v1
  have e120_main_v17 : W120 (Proc.devRef .tc main_v17) = Read.val_main_v17 (F := F) x0 x2 x3 := by rw [← hW120]; after_results_simp; exact e119_main_v17
  have e120_main_v78 : W120 (Proc.devRef .tc main_v78) = Read.val_main_v78 (F := F) x0 x1 x2 x3 x4 x5 x6 := by rw [← hW120]; after_results_simp; exact e119_main_v78
  have e120_main_v84 : W120 (Proc.devRef .tc main_v84) = Read.val_main_v84 (F := F) x6 := by rw [← hW120]; after_results_simp; exact e119_main_v84
  have e120_main_v98 : W120 (Proc.devRef .tc main_v98) = Read.val_main_v98 (F := F) x0 x1 x2 x3 x4 x5 x6 := by
    rw [← hW120]; after_results_simp; simp only [e119_main_v96, e119_main_v97]
    unfold Read.val_main_v98; generalize Read.val_main_v96 (F := F) x0 x1 x2 x3 x4 x5 x6 = A_main_v96; generalize Read.val_main_v97 (F := F) x4 = A_main_v97; rfl
  have e120_main_v82 : W120 (Proc.devRef .tc main_v82) = Read.val_main_v82 (F := F) x5 := by rw [← hW120]; after_results_simp; exact e119_main_v82
  clear hW120 e119_main_arg9 e119_main_arg8 e119_main_arg7 e119_main_v12 e119_main_v3 e119_main_v1 e119_main_v17 e119_main_v78 e119_main_v84 e119_main_v82 e119_main_v96 e119_main_v97 W119
  -- operation 120: unary main_v82 → main_v99
  apply after_step; intro W121 hW121
  have e121_main_arg9 : W121 (Proc.devRef .tc main_arg9) = x9 := by rw [← hW121]; after_results_simp; exact e120_main_arg9
  have e121_main_arg8 : W121 (Proc.devRef .tc main_arg8) = x8 := by rw [← hW121]; after_results_simp; exact e120_main_arg8
  have e121_main_arg7 : W121 (Proc.devRef .tc main_arg7) = x7 := by rw [← hW121]; after_results_simp; exact e120_main_arg7
  have e121_main_v12 : W121 (Proc.devRef .tc main_v12) = Read.val_main_v12 (F := F) x1 := by rw [← hW121]; after_results_simp; exact e120_main_v12
  have e121_main_v3 : W121 (Proc.devRef .tc main_v3) = Read.val_main_v3 (F := F) x1 := by rw [← hW121]; after_results_simp; exact e120_main_v3
  have e121_main_v1 : W121 (Proc.devRef .tc main_v1) = Read.val_main_v1 (F := F) x1 := by rw [← hW121]; after_results_simp; exact e120_main_v1
  have e121_main_v17 : W121 (Proc.devRef .tc main_v17) = Read.val_main_v17 (F := F) x0 x2 x3 := by rw [← hW121]; after_results_simp; exact e120_main_v17
  have e121_main_v78 : W121 (Proc.devRef .tc main_v78) = Read.val_main_v78 (F := F) x0 x1 x2 x3 x4 x5 x6 := by rw [← hW121]; after_results_simp; exact e120_main_v78
  have e121_main_v84 : W121 (Proc.devRef .tc main_v84) = Read.val_main_v84 (F := F) x6 := by rw [← hW121]; after_results_simp; exact e120_main_v84
  have e121_main_v98 : W121 (Proc.devRef .tc main_v98) = Read.val_main_v98 (F := F) x0 x1 x2 x3 x4 x5 x6 := by rw [← hW121]; after_results_simp; exact e120_main_v98
  have e121_main_v99 : W121 (Proc.devRef .tc main_v99) = Read.val_main_v99 (F := F) x5 := by
    rw [← hW121]; after_results_simp; simp only [e120_main_v82]
    unfold Read.val_main_v99; generalize Read.val_main_v82 (F := F) x5 = A_main_v82; rfl
  clear hW121 e120_main_arg9 e120_main_arg8 e120_main_arg7 e120_main_v12 e120_main_v3 e120_main_v1 e120_main_v17 e120_main_v78 e120_main_v84 e120_main_v98 e120_main_v82 W120
  -- operation 121: unary main_v99 → main_v100
  apply after_step; intro W122 hW122
  have e122_main_arg9 : W122 (Proc.devRef .tc main_arg9) = x9 := by rw [← hW122]; after_results_simp; exact e121_main_arg9
  have e122_main_arg8 : W122 (Proc.devRef .tc main_arg8) = x8 := by rw [← hW122]; after_results_simp; exact e121_main_arg8
  have e122_main_arg7 : W122 (Proc.devRef .tc main_arg7) = x7 := by rw [← hW122]; after_results_simp; exact e121_main_arg7
  have e122_main_v12 : W122 (Proc.devRef .tc main_v12) = Read.val_main_v12 (F := F) x1 := by rw [← hW122]; after_results_simp; exact e121_main_v12
  have e122_main_v3 : W122 (Proc.devRef .tc main_v3) = Read.val_main_v3 (F := F) x1 := by rw [← hW122]; after_results_simp; exact e121_main_v3
  have e122_main_v1 : W122 (Proc.devRef .tc main_v1) = Read.val_main_v1 (F := F) x1 := by rw [← hW122]; after_results_simp; exact e121_main_v1
  have e122_main_v17 : W122 (Proc.devRef .tc main_v17) = Read.val_main_v17 (F := F) x0 x2 x3 := by rw [← hW122]; after_results_simp; exact e121_main_v17
  have e122_main_v78 : W122 (Proc.devRef .tc main_v78) = Read.val_main_v78 (F := F) x0 x1 x2 x3 x4 x5 x6 := by rw [← hW122]; after_results_simp; exact e121_main_v78
  have e122_main_v84 : W122 (Proc.devRef .tc main_v84) = Read.val_main_v84 (F := F) x6 := by rw [← hW122]; after_results_simp; exact e121_main_v84
  have e122_main_v98 : W122 (Proc.devRef .tc main_v98) = Read.val_main_v98 (F := F) x0 x1 x2 x3 x4 x5 x6 := by rw [← hW122]; after_results_simp; exact e121_main_v98
  have e122_main_v100 : W122 (Proc.devRef .tc main_v100) = Read.val_main_v100 (F := F) x5 := by
    rw [← hW122]; after_results_simp; simp only [e121_main_v99]
    unfold Read.val_main_v100; generalize Read.val_main_v99 (F := F) x5 = A_main_v99; rfl
  clear hW122 e121_main_arg9 e121_main_arg8 e121_main_arg7 e121_main_v12 e121_main_v3 e121_main_v1 e121_main_v17 e121_main_v78 e121_main_v84 e121_main_v98 e121_main_v99 W121
  -- operation 122: binary main_v98 main_v100 → main_v101
  apply after_step; intro W123 hW123
  have e123_main_arg9 : W123 (Proc.devRef .tc main_arg9) = x9 := by rw [← hW123]; after_results_simp; exact e122_main_arg9
  have e123_main_arg8 : W123 (Proc.devRef .tc main_arg8) = x8 := by rw [← hW123]; after_results_simp; exact e122_main_arg8
  have e123_main_arg7 : W123 (Proc.devRef .tc main_arg7) = x7 := by rw [← hW123]; after_results_simp; exact e122_main_arg7
  have e123_main_v12 : W123 (Proc.devRef .tc main_v12) = Read.val_main_v12 (F := F) x1 := by rw [← hW123]; after_results_simp; exact e122_main_v12
  have e123_main_v3 : W123 (Proc.devRef .tc main_v3) = Read.val_main_v3 (F := F) x1 := by rw [← hW123]; after_results_simp; exact e122_main_v3
  have e123_main_v1 : W123 (Proc.devRef .tc main_v1) = Read.val_main_v1 (F := F) x1 := by rw [← hW123]; after_results_simp; exact e122_main_v1
  have e123_main_v17 : W123 (Proc.devRef .tc main_v17) = Read.val_main_v17 (F := F) x0 x2 x3 := by rw [← hW123]; after_results_simp; exact e122_main_v17
  have e123_main_v101 : W123 (Proc.devRef .tc main_v101) = Read.val_main_v101 (F := F) x0 x1 x2 x3 x4 x5 x6 := by
    rw [← hW123]; after_results_simp; simp only [e122_main_v98, e122_main_v100]
    unfold Read.val_main_v101; generalize Read.val_main_v98 (F := F) x0 x1 x2 x3 x4 x5 x6 = A_main_v98; generalize Read.val_main_v100 (F := F) x5 = A_main_v100; rfl
  have e123_main_v78 : W123 (Proc.devRef .tc main_v78) = Read.val_main_v78 (F := F) x0 x1 x2 x3 x4 x5 x6 := by rw [← hW123]; after_results_simp; exact e122_main_v78
  have e123_main_v84 : W123 (Proc.devRef .tc main_v84) = Read.val_main_v84 (F := F) x6 := by rw [← hW123]; after_results_simp; exact e122_main_v84
  clear hW123 e122_main_arg9 e122_main_arg8 e122_main_arg7 e122_main_v12 e122_main_v3 e122_main_v1 e122_main_v17 e122_main_v78 e122_main_v84 e122_main_v98 e122_main_v100 W122
  -- operation 123: unary main_v84 → main_v102
  apply after_step; intro W124 hW124
  have e124_main_arg9 : W124 (Proc.devRef .tc main_arg9) = x9 := by rw [← hW124]; after_results_simp; exact e123_main_arg9
  have e124_main_arg8 : W124 (Proc.devRef .tc main_arg8) = x8 := by rw [← hW124]; after_results_simp; exact e123_main_arg8
  have e124_main_arg7 : W124 (Proc.devRef .tc main_arg7) = x7 := by rw [← hW124]; after_results_simp; exact e123_main_arg7
  have e124_main_v12 : W124 (Proc.devRef .tc main_v12) = Read.val_main_v12 (F := F) x1 := by rw [← hW124]; after_results_simp; exact e123_main_v12
  have e124_main_v3 : W124 (Proc.devRef .tc main_v3) = Read.val_main_v3 (F := F) x1 := by rw [← hW124]; after_results_simp; exact e123_main_v3
  have e124_main_v1 : W124 (Proc.devRef .tc main_v1) = Read.val_main_v1 (F := F) x1 := by rw [← hW124]; after_results_simp; exact e123_main_v1
  have e124_main_v17 : W124 (Proc.devRef .tc main_v17) = Read.val_main_v17 (F := F) x0 x2 x3 := by rw [← hW124]; after_results_simp; exact e123_main_v17
  have e124_main_v101 : W124 (Proc.devRef .tc main_v101) = Read.val_main_v101 (F := F) x0 x1 x2 x3 x4 x5 x6 := by rw [← hW124]; after_results_simp; exact e123_main_v101
  have e124_main_v78 : W124 (Proc.devRef .tc main_v78) = Read.val_main_v78 (F := F) x0 x1 x2 x3 x4 x5 x6 := by rw [← hW124]; after_results_simp; exact e123_main_v78
  have e124_main_v102 : W124 (Proc.devRef .tc main_v102) = Read.val_main_v102 (F := F) x6 := by
    rw [← hW124]; after_results_simp; simp only [e123_main_v84]
    unfold Read.val_main_v102; generalize Read.val_main_v84 (F := F) x6 = A_main_v84; rfl
  clear hW124 e123_main_arg9 e123_main_arg8 e123_main_arg7 e123_main_v12 e123_main_v3 e123_main_v1 e123_main_v17 e123_main_v101 e123_main_v78 e123_main_v84 W123
  -- operation 124: binary main_v78 main_v102 → main_v103
  apply after_step; intro W125 hW125
  have e125_main_arg9 : W125 (Proc.devRef .tc main_arg9) = x9 := by rw [← hW125]; after_results_simp; exact e124_main_arg9
  have e125_main_arg8 : W125 (Proc.devRef .tc main_arg8) = x8 := by rw [← hW125]; after_results_simp; exact e124_main_arg8
  have e125_main_arg7 : W125 (Proc.devRef .tc main_arg7) = x7 := by rw [← hW125]; after_results_simp; exact e124_main_arg7
  have e125_main_v12 : W125 (Proc.devRef .tc main_v12) = Read.val_main_v12 (F := F) x1 := by rw [← hW125]; after_results_simp; exact e124_main_v12
  have e125_main_v3 : W125 (Proc.devRef .tc main_v3) = Read.val_main_v3 (F := F) x1 := by rw [← hW125]; after_results_simp; exact e124_main_v3
  have e125_main_v1 : W125 (Proc.devRef .tc main_v1) = Read.val_main_v1 (F := F) x1 := by rw [← hW125]; after_results_simp; exact e124_main_v1
  have e125_main_v17 : W125 (Proc.devRef .tc main_v17) = Read.val_main_v17 (F := F) x0 x2 x3 := by rw [← hW125]; after_results_simp; exact e124_main_v17
  have e125_main_v101 : W125 (Proc.devRef .tc main_v101) = Read.val_main_v101 (F := F) x0 x1 x2 x3 x4 x5 x6 := by rw [← hW125]; after_results_simp; exact e124_main_v101
  have e125_main_v103 : W125 (Proc.devRef .tc main_v103) = Read.val_main_v103 (F := F) x0 x1 x2 x3 x4 x5 x6 := by
    rw [← hW125]; after_results_simp; simp only [e124_main_v78, e124_main_v102]
    unfold Read.val_main_v103; generalize Read.val_main_v78 (F := F) x0 x1 x2 x3 x4 x5 x6 = A_main_v78; generalize Read.val_main_v102 (F := F) x6 = A_main_v102; rfl
  clear hW125 e124_main_arg9 e124_main_arg8 e124_main_arg7 e124_main_v12 e124_main_v3 e124_main_v1 e124_main_v17 e124_main_v101 e124_main_v78 e124_main_v102 W124
  -- operation 125: binary main_v101 main_v103 → main_v104
  apply after_step; intro W126 hW126
  have e126_main_arg9 : W126 (Proc.devRef .tc main_arg9) = x9 := by rw [← hW126]; after_results_simp; exact e125_main_arg9
  have e126_main_arg8 : W126 (Proc.devRef .tc main_arg8) = x8 := by rw [← hW126]; after_results_simp; exact e125_main_arg8
  have e126_main_arg7 : W126 (Proc.devRef .tc main_arg7) = x7 := by rw [← hW126]; after_results_simp; exact e125_main_arg7
  have e126_main_v12 : W126 (Proc.devRef .tc main_v12) = Read.val_main_v12 (F := F) x1 := by rw [← hW126]; after_results_simp; exact e125_main_v12
  have e126_main_v3 : W126 (Proc.devRef .tc main_v3) = Read.val_main_v3 (F := F) x1 := by rw [← hW126]; after_results_simp; exact e125_main_v3
  have e126_main_v1 : W126 (Proc.devRef .tc main_v1) = Read.val_main_v1 (F := F) x1 := by rw [← hW126]; after_results_simp; exact e125_main_v1
  have e126_main_v17 : W126 (Proc.devRef .tc main_v17) = Read.val_main_v17 (F := F) x0 x2 x3 := by rw [← hW126]; after_results_simp; exact e125_main_v17
  have e126_main_v104 : W126 (Proc.devRef .tc main_v104) = Read.val_main_v104 (F := F) x0 x1 x2 x3 x4 x5 x6 := by
    rw [← hW126]; after_results_simp; simp only [e125_main_v101, e125_main_v103]
    unfold Read.val_main_v104; generalize Read.val_main_v101 (F := F) x0 x1 x2 x3 x4 x5 x6 = A_main_v101; generalize Read.val_main_v103 (F := F) x0 x1 x2 x3 x4 x5 x6 = A_main_v103; rfl
  clear hW126 e125_main_arg9 e125_main_arg8 e125_main_arg7 e125_main_v12 e125_main_v3 e125_main_v1 e125_main_v17 e125_main_v101 e125_main_v103 W125
  -- operation 126: TRef.nullary  → main_call3_cst
  apply after_step; intro W127 hW127
  have e127_main_arg9 : W127 (Proc.devRef .tc main_arg9) = x9 := by rw [← hW127]; after_results_simp; exact e126_main_arg9
  have e127_main_arg8 : W127 (Proc.devRef .tc main_arg8) = x8 := by rw [← hW127]; after_results_simp; exact e126_main_arg8
  have e127_main_arg7 : W127 (Proc.devRef .tc main_arg7) = x7 := by rw [← hW127]; after_results_simp; exact e126_main_arg7
  have e127_main_v12 : W127 (Proc.devRef .tc main_v12) = Read.val_main_v12 (F := F) x1 := by rw [← hW127]; after_results_simp; exact e126_main_v12
  have e127_main_v3 : W127 (Proc.devRef .tc main_v3) = Read.val_main_v3 (F := F) x1 := by rw [← hW127]; after_results_simp; exact e126_main_v3
  have e127_main_v1 : W127 (Proc.devRef .tc main_v1) = Read.val_main_v1 (F := F) x1 := by rw [← hW127]; after_results_simp; exact e126_main_v1
  have e127_main_v17 : W127 (Proc.devRef .tc main_v17) = Read.val_main_v17 (F := F) x0 x2 x3 := by rw [← hW127]; after_results_simp; exact e126_main_v17
  have e127_main_v104 : W127 (Proc.devRef .tc main_v104) = Read.val_main_v104 (F := F) x0 x1 x2 x3 x4 x5 x6 := by rw [← hW127]; after_results_simp; exact e126_main_v104
  have e127_main_call3_cst : W127 (Proc.devRef .tc main_call3_cst) = Read.val_main_call3_cst (F := F) := by
    rw [← hW127]; after_results_simp
    unfold Read.val_main_call3_cst; refine (cast_eq _ _).trans ?_; rfl
  clear hW127 e126_main_arg9 e126_main_arg8 e126_main_arg7 e126_main_v12 e126_main_v3 e126_main_v1 e126_main_v17 e126_main_v104 W126
  -- operation 127: TRef.unary main_call3_cst → main_call3_v0
  apply after_step; intro W128 hW128
  have e128_main_arg9 : W128 (Proc.devRef .tc main_arg9) = x9 := by rw [← hW128]; after_results_simp; exact e127_main_arg9
  have e128_main_arg8 : W128 (Proc.devRef .tc main_arg8) = x8 := by rw [← hW128]; after_results_simp; exact e127_main_arg8
  have e128_main_arg7 : W128 (Proc.devRef .tc main_arg7) = x7 := by rw [← hW128]; after_results_simp; exact e127_main_arg7
  have e128_main_v12 : W128 (Proc.devRef .tc main_v12) = Read.val_main_v12 (F := F) x1 := by rw [← hW128]; after_results_simp; exact e127_main_v12
  have e128_main_v3 : W128 (Proc.devRef .tc main_v3) = Read.val_main_v3 (F := F) x1 := by rw [← hW128]; after_results_simp; exact e127_main_v3
  have e128_main_v1 : W128 (Proc.devRef .tc main_v1) = Read.val_main_v1 (F := F) x1 := by rw [← hW128]; after_results_simp; exact e127_main_v1
  have e128_main_v17 : W128 (Proc.devRef .tc main_v17) = Read.val_main_v17 (F := F) x0 x2 x3 := by rw [← hW128]; after_results_simp; exact e127_main_v17
  have e128_main_v104 : W128 (Proc.devRef .tc main_v104) = Read.val_main_v104 (F := F) x0 x1 x2 x3 x4 x5 x6 := by rw [← hW128]; after_results_simp; exact e127_main_v104
  have e128_main_call3_v0 : W128 (Proc.devRef .tc main_call3_v0) = Read.val_main_call3_v0 (F := F) := by
    rw [← hW128]; after_results_simp; simp only [e127_main_call3_cst]
    unfold Read.val_main_call3_v0; generalize Read.val_main_call3_cst (F := F) = A_main_call3_cst; refine (cast_eq _ _).trans ?_; rfl
  clear hW128 e127_main_arg9 e127_main_arg8 e127_main_arg7 e127_main_v12 e127_main_v3 e127_main_v1 e127_main_v17 e127_main_v104 e127_main_call3_cst W127
  -- operation 128: TRef.binary main_v104 main_call3_v0 → main_v105
  apply after_step; intro W129 hW129
  have e129_main_arg9 : W129 (Proc.devRef .tc main_arg9) = x9 := by rw [← hW129]; after_results_simp; exact e128_main_arg9
  have e129_main_arg8 : W129 (Proc.devRef .tc main_arg8) = x8 := by rw [← hW129]; after_results_simp; exact e128_main_arg8
  have e129_main_arg7 : W129 (Proc.devRef .tc main_arg7) = x7 := by rw [← hW129]; after_results_simp; exact e128_main_arg7
  have e129_main_v12 : W129 (Proc.devRef .tc main_v12) = Read.val_main_v12 (F := F) x1 := by rw [← hW129]; after_results_simp; exact e128_main_v12
  have e129_main_v3 : W129 (Proc.devRef .tc main_v3) = Read.val_main_v3 (F := F) x1 := by rw [← hW129]; after_results_simp; exact e128_main_v3
  have e129_main_v1 : W129 (Proc.devRef .tc main_v1) = Read.val_main_v1 (F := F) x1 := by rw [← hW129]; after_results_simp; exact e128_main_v1
  have e129_main_v105 : W129 (Proc.devRef .tc main_v105) = Read.val_main_v105 (F := F) x0 x1 x2 x3 x4 x5 x6 := by
    rw [← hW129]; after_results_simp; simp only [e128_main_v104, e128_main_call3_v0]
    unfold Read.val_main_v105; generalize Read.val_main_v104 (F := F) x0 x1 x2 x3 x4 x5 x6 = A_main_v104; generalize Read.val_main_call3_v0 (F := F) = A_main_call3_v0; refine (cast_eq _ _).trans ?_; rfl
  have e129_main_v17 : W129 (Proc.devRef .tc main_v17) = Read.val_main_v17 (F := F) x0 x2 x3 := by rw [← hW129]; after_results_simp; exact e128_main_v17
  clear hW129 e128_main_arg9 e128_main_arg8 e128_main_arg7 e128_main_v12 e128_main_v3 e128_main_v1 e128_main_v17 e128_main_v104 e128_main_call3_v0 W128
  -- operation 129: nullary  → main_cst_13
  apply after_step; intro W130 hW130
  have e130_main_arg9 : W130 (Proc.devRef .tc main_arg9) = x9 := by rw [← hW130]; after_results_simp; exact e129_main_arg9
  have e130_main_arg8 : W130 (Proc.devRef .tc main_arg8) = x8 := by rw [← hW130]; after_results_simp; exact e129_main_arg8
  have e130_main_arg7 : W130 (Proc.devRef .tc main_arg7) = x7 := by rw [← hW130]; after_results_simp; exact e129_main_arg7
  have e130_main_v12 : W130 (Proc.devRef .tc main_v12) = Read.val_main_v12 (F := F) x1 := by rw [← hW130]; after_results_simp; exact e129_main_v12
  have e130_main_v3 : W130 (Proc.devRef .tc main_v3) = Read.val_main_v3 (F := F) x1 := by rw [← hW130]; after_results_simp; exact e129_main_v3
  have e130_main_v1 : W130 (Proc.devRef .tc main_v1) = Read.val_main_v1 (F := F) x1 := by rw [← hW130]; after_results_simp; exact e129_main_v1
  have e130_main_v105 : W130 (Proc.devRef .tc main_v105) = Read.val_main_v105 (F := F) x0 x1 x2 x3 x4 x5 x6 := by rw [← hW130]; after_results_simp; exact e129_main_v105
  have e130_main_v17 : W130 (Proc.devRef .tc main_v17) = Read.val_main_v17 (F := F) x0 x2 x3 := by rw [← hW130]; after_results_simp; exact e129_main_v17
  have e130_main_cst_13 : W130 (Proc.devRef .tc main_cst_13) = Read.val_main_cst_13 (F := F) := by
    rw [← hW130]; after_results_simp
    unfold Read.val_main_cst_13; rfl
  clear hW130 e129_main_arg9 e129_main_arg8 e129_main_arg7 e129_main_v12 e129_main_v3 e129_main_v1 e129_main_v105 e129_main_v17 W129
  -- operation 130: unary main_cst_13 → main_v106
  apply after_step; intro W131 hW131
  have e131_main_arg9 : W131 (Proc.devRef .tc main_arg9) = x9 := by rw [← hW131]; after_results_simp; exact e130_main_arg9
  have e131_main_arg8 : W131 (Proc.devRef .tc main_arg8) = x8 := by rw [← hW131]; after_results_simp; exact e130_main_arg8
  have e131_main_arg7 : W131 (Proc.devRef .tc main_arg7) = x7 := by rw [← hW131]; after_results_simp; exact e130_main_arg7
  have e131_main_v12 : W131 (Proc.devRef .tc main_v12) = Read.val_main_v12 (F := F) x1 := by rw [← hW131]; after_results_simp; exact e130_main_v12
  have e131_main_v3 : W131 (Proc.devRef .tc main_v3) = Read.val_main_v3 (F := F) x1 := by rw [← hW131]; after_results_simp; exact e130_main_v3
  have e131_main_v1 : W131 (Proc.devRef .tc main_v1) = Read.val_main_v1 (F := F) x1 := by rw [← hW131]; after_results_simp; exact e130_main_v1
  have e131_main_v105 : W131 (Proc.devRef .tc main_v105) = Read.val_main_v105 (F := F) x0 x1 x2 x3 x4 x5 x6 := by rw [← hW131]; after_results_simp; exact e130_main_v105
  have e131_main_v106 : W131 (Proc.devRef .tc main_v106) = Read.val_main_v106 (F := F) := by
    rw [← hW131]; after_results_simp; simp only [e130_main_cst_13]
    unfold Read.val_main_v106; generalize Read.val_main_cst_13 (F := F) = A_main_cst_13; rfl
  have e131_main_v17 : W131 (Proc.devRef .tc main_v17) = Read.val_main_v17 (F := F) x0 x2 x3 := by rw [← hW131]; after_results_simp; exact e130_main_v17
  clear hW131 e130_main_arg9 e130_main_arg8 e130_main_arg7 e130_main_v12 e130_main_v3 e130_main_v1 e130_main_v105 e130_main_v17 e130_main_cst_13 W130
  -- operation 131: binary main_v106 main_v17 → main_v107
  apply after_step; intro W132 hW132
  have e132_main_arg9 : W132 (Proc.devRef .tc main_arg9) = x9 := by rw [← hW132]; after_results_simp; exact e131_main_arg9
  have e132_main_arg8 : W132 (Proc.devRef .tc main_arg8) = x8 := by rw [← hW132]; after_results_simp; exact e131_main_arg8
  have e132_main_arg7 : W132 (Proc.devRef .tc main_arg7) = x7 := by rw [← hW132]; after_results_simp; exact e131_main_arg7
  have e132_main_v12 : W132 (Proc.devRef .tc main_v12) = Read.val_main_v12 (F := F) x1 := by rw [← hW132]; after_results_simp; exact e131_main_v12
  have e132_main_v3 : W132 (Proc.devRef .tc main_v3) = Read.val_main_v3 (F := F) x1 := by rw [← hW132]; after_results_simp; exact e131_main_v3
  have e132_main_v1 : W132 (Proc.devRef .tc main_v1) = Read.val_main_v1 (F := F) x1 := by rw [← hW132]; after_results_simp; exact e131_main_v1
  have e132_main_v105 : W132 (Proc.devRef .tc main_v105) = Read.val_main_v105 (F := F) x0 x1 x2 x3 x4 x5 x6 := by rw [← hW132]; after_results_simp; exact e131_main_v105
  have e132_main_v107 : W132 (Proc.devRef .tc main_v107) = Read.val_main_v107 (F := F) x0 x2 x3 := by
    rw [← hW132]; after_results_simp; simp only [e131_main_v106, e131_main_v17]
    unfold Read.val_main_v107; generalize Read.val_main_v106 (F := F) = A_main_v106; generalize Read.val_main_v17 (F := F) x0 x2 x3 = A_main_v17; rfl
  clear hW132 e131_main_arg9 e131_main_arg8 e131_main_arg7 e131_main_v12 e131_main_v3 e131_main_v1 e131_main_v105 e131_main_v106 e131_main_v17 W131
  -- operation 132: binary main_v105 main_v107 → main_v108
  apply after_step; intro W133 hW133
  have e133_main_v108 : W133 (Proc.devRef .tc main_v108) = Read.val_main_v108 (F := F) x0 x1 x2 x3 x4 x5 x6 := by
    rw [← hW133]; after_results_simp; simp only [e132_main_v105, e132_main_v107]
    unfold Read.val_main_v108; generalize Read.val_main_v105 (F := F) x0 x1 x2 x3 x4 x5 x6 = A_main_v105; generalize Read.val_main_v107 (F := F) x0 x2 x3 = A_main_v107; rfl
  have e133_main_arg9 : W133 (Proc.devRef .tc main_arg9) = x9 := by rw [← hW133]; after_results_simp; exact e132_main_arg9
  have e133_main_arg8 : W133 (Proc.devRef .tc main_arg8) = x8 := by rw [← hW133]; after_results_simp; exact e132_main_arg8
  have e133_main_arg7 : W133 (Proc.devRef .tc main_arg7) = x7 := by rw [← hW133]; after_results_simp; exact e132_main_arg7
  have e133_main_v12 : W133 (Proc.devRef .tc main_v12) = Read.val_main_v12 (F := F) x1 := by rw [← hW133]; after_results_simp; exact e132_main_v12
  have e133_main_v3 : W133 (Proc.devRef .tc main_v3) = Read.val_main_v3 (F := F) x1 := by rw [← hW133]; after_results_simp; exact e132_main_v3
  have e133_main_v1 : W133 (Proc.devRef .tc main_v1) = Read.val_main_v1 (F := F) x1 := by rw [← hW133]; after_results_simp; exact e132_main_v1
  clear hW133 e132_main_arg9 e132_main_arg8 e132_main_arg7 e132_main_v12 e132_main_v3 e132_main_v1 e132_main_v105 e132_main_v107 W132
  -- operation 133: nullary  → main_c_14
  apply after_step; intro W134 hW134
  have e134_main_v108 : W134 (Proc.devRef .tc main_v108) = Read.val_main_v108 (F := F) x0 x1 x2 x3 x4 x5 x6 := by rw [← hW134]; after_results_simp; exact e133_main_v108
  have e134_main_arg9 : W134 (Proc.devRef .tc main_arg9) = x9 := by rw [← hW134]; after_results_simp; exact e133_main_arg9
  have e134_main_arg8 : W134 (Proc.devRef .tc main_arg8) = x8 := by rw [← hW134]; after_results_simp; exact e133_main_arg8
  have e134_main_arg7 : W134 (Proc.devRef .tc main_arg7) = x7 := by rw [← hW134]; after_results_simp; exact e133_main_arg7
  have e134_main_v12 : W134 (Proc.devRef .tc main_v12) = Read.val_main_v12 (F := F) x1 := by rw [← hW134]; after_results_simp; exact e133_main_v12
  have e134_main_v3 : W134 (Proc.devRef .tc main_v3) = Read.val_main_v3 (F := F) x1 := by rw [← hW134]; after_results_simp; exact e133_main_v3
  have e134_main_v1 : W134 (Proc.devRef .tc main_v1) = Read.val_main_v1 (F := F) x1 := by rw [← hW134]; after_results_simp; exact e133_main_v1
  have e134_main_c_14 : W134 (Proc.devRef .tc main_c_14) = Read.val_main_c_14 (F := F) := by
    rw [← hW134]; after_results_simp
    unfold Read.val_main_c_14; rfl
  clear hW134 e133_main_v108 e133_main_arg9 e133_main_arg8 e133_main_arg7 e133_main_v12 e133_main_v3 e133_main_v1 W133
  -- operation 134: unary main_c_14 → main_v109
  apply after_step; intro W135 hW135
  have e135_main_v108 : W135 (Proc.devRef .tc main_v108) = Read.val_main_v108 (F := F) x0 x1 x2 x3 x4 x5 x6 := by rw [← hW135]; after_results_simp; exact e134_main_v108
  have e135_main_arg9 : W135 (Proc.devRef .tc main_arg9) = x9 := by rw [← hW135]; after_results_simp; exact e134_main_arg9
  have e135_main_arg8 : W135 (Proc.devRef .tc main_arg8) = x8 := by rw [← hW135]; after_results_simp; exact e134_main_arg8
  have e135_main_arg7 : W135 (Proc.devRef .tc main_arg7) = x7 := by rw [← hW135]; after_results_simp; exact e134_main_arg7
  have e135_main_v12 : W135 (Proc.devRef .tc main_v12) = Read.val_main_v12 (F := F) x1 := by rw [← hW135]; after_results_simp; exact e134_main_v12
  have e135_main_v3 : W135 (Proc.devRef .tc main_v3) = Read.val_main_v3 (F := F) x1 := by rw [← hW135]; after_results_simp; exact e134_main_v3
  have e135_main_v1 : W135 (Proc.devRef .tc main_v1) = Read.val_main_v1 (F := F) x1 := by rw [← hW135]; after_results_simp; exact e134_main_v1
  have e135_main_v109 : W135 (Proc.devRef .tc main_v109) = Read.val_main_v109 (F := F) := by
    rw [← hW135]; after_results_simp; simp only [e134_main_c_14]
    unfold Read.val_main_v109; generalize Read.val_main_c_14 (F := F) = A_main_c_14; rfl
  clear hW135 e134_main_v108 e134_main_arg9 e134_main_arg8 e134_main_arg7 e134_main_v12 e134_main_v3 e134_main_v1 e134_main_c_14 W134
  -- operation 135: binary main_v1 main_v109 → main_v110
  apply after_step; intro W136 hW136
  have e136_main_v108 : W136 (Proc.devRef .tc main_v108) = Read.val_main_v108 (F := F) x0 x1 x2 x3 x4 x5 x6 := by rw [← hW136]; after_results_simp; exact e135_main_v108
  have e136_main_arg9 : W136 (Proc.devRef .tc main_arg9) = x9 := by rw [← hW136]; after_results_simp; exact e135_main_arg9
  have e136_main_arg8 : W136 (Proc.devRef .tc main_arg8) = x8 := by rw [← hW136]; after_results_simp; exact e135_main_arg8
  have e136_main_arg7 : W136 (Proc.devRef .tc main_arg7) = x7 := by rw [← hW136]; after_results_simp; exact e135_main_arg7
  have e136_main_v12 : W136 (Proc.devRef .tc main_v12) = Read.val_main_v12 (F := F) x1 := by rw [← hW136]; after_results_simp; exact e135_main_v12
  have e136_main_v3 : W136 (Proc.devRef .tc main_v3) = Read.val_main_v3 (F := F) x1 := by rw [← hW136]; after_results_simp; exact e135_main_v3
  have e136_main_v110 : W136 (Proc.devRef .tc main_v110) = Read.val_main_v110 (F := F) x1 := by
    rw [← hW136]; after_results_simp; simp only [e135_main_v1, e135_main_v109]
    unfold Read.val_main_v110; generalize Read.val_main_v1 (F := F) x1 = A_main_v1; generalize Read.val_main_v109 (F := F) = A_main_v109; rfl
  have e136_main_v1 : W136 (Proc.devRef .tc main_v1) = Read.val_main_v1 (F := F) x1 := by rw [← hW136]; after_results_simp; exact e135_main_v1
  clear hW136 e135_main_v108 e135_main_arg9 e135_main_arg8 e135_main_arg7 e135_main_v12 e135_main_v3 e135_main_v1 e135_main_v109 W135
  -- operation 136: nullary  → main_c_15
  apply after_step; intro W137 hW137
  have e137_main_v108 : W137 (Proc.devRef .tc main_v108) = Read.val_main_v108 (F := F) x0 x1 x2 x3 x4 x5 x6 := by rw [← hW137]; after_results_simp; exact e136_main_v108
  have e137_main_arg9 : W137 (Proc.devRef .tc main_arg9) = x9 := by rw [← hW137]; after_results_simp; exact e136_main_arg9
  have e137_main_arg8 : W137 (Proc.devRef .tc main_arg8) = x8 := by rw [← hW137]; after_results_simp; exact e136_main_arg8
  have e137_main_arg7 : W137 (Proc.devRef .tc main_arg7) = x7 := by rw [← hW137]; after_results_simp; exact e136_main_arg7
  have e137_main_v12 : W137 (Proc.devRef .tc main_v12) = Read.val_main_v12 (F := F) x1 := by rw [← hW137]; after_results_simp; exact e136_main_v12
  have e137_main_v3 : W137 (Proc.devRef .tc main_v3) = Read.val_main_v3 (F := F) x1 := by rw [← hW137]; after_results_simp; exact e136_main_v3
  have e137_main_v110 : W137 (Proc.devRef .tc main_v110) = Read.val_main_v110 (F := F) x1 := by rw [← hW137]; after_results_simp; exact e136_main_v110
  have e137_main_v1 : W137 (Proc.devRef .tc main_v1) = Read.val_main_v1 (F := F) x1 := by rw [← hW137]; after_results_simp; exact e136_main_v1
  have e137_main_c_15 : W137 (Proc.devRef .tc main_c_15) = Read.val_main_c_15 (F := F) := by
    rw [← hW137]; after_results_simp
    unfold Read.val_main_c_15; rfl
  clear hW137 e136_main_v108 e136_main_arg9 e136_main_arg8 e136_main_arg7 e136_main_v12 e136_main_v3 e136_main_v110 e136_main_v1 W136
  -- operation 137: unary main_c_15 → main_v111
  apply after_step; intro W138 hW138
  have e138_main_v108 : W138 (Proc.devRef .tc main_v108) = Read.val_main_v108 (F := F) x0 x1 x2 x3 x4 x5 x6 := by rw [← hW138]; after_results_simp; exact e137_main_v108
  have e138_main_arg9 : W138 (Proc.devRef .tc main_arg9) = x9 := by rw [← hW138]; after_results_simp; exact e137_main_arg9
  have e138_main_arg8 : W138 (Proc.devRef .tc main_arg8) = x8 := by rw [← hW138]; after_results_simp; exact e137_main_arg8
  have e138_main_arg7 : W138 (Proc.devRef .tc main_arg7) = x7 := by rw [← hW138]; after_results_simp; exact e137_main_arg7
  have e138_main_v12 : W138 (Proc.devRef .tc main_v12) = Read.val_main_v12 (F := F) x1 := by rw [← hW138]; after_results_simp; exact e137_main_v12
  have e138_main_v3 : W138 (Proc.devRef .tc main_v3) = Read.val_main_v3 (F := F) x1 := by rw [← hW138]; after_results_simp; exact e137_main_v3
  have e138_main_v110 : W138 (Proc.devRef .tc main_v110) = Read.val_main_v110 (F := F) x1 := by rw [← hW138]; after_results_simp; exact e137_main_v110
  have e138_main_v1 : W138 (Proc.devRef .tc main_v1) = Read.val_main_v1 (F := F) x1 := by rw [← hW138]; after_results_simp; exact e137_main_v1
  have e138_main_v111 : W138 (Proc.devRef .tc main_v111) = Read.val_main_v111 (F := F) := by
    rw [← hW138]; after_results_simp; simp only [e137_main_c_15]
    unfold Read.val_main_v111; generalize Read.val_main_c_15 (F := F) = A_main_c_15; rfl
  clear hW138 e137_main_v108 e137_main_arg9 e137_main_arg8 e137_main_arg7 e137_main_v12 e137_main_v3 e137_main_v110 e137_main_v1 e137_main_c_15 W137
  -- operation 138: binary main_v1 main_v111 → main_v112
  apply after_step; intro W139 hW139
  have e139_main_v108 : W139 (Proc.devRef .tc main_v108) = Read.val_main_v108 (F := F) x0 x1 x2 x3 x4 x5 x6 := by rw [← hW139]; after_results_simp; exact e138_main_v108
  have e139_main_arg9 : W139 (Proc.devRef .tc main_arg9) = x9 := by rw [← hW139]; after_results_simp; exact e138_main_arg9
  have e139_main_arg8 : W139 (Proc.devRef .tc main_arg8) = x8 := by rw [← hW139]; after_results_simp; exact e138_main_arg8
  have e139_main_arg7 : W139 (Proc.devRef .tc main_arg7) = x7 := by rw [← hW139]; after_results_simp; exact e138_main_arg7
  have e139_main_v12 : W139 (Proc.devRef .tc main_v12) = Read.val_main_v12 (F := F) x1 := by rw [← hW139]; after_results_simp; exact e138_main_v12
  have e139_main_v3 : W139 (Proc.devRef .tc main_v3) = Read.val_main_v3 (F := F) x1 := by rw [← hW139]; after_results_simp; exact e138_main_v3
  have e139_main_v110 : W139 (Proc.devRef .tc main_v110) = Read.val_main_v110 (F := F) x1 := by rw [← hW139]; after_results_simp; exact e138_main_v110
  have e139_main_v112 : W139 (Proc.devRef .tc main_v112) = Read.val_main_v112 (F := F) x1 := by
    rw [← hW139]; after_results_simp; simp only [e138_main_v1, e138_main_v111]
    unfold Read.val_main_v112; generalize Read.val_main_v1 (F := F) x1 = A_main_v1; generalize Read.val_main_v111 (F := F) = A_main_v111; rfl
  have e139_main_v1 : W139 (Proc.devRef .tc main_v1) = Read.val_main_v1 (F := F) x1 := by rw [← hW139]; after_results_simp; exact e138_main_v1
  clear hW139 e138_main_v108 e138_main_arg9 e138_main_arg8 e138_main_arg7 e138_main_v12 e138_main_v3 e138_main_v110 e138_main_v1 e138_main_v111 W138
  -- operation 139: ternary main_v110 main_v112 main_v1 → main_v113
  apply after_step; intro W140 hW140
  have e140_main_v108 : W140 (Proc.devRef .tc main_v108) = Read.val_main_v108 (F := F) x0 x1 x2 x3 x4 x5 x6 := by rw [← hW140]; after_results_simp; exact e139_main_v108
  have e140_main_arg9 : W140 (Proc.devRef .tc main_arg9) = x9 := by rw [← hW140]; after_results_simp; exact e139_main_arg9
  have e140_main_arg8 : W140 (Proc.devRef .tc main_arg8) = x8 := by rw [← hW140]; after_results_simp; exact e139_main_arg8
  have e140_main_arg7 : W140 (Proc.devRef .tc main_arg7) = x7 := by rw [← hW140]; after_results_simp; exact e139_main_arg7
  have e140_main_v12 : W140 (Proc.devRef .tc main_v12) = Read.val_main_v12 (F := F) x1 := by rw [← hW140]; after_results_simp; exact e139_main_v12
  have e140_main_v3 : W140 (Proc.devRef .tc main_v3) = Read.val_main_v3 (F := F) x1 := by rw [← hW140]; after_results_simp; exact e139_main_v3
  have e140_main_v113 : W140 (Proc.devRef .tc main_v113) = Read.val_main_v113 (F := F) x1 := by
    rw [← hW140]; after_results_simp; simp only [e139_main_v110, e139_main_v112, e139_main_v1]
    unfold Read.val_main_v113; generalize Read.val_main_v110 (F := F) x1 = A_main_v110; generalize Read.val_main_v112 (F := F) x1 = A_main_v112; generalize Read.val_main_v1 (F := F) x1 = A_main_v1; rfl
  clear hW140 e139_main_v108 e139_main_arg9 e139_main_arg8 e139_main_arg7 e139_main_v12 e139_main_v3 e139_main_v110 e139_main_v112 e139_main_v1 W139
  -- operation 140: unary main_v113 → main_v114
  apply after_step; intro W141 hW141
  have e141_main_v108 : W141 (Proc.devRef .tc main_v108) = Read.val_main_v108 (F := F) x0 x1 x2 x3 x4 x5 x6 := by rw [← hW141]; after_results_simp; exact e140_main_v108
  have e141_main_arg9 : W141 (Proc.devRef .tc main_arg9) = x9 := by rw [← hW141]; after_results_simp; exact e140_main_arg9
  have e141_main_arg8 : W141 (Proc.devRef .tc main_arg8) = x8 := by rw [← hW141]; after_results_simp; exact e140_main_arg8
  have e141_main_arg7 : W141 (Proc.devRef .tc main_arg7) = x7 := by rw [← hW141]; after_results_simp; exact e140_main_arg7
  have e141_main_v12 : W141 (Proc.devRef .tc main_v12) = Read.val_main_v12 (F := F) x1 := by rw [← hW141]; after_results_simp; exact e140_main_v12
  have e141_main_v3 : W141 (Proc.devRef .tc main_v3) = Read.val_main_v3 (F := F) x1 := by rw [← hW141]; after_results_simp; exact e140_main_v3
  have e141_main_v114 : W141 (Proc.devRef .tc main_v114) = Read.val_main_v114 (F := F) x1 := by
    rw [← hW141]; after_results_simp; simp only [e140_main_v113]
    unfold Read.val_main_v114; generalize Read.val_main_v113 (F := F) x1 = A_main_v113; rfl
  clear hW141 e140_main_v108 e140_main_arg9 e140_main_arg8 e140_main_arg7 e140_main_v12 e140_main_v3 e140_main_v113 W140
  -- operation 141: binary main_v108 main_v114 → main_v115
  apply after_step; intro W142 hW142
  have e142_main_v108 : W142 (Proc.devRef .tc main_v108) = Read.val_main_v108 (F := F) x0 x1 x2 x3 x4 x5 x6 := by rw [← hW142]; after_results_simp; exact e141_main_v108
  have e142_main_arg9 : W142 (Proc.devRef .tc main_arg9) = x9 := by rw [← hW142]; after_results_simp; exact e141_main_arg9
  have e142_main_arg8 : W142 (Proc.devRef .tc main_arg8) = x8 := by rw [← hW142]; after_results_simp; exact e141_main_arg8
  have e142_main_arg7 : W142 (Proc.devRef .tc main_arg7) = x7 := by rw [← hW142]; after_results_simp; exact e141_main_arg7
  have e142_main_v12 : W142 (Proc.devRef .tc main_v12) = Read.val_main_v12 (F := F) x1 := by rw [← hW142]; after_results_simp; exact e141_main_v12
  have e142_main_v115 : W142 (Proc.devRef .tc main_v115) = Read.val_main_v115 (F := F) x0 x1 x2 x3 x4 x5 x6 := by
    rw [← hW142]; after_results_simp; simp only [e141_main_v108, e141_main_v114]
    unfold Read.val_main_v115; generalize Read.val_main_v108 (F := F) x0 x1 x2 x3 x4 x5 x6 = A_main_v108; generalize Read.val_main_v114 (F := F) x1 = A_main_v114; rfl
  have e142_main_v3 : W142 (Proc.devRef .tc main_v3) = Read.val_main_v3 (F := F) x1 := by rw [← hW142]; after_results_simp; exact e141_main_v3
  clear hW142 e141_main_v108 e141_main_arg9 e141_main_arg8 e141_main_arg7 e141_main_v12 e141_main_v3 e141_main_v114 W141
  -- operation 142: nullary  → main_cst_16
  apply after_step; intro W143 hW143
  have e143_main_v108 : W143 (Proc.devRef .tc main_v108) = Read.val_main_v108 (F := F) x0 x1 x2 x3 x4 x5 x6 := by rw [← hW143]; after_results_simp; exact e142_main_v108
  have e143_main_arg9 : W143 (Proc.devRef .tc main_arg9) = x9 := by rw [← hW143]; after_results_simp; exact e142_main_arg9
  have e143_main_arg8 : W143 (Proc.devRef .tc main_arg8) = x8 := by rw [← hW143]; after_results_simp; exact e142_main_arg8
  have e143_main_arg7 : W143 (Proc.devRef .tc main_arg7) = x7 := by rw [← hW143]; after_results_simp; exact e142_main_arg7
  have e143_main_v12 : W143 (Proc.devRef .tc main_v12) = Read.val_main_v12 (F := F) x1 := by rw [← hW143]; after_results_simp; exact e142_main_v12
  have e143_main_v115 : W143 (Proc.devRef .tc main_v115) = Read.val_main_v115 (F := F) x0 x1 x2 x3 x4 x5 x6 := by rw [← hW143]; after_results_simp; exact e142_main_v115
  have e143_main_v3 : W143 (Proc.devRef .tc main_v3) = Read.val_main_v3 (F := F) x1 := by rw [← hW143]; after_results_simp; exact e142_main_v3
  have e143_main_cst_16 : W143 (Proc.devRef .tc main_cst_16) = Read.val_main_cst_16 (F := F) := by
    rw [← hW143]; after_results_simp
    unfold Read.val_main_cst_16; rfl
  clear hW143 e142_main_v108 e142_main_arg9 e142_main_arg8 e142_main_arg7 e142_main_v12 e142_main_v115 e142_main_v3 W142
  -- operation 143: unary main_cst_16 → main_v116
  apply after_step; intro W144 hW144
  have e144_main_v108 : W144 (Proc.devRef .tc main_v108) = Read.val_main_v108 (F := F) x0 x1 x2 x3 x4 x5 x6 := by rw [← hW144]; after_results_simp; exact e143_main_v108
  have e144_main_arg9 : W144 (Proc.devRef .tc main_arg9) = x9 := by rw [← hW144]; after_results_simp; exact e143_main_arg9
  have e144_main_arg8 : W144 (Proc.devRef .tc main_arg8) = x8 := by rw [← hW144]; after_results_simp; exact e143_main_arg8
  have e144_main_arg7 : W144 (Proc.devRef .tc main_arg7) = x7 := by rw [← hW144]; after_results_simp; exact e143_main_arg7
  have e144_main_v12 : W144 (Proc.devRef .tc main_v12) = Read.val_main_v12 (F := F) x1 := by rw [← hW144]; after_results_simp; exact e143_main_v12
  have e144_main_v116 : W144 (Proc.devRef .tc main_v116) = Read.val_main_v116 (F := F) := by
    rw [← hW144]; after_results_simp; simp only [e143_main_cst_16]
    unfold Read.val_main_v116; generalize Read.val_main_cst_16 (F := F) = A_main_cst_16; rfl
  have e144_main_v115 : W144 (Proc.devRef .tc main_v115) = Read.val_main_v115 (F := F) x0 x1 x2 x3 x4 x5 x6 := by rw [← hW144]; after_results_simp; exact e143_main_v115
  have e144_main_v3 : W144 (Proc.devRef .tc main_v3) = Read.val_main_v3 (F := F) x1 := by rw [← hW144]; after_results_simp; exact e143_main_v3
  clear hW144 e143_main_v108 e143_main_arg9 e143_main_arg8 e143_main_arg7 e143_main_v12 e143_main_v115 e143_main_v3 e143_main_cst_16 W143
  -- operation 144: unary main_v3 → main_v117
  apply after_step; intro W145 hW145
  have e145_main_v108 : W145 (Proc.devRef .tc main_v108) = Read.val_main_v108 (F := F) x0 x1 x2 x3 x4 x5 x6 := by rw [← hW145]; after_results_simp; exact e144_main_v108
  have e145_main_arg9 : W145 (Proc.devRef .tc main_arg9) = x9 := by rw [← hW145]; after_results_simp; exact e144_main_arg9
  have e145_main_arg8 : W145 (Proc.devRef .tc main_arg8) = x8 := by rw [← hW145]; after_results_simp; exact e144_main_arg8
  have e145_main_arg7 : W145 (Proc.devRef .tc main_arg7) = x7 := by rw [← hW145]; after_results_simp; exact e144_main_arg7
  have e145_main_v12 : W145 (Proc.devRef .tc main_v12) = Read.val_main_v12 (F := F) x1 := by rw [← hW145]; after_results_simp; exact e144_main_v12
  have e145_main_v116 : W145 (Proc.devRef .tc main_v116) = Read.val_main_v116 (F := F) := by rw [← hW145]; after_results_simp; exact e144_main_v116
  have e145_main_v117 : W145 (Proc.devRef .tc main_v117) = Read.val_main_v117 (F := F) x1 := by
    rw [← hW145]; after_results_simp; simp only [e144_main_v3]
    unfold Read.val_main_v117; generalize Read.val_main_v3 (F := F) x1 = A_main_v3; rfl
  have e145_main_v115 : W145 (Proc.devRef .tc main_v115) = Read.val_main_v115 (F := F) x0 x1 x2 x3 x4 x5 x6 := by rw [← hW145]; after_results_simp; exact e144_main_v115
  clear hW145 e144_main_v108 e144_main_arg9 e144_main_arg8 e144_main_arg7 e144_main_v12 e144_main_v116 e144_main_v115 e144_main_v3 W144
  -- operation 145: ternary main_v116 main_v117 main_v115 → main_v118
  apply after_step; intro W146 hW146
  have e146_main_v108 : W146 (Proc.devRef .tc main_v108) = Read.val_main_v108 (F := F) x0 x1 x2 x3 x4 x5 x6 := by rw [← hW146]; after_results_simp; exact e145_main_v108
  have e146_main_arg9 : W146 (Proc.devRef .tc main_arg9) = x9 := by rw [← hW146]; after_results_simp; exact e145_main_arg9
  have e146_main_arg8 : W146 (Proc.devRef .tc main_arg8) = x8 := by rw [← hW146]; after_results_simp; exact e145_main_arg8
  have e146_main_arg7 : W146 (Proc.devRef .tc main_arg7) = x7 := by rw [← hW146]; after_results_simp; exact e145_main_arg7
  have e146_main_v118 : W146 (Proc.devRef .tc main_v118) = Read.val_main_v118 (F := F) x0 x1 x2 x3 x4 x5 x6 := by
    rw [← hW146]; after_results_simp; simp only [e145_main_v116, e145_main_v117, e145_main_v115]
    unfold Read.val_main_v118; generalize Read.val_main_v116 (F := F) = A_main_v116; generalize Read.val_main_v117 (F := F) x1 = A_main_v117; generalize Read.val_main_v115 (F := F) x0 x1 x2 x3 x4 x5 x6 = A_main_v115; rfl
  have e146_main_v12 : W146 (Proc.devRef .tc main_v12) = Read.val_main_v12 (F := F) x1 := by rw [← hW146]; after_results_simp; exact e145_main_v12
  clear hW146 e145_main_v108 e145_main_arg9 e145_main_arg8 e145_main_arg7 e145_main_v12 e145_main_v116 e145_main_v117 e145_main_v115 W145
  -- operation 146: unary main_v12 → main_v119
  apply after_step; intro W147 hW147
  have e147_main_v108 : W147 (Proc.devRef .tc main_v108) = Read.val_main_v108 (F := F) x0 x1 x2 x3 x4 x5 x6 := by rw [← hW147]; after_results_simp; exact e146_main_v108
  have e147_main_arg9 : W147 (Proc.devRef .tc main_arg9) = x9 := by rw [← hW147]; after_results_simp; exact e146_main_arg9
  have e147_main_arg8 : W147 (Proc.devRef .tc main_arg8) = x8 := by rw [← hW147]; after_results_simp; exact e146_main_arg8
  have e147_main_arg7 : W147 (Proc.devRef .tc main_arg7) = x7 := by rw [← hW147]; after_results_simp; exact e146_main_arg7
  have e147_main_v118 : W147 (Proc.devRef .tc main_v118) = Read.val_main_v118 (F := F) x0 x1 x2 x3 x4 x5 x6 := by rw [← hW147]; after_results_simp; exact e146_main_v118
  have e147_main_v119 : W147 (Proc.devRef .tc main_v119) = Read.val_main_v119 (F := F) x1 := by
    rw [← hW147]; after_results_simp; simp only [e146_main_v12]
    unfold Read.val_main_v119; generalize Read.val_main_v12 (F := F) x1 = A_main_v12; rfl
  clear hW147 e146_main_v108 e146_main_arg9 e146_main_arg8 e146_main_arg7 e146_main_v118 e146_main_v12 W146
  -- operation 147: binary main_v118 main_v119 → main_v120
  apply after_step; intro W148 hW148
  have e148_main_v108 : W148 (Proc.devRef .tc main_v108) = Read.val_main_v108 (F := F) x0 x1 x2 x3 x4 x5 x6 := by rw [← hW148]; after_results_simp; exact e147_main_v108
  have e148_main_arg9 : W148 (Proc.devRef .tc main_arg9) = x9 := by rw [← hW148]; after_results_simp; exact e147_main_arg9
  have e148_main_arg8 : W148 (Proc.devRef .tc main_arg8) = x8 := by rw [← hW148]; after_results_simp; exact e147_main_arg8
  have e148_main_v120 : W148 (Proc.devRef .tc main_v120) = Read.val_main_v120 (F := F) x0 x1 x2 x3 x4 x5 x6 := by
    rw [← hW148]; after_results_simp; simp only [e147_main_v118, e147_main_v119]
    unfold Read.val_main_v120; generalize Read.val_main_v118 (F := F) x0 x1 x2 x3 x4 x5 x6 = A_main_v118; generalize Read.val_main_v119 (F := F) x1 = A_main_v119; rfl
  have e148_main_arg7 : W148 (Proc.devRef .tc main_arg7) = x7 := by rw [← hW148]; after_results_simp; exact e147_main_arg7
  clear hW148 e147_main_v108 e147_main_arg9 e147_main_arg8 e147_main_arg7 e147_main_v118 e147_main_v119 W147
  -- operation 148: unary main_arg7 → main_v121
  apply after_step; intro W149 hW149
  have e149_main_v108 : W149 (Proc.devRef .tc main_v108) = Read.val_main_v108 (F := F) x0 x1 x2 x3 x4 x5 x6 := by rw [← hW149]; after_results_simp; exact e148_main_v108
  have e149_main_arg9 : W149 (Proc.devRef .tc main_arg9) = x9 := by rw [← hW149]; after_results_simp; exact e148_main_arg9
  have e149_main_arg8 : W149 (Proc.devRef .tc main_arg8) = x8 := by rw [← hW149]; after_results_simp; exact e148_main_arg8
  have e149_main_v120 : W149 (Proc.devRef .tc main_v120) = Read.val_main_v120 (F := F) x0 x1 x2 x3 x4 x5 x6 := by rw [← hW149]; after_results_simp; exact e148_main_v120
  have e149_main_v121 : W149 (Proc.devRef .tc main_v121) = Read.val_main_v121 (F := F) x7 := by
    rw [← hW149]; after_results_simp; simp only [e148_main_arg7]
    unfold Read.val_main_v121; rfl
  clear hW149 e148_main_v108 e148_main_arg9 e148_main_arg8 e148_main_v120 e148_main_arg7 W148
  -- operation 149: binary main_v120 main_v121 → main_v122
  apply after_step; intro W150 hW150
  have e150_main_v108 : W150 (Proc.devRef .tc main_v108) = Read.val_main_v108 (F := F) x0 x1 x2 x3 x4 x5 x6 := by rw [← hW150]; after_results_simp; exact e149_main_v108
  have e150_main_arg9 : W150 (Proc.devRef .tc main_arg9) = x9 := by rw [← hW150]; after_results_simp; exact e149_main_arg9
  have e150_main_v122 : W150 (Proc.devRef .tc main_v122) = Read.val_main_v122 (F := F) x0 x1 x2 x3 x4 x5 x6 x7 := by
    rw [← hW150]; after_results_simp; simp only [e149_main_v120, e149_main_v121]
    unfold Read.val_main_v122; generalize Read.val_main_v120 (F := F) x0 x1 x2 x3 x4 x5 x6 = A_main_v120; generalize Read.val_main_v121 (F := F) x7 = A_main_v121; rfl
  have e150_main_arg8 : W150 (Proc.devRef .tc main_arg8) = x8 := by rw [← hW150]; after_results_simp; exact e149_main_arg8
  clear hW150 e149_main_v108 e149_main_arg9 e149_main_arg8 e149_main_v120 e149_main_v121 W149
  -- operation 150: unary main_arg8 → main_v123
  apply after_step; intro W151 hW151
  have e151_main_v108 : W151 (Proc.devRef .tc main_v108) = Read.val_main_v108 (F := F) x0 x1 x2 x3 x4 x5 x6 := by rw [← hW151]; after_results_simp; exact e150_main_v108
  have e151_main_arg9 : W151 (Proc.devRef .tc main_arg9) = x9 := by rw [← hW151]; after_results_simp; exact e150_main_arg9
  have e151_main_v122 : W151 (Proc.devRef .tc main_v122) = Read.val_main_v122 (F := F) x0 x1 x2 x3 x4 x5 x6 x7 := by rw [← hW151]; after_results_simp; exact e150_main_v122
  have e151_main_v123 : W151 (Proc.devRef .tc main_v123) = Read.val_main_v123 (F := F) x8 := by
    rw [← hW151]; after_results_simp; simp only [e150_main_arg8]
    unfold Read.val_main_v123; rfl
  clear hW151 e150_main_v108 e150_main_arg9 e150_main_v122 e150_main_arg8 W150
  -- operation 151: unary main_v123 → main_v124
  apply after_step; intro W152 hW152
  have e152_main_v108 : W152 (Proc.devRef .tc main_v108) = Read.val_main_v108 (F := F) x0 x1 x2 x3 x4 x5 x6 := by rw [← hW152]; after_results_simp; exact e151_main_v108
  have e152_main_arg9 : W152 (Proc.devRef .tc main_arg9) = x9 := by rw [← hW152]; after_results_simp; exact e151_main_arg9
  have e152_main_v122 : W152 (Proc.devRef .tc main_v122) = Read.val_main_v122 (F := F) x0 x1 x2 x3 x4 x5 x6 x7 := by rw [← hW152]; after_results_simp; exact e151_main_v122
  have e152_main_v124 : W152 (Proc.devRef .tc main_v124) = Read.val_main_v124 (F := F) x8 := by
    rw [← hW152]; after_results_simp; simp only [e151_main_v123]
    unfold Read.val_main_v124; generalize Read.val_main_v123 (F := F) x8 = A_main_v123; rfl
  clear hW152 e151_main_v108 e151_main_arg9 e151_main_v122 e151_main_v123 W151
  -- operation 152: binary main_v122 main_v124 → main_v125
  apply after_step; intro W153 hW153
  have e153_main_v125 : W153 (Proc.devRef .tc main_v125) = Read.val_main_v125 (F := F) x0 x1 x2 x3 x4 x5 x6 x7 x8 := by
    rw [← hW153]; after_results_simp; simp only [e152_main_v122, e152_main_v124]
    unfold Read.val_main_v125; generalize Read.val_main_v122 (F := F) x0 x1 x2 x3 x4 x5 x6 x7 = A_main_v122; generalize Read.val_main_v124 (F := F) x8 = A_main_v124; rfl
  have e153_main_v108 : W153 (Proc.devRef .tc main_v108) = Read.val_main_v108 (F := F) x0 x1 x2 x3 x4 x5 x6 := by rw [← hW153]; after_results_simp; exact e152_main_v108
  have e153_main_arg9 : W153 (Proc.devRef .tc main_arg9) = x9 := by rw [← hW153]; after_results_simp; exact e152_main_arg9
  clear hW153 e152_main_v108 e152_main_arg9 e152_main_v122 e152_main_v124 W152
  -- operation 153: unary main_arg9 → main_v126
  apply after_step; intro W154 hW154
  have e154_main_v125 : W154 (Proc.devRef .tc main_v125) = Read.val_main_v125 (F := F) x0 x1 x2 x3 x4 x5 x6 x7 x8 := by rw [← hW154]; after_results_simp; exact e153_main_v125
  have e154_main_v108 : W154 (Proc.devRef .tc main_v108) = Read.val_main_v108 (F := F) x0 x1 x2 x3 x4 x5 x6 := by rw [← hW154]; after_results_simp; exact e153_main_v108
  have e154_main_v126 : W154 (Proc.devRef .tc main_v126) = Read.val_main_v126 (F := F) x9 := by
    rw [← hW154]; after_results_simp; simp only [e153_main_arg9]
    unfold Read.val_main_v126; rfl
  clear hW154 e153_main_v125 e153_main_v108 e153_main_arg9 W153
  -- operation 154: binary main_v108 main_v126 → main_v127
  apply after_step; intro W155 hW155
  have e155_main_v125 : W155 (Proc.devRef .tc main_v125) = Read.val_main_v125 (F := F) x0 x1 x2 x3 x4 x5 x6 x7 x8 := by rw [← hW155]; after_results_simp; exact e154_main_v125
  have e155_main_v127 : W155 (Proc.devRef .tc main_v127) = Read.val_main_v127 (F := F) x0 x1 x2 x3 x4 x5 x6 x9 := by
    rw [← hW155]; after_results_simp; simp only [e154_main_v108, e154_main_v126]
    unfold Read.val_main_v127; generalize Read.val_main_v108 (F := F) x0 x1 x2 x3 x4 x5 x6 = A_main_v108; generalize Read.val_main_v126 (F := F) x9 = A_main_v126; rfl
  clear hW155 e154_main_v125 e154_main_v108 e154_main_v126 W154
  -- operation 155: binary main_v125 main_v127 → main_v128
  apply after_step; intro W156 hW156
  have e156_main_v128 : W156 (Proc.devRef .tc main_v128) = Read.val_main_v128 (F := F) x0 x1 x2 x3 x4 x5 x6 x7 x8 x9 := by
    rw [← hW156]; after_results_simp; simp only [e155_main_v125, e155_main_v127]
    unfold Read.val_main_v128; generalize Read.val_main_v125 (F := F) x0 x1 x2 x3 x4 x5 x6 x7 x8 = A_main_v125; generalize Read.val_main_v127 (F := F) x0 x1 x2 x3 x4 x5 x6 x9 = A_main_v127; rfl
  clear hW156 e155_main_v125 e155_main_v127 W155
  -- operation 156: TRef.nullary  → main_call4_cst
  apply after_step; intro W157 hW157
  have e157_main_v128 : W157 (Proc.devRef .tc main_v128) = Read.val_main_v128 (F := F) x0 x1 x2 x3 x4 x5 x6 x7 x8 x9 := by rw [← hW157]; after_results_simp; exact e156_main_v128
  have e157_main_call4_cst : W157 (Proc.devRef .tc main_call4_cst) = Read.val_main_call4_cst (F := F) := by
    rw [← hW157]; after_results_simp
    unfold Read.val_main_call4_cst; refine (cast_eq _ _).trans ?_; rfl
  clear hW157 e156_main_v128 W156
  -- operation 157: TRef.binary main_v128 main_call4_cst → main_call4_v0
  apply after_step; intro W158 hW158
  have e158_main_v128 : W158 (Proc.devRef .tc main_v128) = Read.val_main_v128 (F := F) x0 x1 x2 x3 x4 x5 x6 x7 x8 x9 := by rw [← hW158]; after_results_simp; exact e157_main_v128
  have e158_main_call4_v0 : W158 (Proc.devRef .tc main_call4_v0) = Read.val_main_call4_v0 (F := F) x0 x1 x2 x3 x4 x5 x6 x7 x8 x9 := by
    rw [← hW158]; after_results_simp; simp only [e157_main_v128, e157_main_call4_cst]
    unfold Read.val_main_call4_v0; generalize Read.val_main_v128 (F := F) x0 x1 x2 x3 x4 x5 x6 x7 x8 x9 = A_main_v128; generalize Read.val_main_call4_cst (F := F) = A_main_call4_cst; refine (cast_eq _ _).trans ?_; rfl
  clear hW158 e157_main_v128 e157_main_call4_cst W157
  -- operation 158: TRef.nullary  → main_call4_cst_0
  apply after_step; intro W159 hW159
  have e159_main_v128 : W159 (Proc.devRef .tc main_v128) = Read.val_main_v128 (F := F) x0 x1 x2 x3 x4 x5 x6 x7 x8 x9 := by rw [← hW159]; after_results_simp; exact e158_main_v128
  have e159_main_call4_v0 : W159 (Proc.devRef .tc main_call4_v0) = Read.val_main_call4_v0 (F := F) x0 x1 x2 x3 x4 x5 x6 x7 x8 x9 := by rw [← hW159]; after_results_simp; exact e158_main_call4_v0
  have e159_main_call4_cst_0 : W159 (Proc.devRef .tc main_call4_cst_0) = Read.val_main_call4_cst_0 (F := F) := by
    rw [← hW159]; after_results_simp
    unfold Read.val_main_call4_cst_0; refine (cast_eq _ _).trans ?_; rfl
  clear hW159 e158_main_v128 e158_main_call4_v0 W158
  -- operation 159: TRef.unary main_call4_cst_0 → main_call4_v1
  apply after_step; intro W160 hW160
  have e160_main_v128 : W160 (Proc.devRef .tc main_v128) = Read.val_main_v128 (F := F) x0 x1 x2 x3 x4 x5 x6 x7 x8 x9 := by rw [← hW160]; after_results_simp; exact e159_main_v128
  have e160_main_call4_v1 : W160 (Proc.devRef .tc main_call4_v1) = Read.val_main_call4_v1 (F := F) := by
    rw [← hW160]; after_results_simp; simp only [e159_main_call4_cst_0]
    unfold Read.val_main_call4_v1; generalize Read.val_main_call4_cst_0 (F := F) = A_main_call4_cst_0; refine (cast_eq _ _).trans ?_; rfl
  have e160_main_call4_v0 : W160 (Proc.devRef .tc main_call4_v0) = Read.val_main_call4_v0 (F := F) x0 x1 x2 x3 x4 x5 x6 x7 x8 x9 := by rw [← hW160]; after_results_simp; exact e159_main_call4_v0
  clear hW160 e159_main_v128 e159_main_call4_v0 e159_main_call4_cst_0 W159
  -- operation 160: TRef.binary main_call4_v1 main_call4_v0 → main_call4_v2
  apply after_step; intro W161 hW161
  have e161_main_v128 : W161 (Proc.devRef .tc main_v128) = Read.val_main_v128 (F := F) x0 x1 x2 x3 x4 x5 x6 x7 x8 x9 := by rw [← hW161]; after_results_simp; exact e160_main_v128
  have e161_main_call4_v2 : W161 (Proc.devRef .tc main_call4_v2) = Read.val_main_call4_v2 (F := F) x0 x1 x2 x3 x4 x5 x6 x7 x8 x9 := by
    rw [← hW161]; after_results_simp; simp only [e160_main_call4_v1, e160_main_call4_v0]
    unfold Read.val_main_call4_v2; generalize Read.val_main_call4_v1 (F := F) = A_main_call4_v1; generalize Read.val_main_call4_v0 (F := F) x0 x1 x2 x3 x4 x5 x6 x7 x8 x9 = A_main_call4_v0; refine (cast_eq _ _).trans ?_; rfl
  clear hW161 e160_main_v128 e160_main_call4_v1 e160_main_call4_v0 W160
  -- operation 161: TRef.unary main_call4_v2 → main_call4_v3
  apply after_step; intro W162 hW162
  have e162_main_v128 : W162 (Proc.devRef .tc main_v128) = Read.val_main_v128 (F := F) x0 x1 x2 x3 x4 x5 x6 x7 x8 x9 := by rw [← hW162]; after_results_simp; exact e161_main_v128
  have e162_main_call4_v3 : W162 (Proc.devRef .tc main_call4_v3) = Read.val_main_call4_v3 (F := F) x0 x1 x2 x3 x4 x5 x6 x7 x8 x9 := by
    rw [← hW162]; after_results_simp; simp only [e161_main_call4_v2]
    unfold Read.val_main_call4_v3; generalize Read.val_main_call4_v2 (F := F) x0 x1 x2 x3 x4 x5 x6 x7 x8 x9 = A_main_call4_v2; refine (cast_eq _ _).trans ?_; rfl
  clear hW162 e161_main_v128 e161_main_call4_v2 W161
  -- operation 162: TRef.unary main_call4_v3 → main_call4_v4
  apply after_step; intro W163 hW163
  have e163_main_v128 : W163 (Proc.devRef .tc main_v128) = Read.val_main_v128 (F := F) x0 x1 x2 x3 x4 x5 x6 x7 x8 x9 := by rw [← hW163]; after_results_simp; exact e162_main_v128
  have e163_main_call4_v4 : W163 (Proc.devRef .tc main_call4_v4) = Read.val_main_call4_v4 (F := F) x0 x1 x2 x3 x4 x5 x6 x7 x8 x9 := by
    rw [← hW163]; after_results_simp; simp only [e162_main_call4_v3]
    unfold Read.val_main_call4_v4; generalize Read.val_main_call4_v3 (F := F) x0 x1 x2 x3 x4 x5 x6 x7 x8 x9 = A_main_call4_v3; refine (cast_eq _ _).trans ?_; rfl
  clear hW163 e162_main_v128 e162_main_call4_v3 W162
  -- operation 163: TRef.binary main_v128 main_call4_v4 → main_call4_v5
  apply after_step; intro W164 hW164
  have e164_main_call4_v5 : W164 (Proc.devRef .tc main_call4_v5) = Read.val_main_call4_v5 (F := F) x0 x1 x2 x3 x4 x5 x6 x7 x8 x9 := by
    rw [← hW164]; after_results_simp; simp only [e163_main_v128, e163_main_call4_v4]
    unfold Read.val_main_call4_v5; generalize Read.val_main_v128 (F := F) x0 x1 x2 x3 x4 x5 x6 x7 x8 x9 = A_main_v128; generalize Read.val_main_call4_v4 (F := F) x0 x1 x2 x3 x4 x5 x6 x7 x8 x9 = A_main_call4_v4; refine (cast_eq _ _).trans ?_; rfl
  clear hW164 e163_main_v128 e163_main_call4_v4 W163
  -- operation 164: TRef.unary main_call4_v5 → main_call4_v6
  apply after_step; intro W165 hW165
  have e165_main_call4_v5 : W165 (Proc.devRef .tc main_call4_v5) = Read.val_main_call4_v5 (F := F) x0 x1 x2 x3 x4 x5 x6 x7 x8 x9 := by rw [← hW165]; after_results_simp; exact e164_main_call4_v5
  have e165_main_call4_v6 : W165 (Proc.devRef .tc main_call4_v6) = Read.val_main_call4_v6 (F := F) x0 x1 x2 x3 x4 x5 x6 x7 x8 x9 := by
    rw [← hW165]; after_results_simp; simp only [e164_main_call4_v5]
    unfold Read.val_main_call4_v6; generalize Read.val_main_call4_v5 (F := F) x0 x1 x2 x3 x4 x5 x6 x7 x8 x9 = A_main_call4_v5; refine (cast_eq _ _).trans ?_; rfl
  clear hW165 e164_main_call4_v5 W164
  -- operation 165: TRef.nullary  → main_call4_cst_1
  apply after_step; intro W166 hW166
  have e166_main_call4_v5 : W166 (Proc.devRef .tc main_call4_v5) = Read.val_main_call4_v5 (F := F) x0 x1 x2 x3 x4 x5 x6 x7 x8 x9 := by rw [← hW166]; after_results_simp; exact e165_main_call4_v5
  have e166_main_call4_v6 : W166 (Proc.devRef .tc main_call4_v6) = Read.val_main_call4_v6 (F := F) x0 x1 x2 x3 x4 x5 x6 x7 x8 x9 := by rw [← hW166]; after_results_simp; exact e165_main_call4_v6
  have e166_main_call4_cst_1 : W166 (Proc.devRef .tc main_call4_cst_1) = Read.val_main_call4_cst_1 (F := F) := by
    rw [← hW166]; after_results_simp
    unfold Read.val_main_call4_cst_1; refine (cast_eq _ _).trans ?_; rfl
  clear hW166 e165_main_call4_v5 e165_main_call4_v6 W165
  -- operation 166: TRef.binary main_call4_v6 main_call4_cst_1 → main_call4_v7
  apply after_step; intro W167 hW167
  have e167_main_call4_v5 : W167 (Proc.devRef .tc main_call4_v5) = Read.val_main_call4_v5 (F := F) x0 x1 x2 x3 x4 x5 x6 x7 x8 x9 := by rw [← hW167]; after_results_simp; exact e166_main_call4_v5
  have e167_main_call4_v7 : W167 (Proc.devRef .tc main_call4_v7) = Read.val_main_call4_v7 (F := F) x0 x1 x2 x3 x4 x5 x6 x7 x8 x9 := by
    rw [← hW167]; after_results_simp; simp only [e166_main_call4_v6, e166_main_call4_cst_1]
    unfold Read.val_main_call4_v7; generalize Read.val_main_call4_v6 (F := F) x0 x1 x2 x3 x4 x5 x6 x7 x8 x9 = A_main_call4_v6; generalize Read.val_main_call4_cst_1 (F := F) = A_main_call4_cst_1; refine (cast_eq _ _).trans ?_; rfl
  clear hW167 e166_main_call4_v5 e166_main_call4_v6 e166_main_call4_cst_1 W166
  -- operation 167: TRef.unary main_call4_v7 → main_call4_v8
  apply after_step; intro W168 hW168
  have e168_main_call4_v5 : W168 (Proc.devRef .tc main_call4_v5) = Read.val_main_call4_v5 (F := F) x0 x1 x2 x3 x4 x5 x6 x7 x8 x9 := by rw [← hW168]; after_results_simp; exact e167_main_call4_v5
  have e168_main_call4_v8 : W168 (Proc.devRef .tc main_call4_v8) = Read.val_main_call4_v8 (F := F) x0 x1 x2 x3 x4 x5 x6 x7 x8 x9 := by
    rw [← hW168]; after_results_simp; simp only [e167_main_call4_v7]
    unfold Read.val_main_call4_v8; generalize Read.val_main_call4_v7 (F := F) x0 x1 x2 x3 x4 x5 x6 x7 x8 x9 = A_main_call4_v7; refine (cast_eq _ _).trans ?_; rfl
  clear hW168 e167_main_call4_v5 e167_main_call4_v7 W167
  -- operation 168: TRef.unary main_call4_v8 → main_call4_v9
  apply after_step; intro W169 hW169
  have e169_main_call4_v5 : W169 (Proc.devRef .tc main_call4_v5) = Read.val_main_call4_v5 (F := F) x0 x1 x2 x3 x4 x5 x6 x7 x8 x9 := by rw [← hW169]; after_results_simp; exact e168_main_call4_v5
  have e169_main_call4_v9 : W169 (Proc.devRef .tc main_call4_v9) = Read.val_main_call4_v9 (F := F) x0 x1 x2 x3 x4 x5 x6 x7 x8 x9 := by
    rw [← hW169]; after_results_simp; simp only [e168_main_call4_v8]
    unfold Read.val_main_call4_v9; generalize Read.val_main_call4_v8 (F := F) x0 x1 x2 x3 x4 x5 x6 x7 x8 x9 = A_main_call4_v8; refine (cast_eq _ _).trans ?_; rfl
  clear hW169 e168_main_call4_v5 e168_main_call4_v8 W168
  -- operation 169: TRef.unary main_call4_v9 → main_call4_v10
  apply after_step; intro W170 hW170
  have e170_main_call4_v5 : W170 (Proc.devRef .tc main_call4_v5) = Read.val_main_call4_v5 (F := F) x0 x1 x2 x3 x4 x5 x6 x7 x8 x9 := by rw [← hW170]; after_results_simp; exact e169_main_call4_v5
  have e170_main_call4_v10 : W170 (Proc.devRef .tc main_call4_v10) = Read.val_main_call4_v10 (F := F) x0 x1 x2 x3 x4 x5 x6 x7 x8 x9 := by
    rw [← hW170]; after_results_simp; simp only [e169_main_call4_v9]
    unfold Read.val_main_call4_v10; generalize Read.val_main_call4_v9 (F := F) x0 x1 x2 x3 x4 x5 x6 x7 x8 x9 = A_main_call4_v9; refine (cast_eq _ _).trans ?_; rfl
  clear hW170 e169_main_call4_v5 e169_main_call4_v9 W169
  -- operation 170: TRef.binary main_call4_v5 main_call4_v10 → main_v129
  apply after_step; intro W171 hW171
  have e171_main_v129 : W171 (Proc.devRef .tc main_v129) = Read.val_main_v129 (F := F) x0 x1 x2 x3 x4 x5 x6 x7 x8 x9 := by
    rw [← hW171]; after_results_simp; simp only [e170_main_call4_v5, e170_main_call4_v10]
    unfold Read.val_main_v129; generalize Read.val_main_call4_v5 (F := F) x0 x1 x2 x3 x4 x5 x6 x7 x8 x9 = A_main_call4_v5; generalize Read.val_main_call4_v10 (F := F) x0 x1 x2 x3 x4 x5 x6 x7 x8 x9 = A_main_call4_v10; refine (cast_eq _ _).trans ?_; rfl
  clear hW171 e170_main_call4_v5 e170_main_call4_v10 W170
  exact e171_main_v129

end Cert.ReferenceIdeal.Value

end
-- ==== Proof.KRun.lean ====
/-
  The idealized kernel program's run with its result named.

  The program is five kernel launches among stretches of host operations.  Its generated frame follows the
  buffer contents through the ten segments as a fold W0, W1, …, W10 from the launch memory (a host stretch maps
  the contents through its operations; a launch replaces its arrays by what its write-backs leave) and then
  reads only the argument arrays out of the last contents.  Here the same run is read at one more buffer: the
  result array ends at the last contents W10 at its reference.  The proof is the generated frame's — the
  segments' run launched from the initial memory, the last thread state read against the final memory — with
  that one conjunct added.
-/
import proofs.«179555_j16097537425900_1_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result array at the last
    boundary's contents and the argument arrays as launched. -/
theorem run_named : θ_run defs (onTc (τ := τ) (main (F := F))) ⟨m, fun _ => 0, ρ⟩ (fun r => ∀ c : Dev nD,
      r.2.mem ((c.tc : Thread nD τ).loc main_v80) = W10 m ρ c (Proc.devRef .tc main_v80)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v80 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c),
       (h c _ (mem_uc main_arg9 (by decide))).trans (W10_main_arg9 m ρ c)⟩)

end Cert.KernelIdeal.Named

end
-- ==== Proof.Spec.lean ====
/-
  The network both programs compute, written once over the extended reals, entry by entry.

  A node's features are a row of 128 numbers.  The input projection of node r is x_r · Wpᵀ + bp; a hidden layer
  takes, for node r, the sum s_r of its in-neighbours' rows, scales it by the node's reciprocal in-degree,
  and returns relu(mean_r · Wlᵀ + bl + h_r · Wrᵀ) plus a fifth of the projected input; the output layer forms
  the same affine combination with 64 output columns and takes the logarithm of the softmax along the row,
  the row maximum subtracted first.  Every sum is a finite sum in the commutative monoid of the extended
  reals, so no order or grouping is recorded; the three literals are kept as the words both programs print.
-/
import Idealize.ShloMosaic.Lib.ValueIdx
import Idealize.ShloMosaic.PureOps.Ideal

noncomputable section

namespace Cert.Spec

open Idealize.ShloMosaic Idealize.ShloMosaic.ValueIdx

/-- A matrix of extended reals with literal extents. -/
abbrev Mat (a b : Nat) : Type := (⟨2, ![a, b]⟩ : Shape).Idx → EReal

/-- The zero both programs compare against in relu and start their sums from. -/
abbrev zero : EReal := Ideal.ofBits .f32 0x00000000#32
/-- The weight of the residual connection: the single-precision word nearest to one fifth, the same on both sides. -/
abbrev fifth : EReal := Ideal.ofBits .f32 0x3E4CCCCD#32
/-- The value a row maximum is started from. -/
abbrev negInf : EReal := Ideal.ofBits .f32 0xFF800000#32

/-- Entry (r, q) of x · wᵀ + b: the product of row r of x with row q of w, plus b_q. -/
def projAt (x : Mat 100000 128) (w : Mat 128 128) (b : Fin 128 → EReal) (r : Fin 100000) (q : Fin 128) : EReal :=
  (∑ k : Fin 128, x (ix2 r k) * w (ix2 q k)) + b q

/-- The projected input, as an array. -/
def proj (x : Mat 100000 128) (w : Mat 128 128) (b : Fin 128 → EReal) : Mat 100000 128 :=
  fun i => projAt x w b (i 0) (i 1)

/-- The first hidden state: relu of the projected input. -/
def projRelu (x : Mat 100000 128) (w : Mat 128 128) (b : Fin 128 → EReal) : Mat 100000 128 :=
  fun i => max (projAt x w b (i 0) (i 1)) zero

/-- Entry (r, q) of the affine part of a layer with C output columns: (s_r · d_r) · wlᵀ + bl + h_r · wrᵀ. -/
def affAt {C : Nat} (s h : Mat 100000 128) (d : Fin 100000 → EReal) (wl : Mat C 128) (bl : Fin C → EReal) (wr : Mat C 128)
    (r : Fin 100000) (q : Fin C) : EReal :=
  ((∑ k : Fin 128, (s (ix2 r k) * d r) * wl (ix2 q k)) + bl q) + ∑ k : Fin 128, h (ix2 r k) * wr (ix2 q k)

/-- Entry (r, q) of a hidden layer: relu of the affine part plus a fifth of the projected input. -/
def hiddenAt (s h inp : Mat 100000 128) (d : Fin 100000 → EReal) (wl : Mat 128 128) (bl : Fin 128 → EReal) (wr : Mat 128 128)
    (r : Fin 100000) (q : Fin 128) : EReal :=
  max (affAt s h d wl bl wr r q) zero + fifth * inp (ix2 r q)

/-- A hidden layer, as an array. -/
def hidden (s h inp : Mat 100000 128) (d : Fin 100000 → EReal) (wl : Mat 128 128) (bl : Fin 128 → EReal) (wr : Mat 128 128) :
    Mat 100000 128 :=
  fun i => hiddenAt s h inp d wl bl wr (i 0) (i 1)

/-- The logarithm of the softmax of a row of 64 logits at column q: the row maximum is subtracted, and from the
    shifted logit the logarithm of the sum of the exponentials of the shifted row is subtracted. -/
def logSoftmaxAt (l : Fin 64 → EReal) (q : Fin 64) : EReal :=
  (l q - (Finset.univ : Finset (Fin 64)).fold max negInf l)
    - Ideal.log (∑ k : Fin 64, Ideal.exp (l k - (Finset.univ : Finset (Fin 64)).fold max negInf l))

/-- Entry (r, q) of the output layer. -/
def outAt (s h : Mat 100000 128) (d : Fin 100000 → EReal) (wl : Mat 64 128) (bl : Fin 64 → EReal) (wr : Mat 64 128)
    (r : Fin 100000) (q : Fin 64) : EReal :=
  logSoftmaxAt (fun k => affAt s h d wl bl wr r k) q

/-- The output layer, as an array. -/
def out (s h : Mat 100000 128) (d : Fin 100000 → EReal) (wl : Mat 64 128) (bl : Fin 64 → EReal) (wr : Mat 64 128) :
    Mat 100000 64 :=
  fun i => outAt s h d wl bl wr (i 0) (i 1)

end Cert.Spec

end
-- ==== Proof.KPay.lean ====
/-
  The arithmetic of the five kernel bodies, read at one entry over the extended reals.

  Each body's stored value is a pure function of the blocks it loaded.  Read at entry (p, q) it is the formula
  the network prescribes: a product of a block with a transposed weight block is the finite sum over the
  128 shared columns of the entrywise products; a bias row is read at its column whatever the row; a column of
  reciprocal degrees is read at its row whatever the column; relu is the maximum with zero; the residual term is
  a fifth of the projected input; and the output body's row maximum, exponentials, row sum and logarithm are
  the logarithm of the softmax of the row of 64 logits.  The format changes are the identity on extended reals,
  and a cast to the same shape is the identity, so nothing else remains.
-/
import proofs.«179555_j16097537425900_1_alg».proof.Proof.Gen.KernelIdeal.Skeleton
import proofs.«179555_j16097537425900_1_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KPay

open Idealize.ShloMosaic Idealize.ShloMosaic.ValueIdx Cert.KernelIdeal Cert.KernelIdeal.Gen

/-! ## A product with a transposed weight block, at an entry -/

/-- The left operand's index keeps the output row. -/
theorem lhsA_0 (i : S4000x128.Idx) (c : dot_S4000x128_S128x128_S4000x128_1_1_0_0_n_n.contr.Idx) :
    (dot_S4000x128_S128x128_S4000x128_1_1_0_0_n_n.lhsIdx i c 0).val = (i 0).val := by
  unfold DotDims.lhsIdx
  rw [dif_neg (show ¬(0 : Fin S4000x128.rank) ∈ dot_S4000x128_S128x128_S4000x128_1_1_0_0_n_n.lhsBatch by decide),
    dif_pos (show (0 : Fin S4000x128.rank) ∈ dot_S4000x128_S128x128_S4000x128_1_1_0_0_n_n.lhsNonContracting by decide)]
  rfl
/-- Its column is the contraction coordinate. -/
theorem lhsA_1 (i : S4000x128.Idx) (c : dot_S4000x128_S128x128_S4000x128_1_1_0_0_n_n.contr.Idx) :
    (dot_S4000x128_S128x128_S4000x128_1_1_0_0_n_n.lhsIdx i c 1).val = (c ⟨0, by decide⟩).val :=
  dot_S4000x128_S128x128_S4000x128_1_1_0_0_n_n.lhsIdx_val_of_single rfl i c
/-- The right operand's row is the output column. -/
theorem rhsA_0 (i : S4000x128.Idx) (c : dot_S4000x128_S128x128_S4000x128_1_1_0_0_n_n.contr.Idx) :
    (dot_S4000x128_S128x128_S4000x128_1_1_0_0_n_n.rhsIdx i c 0).val = (i 1).val := by
  unfold DotDims.rhsIdx
  rw [dif_neg (show ¬(0 : Fin S128x128.rank) ∈ dot_S4000x128_S128x128_S4000x128_1_1_0_0_n_n.rhsBatch by decide),
    dif_pos (show (0 : Fin S128x128.rank) ∈ dot_S4000x128_S128x128_S4000x128_1_1_0_0_n_n.rhsNonContracting by decide)]
  rfl
/-- Its column is the contraction coordinate. -/
theorem rhsA_1 (i : S4000x128.Idx) (c : dot_S4000x128_S128x128_S4000x128_1_1_0_0_n_n.contr.Idx) :
    (dot_S4000x128_S128x128_S4000x128_1_1_0_0_n_n.rhsIdx i c 1).val = (c ⟨0, by decide⟩).val :=
  dot_S4000x128_S128x128_S4000x128_1_1_0_0_n_n.rhsIdx_val_of_single rfl i c

/-- A [4000,128] block times the transpose of a [128,128] block, into the zero block: entry (p, q) is the sum over
    the shared column k of a(p,k) · b(q,k). -/
theorem mmA {φ₁ φ₂ : FTy} (a : FVec Ideal S4000x128 φ₁) (b : FVec Ideal S128x128 φ₂) (p : Fin 4000) (q : Fin 128) :
    matmul dot_S4000x128_S128x128_S4000x128_1_1_0_0_n_n none a b (constant (F := Ideal) S4000x128 .f32 0x00000000#32) (ix2 p q)
      = ∑ k : Fin 128, a (ix2 p k) * b (ix2 q k) := by
  refine (Ideal.matmul_constant_zero_apply dot_S4000x128_S128x128_S4000x128_1_1_0_0_n_n none a b (ix2 p q)).trans ?_
  rw [← Equiv.sum_comp (contrEquiv1 dot_S4000x128_S128x128_S4000x128_1_1_0_0_n_n 128 rfl rfl).symm]
  refine Finset.sum_congr rfl fun k _ => ?_
  have hk := contrEquiv1_symm_val dot_S4000x128_S128x128_S4000x128_1_1_0_0_n_n 128 rfl rfl k
  have el : dot_S4000x128_S128x128_S4000x128_1_1_0_0_n_n.lhsIdx (ix2 p q)
      ((contrEquiv1 dot_S4000x128_S128x128_S4000x128_1_1_0_0_n_n 128 rfl rfl).symm k) = ix2 p k :=
    funext fun x => Fin.ext (by
      match x with
      | ⟨0, _⟩ => exact lhsA_0 _ _
      | ⟨1, _⟩ => exact (lhsA_1 _ _).trans hk)
  have er : dot_S4000x128_S128x128_S4000x128_1_1_0_0_n_n.rhsIdx (ix2 p q)
      ((contrEquiv1 dot_S4000x128_S128x128_S4000x128_1_1_0_0_n_n 128 rfl rfl).symm k) = ix2 q k :=
    funext fun x => Fin.ext (by
      match x with
      | ⟨0, _⟩ => exact rhsA_0 _ _
      | ⟨1, _⟩ => exact (rhsA_1 _ _).trans hk)
  rw [el, er]

/-- The same four facts for the output layer's record, whose weight blocks have 64 rows. -/
theorem lhsB_0 (i : S4000x64.Idx) (c : dot_S4000x128_S64x128_S4000x64_1_1_0_0_n_n.contr.Idx) :
    (dot_S4000x128_S64x128_S4000x64_1_1_0_0_n_n.lhsIdx i c 0).val = (i 0).val := by
  unfold DotDims.lhsIdx
  rw [dif_neg (show ¬(0 : Fin S4000x128.rank) ∈ dot_S4000x128_S64x128_S4000x64_1_1_0_0_n_n.lhsBatch by decide),
    dif_pos (show (0 : Fin S4000x128.rank) ∈ dot_S4000x128_S64x128_S4000x64_1_1_0_0_n_n.lhsNonContracting by decide)]
  rfl
theorem lhsB_1 (i : S4000x64.Idx) (c : dot_S4000x128_S64x128_S4000x64_1_1_0_0_n_n.contr.Idx) :
    (dot_S4000x128_S64x128_S4000x64_1_1_0_0_n_n.lhsIdx i c 1).val = (c ⟨0, by decide⟩).val :=
  dot_S4000x128_S64x128_S4000x64_1_1_0_0_n_n.lhsIdx_val_of_single rfl i c
theorem rhsB_0 (i : S4000x64.Idx) (c : dot_S4000x128_S64x128_S4000x64_1_1_0_0_n_n.contr.Idx) :
    (dot_S4000x128_S64x128_S4000x64_1_1_0_0_n_n.rhsIdx i c 0).val = (i 1).val := by
  unfold DotDims.rhsIdx
  rw [dif_neg (show ¬(0 : Fin S64x128.rank) ∈ dot_S4000x128_S64x128_S4000x64_1_1_0_0_n_n.rhsBatch by decide),
    dif_pos (show (0 : Fin S64x128.rank) ∈ dot_S4000x128_S64x128_S4000x64_1_1_0_0_n_n.rhsNonContracting by decide)]
  rfl
theorem rhsB_1 (i : S4000x64.Idx) (c : dot_S4000x128_S64x128_S4000x64_1_1_0_0_n_n.contr.Idx) :
    (dot_S4000x128_S64x128_S4000x64_1_1_0_0_n_n.rhsIdx i c 1).val = (c ⟨0, by decide⟩).val :=
  dot_S4000x128_S64x128_S4000x64_1_1_0_0_n_n.rhsIdx_val_of_single rfl i c

/-- A [4000,128] block times the transpose of a [64,128] block, into the zero block: entry (p, q) is the sum over
    the shared column k of a(p,k) · b(q,k). -/
theorem mmB {φ₁ φ₂ : FTy} (a : FVec Ideal S4000x128 φ₁) (b : FVec Ideal S64x128 φ₂) (p : Fin 4000) (q : Fin 64) :
    matmul dot_S4000x128_S64x128_S4000x64_1_1_0_0_n_n none a b (constant (F := Ideal) S4000x64 .f32 0x00000000#32) (ix2 p q)
      = ∑ k : Fin 128, a (ix2 p k) * b (ix2 q k) := by
  refine (Ideal.matmul_constant_zero_apply dot_S4000x128_S64x128_S4000x64_1_1_0_0_n_n none a b (ix2 p q)).trans ?_
  rw [← Equiv.sum_comp (contrEquiv1 dot_S4000x128_S64x128_S4000x64_1_1_0_0_n_n 128 rfl rfl).symm]
  refine Finset.sum_congr rfl fun k _ => ?_
  have hk := contrEquiv1_symm_val dot_S4000x128_S64x128_S4000x64_1_1_0_0_n_n 128 rfl rfl k
  have el : dot_S4000x128_S64x128_S4000x64_1_1_0_0_n_n.lhsIdx (ix2 p q)
      ((contrEquiv1 dot_S4000x128_S64x128_S4000x64_1_1_0_0_n_n 128 rfl rfl).symm k) = ix2 p k :=
    funext fun x => Fin.ext (by
      match x with
      | ⟨0, _⟩ => exact lhsB_0 _ _
      | ⟨1, _⟩ => exact (lhsB_1 _ _).trans hk)
  have er : dot_S4000x128_S64x128_S4000x64_1_1_0_0_n_n.rhsIdx (ix2 p q)
      ((contrEquiv1 dot_S4000x128_S64x128_S4000x64_1_1_0_0_n_n 128 rfl rfl).symm k) = ix2 q k :=
    funext fun x => Fin.ext (by
      match x with
      | ⟨0, _⟩ => exact rhsB_0 _ _
      | ⟨1, _⟩ => exact (rhsB_1 _ _).trans hk)
  rw [el, er]

/-! ## A column spread over the columns, and a vector read as a column -/

/-- An [a, 1] array broadcast to [a, b] reads, at (p, c), the operand's one column at row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An [a] array cast to [a, 1] reads, at (i, u), the operand at i. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-! ## The input projection's body -/

theorem pay0_1 (v0 : Vec Ideal S4000x128 .f32) (v2 : Vec Ideal S128x128 .f32) (v5 : Vec Ideal S1x128 .f32)
    (p : Fin 4000) (q : Fin 128) :
    k0_pay1 (F := Ideal) v0 v2 v5 (ix2 p q) = (∑ k : Fin 128, v0 (ix2 p k) * v2 (ix2 q k)) + v5 (ix2 0 q) := by
  unfold k0_pay1
  simp only [shapeCast_self, addf_apply]
  exact congrArg₂ (· + ·) (mmA _ _ p q) (broadcastTo_1b_ab_apply v5 _ p q)

theorem pay0_2 (v0 : Vec Ideal S4000x128 .f32) (v2 : Vec Ideal S128x128 .f32) (v5 : Vec Ideal S1x128 .f32)
    (p : Fin 4000) (q : Fin 128) :
    k0_pay2 (F := Ideal) v0 v2 v5 (ix2 p q)
      = max ((∑ k : Fin 128, v0 (ix2 p k) * v2 (ix2 q k)) + v5 (ix2 0 q)) Cert.Spec.zero := by
  unfold k0_pay2
  simp only [maximumf_apply, broadcast_apply]
  exact congrArg₂ max (pay0_1 v0 v2 v5 p q) rfl

/-! ## A hidden layer's body -/

theorem pay1 (v0 : Vec Ideal S4000x128 .f32) (v2 : Vec Ideal S4000x1 .f32) (v7 : Vec Ideal S4000x128 .f32)
    (v10 v13 : Vec Ideal S128x128 .f32) (v18 : Vec Ideal S1x128 .f32) (v25 : Vec Ideal S4000x128 .f32)
    (p : Fin 4000) (q : Fin 128) :
    k1_pay1 (F := Ideal) v0 v2 v7 v10 v13 v18 v25 (ix2 p q)
      = max ((((∑ k : Fin 128, (v0 (ix2 p k) * v2 (ix2 p 0)) * v10 (ix2 q k)) + v18 (ix2 0 q))
          + ∑ k : Fin 128, v7 (ix2 p k) * v13 (ix2 q k))) Cert.Spec.zero + Cert.Spec.fifth * v25 (ix2 p q) := by
  unfold k1_pay1
  simp only [shapeCast_self, addf_apply, maximumf_apply, mulf_apply, broadcast_apply]
  refine congrArg₂ (· + ·) (congrArg₂ max (congrArg₂ (· + ·) (congrArg₂ (· + ·) ?_
    (broadcastTo_1b_ab_apply v18 _ p q)) (mmA _ _ p q)) rfl) rfl
  refine (mmA _ _ p q).trans (Finset.sum_congr rfl fun k _ => ?_)
  exact congrArg (· * v10 (ix2 q k)) (congrArg (v0 (ix2 p k) * ·) (broadcastTo_a1_ab_apply v2 _ p k))

/-- The second and third hidden layers' bodies are the first's, word for word. -/
theorem pay2_eq : @k2_pay1 Ideal _ = @k1_pay1 Ideal _ := rfl
theorem pay3_eq : @k3_pay1 Ideal _ = @k1_pay1 Ideal _ := rfl

/-! ## The output layer's body: the logits, then the logarithm of the softmax along the row -/

/-- The block of logits the output body forms before its row reductions. -/
def logits (v0 : Vec Ideal S4000x128 .f32) (v2 : Vec Ideal S4000x1 .f32) (v7 : Vec Ideal S4000x128 .f32)
    (v10 v12 : Vec Ideal S64x128 .f32) (v16 : Vec Ideal S1x64 .f32) : FVec Ideal S4000x64 .f32 :=
  addf (addf
    (matmul dot_S4000x128_S64x128_S4000x64_1_1_0_0_n_n none
      (truncf .bf16 (mulf (shapeCast S4000x128 v0 shapeCasts_S4000x128_S4000x128)
        (broadcastTo S4000x128 (shapeCast S4000x1 v2 shapeCasts_S4000x1_S4000x1) broadcasts_S4000x1_S4000x128)) bitsLt_bf16_f32)
      (truncf .bf16 v10 bitsLt_bf16_f32) (constant S4000x64 .f32 0x00000000#32))
    (broadcastTo S4000x64 (shapeCast S1x64 v16 shapeCasts_S1x64_S1x64) broadcasts_S1x64_S4000x64))
    (matmul dot_S4000x128_S64x128_S4000x64_1_1_0_0_n_n none
      (truncf .bf16 (shapeCast S4000x128 v7 shapeCasts_S4000x128_S4000x128) bitsLt_bf16_f32)
      (truncf .bf16 v12 bitsLt_bf16_f32) (constant S4000x64 .f32 0x00000000#32))

/-- A block's row maxima, spread back over the 64 columns. -/
def rowMaxB (L : FVec Ideal S4000x64 .f32) : FVec Ideal S4000x64 .f32 :=
  broadcastTo S4000x64 (shapeCast S4000x1
    (multiReduction .maximumf [1] S4000 L 0xFF800000#32 reduces_S4000x64_S4000 (.inl rfl) rfl)
    shapeCasts_S4000_S4000x1) broadcasts_S4000x1_S4000x64

/-- The rest of the output body over a block of logits: subtract the row maximum, then the logarithm of the row sum
    of the exponentials. -/
def lsm (L : FVec Ideal S4000x64 .f32) : FVec Ideal S4000x64 .f32 :=
  subf (subf L (rowMaxB L))
    (broadcastTo S4000x64 (log (shapeCast S4000x1
      (multiReduction .add [1] S4000 (exp (subf L (rowMaxB L))) 0x00000000#32 reduces_S4000x64_S4000 (.inl rfl) rfl)
      shapeCasts_S4000_S4000x1)) broadcasts_S4000x1_S4000x64)

/-- The output body is that tail applied to the logits. -/
theorem k4_split (v0 : Vec Ideal S4000x128 .f32) (v2 : Vec Ideal S4000x1 .f32) (v7 : Vec Ideal S4000x128 .f32)
    (v10 v12 : Vec Ideal S64x128 .f32) (v16 : Vec Ideal S1x64 .f32) :
    k4_pay1 (F := Ideal) v0 v2 v7 v10 v12 v16 = lsm (logits v0 v2 v7 v10 v12 v16) := rfl

/-- A logit: the affine combination with 64 output columns. -/
theorem logits_apply (v0 : Vec Ideal S4000x128 .f32) (v2 : Vec Ideal S4000x1 .f32) (v7 : Vec Ideal S4000x128 .f32)
    (v10 v12 : Vec Ideal S64x128 .f32) (v16 : Vec Ideal S1x64 .f32) (p : Fin 4000) (c : Fin 64) :
    logits v0 v2 v7 v10 v12 v16 (ix2 p c)
      = ((∑ k : Fin 128, (v0 (ix2 p k) * v2 (ix2 p 0)) * v10 (ix2 c k)) + v16 (ix2 0 c))
          + ∑ k : Fin 128, v7 (ix2 p k) * v12 (ix2 c k) := by
  unfold logits
  simp only [shapeCast_self, addf_apply]
  refine congrArg₂ (· + ·) (congrArg₂ (· + ·) ?_ (broadcastTo_1b_ab_apply v16 _ p c)) (mmB _ _ p c)
  refine (mmB _ _ p c).trans (Finset.sum_congr rfl fun k _ => ?_)
  exact congrArg (· * v10 (ix2 c k)) (congrArg (v0 (ix2 p k) * ·) (broadcastTo_a1_ab_apply v2 _ p k))

/-- The index over row p with lane c put back is (p, c). -/
theorem lift_row (p : Fin 4000) (c : Fin 64) : reduces_S4000x64_S4000.lift (ix1 p) c = ix2 p c := by
  funext x
  refine Fin.ext ?_
  match x with
  | ⟨0, _⟩ => rfl
  | ⟨1, _⟩ => rfl

/-- A row's lane maximum from minus infinity. -/
theorem rowMax_apply (L : FVec Ideal S4000x64 .f32) (hφ : FKind.Formats .f32)
    (hacc : (0xFF800000#32 : BitVec 32) = FKind.maximumf.neutral .f32 hφ) (p : Fin 4000) :
    multiReduction .maximumf [1] S4000 L 0xFF800000#32 reduces_S4000x64_S4000 hφ hacc (ix1 p)
      = (Finset.univ : Finset (Fin 64)).fold max Cert.Spec.negInf (fun c => L (ix2 p c)) := by
  refine (Ideal.multiReduction_maximumf_single L 0xFF800000#32 reduces_S4000x64_S4000 hφ hacc (ix1 p)).trans ?_
  show (Finset.univ : Finset (Fin 64)).fold max (Ideal.ofBits .f32 0xFF800000#32)
    (fun c : Fin 64 => L (reduces_S4000x64_S4000.lift (ix1 p) c)) = _
  exact congrArg (fun f => (Finset.univ : Finset (Fin 64)).fold max Cert.Spec.negInf f)
    (funext fun c => congrArg L (lift_row p c))

/-- A row's lane sum. -/
theorem rowSum_apply (E : FVec Ideal S4000x64 .f32) (hφ : FKind.Formats .f32)
    (hacc : (0x00000000#32 : BitVec 32) = FKind.add.neutral .f32 hφ) (p : Fin 4000) :
    multiReduction .add [1] S4000 E 0x00000000#32 reduces_S4000x64_S4000 hφ hacc (ix1 p) = ∑ c : Fin 64, E (ix2 p c) := by
  refine (Ideal.multiReduction_add_single E 0x00000000#32 reduces_S4000x64_S4000 hφ hacc (ix1 p)).trans ?_
  show ∑ c : Fin 64, E (reduces_S4000x64_S4000.lift (ix1 p) c) = _
  exact Finset.sum_congr rfl fun c _ => congrArg E (lift_row p c)

/-- The spread row maximum at (p, q) is row p's maximum. -/
theorem rowMaxB_apply (L : FVec Ideal S4000x64 .f32) (p : Fin 4000) (q : Fin 64) :
    rowMaxB L (ix2 p q) = (Finset.univ : Finset (Fin 64)).fold max Cert.Spec.negInf (fun c => L (ix2 p c)) := by
  unfold rowMaxB
  exact (broadcastTo_a1_ab_apply _ _ p q).trans ((shapeCast_a_a1_apply _ _ p 0).trans (rowMax_apply L _ _ p))

/-- The tail at (p, q) is the logarithm of the softmax of row p at column q. -/
theorem lsm_apply (L : FVec Ideal S4000x64 .f32) (p : Fin 4000) (q : Fin 64) :
    lsm L (ix2 p q) = Cert.Spec.logSoftmaxAt (fun c => L (ix2 p c)) q := by
  unfold lsm Cert.Spec.logSoftmaxAt
  simp only [subf_apply]
  refine congrArg₂ (· - ·) (congrArg (L (ix2 p q) - ·) (rowMaxB_apply L p q)) ?_
  refine (broadcastTo_a1_ab_apply _ _ p q).trans ?_
  show Ideal.log (shapeCast S4000x1 _ shapeCasts_S4000_S4000x1 (ix2 p 0)) = _
  refine congrArg Ideal.log ((shapeCast_a_a1_apply _ _ p 0).trans ((rowSum_apply _ _ _ p).trans
    (Finset.sum_congr rfl fun c _ => ?_)))
  show Ideal.exp (L (ix2 p c) - rowMaxB L (ix2 p c)) = _
  exact congrArg Ideal.exp (congrArg (L (ix2 p c) - ·) (rowMaxB_apply L p c))

theorem pay4 (v0 : Vec Ideal S4000x128 .f32) (v2 : Vec Ideal S4000x1 .f32) (v7 : Vec Ideal S4000x128 .f32)
    (v10 v12 : Vec Ideal S64x128 .f32) (v16 : Vec Ideal S1x64 .f32) (p : Fin 4000) (q : Fin 64) :
    k4_pay1 (F := Ideal) v0 v2 v7 v10 v12 v16 (ix2 p q)
      = Cert.Spec.logSoftmaxAt (fun c : Fin 64 =>
          (((∑ k : Fin 128, (v0 (ix2 p k) * v2 (ix2 p 0)) * v10 (ix2 c k)) + v16 (ix2 0 c))
            + ∑ k : Fin 128, v7 (ix2 p k) * v12 (ix2 c k))) q := by
  rw [k4_split, lsm_apply]
  exact congrArg (fun l => Cert.Spec.logSoftmaxAt l q) (funext fun c => logits_apply v0 v2 v7 v10 v12 v16 p c)

end Cert.KPay

end
-- ==== Proof.Reg0.lean ====
/-
  The first launch: the projection of the node features, row block by row block.

  Its grid has 25 points; point t works on rows 4000·t … 4000·t + 3999 of the feature array x and holds the whole
  weight matrix and the bias row.  It writes two arrays: the projected input x · Wpᵀ + bp and its relu.  Block t
  of either output is the corresponding block of one whole-array function of the arrays the launch finds, and the
  25 blocks cover every row, so after the launch each output array IS that function.
-/
import proofs.«179555_j16097537425900_1_alg».proof.Proof.Gen.KernelIdeal.Frame
import proofs.«179555_j16097537425900_1_alg».proof.Proof.KPay
import proofs.«179555_j16097537425900_1_alg».proof.Proof.Spec
import Idealize.ShloMosaic.Lib.Pipeline.Value

set_option maxRecDepth 16384

noncomputable section

namespace Cert.KernelIdeal.Reg0

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the feature window and both output windows sit at block row t, the weight and
    bias windows at the origin. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- Row p of the feature block at point t is row 4000·t + p of the feature array. -/
theorem blk_x (c : Dev nD) (t : Fin cfg0.N) (p : Fin 4000) (k : Fin 128) (r : Fin 100000) (hr : r.val = t.val * 4000 + p.val) :
    iblk0 V c 0 t (ix2 p k) = V c main_arg0 (ix2 r k) := by
  obtain ⟨e0, e1, -⟩ := idx_facts t
  show V c main_arg0 (((cfg0.win 0).blk t).view.emb (ix2 p k)) = _
  refine congrArg (V c main_arg0) (funext fun a => Fin.ext ?_)
  match a with
  | ⟨0, _⟩ => show win0_0.index t (0 : Fin 2) * 4000 + 1 * p.val = r.val; omega
  | ⟨1, _⟩ => show win0_0.index t (1 : Fin 2) * 128 + 1 * k.val = k.val; omega

/-- The weight block at any point is the whole weight matrix. -/
theorem blk_w (c : Dev nD) (t : Fin cfg0.N) (q : Fin 128) (k : Fin 128) :
    iblk0 V c 1 t (ix2 q k) = V c main_arg2 (ix2 q k) := by
  obtain ⟨-, -, e0, e1, -⟩ := idx_facts t
  show V c main_arg2 (((cfg0.win 1).blk t).view.emb (ix2 q k)) = _
  refine congrArg (V c main_arg2) (funext fun a => Fin.ext ?_)
  match a with
  | ⟨0, _⟩ => show win0_1.index t (0 : Fin 2) * 128 + 1 * q.val = q.val; omega
  | ⟨1, _⟩ => show win0_1.index t (1 : Fin 2) * 128 + 1 * k.val = k.val; omega

/-- The bias block at any point is the whole bias row. -/
theorem blk_b (c : Dev nD) (t : Fin cfg0.N) (q : Fin 128) :
    iblk0 V c 2 t (ix2 0 q) = V c main_v13 (ix2 0 q) := by
  obtain ⟨-, -, -, -, e0, e1, -⟩ := idx_facts t
  show V c main_v13 (((cfg0.win 2).blk t).view.emb (ix2 0 q)) = _
  refine congrArg (V c main_v13) (funext fun a => Fin.ext ?_)
  match a with
  | ⟨0, _⟩ => show win0_2.index t (0 : Fin 2) * 1 + 1 * 0 = 0; omega
  | ⟨1, _⟩ => show win0_2.index t (1 : Fin 2) * 128 + 1 * q.val = q.val; omega

/-- The projected input as a function of the arrays the launch finds. -/
abbrev G3 (c : Dev nD) : Cert.Spec.Mat 100000 128 :=
  Cert.Spec.proj (V c main_arg0) (V c main_arg2) (fun q => V c main_v13 (ix2 0 q))

/-- Its relu. -/
abbrev G4 (c : Dev nD) : Cert.Spec.Mat 100000 128 :=
  Cert.Spec.projRelu (V c main_arg0) (V c main_arg2) (fun q => V c main_v13 (ix2 0 q))

/-- The first body's result at (p, q) of block t is the projected input at (4000·t + p, q): the body's sum runs over
    the same row of the feature array and the same row of the weight matrix. -/
theorem pay_blk3 (c : Dev nD) (t : Fin cfg0.N) (p : Fin 4000) (q : Fin 128) (r : Fin 100000) (hr : r.val = t.val * 4000 + p.val) :
    k0_pay1 (F := Ideal) (iblk0 V c 0 t) (iblk0 V c 1 t) (iblk0 V c 2 t) (ix2 p q) = G3 V c (ix2 r q) := by
  refine (Cert.KPay.pay0_1 _ _ _ p q).trans ?_
  show _ = Cert.Spec.projAt (V c main_arg0) (V c main_arg2) (fun q => V c main_v13 (ix2 0 q)) r q
  unfold Cert.Spec.projAt
  simp only [fun k => blk_x V c t p k r hr, blk_w V c t, blk_b V c t]

/-- The second body's result is its relu. -/
theorem pay_blk4 (c : Dev nD) (t : Fin cfg0.N) (p : Fin 4000) (q : Fin 128) (r : Fin 100000) (hr : r.val = t.val * 4000 + p.val) :
    k0_pay2 (F := Ideal) (iblk0 V c 0 t) (iblk0 V c 1 t) (iblk0 V c 2 t) (ix2 p q) = G4 V c (ix2 r q) := by
  refine (Cert.KPay.pay0_2 _ _ _ p q).trans ?_
  show _ = max (Cert.Spec.projAt (V c main_arg0) (V c main_arg2) (fun q => V c main_v13 (ix2 0 q)) r q) Cert.Spec.zero
  unfold Cert.Spec.projAt
  simp only [fun k => blk_x V c t p k r hr, blk_w V c t, blk_b V c t]

/-- An entry of output block t sits in row 4000·t + p of the output array. -/
theorem emb3 (t : Fin cfg0.N) (p : Fin 4000) (q : Fin 128) (r : Fin 100000) (hr : r.val = t.val * 4000 + p.val) :
    ((cfg0.win 3).blk t).view.emb (ix2 p q) = ix2 r q := by
  obtain ⟨-, -, -, -, -, -, e0, e1, -⟩ := idx_facts t
  refine funext fun a => Fin.ext ?_
  match a with
  | ⟨0, _⟩ => show win0_3.index t (0 : Fin 2) * 4000 + 1 * p.val = r.val; omega
  | ⟨1, _⟩ => show win0_3.index t (1 : Fin 2) * 128 + 1 * q.val = q.val; omega

theorem emb4 (t : Fin cfg0.N) (p : Fin 4000) (q : Fin 128) (r : Fin 100000) (hr : r.val = t.val * 4000 + p.val) :
    ((cfg0.win 4).blk t).view.emb (ix2 p q) = ix2 r q := by
  obtain ⟨-, -, -, -, -, -, -, -, e0, e1⟩ := idx_facts t
  refine funext fun a => Fin.ext ?_
  match a with
  | ⟨0, _⟩ => show win0_4.index t (0 : Fin 2) * 4000 + 1 * p.val = r.val; omega
  | ⟨1, _⟩ => show win0_4.index t (1 : Fin 2) * 128 + 1 * q.val = q.val; omega

theorem row_lt (t : Fin cfg0.N) (p : Fin 4000) : t.val * 4000 + p.val < 100000 := by
  have ht := t.isLt
  have hN : cfg0.N = 25 := N_0
  have hp := p.isLt
  omega

/-- What point t writes back into the projected input is block t of `G3`. -/
theorem flushed3 (c : Dev nD) (t : Fin cfg0.N) :
    (dat0 V c).flushed 3 t = ((cfg0.win 3).blk t).view.read (Elt Ideal) (G3 V c) := by
  show (cfg0.win 3).cut (grid0.coords t) ((dat0 V c).after 3 t) = _
  rw [after0_3]
  unfold out0_3
  rw [View.canon_unit_zero hz]
  simp only [View.ld_unit_zero (S := S4000x128) hz, View.ld_unit_zero (S := S128x128) hz, View.ld_unit_zero (S := S1x128) hz]
  funext y
  obtain ⟨p, q, rfl⟩ : ∃ (p : Fin 4000) (q : Fin 128), y = ix2 p q := ⟨y 0, y 1, eq_ix2 y⟩
  show k0_pay1 (F := Ideal) (iblk0 V c 0 t) (iblk0 V c 1 t) (iblk0 V c 2 t) (ix2 p q) = G3 V c (((cfg0.win 3).blk t).view.emb (ix2 p q))
  rw [emb3 t p q ⟨t.val * 4000 + p.val, row_lt t p⟩ rfl]
  exact pay_blk3 V c t p q ⟨t.val * 4000 + p.val, row_lt t p⟩ rfl

/-- What point t writes back into the first hidden state is block t of `G4`. -/
theorem flushed4 (c : Dev nD) (t : Fin cfg0.N) :
    (dat0 V c).flushed 4 t = ((cfg0.win 4).blk t).view.read (Elt Ideal) (G4 V c) := by
  show (cfg0.win 4).cut (grid0.coords t) ((dat0 V c).after 4 t) = _
  rw [after0_4]
  unfold out0_4
  rw [View.canon_unit_zero hz]
  simp only [View.ld_unit_zero (S := S4000x128) hz, View.ld_unit_zero (S := S128x128) hz, View.ld_unit_zero (S := S1x128) hz]
  funext y
  obtain ⟨p, q, rfl⟩ : ∃ (p : Fin 4000) (q : Fin 128), y = ix2 p q := ⟨y 0, y 1, eq_ix2 y⟩
  show k0_pay2 (F := Ideal) (iblk0 V c 0 t) (iblk0 V c 1 t) (iblk0 V c 2 t) (ix2 p q) = G4 V c (((cfg0.win 4).blk t).view.emb (ix2 p q))
  rw [emb4 t p q ⟨t.val * 4000 + p.val, row_lt t p⟩ rfl]
  exact pay_blk4 V c t p q ⟨t.val * 4000 + p.val, row_lt t p⟩ rfl

/-- An index of an output array is in point t's block iff its row is among the block's rows. -/
theorem mem_blk3 (t : Fin cfg0.N) (i : S100000x128.Idx) :
    i ∈ ((cfg0.win 3).blk t).view.set ↔ ∀ a : Fin 2, win0_3.index t a * S4000x128.size a ≤ (i a).val ∧ (i a).val < win0_3.index t a * S4000x128.size a + S4000x128.size a := by
  show i ∈ ((View.whole main_v14_0).slice (win0_3.rect t)).set ↔ _
  rw [View.set_slice_whole, Rect.mem_set_unit]
  exact Iff.rfl

theorem mem_blk4 (t : Fin cfg0.N) (i : S100000x128.Idx) :
    i ∈ ((cfg0.win 4).blk t).view.set ↔ ∀ a : Fin 2, win0_4.index t a * S4000x128.size a ≤ (i a).val ∧ (i a).val < win0_4.index t a * S4000x128.size a + S4000x128.size a := by
  show i ∈ ((View.whole main_v14_1).slice (win0_4.rect t)).set ↔ _
  rw [View.set_slice_whole, Rect.mem_set_unit]
  exact Iff.rfl

/-- Row r lies in the block of point r / 4000. -/
theorem cover3 (i : S100000x128.Idx) : ∃ t : Fin cfg0.N, (cfg0.win 3).flush t = true ∧ i ∈ ((cfg0.win 3).blk t).view.set := by
  have hi0 : (i 0).val < 100000 := (i 0).isLt
  have hi1 : (i 1).val < 128 := (i 1).isLt
  have hN : cfg0.N = 25 := N_0
  refine ⟨⟨(i 0).val / 4000, by rw [hN]; omega⟩, flush0_3 _, ?_⟩
  rw [mem_blk3]
  obtain ⟨-, -, -, -, -, -, e0, e1, -⟩ := idx_facts ⟨(i 0).val / 4000, by rw [hN]; omega⟩
  intro a
  match a with
  | ⟨0, _⟩ => show win0_3.index _ (0 : Fin 2) * 4000 ≤ (i 0).val ∧ (i 0).val < win0_3.index _ (0 : Fin 2) * 4000 + 4000; rw [e0]; show (i 0).val / 4000 * 4000 ≤ (i 0).val ∧ (i 0).val < (i 0).val / 4000 * 4000 + 4000; omega
  | ⟨1, _⟩ => show win0_3.index _ (1 : Fin 2) * 128 ≤ (i 1).val ∧ (i 1).val < win0_3.index _ (1 : Fin 2) * 128 + 128; rw [e1]; omega

theorem cover4 (i : S100000x128.Idx) : ∃ t : Fin cfg0.N, (cfg0.win 4).flush t = true ∧ i ∈ ((cfg0.win 4).blk t).view.set := by
  have hi0 : (i 0).val < 100000 := (i 0).isLt
  have hi1 : (i 1).val < 128 := (i 1).isLt
  have hN : cfg0.N = 25 := N_0
  refine ⟨⟨(i 0).val / 4000, by rw [hN]; omega⟩, flush0_4 _, ?_⟩
  rw [mem_blk4]
  obtain ⟨-, -, -, -, -, -, -, -, e0, e1⟩ := idx_facts ⟨(i 0).val / 4000, by rw [hN]; omega⟩
  intro a
  match a with
  | ⟨0, _⟩ => show win0_4.index _ (0 : Fin 2) * 4000 ≤ (i 0).val ∧ (i 0).val < win0_4.index _ (0 : Fin 2) * 4000 + 4000; rw [e0]; show (i 0).val / 4000 * 4000 ≤ (i 0).val ∧ (i 0).val < (i 0).val / 4000 * 4000 + 4000; omega
  | ⟨1, _⟩ => show win0_4.index _ (1 : Fin 2) * 128 ≤ (i 1).val ∧ (i 1).val < win0_4.index _ (1 : Fin 2) * 128 + 128; rw [e1]; omega

/-- After the launch the projected-input array is `G3` of the arrays the launch found. -/
theorem final3 (c : Dev nD) : (dat0 V c).arrAt 3 cfg0.N = G3 V c :=
  (dat0 V c).arrAt_eq_of_cover 3 (G3 V c) (fun t _ => flushed3 V c t) cover3

/-- After the launch the first hidden state is `G4` of the arrays the launch found. -/
theorem final4 (c : Dev nD) : (dat0 V c).arrAt 4 cfg0.N = G4 V c :=
  (dat0 V c).arrAt_eq_of_cover 4 (G4 V c) (fun t _ => flushed4 V c t) cover4

end Cert.KernelIdeal.Reg0

end
-- ==== Proof.Reg1.lean ====
/-
  Hidden layer 1: relu of (mean of the in-neighbours) · Wlᵀ + bl + h · Wrᵀ, plus a fifth of the projected input,
  row block by row block.

  The grid has 25 points; point t works on rows 4000·t … 4000·t + 3999 of the neighbour sums, of the previous
  hidden state, of the projected input and of the reciprocal degrees, and holds both weight matrices and the bias
  row whole.  Block t of the output is the corresponding block of one whole-array function of the arrays the
  launch finds, and the 25 blocks cover every row, so after the launch the output array IS that function.
-/
import proofs.«179555_j16097537425900_1_alg».proof.Proof.Gen.KernelIdeal.Frame
import proofs.«179555_j16097537425900_1_alg».proof.Proof.KPay
import proofs.«179555_j16097537425900_1_alg».proof.Proof.Spec
import Idealize.ShloMosaic.Lib.Pipeline.Value

set_option maxRecDepth 16384

noncomputable section

namespace Cert.KernelIdeal.Reg1

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: a row-blocked window sits at block row t, a whole-array window at the origin. -/
theorem idx_facts : ∀ t : Fin cfg1.N, win1_0.index t (0 : Fin 2) = t.val
    ∧ win1_0.index t (1 : Fin 2) = 0
    ∧ win1_1.index t (0 : Fin 2) = t.val
    ∧ win1_1.index t (1 : Fin 2) = 0
    ∧ win1_2.index t (0 : Fin 2) = t.val
    ∧ win1_2.index t (1 : Fin 2) = 0
    ∧ win1_3.index t (0 : Fin 2) = t.val
    ∧ win1_3.index t (1 : Fin 2) = 0
    ∧ win1_4.index t (0 : Fin 2) = 0
    ∧ win1_4.index t (1 : Fin 2) = 0
    ∧ win1_5.index t (0 : Fin 2) = 0
    ∧ win1_5.index t (1 : Fin 2) = 0
    ∧ win1_6.index t (0 : Fin 2) = 0
    ∧ win1_6.index t (1 : Fin 2) = 0
    ∧ win1_7.index t (0 : Fin 2) = t.val
    ∧ win1_7.index t (1 : Fin 2) = 0 :=
  (by decide +kernel : ∀ t : Fin grid1.N, _)

theorem row_lt (t : Fin cfg1.N) (p : Fin 4000) : t.val * 4000 + p.val < 100000 := by
  have ht := t.isLt
  have hN : cfg1.N = 25 := N_1
  have hp := p.isLt
  omega

/-- Row p of window 0's block at point t is row 4000·t + p of its array. -/
theorem blk0 (c : Dev nD) (t : Fin cfg1.N) (p : Fin 4000) (k : Fin 128) (r : Fin 100000) (hr : r.val = t.val * 4000 + p.val) :
    iblk1 V c 0 t (ix2 p k) = V c main_v24 (ix2 r k) := by
  obtain ⟨e0, e1, -⟩ := idx_facts t
  show V c main_v24 (((cfg1.win 0).blk t).view.emb (ix2 p k)) = _
  refine congrArg (V c main_v24) (funext fun a => Fin.ext ?_)
  match a with
  | ⟨0, _⟩ => show win1_0.index t (0 : Fin 2) * 4000 + 1 * p.val = r.val; omega
  | ⟨1, _⟩ => show win1_0.index t (1 : Fin 2) * 128 + 1 * k.val = k.val; omega

/-- Row p of window 1's block at point t is row 4000·t + p of its array. -/
theorem blk1 (c : Dev nD) (t : Fin cfg1.N) (p : Fin 4000) (k : Fin 128) (r : Fin 100000) (hr : r.val = t.val * 4000 + p.val) :
    iblk1 V c 1 t (ix2 p k) = V c main_v14_1 (ix2 r k) := by
  obtain ⟨-, -, e0, e1, -⟩ := idx_facts t
  show V c main_v14_1 (((cfg1.win 1).blk t).view.emb (ix2 p k)) = _
  refine congrArg (V c main_v14_1) (funext fun a => Fin.ext ?_)
  match a with
  | ⟨0, _⟩ => show win1_1.index t (0 : Fin 2) * 4000 + 1 * p.val = r.val; omega
  | ⟨1, _⟩ => show win1_1.index t (1 : Fin 2) * 128 + 1 * k.val = k.val; omega

/-- Row p of window 2's block at point t is row 4000·t + p of its array. -/
theorem blk2 (c : Dev nD) (t : Fin cfg1.N) (p : Fin 4000) (k : Fin 128) (r : Fin 100000) (hr : r.val = t.val * 4000 + p.val) :
    iblk1 V c 2 t (ix2 p k) = V c main_v14_0 (ix2 r k) := by
  obtain ⟨-, -, -, -, e0, e1, -⟩ := idx_facts t
  show V c main_v14_0 (((cfg1.win 2).blk t).view.emb (ix2 p k)) = _
  refine congrArg (V c main_v14_0) (funext fun a => Fin.ext ?_)
  match a with
  | ⟨0, _⟩ => show win1_2.index t (0 : Fin 2) * 4000 + 1 * p.val = r.val; omega
  | ⟨1, _⟩ => show win1_2.index t (1 : Fin 2) * 128 + 1 * k.val = k.val; omega

/-- Row p of window 3's block at point t is row 4000·t + p of its array. -/
theorem blk3 (c : Dev nD) (t : Fin cfg1.N) (p : Fin 4000)  (r : Fin 100000) (hr : r.val = t.val * 4000 + p.val) :
    iblk1 V c 3 t (ix2 p (0 : Fin 1)) = V c main_v12 (ix2 r (0 : Fin 1)) := by
  obtain ⟨-, -, -, -, -, -, e0, e1, -⟩ := idx_facts t
  show V c main_v12 (((cfg1.win 3).blk t).view.emb (ix2 p (0 : Fin 1))) = _
  refine congrArg (V c main_v12) (funext fun a => Fin.ext ?_)
  match a with
  | ⟨0, _⟩ => show win1_3.index t (0 : Fin 2) * 4000 + 1 * p.val = r.val; omega
  | ⟨1, _⟩ => show win1_3.index t (1 : Fin 2) * 1 + 1 * 0 = 0; omega

/-- Window 4's block at any point is its whole array. -/
theorem blk4 (c : Dev nD) (t : Fin cfg1.N) (q : Fin 128) (k : Fin 128) :
    iblk1 V c 4 t (ix2 q k) = V c main_v26 (ix2 q k) := by
  obtain ⟨-, -, -, -, -, -, -, -, e0, e1, -⟩ := idx_facts t
  show V c main_v26 (((cfg1.win 4).blk t).view.emb (ix2 q k)) = _
  refine congrArg (V c main_v26) (funext fun a => Fin.ext ?_)
  match a with
  | ⟨0, _⟩ => show win1_4.index t (0 : Fin 2) * 128 + 1 * q.val = q.val; omega
  | ⟨1, _⟩ => show win1_4.index t (1 : Fin 2) * 128 + 1 * k.val = k.val; omega

/-- Window 5's block at any point is its whole array. -/
theorem blk5 (c : Dev nD) (t : Fin cfg1.N)  (k : Fin 128) :
    iblk1 V c 5 t (ix2 (0 : Fin 1) k) = V c main_v31 (ix2 (0 : Fin 1) k) := by
  obtain ⟨-, -, -, -, -, -, -, -, -, -, e0, e1, -⟩ := idx_facts t
  show V c main_v31 (((cfg1.win 5).blk t).view.emb (ix2 (0 : Fin 1) k)) = _
  refine congrArg (V c main_v31) (funext fun a => Fin.ext ?_)
  match a with
  | ⟨0, _⟩ => show win1_5.index t (0 : Fin 2) * 1 + 1 * 0 = 0; omega
  | ⟨1, _⟩ => show win1_5.index t (1 : Fin 2) * 128 + 1 * k.val = k.val; omega

/-- Window 6's block at any point is its whole array. -/
theorem blk6 (c : Dev nD) (t : Fin cfg1.N) (q : Fin 128) (k : Fin 128) :
    iblk1 V c 6 t (ix2 q k) = V c main_v30 (ix2 q k) := by
  obtain ⟨-, -, -, -, -, -, -, -, -, -, -, -, e0, e1, -⟩ := idx_facts t
  show V c main_v30 (((cfg1.win 6).blk t).view.emb (ix2 q k)) = _
  refine congrArg (V c main_v30) (funext fun a => Fin.ext ?_)
  match a with
  | ⟨0, _⟩ => show win1_6.index t (0 : Fin 2) * 128 + 1 * q.val = q.val; omega
  | ⟨1, _⟩ => show win1_6.index t (1 : Fin 2) * 128 + 1 * k.val = k.val; omega

/-- The output array as a function of the arrays the launch finds. -/
abbrev G (c : Dev nD) : Cert.Spec.Mat 100000 128 :=
  Cert.Spec.hidden (V c main_v24) (V c main_v14_1) (V c main_v14_0) (fun r => V c main_v12 (ix2 r 0)) (V c main_v26) (fun q => V c main_v31 (ix2 0 q)) (V c main_v30)

/-- An entry of output block t sits in row 4000·t + p of the output array. -/
theorem emb_out (t : Fin cfg1.N) (p : Fin 4000) (q : Fin 128) (r : Fin 100000) (hr : r.val = t.val * 4000 + p.val) :
    ((cfg1.win 7).blk t).view.emb (ix2 p q) = ix2 r q := by
  obtain ⟨-, -, -, -, -, -, -, -, -, -, -, -, -, -, e0, e1⟩ := idx_facts t
  refine funext fun a => Fin.ext ?_
  match a with
  | ⟨0, _⟩ => show win1_7.index t (0 : Fin 2) * 4000 + 1 * p.val = r.val; omega
  | ⟨1, _⟩ => show win1_7.index t (1 : Fin 2) * 128 + 1 * q.val = q.val; omega

/-- The body's result at (p, q) of block t is the layer's entry at (4000·t + p, q): the body's sums run over the
    same rows of the whole arrays. -/
theorem pay_blk (c : Dev nD) (t : Fin cfg1.N) (p : Fin 4000) (q : Fin 128) (r : Fin 100000) (hr : r.val = t.val * 4000 + p.val) :
    k1_pay1 (F := Ideal) (iblk1 V c 0 t) (iblk1 V c 3 t) (iblk1 V c 1 t) (iblk1 V c 4 t) (iblk1 V c 6 t) (iblk1 V c 5 t) (iblk1 V c 2 t) (ix2 p q)
      = Cert.Spec.hidden (V c main_v24) (V c main_v14_1) (V c main_v14_0) (fun r => V c main_v12 (ix2 r 0)) (V c main_v26) (fun q => V c main_v31 (ix2 0 q)) (V c main_v30) (ix2 r q) := by
  refine (Cert.KPay.pay1 _ _ _ _ _ _ _ p q).trans ?_
  show _ = Cert.Spec.hiddenAt (V c main_v24) (V c main_v14_1) (V c main_v14_0) (fun r => V c main_v12 (ix2 r 0)) (V c main_v26) (fun q => V c main_v31 (ix2 0 q)) (V c main_v30) r q
  unfold Cert.Spec.hiddenAt Cert.Spec.affAt
  simp only [fun k => blk0 V c t p k r hr, fun k => blk1 V c t p k r hr, fun k => blk2 V c t p k r hr, blk3 V c t p r hr, blk4 V c t, blk5 V c t, blk6 V c t]

/-- What point t writes back is block t of `G`. -/
theorem flushed_eq (c : Dev nD) (t : Fin cfg1.N) :
    (dat1 V c).flushed 7 t = ((cfg1.win 7).blk t).view.read (Elt Ideal) (G V c) := by
  show (cfg1.win 7).cut (grid1.coords t) ((dat1 V c).after 7 t) = _
  rw [after1_7]
  unfold out1_7
  rw [View.canon_unit_zero hz]
  simp only [View.ld_unit_zero (S := S4000x128) hz, View.ld_unit_zero (S := S4000x1) hz, View.ld_unit_zero (S := S128x128) hz, View.ld_unit_zero (S := S1x128) hz]
  funext y
  obtain ⟨p, q, rfl⟩ : ∃ (p : Fin 4000) (q : Fin 128), y = ix2 p q := ⟨y 0, y 1, eq_ix2 y⟩
  show k1_pay1 (F := Ideal) (iblk1 V c 0 t) (iblk1 V c 3 t) (iblk1 V c 1 t) (iblk1 V c 4 t) (iblk1 V c 6 t) (iblk1 V c 5 t) (iblk1 V c 2 t) (ix2 p q) = G V c (((cfg1.win 7).blk t).view.emb (ix2 p q))
  rw [emb_out t p q ⟨t.val * 4000 + p.val, row_lt t p⟩ rfl]
  exact pay_blk V c t p q ⟨t.val * 4000 + p.val, row_lt t p⟩ rfl

/-- An index of the output array is in point t's block iff each coordinate is in the block's range. -/
theorem mem_blk (t : Fin cfg1.N) (i : S100000x128.Idx) :
    i ∈ ((cfg1.win 7).blk t).view.set ↔ ∀ a : Fin 2, win1_7.index t a * S4000x128.size a ≤ (i a).val ∧ (i a).val < win1_7.index t a * S4000x128.size a + S4000x128.size a := by
  show i ∈ ((View.whole main_v32).slice (win1_7.rect t)).set ↔ _
  rw [View.set_slice_whole, Rect.mem_set_unit]
  exact Iff.rfl

/-- Row r lies in the block of point r / 4000: the 25 blocks cover the array. -/
theorem cover (i : S100000x128.Idx) : ∃ t : Fin cfg1.N, (cfg1.win 7).flush t = true ∧ i ∈ ((cfg1.win 7).blk t).view.set := by
  have hi0 : (i 0).val < 100000 := (i 0).isLt
  have hi1 : (i 1).val < 128 := (i 1).isLt
  have hN : cfg1.N = 25 := N_1
  refine ⟨⟨(i 0).val / 4000, by rw [hN]; omega⟩, flush1_7 _, ?_⟩
  rw [mem_blk]
  obtain ⟨-, -, -, -, -, -, -, -, -, -, -, -, -, -, e0, e1⟩ := idx_facts ⟨(i 0).val / 4000, by rw [hN]; omega⟩
  intro a
  match a with
  | ⟨0, _⟩ => show win1_7.index _ (0 : Fin 2) * 4000 ≤ (i 0).val ∧ (i 0).val < win1_7.index _ (0 : Fin 2) * 4000 + 4000; rw [e0]; show (i 0).val / 4000 * 4000 ≤ (i 0).val ∧ (i 0).val < (i 0).val / 4000 * 4000 + 4000; omega
  | ⟨1, _⟩ => show win1_7.index _ (1 : Fin 2) * 128 ≤ (i 1).val ∧ (i 1).val < win1_7.index _ (1 : Fin 2) * 128 + 128; rw [e1]; omega

/-- After the launch the output array is `G` of the arrays the launch found. -/
theorem final (c : Dev nD) : (dat1 V c).arrAt 7 cfg1.N = G V c :=
  (dat1 V c).arrAt_eq_of_cover 7 (G V c) (fun t _ => flushed_eq V c t) cover

end Cert.KernelIdeal.Reg1

end
-- ==== Proof.Reg2.lean ====
/-
  Hidden layer 2: relu of (mean of the in-neighbours) · Wlᵀ + bl + h · Wrᵀ, plus a fifth of the projected input,
  row block by row block.

  The grid has 25 points; point t works on rows 4000·t … 4000·t + 3999 of the neighbour sums, of the previous
  hidden state, of the projected input and of the reciprocal degrees, and holds both weight matrices and the bias
  row whole.  Block t of the output is the corresponding block of one whole-array function of the arrays the
  launch finds, and the 25 blocks cover every row, so after the launch the output array IS that function.
-/
import proofs.«179555_j16097537425900_1_alg».proof.Proof.Gen.KernelIdeal.Frame
import proofs.«179555_j16097537425900_1_alg».proof.Proof.KPay
import proofs.«179555_j16097537425900_1_alg».proof.Proof.Spec
import Idealize.ShloMosaic.Lib.Pipeline.Value

set_option maxRecDepth 16384

noncomputable section

namespace Cert.KernelIdeal.Reg2

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: a row-blocked window sits at block row t, a whole-array window at the origin. -/
theorem idx_facts : ∀ t : Fin cfg2.N, win2_0.index t (0 : Fin 2) = t.val
    ∧ win2_0.index t (1 : Fin 2) = 0
    ∧ win2_1.index t (0 : Fin 2) = t.val
    ∧ win2_1.index t (1 : Fin 2) = 0
    ∧ win2_2.index t (0 : Fin 2) = t.val
    ∧ win2_2.index t (1 : Fin 2) = 0
    ∧ win2_3.index t (0 : Fin 2) = t.val
    ∧ win2_3.index t (1 : Fin 2) = 0
    ∧ win2_4.index t (0 : Fin 2) = 0
    ∧ win2_4.index t (1 : Fin 2) = 0
    ∧ win2_5.index t (0 : Fin 2) = 0
    ∧ win2_5.index t (1 : Fin 2) = 0
    ∧ win2_6.index t (0 : Fin 2) = 0
    ∧ win2_6.index t (1 : Fin 2) = 0
    ∧ win2_7.index t (0 : Fin 2) = t.val
    ∧ win2_7.index t (1 : Fin 2) = 0 :=
  (by decide +kernel : ∀ t : Fin grid2.N, _)

theorem row_lt (t : Fin cfg2.N) (p : Fin 4000) : t.val * 4000 + p.val < 100000 := by
  have ht := t.isLt
  have hN : cfg2.N = 25 := N_2
  have hp := p.isLt
  omega

/-- Row p of window 0's block at point t is row 4000·t + p of its array. -/
theorem blk0 (c : Dev nD) (t : Fin cfg2.N) (p : Fin 4000) (k : Fin 128) (r : Fin 100000) (hr : r.val = t.val * 4000 + p.val) :
    iblk2 V c 0 t (ix2 p k) = V c main_v42 (ix2 r k) := by
  obtain ⟨e0, e1, -⟩ := idx_facts t
  show V c main_v42 (((cfg2.win 0).blk t).view.emb (ix2 p k)) = _
  refine congrArg (V c main_v42) (funext fun a => Fin.ext ?_)
  match a with
  | ⟨0, _⟩ => show win2_0.index t (0 : Fin 2) * 4000 + 1 * p.val = r.val; omega
  | ⟨1, _⟩ => show win2_0.index t (1 : Fin 2) * 128 + 1 * k.val = k.val; omega

/-- Row p of window 1's block at point t is row 4000·t + p of its array. -/
theorem blk1 (c : Dev nD) (t : Fin cfg2.N) (p : Fin 4000) (k : Fin 128) (r : Fin 100000) (hr : r.val = t.val * 4000 + p.val) :
    iblk2 V c 1 t (ix2 p k) = V c main_v32 (ix2 r k) := by
  obtain ⟨-, -, e0, e1, -⟩ := idx_facts t
  show V c main_v32 (((cfg2.win 1).blk t).view.emb (ix2 p k)) = _
  refine congrArg (V c main_v32) (funext fun a => Fin.ext ?_)
  match a with
  | ⟨0, _⟩ => show win2_1.index t (0 : Fin 2) * 4000 + 1 * p.val = r.val; omega
  | ⟨1, _⟩ => show win2_1.index t (1 : Fin 2) * 128 + 1 * k.val = k.val; omega

/-- Row p of window 2's block at point t is row 4000·t + p of its array. -/
theorem blk2 (c : Dev nD) (t : Fin cfg2.N) (p : Fin 4000) (k : Fin 128) (r : Fin 100000) (hr : r.val = t.val * 4000 + p.val) :
    iblk2 V c 2 t (ix2 p k) = V c main_v14_0 (ix2 r k) := by
  obtain ⟨-, -, -, -, e0, e1, -⟩ := idx_facts t
  show V c main_v14_0 (((cfg2.win 2).blk t).view.emb (ix2 p k)) = _
  refine congrArg (V c main_v14_0) (funext fun a => Fin.ext ?_)
  match a with
  | ⟨0, _⟩ => show win2_2.index t (0 : Fin 2) * 4000 + 1 * p.val = r.val; omega
  | ⟨1, _⟩ => show win2_2.index t (1 : Fin 2) * 128 + 1 * k.val = k.val; omega

/-- Row p of window 3's block at point t is row 4000·t + p of its array. -/
theorem blk3 (c : Dev nD) (t : Fin cfg2.N) (p : Fin 4000)  (r : Fin 100000) (hr : r.val = t.val * 4000 + p.val) :
    iblk2 V c 3 t (ix2 p (0 : Fin 1)) = V c main_v12 (ix2 r (0 : Fin 1)) := by
  obtain ⟨-, -, -, -, -, -, e0, e1, -⟩ := idx_facts t
  show V c main_v12 (((cfg2.win 3).blk t).view.emb (ix2 p (0 : Fin 1))) = _
  refine congrArg (V c main_v12) (funext fun a => Fin.ext ?_)
  match a with
  | ⟨0, _⟩ => show win2_3.index t (0 : Fin 2) * 4000 + 1 * p.val = r.val; omega
  | ⟨1, _⟩ => show win2_3.index t (1 : Fin 2) * 1 + 1 * 0 = 0; omega

/-- Window 4's block at any point is its whole array. -/
theorem blk4 (c : Dev nD) (t : Fin cfg2.N) (q : Fin 128) (k : Fin 128) :
    iblk2 V c 4 t (ix2 q k) = V c main_v44 (ix2 q k) := by
  obtain ⟨-, -, -, -, -, -, -, -, e0, e1, -⟩ := idx_facts t
  show V c main_v44 (((cfg2.win 4).blk t).view.emb (ix2 q k)) = _
  refine congrArg (V c main_v44) (funext fun a => Fin.ext ?_)
  match a with
  | ⟨0, _⟩ => show win2_4.index t (0 : Fin 2) * 128 + 1 * q.val = q.val; omega
  | ⟨1, _⟩ => show win2_4.index t (1 : Fin 2) * 128 + 1 * k.val = k.val; omega

/-- Window 5's block at any point is its whole array. -/
theorem blk5 (c : Dev nD) (t : Fin cfg2.N)  (k : Fin 128) :
    iblk2 V c 5 t (ix2 (0 : Fin 1) k) = V c main_v49 (ix2 (0 : Fin 1) k) := by
  obtain ⟨-, -, -, -, -, -, -, -, -, -, e0, e1, -⟩ := idx_facts t
  show V c main_v49 (((cfg2.win 5).blk t).view.emb (ix2 (0 : Fin 1) k)) = _
  refine congrArg (V c main_v49) (funext fun a => Fin.ext ?_)
  match a with
  | ⟨0, _⟩ => show win2_5.index t (0 : Fin 2) * 1 + 1 * 0 = 0; omega
  | ⟨1, _⟩ => show win2_5.index t (1 : Fin 2) * 128 + 1 * k.val = k.val; omega

/-- Window 6's block at any point is its whole array. -/
theorem blk6 (c : Dev nD) (t : Fin cfg2.N) (q : Fin 128) (k : Fin 128) :
    iblk2 V c 6 t (ix2 q k) = V c main_v48 (ix2 q k) := by
  obtain ⟨-, -, -, -, -, -, -, -, -, -, -, -, e0, e1, -⟩ := idx_facts t
  show V c main_v48 (((cfg2.win 6).blk t).view.emb (ix2 q k)) = _
  refine congrArg (V c main_v48) (funext fun a => Fin.ext ?_)
  match a with
  | ⟨0, _⟩ => show win2_6.index t (0 : Fin 2) * 128 + 1 * q.val = q.val; omega
  | ⟨1, _⟩ => show win2_6.index t (1 : Fin 2) * 128 + 1 * k.val = k.val; omega

/-- The output array as a function of the arrays the launch finds. -/
abbrev G (c : Dev nD) : Cert.Spec.Mat 100000 128 :=
  Cert.Spec.hidden (V c main_v42) (V c main_v32) (V c main_v14_0) (fun r => V c main_v12 (ix2 r 0)) (V c main_v44) (fun q => V c main_v49 (ix2 0 q)) (V c main_v48)

/-- An entry of output block t sits in row 4000·t + p of the output array. -/
theorem emb_out (t : Fin cfg2.N) (p : Fin 4000) (q : Fin 128) (r : Fin 100000) (hr : r.val = t.val * 4000 + p.val) :
    ((cfg2.win 7).blk t).view.emb (ix2 p q) = ix2 r q := by
  obtain ⟨-, -, -, -, -, -, -, -, -, -, -, -, -, -, e0, e1⟩ := idx_facts t
  refine funext fun a => Fin.ext ?_
  match a with
  | ⟨0, _⟩ => show win2_7.index t (0 : Fin 2) * 4000 + 1 * p.val = r.val; omega
  | ⟨1, _⟩ => show win2_7.index t (1 : Fin 2) * 128 + 1 * q.val = q.val; omega

/-- The body's result at (p, q) of block t is the layer's entry at (4000·t + p, q): the body's sums run over the
    same rows of the whole arrays. -/
theorem pay_blk (c : Dev nD) (t : Fin cfg2.N) (p : Fin 4000) (q : Fin 128) (r : Fin 100000) (hr : r.val = t.val * 4000 + p.val) :
    k2_pay1 (F := Ideal) (iblk2 V c 0 t) (iblk2 V c 3 t) (iblk2 V c 1 t) (iblk2 V c 4 t) (iblk2 V c 6 t) (iblk2 V c 5 t) (iblk2 V c 2 t) (ix2 p q)
      = Cert.Spec.hidden (V c main_v42) (V c main_v32) (V c main_v14_0) (fun r => V c main_v12 (ix2 r 0)) (V c main_v44) (fun q => V c main_v49 (ix2 0 q)) (V c main_v48) (ix2 r q) := by
  rw [show @k2_pay1 Ideal _ = @k1_pay1 Ideal _ from Cert.KPay.pay2_eq]
  refine (Cert.KPay.pay1 _ _ _ _ _ _ _ p q).trans ?_
  show _ = Cert.Spec.hiddenAt (V c main_v42) (V c main_v32) (V c main_v14_0) (fun r => V c main_v12 (ix2 r 0)) (V c main_v44) (fun q => V c main_v49 (ix2 0 q)) (V c main_v48) r q
  unfold Cert.Spec.hiddenAt Cert.Spec.affAt
  simp only [fun k => blk0 V c t p k r hr, fun k => blk1 V c t p k r hr, fun k => blk2 V c t p k r hr, blk3 V c t p r hr, blk4 V c t, blk5 V c t, blk6 V c t]

/-- What point t writes back is block t of `G`. -/
theorem flushed_eq (c : Dev nD) (t : Fin cfg2.N) :
    (dat2 V c).flushed 7 t = ((cfg2.win 7).blk t).view.read (Elt Ideal) (G V c) := by
  show (cfg2.win 7).cut (grid2.coords t) ((dat2 V c).after 7 t) = _
  rw [after2_7]
  unfold out2_7
  rw [View.canon_unit_zero hz]
  simp only [View.ld_unit_zero (S := S4000x128) hz, View.ld_unit_zero (S := S4000x1) hz, View.ld_unit_zero (S := S128x128) hz, View.ld_unit_zero (S := S1x128) hz]
  funext y
  obtain ⟨p, q, rfl⟩ : ∃ (p : Fin 4000) (q : Fin 128), y = ix2 p q := ⟨y 0, y 1, eq_ix2 y⟩
  show k2_pay1 (F := Ideal) (iblk2 V c 0 t) (iblk2 V c 3 t) (iblk2 V c 1 t) (iblk2 V c 4 t) (iblk2 V c 6 t) (iblk2 V c 5 t) (iblk2 V c 2 t) (ix2 p q) = G V c (((cfg2.win 7).blk t).view.emb (ix2 p q))
  rw [emb_out t p q ⟨t.val * 4000 + p.val, row_lt t p⟩ rfl]
  exact pay_blk V c t p q ⟨t.val * 4000 + p.val, row_lt t p⟩ rfl

/-- An index of the output array is in point t's block iff each coordinate is in the block's range. -/
theorem mem_blk (t : Fin cfg2.N) (i : S100000x128.Idx) :
    i ∈ ((cfg2.win 7).blk t).view.set ↔ ∀ a : Fin 2, win2_7.index t a * S4000x128.size a ≤ (i a).val ∧ (i a).val < win2_7.index t a * S4000x128.size a + S4000x128.size a := by
  show i ∈ ((View.whole main_v50).slice (win2_7.rect t)).set ↔ _
  rw [View.set_slice_whole, Rect.mem_set_unit]
  exact Iff.rfl

/-- Row r lies in the block of point r / 4000: the 25 blocks cover the array. -/
theorem cover (i : S100000x128.Idx) : ∃ t : Fin cfg2.N, (cfg2.win 7).flush t = true ∧ i ∈ ((cfg2.win 7).blk t).view.set := by
  have hi0 : (i 0).val < 100000 := (i 0).isLt
  have hi1 : (i 1).val < 128 := (i 1).isLt
  have hN : cfg2.N = 25 := N_2
  refine ⟨⟨(i 0).val / 4000, by rw [hN]; omega⟩, flush2_7 _, ?_⟩
  rw [mem_blk]
  obtain ⟨-, -, -, -, -, -, -, -, -, -, -, -, -, -, e0, e1⟩ := idx_facts ⟨(i 0).val / 4000, by rw [hN]; omega⟩
  intro a
  match a with
  | ⟨0, _⟩ => show win2_7.index _ (0 : Fin 2) * 4000 ≤ (i 0).val ∧ (i 0).val < win2_7.index _ (0 : Fin 2) * 4000 + 4000; rw [e0]; show (i 0).val / 4000 * 4000 ≤ (i 0).val ∧ (i 0).val < (i 0).val / 4000 * 4000 + 4000; omega
  | ⟨1, _⟩ => show win2_7.index _ (1 : Fin 2) * 128 ≤ (i 1).val ∧ (i 1).val < win2_7.index _ (1 : Fin 2) * 128 + 128; rw [e1]; omega

/-- After the launch the output array is `G` of the arrays the launch found. -/
theorem final (c : Dev nD) : (dat2 V c).arrAt 7 cfg2.N = G V c :=
  (dat2 V c).arrAt_eq_of_cover 7 (G V c) (fun t _ => flushed_eq V c t) cover

end Cert.KernelIdeal.Reg2

end
-- ==== Proof.Reg3.lean ====
/-
  Hidden layer 3: relu of (mean of the in-neighbours) · Wlᵀ + bl + h · Wrᵀ, plus a fifth of the projected input,
  row block by row block.

  The grid has 25 points; point t works on rows 4000·t … 4000·t + 3999 of the neighbour sums, of the previous
  hidden state, of the projected input and of the reciprocal degrees, and holds both weight matrices and the bias
  row whole.  Block t of the output is the corresponding block of one whole-array function of the arrays the
  launch finds, and the 25 blocks cover every row, so after the launch the output array IS that function.
-/
import proofs.«179555_j16097537425900_1_alg».proof.Proof.Gen.KernelIdeal.Frame
import proofs.«179555_j16097537425900_1_alg».proof.Proof.KPay
import proofs.«179555_j16097537425900_1_alg».proof.Proof.Spec
import Idealize.ShloMosaic.Lib.Pipeline.Value

set_option maxRecDepth 16384

noncomputable section

namespace Cert.KernelIdeal.Reg3

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: a row-blocked window sits at block row t, a whole-array window at the origin. -/
theorem idx_facts : ∀ t : Fin cfg3.N, win3_0.index t (0 : Fin 2) = t.val
    ∧ win3_0.index t (1 : Fin 2) = 0
    ∧ win3_1.index t (0 : Fin 2) = t.val
    ∧ win3_1.index t (1 : Fin 2) = 0
    ∧ win3_2.index t (0 : Fin 2) = t.val
    ∧ win3_2.index t (1 : Fin 2) = 0
    ∧ win3_3.index t (0 : Fin 2) = t.val
    ∧ win3_3.index t (1 : Fin 2) = 0
    ∧ win3_4.index t (0 : Fin 2) = 0
    ∧ win3_4.index t (1 : Fin 2) = 0
    ∧ win3_5.index t (0 : Fin 2) = 0
    ∧ win3_5.index t (1 : Fin 2) = 0
    ∧ win3_6.index t (0 : Fin 2) = 0
    ∧ win3_6.index t (1 : Fin 2) = 0
    ∧ win3_7.index t (0 : Fin 2) = t.val
    ∧ win3_7.index t (1 : Fin 2) = 0 :=
  (by decide +kernel : ∀ t : Fin grid3.N, _)

theorem row_lt (t : Fin cfg3.N) (p : Fin 4000) : t.val * 4000 + p.val < 100000 := by
  have ht := t.isLt
  have hN : cfg3.N = 25 := N_3
  have hp := p.isLt
  omega

/-- Row p of window 0's block at point t is row 4000·t + p of its array. -/
theorem blk0 (c : Dev nD) (t : Fin cfg3.N) (p : Fin 4000) (k : Fin 128) (r : Fin 100000) (hr : r.val = t.val * 4000 + p.val) :
    iblk3 V c 0 t (ix2 p k) = V c main_v60 (ix2 r k) := by
  obtain ⟨e0, e1, -⟩ := idx_facts t
  show V c main_v60 (((cfg3.win 0).blk t).view.emb (ix2 p k)) = _
  refine congrArg (V c main_v60) (funext fun a => Fin.ext ?_)
  match a with
  | ⟨0, _⟩ => show win3_0.index t (0 : Fin 2) * 4000 + 1 * p.val = r.val; omega
  | ⟨1, _⟩ => show win3_0.index t (1 : Fin 2) * 128 + 1 * k.val = k.val; omega

/-- Row p of window 1's block at point t is row 4000·t + p of its array. -/
theorem blk1 (c : Dev nD) (t : Fin cfg3.N) (p : Fin 4000) (k : Fin 128) (r : Fin 100000) (hr : r.val = t.val * 4000 + p.val) :
    iblk3 V c 1 t (ix2 p k) = V c main_v50 (ix2 r k) := by
  obtain ⟨-, -, e0, e1, -⟩ := idx_facts t
  show V c main_v50 (((cfg3.win 1).blk t).view.emb (ix2 p k)) = _
  refine congrArg (V c main_v50) (funext fun a => Fin.ext ?_)
  match a with
  | ⟨0, _⟩ => show win3_1.index t (0 : Fin 2) * 4000 + 1 * p.val = r.val; omega
  | ⟨1, _⟩ => show win3_1.index t (1 : Fin 2) * 128 + 1 * k.val = k.val; omega

/-- Row p of window 2's block at point t is row 4000·t + p of its array. -/
theorem blk2 (c : Dev nD) (t : Fin cfg3.N) (p : Fin 4000) (k : Fin 128) (r : Fin 100000) (hr : r.val = t.val * 4000 + p.val) :
    iblk3 V c 2 t (ix2 p k) = V c main_v14_0 (ix2 r k) := by
  obtain ⟨-, -, -, -, e0, e1, -⟩ := idx_facts t
  show V c main_v14_0 (((cfg3.win 2).blk t).view.emb (ix2 p k)) = _
  refine congrArg (V c main_v14_0) (funext fun a => Fin.ext ?_)
  match a with
  | ⟨0, _⟩ => show win3_2.index t (0 : Fin 2) * 4000 + 1 * p.val = r.val; omega
  | ⟨1, _⟩ => show win3_2.index t (1 : Fin 2) * 128 + 1 * k.val = k.val; omega

/-- Row p of window 3's block at point t is row 4000·t + p of its array. -/
theorem blk3 (c : Dev nD) (t : Fin cfg3.N) (p : Fin 4000)  (r : Fin 100000) (hr : r.val = t.val * 4000 + p.val) :
    iblk3 V c 3 t (ix2 p (0 : Fin 1)) = V c main_v12 (ix2 r (0 : Fin 1)) := by
  obtain ⟨-, -, -, -, -, -, e0, e1, -⟩ := idx_facts t
  show V c main_v12 (((cfg3.win 3).blk t).view.emb (ix2 p (0 : Fin 1))) = _
  refine congrArg (V c main_v12) (funext fun a => Fin.ext ?_)
  match a with
  | ⟨0, _⟩ => show win3_3.index t (0 : Fin 2) * 4000 + 1 * p.val = r.val; omega
  | ⟨1, _⟩ => show win3_3.index t (1 : Fin 2) * 1 + 1 * 0 = 0; omega

/-- Window 4's block at any point is its whole array. -/
theorem blk4 (c : Dev nD) (t : Fin cfg3.N) (q : Fin 128) (k : Fin 128) :
    iblk3 V c 4 t (ix2 q k) = V c main_v62 (ix2 q k) := by
  obtain ⟨-, -, -, -, -, -, -, -, e0, e1, -⟩ := idx_facts t
  show V c main_v62 (((cfg3.win 4).blk t).view.emb (ix2 q k)) = _
  refine congrArg (V c main_v62) (funext fun a => Fin.ext ?_)
  match a with
  | ⟨0, _⟩ => show win3_4.index t (0 : Fin 2) * 128 + 1 * q.val = q.val; omega
  | ⟨1, _⟩ => show win3_4.index t (1 : Fin 2) * 128 + 1 * k.val = k.val; omega

/-- Window 5's block at any point is its whole array. -/
theorem blk5 (c : Dev nD) (t : Fin cfg3.N)  (k : Fin 128) :
    iblk3 V c 5 t (ix2 (0 : Fin 1) k) = V c main_v67 (ix2 (0 : Fin 1) k) := by
  obtain ⟨-, -, -, -, -, -, -, -, -, -, e0, e1, -⟩ := idx_facts t
  show V c main_v67 (((cfg3.win 5).blk t).view.emb (ix2 (0 : Fin 1) k)) = _
  refine congrArg (V c main_v67) (funext fun a => Fin.ext ?_)
  match a with
  | ⟨0, _⟩ => show win3_5.index t (0 : Fin 2) * 1 + 1 * 0 = 0; omega
  | ⟨1, _⟩ => show win3_5.index t (1 : Fin 2) * 128 + 1 * k.val = k.val; omega

/-- Window 6's block at any point is its whole array. -/
theorem blk6 (c : Dev nD) (t : Fin cfg3.N) (q : Fin 128) (k : Fin 128) :
    iblk3 V c 6 t (ix2 q k) = V c main_v66 (ix2 q k) := by
  obtain ⟨-, -, -, -, -, -, -, -, -, -, -, -, e0, e1, -⟩ := idx_facts t
  show V c main_v66 (((cfg3.win 6).blk t).view.emb (ix2 q k)) = _
  refine congrArg (V c main_v66) (funext fun a => Fin.ext ?_)
  match a with
  | ⟨0, _⟩ => show win3_6.index t (0 : Fin 2) * 128 + 1 * q.val = q.val; omega
  | ⟨1, _⟩ => show win3_6.index t (1 : Fin 2) * 128 + 1 * k.val = k.val; omega

/-- The output array as a function of the arrays the launch finds. -/
abbrev G (c : Dev nD) : Cert.Spec.Mat 100000 128 :=
  Cert.Spec.hidden (V c main_v60) (V c main_v50) (V c main_v14_0) (fun r => V c main_v12 (ix2 r 0)) (V c main_v62) (fun q => V c main_v67 (ix2 0 q)) (V c main_v66)

/-- An entry of output block t sits in row 4000·t + p of the output array. -/
theorem emb_out (t : Fin cfg3.N) (p : Fin 4000) (q : Fin 128) (r : Fin 100000) (hr : r.val = t.val * 4000 + p.val) :
    ((cfg3.win 7).blk t).view.emb (ix2 p q) = ix2 r q := by
  obtain ⟨-, -, -, -, -, -, -, -, -, -, -, -, -, -, e0, e1⟩ := idx_facts t
  refine funext fun a => Fin.ext ?_
  match a with
  | ⟨0, _⟩ => show win3_7.index t (0 : Fin 2) * 4000 + 1 * p.val = r.val; omega
  | ⟨1, _⟩ => show win3_7.index t (1 : Fin 2) * 128 + 1 * q.val = q.val; omega

/-- The body's result at (p, q) of block t is the layer's entry at (4000·t + p, q): the body's sums run over the
    same rows of the whole arrays. -/
theorem pay_blk (c : Dev nD) (t : Fin cfg3.N) (p : Fin 4000) (q : Fin 128) (r : Fin 100000) (hr : r.val = t.val * 4000 + p.val) :
    k3_pay1 (F := Ideal) (iblk3 V c 0 t) (iblk3 V c 3 t) (iblk3 V c 1 t) (iblk3 V c 4 t) (iblk3 V c 6 t) (iblk3 V c 5 t) (iblk3 V c 2 t) (ix2 p q)
      = Cert.Spec.hidden (V c main_v60) (V c main_v50) (V c main_v14_0) (fun r => V c main_v12 (ix2 r 0)) (V c main_v62) (fun q => V c main_v67 (ix2 0 q)) (V c main_v66) (ix2 r q) := by
  rw [show @k3_pay1 Ideal _ = @k1_pay1 Ideal _ from Cert.KPay.pay3_eq]
  refine (Cert.KPay.pay1 _ _ _ _ _ _ _ p q).trans ?_
  show _ = Cert.Spec.hiddenAt (V c main_v60) (V c main_v50) (V c main_v14_0) (fun r => V c main_v12 (ix2 r 0)) (V c main_v62) (fun q => V c main_v67 (ix2 0 q)) (V c main_v66) r q
  unfold Cert.Spec.hiddenAt Cert.Spec.affAt
  simp only [fun k => blk0 V c t p k r hr, fun k => blk1 V c t p k r hr, fun k => blk2 V c t p k r hr, blk3 V c t p r hr, blk4 V c t, blk5 V c t, blk6 V c t]

/-- What point t writes back is block t of `G`. -/
theorem flushed_eq (c : Dev nD) (t : Fin cfg3.N) :
    (dat3 V c).flushed 7 t = ((cfg3.win 7).blk t).view.read (Elt Ideal) (G V c) := by
  show (cfg3.win 7).cut (grid3.coords t) ((dat3 V c).after 7 t) = _
  rw [after3_7]
  unfold out3_7
  rw [View.canon_unit_zero hz]
  simp only [View.ld_unit_zero (S := S4000x128) hz, View.ld_unit_zero (S := S4000x1) hz, View.ld_unit_zero (S := S128x128) hz, View.ld_unit_zero (S := S1x128) hz]
  funext y
  obtain ⟨p, q, rfl⟩ : ∃ (p : Fin 4000) (q : Fin 128), y = ix2 p q := ⟨y 0, y 1, eq_ix2 y⟩
  show k3_pay1 (F := Ideal) (iblk3 V c 0 t) (iblk3 V c 3 t) (iblk3 V c 1 t) (iblk3 V c 4 t) (iblk3 V c 6 t) (iblk3 V c 5 t) (iblk3 V c 2 t) (ix2 p q) = G V c (((cfg3.win 7).blk t).view.emb (ix2 p q))
  rw [emb_out t p q ⟨t.val * 4000 + p.val, row_lt t p⟩ rfl]
  exact pay_blk V c t p q ⟨t.val * 4000 + p.val, row_lt t p⟩ rfl

/-- An index of the output array is in point t's block iff each coordinate is in the block's range. -/
theorem mem_blk (t : Fin cfg3.N) (i : S100000x128.Idx) :
    i ∈ ((cfg3.win 7).blk t).view.set ↔ ∀ a : Fin 2, win3_7.index t a * S4000x128.size a ≤ (i a).val ∧ (i a).val < win3_7.index t a * S4000x128.size a + S4000x128.size a := by
  show i ∈ ((View.whole main_v68).slice (win3_7.rect t)).set ↔ _
  rw [View.set_slice_whole, Rect.mem_set_unit]
  exact Iff.rfl

/-- Row r lies in the block of point r / 4000: the 25 blocks cover the array. -/
theorem cover (i : S100000x128.Idx) : ∃ t : Fin cfg3.N, (cfg3.win 7).flush t = true ∧ i ∈ ((cfg3.win 7).blk t).view.set := by
  have hi0 : (i 0).val < 100000 := (i 0).isLt
  have hi1 : (i 1).val < 128 := (i 1).isLt
  have hN : cfg3.N = 25 := N_3
  refine ⟨⟨(i 0).val / 4000, by rw [hN]; omega⟩, flush3_7 _, ?_⟩
  rw [mem_blk]
  obtain ⟨-, -, -, -, -, -, -, -, -, -, -, -, -, -, e0, e1⟩ := idx_facts ⟨(i 0).val / 4000, by rw [hN]; omega⟩
  intro a
  match a with
  | ⟨0, _⟩ => show win3_7.index _ (0 : Fin 2) * 4000 ≤ (i 0).val ∧ (i 0).val < win3_7.index _ (0 : Fin 2) * 4000 + 4000; rw [e0]; show (i 0).val / 4000 * 4000 ≤ (i 0).val ∧ (i 0).val < (i 0).val / 4000 * 4000 + 4000; omega
  | ⟨1, _⟩ => show win3_7.index _ (1 : Fin 2) * 128 ≤ (i 1).val ∧ (i 1).val < win3_7.index _ (1 : Fin 2) * 128 + 128; rw [e1]; omega

/-- After the launch the output array is `G` of the arrays the launch found. -/
theorem final (c : Dev nD) : (dat3 V c).arrAt 7 cfg3.N = G V c :=
  (dat3 V c).arrAt_eq_of_cover 7 (G V c) (fun t _ => flushed_eq V c t) cover

end Cert.KernelIdeal.Reg3

end
-- ==== Proof.Reg4.lean ====
/-
  The output layer: (mean of the in-neighbours) · Wlᵀ + bl + h · Wrᵀ with 64 columns, then the logarithm of the
  softmax along each row, row block by row block.

  The grid has 25 points; point t works on rows 4000·t … 4000·t + 3999 of the neighbour sums, of the last hidden
  state and of the reciprocal degrees, and holds both weight matrices and the bias row whole.  A row's
  log-softmax uses that row's 64 logits only, so block t of the output is the corresponding block of one
  whole-array function of the arrays the launch finds, and the 25 blocks cover every row.
-/
import proofs.«179555_j16097537425900_1_alg».proof.Proof.Gen.KernelIdeal.Frame
import proofs.«179555_j16097537425900_1_alg».proof.Proof.KPay
import proofs.«179555_j16097537425900_1_alg».proof.Proof.Spec
import Idealize.ShloMosaic.Lib.Pipeline.Value

set_option maxRecDepth 16384

noncomputable section

namespace Cert.KernelIdeal.Reg4

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: a row-blocked window sits at block row t, a whole-array window at the origin. -/
theorem idx_facts : ∀ t : Fin cfg4.N, win4_0.index t (0 : Fin 2) = t.val
    ∧ win4_0.index t (1 : Fin 2) = 0
    ∧ win4_1.index t (0 : Fin 2) = t.val
    ∧ win4_1.index t (1 : Fin 2) = 0
    ∧ win4_2.index t (0 : Fin 2) = t.val
    ∧ win4_2.index t (1 : Fin 2) = 0
    ∧ win4_3.index t (0 : Fin 2) = 0
    ∧ win4_3.index t (1 : Fin 2) = 0
    ∧ win4_4.index t (0 : Fin 2) = 0
    ∧ win4_4.index t (1 : Fin 2) = 0
    ∧ win4_5.index t (0 : Fin 2) = 0
    ∧ win4_5.index t (1 : Fin 2) = 0
    ∧ win4_6.index t (0 : Fin 2) = t.val
    ∧ win4_6.index t (1 : Fin 2) = 0 :=
  (by decide +kernel : ∀ t : Fin grid4.N, _)

theorem row_lt (t : Fin cfg4.N) (p : Fin 4000) : t.val * 4000 + p.val < 100000 := by
  have ht := t.isLt
  have hN : cfg4.N = 25 := N_4
  have hp := p.isLt
  omega

/-- Row p of window 0's block at point t is row 4000·t + p of its array. -/
theorem blk0 (c : Dev nD) (t : Fin cfg4.N) (p : Fin 4000) (k : Fin 128) (r : Fin 100000) (hr : r.val = t.val * 4000 + p.val) :
    iblk4 V c 0 t (ix2 p k) = V c main_v78 (ix2 r k) := by
  obtain ⟨e0, e1, -⟩ := idx_facts t
  show V c main_v78 (((cfg4.win 0).blk t).view.emb (ix2 p k)) = _
  refine congrArg (V c main_v78) (funext fun a => Fin.ext ?_)
  match a with
  | ⟨0, _⟩ => show win4_0.index t (0 : Fin 2) * 4000 + 1 * p.val = r.val; omega
  | ⟨1, _⟩ => show win4_0.index t (1 : Fin 2) * 128 + 1 * k.val = k.val; omega

/-- Row p of window 1's block at point t is row 4000·t + p of its array. -/
theorem blk1 (c : Dev nD) (t : Fin cfg4.N) (p : Fin 4000) (k : Fin 128) (r : Fin 100000) (hr : r.val = t.val * 4000 + p.val) :
    iblk4 V c 1 t (ix2 p k) = V c main_v68 (ix2 r k) := by
  obtain ⟨-, -, e0, e1, -⟩ := idx_facts t
  show V c main_v68 (((cfg4.win 1).blk t).view.emb (ix2 p k)) = _
  refine congrArg (V c main_v68) (funext fun a => Fin.ext ?_)
  match a with
  | ⟨0, _⟩ => show win4_1.index t (0 : Fin 2) * 4000 + 1 * p.val = r.val; omega
  | ⟨1, _⟩ => show win4_1.index t (1 : Fin 2) * 128 + 1 * k.val = k.val; omega

/-- Row p of window 2's block at point t is row 4000·t + p of its array. -/
theorem blk2 (c : Dev nD) (t : Fin cfg4.N) (p : Fin 4000)  (r : Fin 100000) (hr : r.val = t.val * 4000 + p.val) :
    iblk4 V c 2 t (ix2 p (0 : Fin 1)) = V c main_v12 (ix2 r (0 : Fin 1)) := by
  obtain ⟨-, -, -, -, e0, e1, -⟩ := idx_facts t
  show V c main_v12 (((cfg4.win 2).blk t).view.emb (ix2 p (0 : Fin 1))) = _
  refine congrArg (V c main_v12) (funext fun a => Fin.ext ?_)
  match a with
  | ⟨0, _⟩ => show win4_2.index t (0 : Fin 2) * 4000 + 1 * p.val = r.val; omega
  | ⟨1, _⟩ => show win4_2.index t (1 : Fin 2) * 1 + 1 * 0 = 0; omega

/-- Window 3's block at any point is its whole array. -/
theorem blk3 (c : Dev nD) (t : Fin cfg4.N) (q : Fin 64) (k : Fin 128) :
    iblk4 V c 3 t (ix2 q k) = V c main_arg7 (ix2 q k) := by
  obtain ⟨-, -, -, -, -, -, e0, e1, -⟩ := idx_facts t
  show V c main_arg7 (((cfg4.win 3).blk t).view.emb (ix2 q k)) = _
  refine congrArg (V c main_arg7) (funext fun a => Fin.ext ?_)
  match a with
  | ⟨0, _⟩ => show win4_3.index t (0 : Fin 2) * 64 + 1 * q.val = q.val; omega
  | ⟨1, _⟩ => show win4_3.index t (1 : Fin 2) * 128 + 1 * k.val = k.val; omega

/-- Window 4's block at any point is its whole array. -/
theorem blk4 (c : Dev nD) (t : Fin cfg4.N)  (k : Fin 64) :
    iblk4 V c 4 t (ix2 (0 : Fin 1) k) = V c main_v79 (ix2 (0 : Fin 1) k) := by
  obtain ⟨-, -, -, -, -, -, -, -, e0, e1, -⟩ := idx_facts t
  show V c main_v79 (((cfg4.win 4).blk t).view.emb (ix2 (0 : Fin 1) k)) = _
  refine congrArg (V c main_v79) (funext fun a => Fin.ext ?_)
  match a with
  | ⟨0, _⟩ => show win4_4.index t (0 : Fin 2) * 1 + 1 * 0 = 0; omega
  | ⟨1, _⟩ => show win4_4.index t (1 : Fin 2) * 64 + 1 * k.val = k.val; omega

/-- Window 5's block at any point is its whole array. -/
theorem blk5 (c : Dev nD) (t : Fin cfg4.N) (q : Fin 64) (k : Fin 128) :
    iblk4 V c 5 t (ix2 q k) = V c main_arg9 (ix2 q k) := by
  obtain ⟨-, -, -, -, -, -, -, -, -, -, e0, e1, -⟩ := idx_facts t
  show V c main_arg9 (((cfg4.win 5).blk t).view.emb (ix2 q k)) = _
  refine congrArg (V c main_arg9) (funext fun a => Fin.ext ?_)
  match a with
  | ⟨0, _⟩ => show win4_5.index t (0 : Fin 2) * 64 + 1 * q.val = q.val; omega
  | ⟨1, _⟩ => show win4_5.index t (1 : Fin 2) * 128 + 1 * k.val = k.val; omega

/-- The output array as a function of the arrays the launch finds. -/
abbrev G (c : Dev nD) : Cert.Spec.Mat 100000 64 :=
  Cert.Spec.out (V c main_v78) (V c main_v68) (fun r => V c main_v12 (ix2 r 0)) (V c main_arg7) (fun q => V c main_v79 (ix2 0 q)) (V c main_arg9)

/-- An entry of output block t sits in row 4000·t + p of the output array. -/
theorem emb_out (t : Fin cfg4.N) (p : Fin 4000) (q : Fin 64) (r : Fin 100000) (hr : r.val = t.val * 4000 + p.val) :
    ((cfg4.win 6).blk t).view.emb (ix2 p q) = ix2 r q := by
  obtain ⟨-, -, -, -, -, -, -, -, -, -, -, -, e0, e1⟩ := idx_facts t
  refine funext fun a => Fin.ext ?_
  match a with
  | ⟨0, _⟩ => show win4_6.index t (0 : Fin 2) * 4000 + 1 * p.val = r.val; omega
  | ⟨1, _⟩ => show win4_6.index t (1 : Fin 2) * 64 + 1 * q.val = q.val; omega

/-- The body's result at (p, q) of block t is the output layer's entry at (4000·t + p, q): the logits of the block's
    row are the logits of the whole arrays' row, and the log-softmax is taken along that row alone. -/
theorem pay_blk (c : Dev nD) (t : Fin cfg4.N) (p : Fin 4000) (q : Fin 64) (r : Fin 100000) (hr : r.val = t.val * 4000 + p.val) :
    k4_pay1 (F := Ideal) (iblk4 V c 0 t) (iblk4 V c 2 t) (iblk4 V c 1 t) (iblk4 V c 3 t) (iblk4 V c 5 t) (iblk4 V c 4 t) (ix2 p q)
      = Cert.Spec.out (V c main_v78) (V c main_v68) (fun r => V c main_v12 (ix2 r 0)) (V c main_arg7) (fun q => V c main_v79 (ix2 0 q)) (V c main_arg9) (ix2 r q) := by
  refine (Cert.KPay.pay4 _ _ _ _ _ _ p q).trans ?_
  show _ = Cert.Spec.outAt (V c main_v78) (V c main_v68) (fun r => V c main_v12 (ix2 r 0)) (V c main_arg7) (fun q => V c main_v79 (ix2 0 q)) (V c main_arg9) r q
  unfold Cert.Spec.outAt Cert.Spec.affAt
  simp only [fun k => blk0 V c t p k r hr, fun k => blk1 V c t p k r hr, blk2 V c t p r hr, blk3 V c t, blk4 V c t, blk5 V c t]

/-- What point t writes back is block t of `G`. -/
theorem flushed_eq (c : Dev nD) (t : Fin cfg4.N) :
    (dat4 V c).flushed 6 t = ((cfg4.win 6).blk t).view.read (Elt Ideal) (G V c) := by
  show (cfg4.win 6).cut (grid4.coords t) ((dat4 V c).after 6 t) = _
  rw [after4_6]
  unfold out4_6
  rw [View.canon_unit_zero hz]
  simp only [View.ld_unit_zero (S := S4000x128) hz, View.ld_unit_zero (S := S4000x1) hz, View.ld_unit_zero (S := S64x128) hz, View.ld_unit_zero (S := S1x64) hz]
  funext y
  obtain ⟨p, q, rfl⟩ : ∃ (p : Fin 4000) (q : Fin 64), y = ix2 p q := ⟨y 0, y 1, eq_ix2 y⟩
  show k4_pay1 (F := Ideal) (iblk4 V c 0 t) (iblk4 V c 2 t) (iblk4 V c 1 t) (iblk4 V c 3 t) (iblk4 V c 5 t) (iblk4 V c 4 t) (ix2 p q) = G V c (((cfg4.win 6).blk t).view.emb (ix2 p q))
  rw [emb_out t p q ⟨t.val * 4000 + p.val, row_lt t p⟩ rfl]
  exact pay_blk V c t p q ⟨t.val * 4000 + p.val, row_lt t p⟩ rfl

/-- An index of the output array is in point t's block iff each coordinate is in the block's range. -/
theorem mem_blk (t : Fin cfg4.N) (i : S100000x64.Idx) :
    i ∈ ((cfg4.win 6).blk t).view.set ↔ ∀ a : Fin 2, win4_6.index t a * S4000x64.size a ≤ (i a).val ∧ (i a).val < win4_6.index t a * S4000x64.size a + S4000x64.size a := by
  show i ∈ ((View.whole main_v80).slice (win4_6.rect t)).set ↔ _
  rw [View.set_slice_whole, Rect.mem_set_unit]
  exact Iff.rfl

/-- Row r lies in the block of point r / 4000: the 25 blocks cover the array. -/
theorem cover (i : S100000x64.Idx) : ∃ t : Fin cfg4.N, (cfg4.win 6).flush t = true ∧ i ∈ ((cfg4.win 6).blk t).view.set := by
  have hi0 : (i 0).val < 100000 := (i 0).isLt
  have hi1 : (i 1).val < 64 := (i 1).isLt
  have hN : cfg4.N = 25 := N_4
  refine ⟨⟨(i 0).val / 4000, by rw [hN]; omega⟩, flush4_6 _, ?_⟩
  rw [mem_blk]
  obtain ⟨-, -, -, -, -, -, -, -, -, -, -, -, e0, e1⟩ := idx_facts ⟨(i 0).val / 4000, by rw [hN]; omega⟩
  intro a
  match a with
  | ⟨0, _⟩ => show win4_6.index _ (0 : Fin 2) * 4000 ≤ (i 0).val ∧ (i 0).val < win4_6.index _ (0 : Fin 2) * 4000 + 4000; rw [e0]; show (i 0).val / 4000 * 4000 ≤ (i 0).val ∧ (i 0).val < (i 0).val / 4000 * 4000 + 4000; omega
  | ⟨1, _⟩ => show win4_6.index _ (1 : Fin 2) * 64 ≤ (i 1).val ∧ (i 1).val < win4_6.index _ (1 : Fin 2) * 64 + 64; rw [e1]; omega

/-- After the launch the output array is `G` of the arrays the launch found. -/
theorem final (c : Dev nD) : (dat4 V c).arrAt 6 cfg4.N = G V c :=
  (dat4 V c).arrAt_eq_of_cover 6 (G V c) (fun t _ => flushed_eq V c t) cover

end Cert.KernelIdeal.Reg4

end
-- ==== Proof.RefStages.lean ====
/-
  The host program computes, stage by stage, the network written in Spec: the projected input x · Wpᵀ + bp,
  its relu, and three hidden layers relu((s ⊙ d) · Wlᵀ + bl + h · Wrᵀ) + (1/5) · proj, where s is the array
  of neighbour sums and d the reciprocal in-degrees.  Each stage is read entry by entry: a product of matrices
  is the finite sum over the contracted coordinate, a transpose swaps the two coordinates of the index it is
  read at, a broadcast forgets the coordinates it repeats along.  Both sides are then the same sums of the
  same terms, in the same grouping; nothing is reassociated.  The neighbour sums s stay opaque arrays.
-/
import proofs.«179555_j16097537425900_1_alg».proof.Proof.RefRead
import proofs.«179555_j16097537425900_1_alg».proof.Proof.Spec
import Idealize.ShloMosaic.Lib.ValueIdx
import Idealize.ShloMosaic.Lib.Pipeline.Value
import Idealize.ShloMosaic.PureOps.Ideal.Laws

noncomputable section

namespace Cert.RefStages

open Idealize.ShloMosaic Idealize.ShloMosaic.ValueIdx Cert.ReferenceIdeal Cert.ReferenceIdeal.Read

variable (x0 : (⟨S100000x128, .f32⟩ : BufTy).Contents (Elt Ideal)) (x1 : (⟨S2x1600000, .i32⟩ : BufTy).Contents (Elt Ideal))
  (x2 : (⟨S128x128, .f32⟩ : BufTy).Contents (Elt Ideal)) (x3 : (⟨S128, .f32⟩ : BufTy).Contents (Elt Ideal))
  (x4 : (⟨S3x128x128, .f32⟩ : BufTy).Contents (Elt Ideal)) (x5 : (⟨S3x128, .f32⟩ : BufTy).Contents (Elt Ideal))
  (x6 : (⟨S3x128x128, .f32⟩ : BufTy).Contents (Elt Ideal))

/-! ## Index functions at an index given by its coordinates -/

/-- The left operand of a product of a 100000×128 array with a 128×C array is read at (r, k). -/
theorem lidx_eq (r : Fin 100000) (q k : Fin 128) : lidx_main_v14 (ix2 r q) k = ix2 r k :=
  funext fun a => Fin.ext (by match a with | ⟨0, _⟩ => rfl | ⟨1, _⟩ => rfl)

/-- The transposed right operand, read at (k, q), is the operand at (q, k). -/
theorem ridx_tr_eq (r : Fin 100000) (q k : Fin 128) : idx_main_v13 (ridx_main_v14 (ix2 r q) k) = ix2 q k :=
  funext fun a => Fin.ext (by match a with | ⟨0, _⟩ => rfl | ⟨1, _⟩ => rfl)

/-- A row vector broadcast along the rows is read at the column. -/
theorem bias_idx_eq (r : Fin 100000) (q : Fin 128) : idx_main_v15 (idx_main_v16 (ix2 r q)) = ix1 q :=
  funext fun a => Fin.ext (by match a with | ⟨0, _⟩ => rfl)

/-! ## The projection -/

/-- Entry (r, q) of the projected input. -/
theorem proj_apply (r : Fin 100000) (q : Fin 128) :
    val_main_v17 (F := Ideal) x0 x2 x3 (ix2 r q) = Cert.Spec.projAt x0 x2 (fun q => x3 (ix1 q)) r q := by
  rw [val_main_v17_apply, val_main_v14_apply, val_main_v16_apply, val_main_v15_apply]
  simp -implicitDefEqProofs only [val_main_v13_apply, lidx_eq, ridx_tr_eq, bias_idx_eq, Ideal.addf_def]
  rfl

theorem proj_eq : val_main_v17 (F := Ideal) x0 x2 x3 = Cert.Spec.proj x0 x2 (fun q => x3 (ix1 q)) := by
  funext i
  obtain ⟨r, q, rfl⟩ : ∃ (r : Fin 100000) (q : Fin 128), i = ix2 r q := ⟨i 0, i 1, eq_ix2 i⟩
  exact proj_apply x0 x2 x3 r q

theorem projRelu_eq : val_main_v18 (F := Ideal) x0 x2 x3 = Cert.Spec.projRelu x0 x2 (fun q => x3 (ix1 q)) := by
  funext i
  obtain ⟨r, q, rfl⟩ : ∃ (r : Fin 100000) (q : Fin 128), i = ix2 r q := ⟨i 0, i 1, eq_ix2 i⟩
  rw [val_main_v18_apply, proj_apply, val_main_call0_v0_apply, val_main_call0_cst_apply]
  rfl

/-! ## Hidden layer 1 -/

theorem l1_lidx_l (r : Fin 100000) (q k : Fin 128) : lidx_main_v38 (ix2 r q) k = ix2 r k :=
  funext fun a => Fin.ext (by match a with | ⟨0, _⟩ => rfl | ⟨1, _⟩ => rfl)
theorem l1_deg (r : Fin 100000) (k : Fin 128) : idx_main_v12 (idx_main_v35 (ix2 r k)) = ix1 r :=
  funext fun a => Fin.ext (by match a with | ⟨0, _⟩ => rfl)
theorem l1_ridx_l (r : Fin 100000) (q k : Fin 128) : idx_main_v37 (ridx_main_v38 (ix2 r q) k) = ix2 q k :=
  funext fun a => Fin.ext (by match a with | ⟨0, _⟩ => rfl | ⟨1, _⟩ => rfl)
theorem l1_bias (r : Fin 100000) (q : Fin 128) : idx_main_v39 (idx_main_v40 (ix2 r q)) = ix1 q :=
  funext fun a => Fin.ext (by match a with | ⟨0, _⟩ => rfl)
theorem l1_lidx_r (r : Fin 100000) (q k : Fin 128) : lidx_main_v43 (ix2 r q) k = ix2 r k :=
  funext fun a => Fin.ext (by match a with | ⟨0, _⟩ => rfl | ⟨1, _⟩ => rfl)
theorem l1_ridx_r (r : Fin 100000) (q k : Fin 128) : idx_main_v42 (ridx_main_v43 (ix2 r q) k) = ix2 q k :=
  funext fun a => Fin.ext (by match a with | ⟨0, _⟩ => rfl | ⟨1, _⟩ => rfl)

/-- Entry (r, q) of hidden layer 1. -/
theorem hidden1_apply (r : Fin 100000) (q : Fin 128) :
    val_main_v48 (F := Ideal) x0 x1 x2 x3 x4 x5 x6 (ix2 r q)
      = Cert.Spec.hiddenAt (val_main_v34 (F := Ideal) x0 x1 x2 x3) (val_main_v18 (F := Ideal) x0 x2 x3) (val_main_v17 (F := Ideal) x0 x2 x3)
          (fun r => val_main_v11 (F := Ideal) x1 (ix1 r)) (val_main_v20 (F := Ideal) x4) (fun q => val_main_v22 (F := Ideal) x5 (ix1 q)) (val_main_v24 (F := Ideal) x6) r q := by
  rw [val_main_v48_apply, val_main_v45_apply, val_main_v44_apply, val_main_v41_apply, val_main_v38_apply,
    val_main_v40_apply, val_main_v39_apply, val_main_v43_apply, val_main_call1_v0_apply, val_main_call1_cst_apply,
    val_main_v47_apply, val_main_v46_apply, val_main_cst_5_apply]
  simp -implicitDefEqProofs only [val_main_v36_apply, val_main_v35_apply, val_main_v12_apply, val_main_v37_apply, val_main_v42_apply,
    l1_lidx_l, l1_deg, l1_ridx_l, l1_bias, l1_lidx_r, l1_ridx_r,
    Ideal.addf_def, Ideal.mulf_def, Ideal.maximumf_def, Ideal.ofBits_def]
  unfold Cert.Spec.hiddenAt Cert.Spec.affAt
  rfl

theorem hidden1_eq :
    val_main_v48 (F := Ideal) x0 x1 x2 x3 x4 x5 x6
      = Cert.Spec.hidden (val_main_v34 (F := Ideal) x0 x1 x2 x3) (val_main_v18 (F := Ideal) x0 x2 x3) (val_main_v17 (F := Ideal) x0 x2 x3)
          (fun r => val_main_v11 (F := Ideal) x1 (ix1 r)) (val_main_v20 (F := Ideal) x4) (fun q => val_main_v22 (F := Ideal) x5 (ix1 q)) (val_main_v24 (F := Ideal) x6) := by
  funext i
  obtain ⟨r, q, rfl⟩ : ∃ (r : Fin 100000) (q : Fin 128), i = ix2 r q := ⟨i 0, i 1, eq_ix2 i⟩
  exact hidden1_apply x0 x1 x2 x3 x4 x5 x6 r q

/-! ## Hidden layer 2 -/

theorem l2_lidx_l (r : Fin 100000) (q k : Fin 128) : lidx_main_v68 (ix2 r q) k = ix2 r k :=
  funext fun a => Fin.ext (by match a with | ⟨0, _⟩ => rfl | ⟨1, _⟩ => rfl)
theorem l2_deg (r : Fin 100000) (k : Fin 128) : idx_main_v12 (idx_main_v65 (ix2 r k)) = ix1 r :=
  funext fun a => Fin.ext (by match a with | ⟨0, _⟩ => rfl)
theorem l2_ridx_l (r : Fin 100000) (q k : Fin 128) : idx_main_v67 (ridx_main_v68 (ix2 r q) k) = ix2 q k :=
  funext fun a => Fin.ext (by match a with | ⟨0, _⟩ => rfl | ⟨1, _⟩ => rfl)
theorem l2_bias (r : Fin 100000) (q : Fin 128) : idx_main_v69 (idx_main_v70 (ix2 r q)) = ix1 q :=
  funext fun a => Fin.ext (by match a with | ⟨0, _⟩ => rfl)
theorem l2_lidx_r (r : Fin 100000) (q k : Fin 128) : lidx_main_v73 (ix2 r q) k = ix2 r k :=
  funext fun a => Fin.ext (by match a with | ⟨0, _⟩ => rfl | ⟨1, _⟩ => rfl)
theorem l2_ridx_r (r : Fin 100000) (q k : Fin 128) : idx_main_v72 (ridx_main_v73 (ix2 r q) k) = ix2 q k :=
  funext fun a => Fin.ext (by match a with | ⟨0, _⟩ => rfl | ⟨1, _⟩ => rfl)

/-- Entry (r, q) of hidden layer 2. -/
theorem hidden2_apply (r : Fin 100000) (q : Fin 128) :
    val_main_v78 (F := Ideal) x0 x1 x2 x3 x4 x5 x6 (ix2 r q)
      = Cert.Spec.hiddenAt (val_main_v64 (F := Ideal) x0 x1 x2 x3 x4 x5 x6) (val_main_v48 (F := Ideal) x0 x1 x2 x3 x4 x5 x6) (val_main_v17 (F := Ideal) x0 x2 x3)
          (fun r => val_main_v11 (F := Ideal) x1 (ix1 r)) (val_main_v50 (F := Ideal) x4) (fun q => val_main_v52 (F := Ideal) x5 (ix1 q)) (val_main_v54 (F := Ideal) x6) r q := by
  rw [val_main_v78_apply, val_main_v75_apply, val_main_v74_apply, val_main_v71_apply, val_main_v68_apply,
    val_main_v70_apply, val_main_v69_apply, val_main_v73_apply, val_main_call2_v0_apply, val_main_call2_cst_apply,
    val_main_v77_apply, val_main_v76_apply, val_main_cst_9_apply]
  simp -implicitDefEqProofs only [val_main_v66_apply, val_main_v65_apply, val_main_v12_apply, val_main_v67_apply, val_main_v72_apply,
    l2_lidx_l, l2_deg, l2_ridx_l, l2_bias, l2_lidx_r, l2_ridx_r,
    Ideal.addf_def, Ideal.mulf_def, Ideal.maximumf_def, Ideal.ofBits_def]
  unfold Cert.Spec.hiddenAt Cert.Spec.affAt
  rfl

theorem hidden2_eq :
    val_main_v78 (F := Ideal) x0 x1 x2 x3 x4 x5 x6
      = Cert.Spec.hidden (val_main_v64 (F := Ideal) x0 x1 x2 x3 x4 x5 x6) (val_main_v48 (F := Ideal) x0 x1 x2 x3 x4 x5 x6) (val_main_v17 (F := Ideal) x0 x2 x3)
          (fun r => val_main_v11 (F := Ideal) x1 (ix1 r)) (val_main_v50 (F := Ideal) x4) (fun q => val_main_v52 (F := Ideal) x5 (ix1 q)) (val_main_v54 (F := Ideal) x6) := by
  funext i
  obtain ⟨r, q, rfl⟩ : ∃ (r : Fin 100000) (q : Fin 128), i = ix2 r q := ⟨i 0, i 1, eq_ix2 i⟩
  exact hidden2_apply x0 x1 x2 x3 x4 x5 x6 r q

/-! ## Hidden layer 3 -/

theorem l3_lidx_l (r : Fin 100000) (q k : Fin 128) : lidx_main_v98 (ix2 r q) k = ix2 r k :=
  funext fun a => Fin.ext (by match a with | ⟨0, _⟩ => rfl | ⟨1, _⟩ => rfl)
theorem l3_deg (r : Fin 100000) (k : Fin 128) : idx_main_v12 (idx_main_v95 (ix2 r k)) = ix1 r :=
  funext fun a => Fin.ext (by match a with | ⟨0, _⟩ => rfl)
theorem l3_ridx_l (r : Fin 100000) (q k : Fin 128) : idx_main_v97 (ridx_main_v98 (ix2 r q) k) = ix2 q k :=
  funext fun a => Fin.ext (by match a with | ⟨0, _⟩ => rfl | ⟨1, _⟩ => rfl)
theorem l3_bias (r : Fin 100000) (q : Fin 128) : idx_main_v99 (idx_main_v100 (ix2 r q)) = ix1 q :=
  funext fun a => Fin.ext (by match a with | ⟨0, _⟩ => rfl)
theorem l3_lidx_r (r : Fin 100000) (q k : Fin 128) : lidx_main_v103 (ix2 r q) k = ix2 r k :=
  funext fun a => Fin.ext (by match a with | ⟨0, _⟩ => rfl | ⟨1, _⟩ => rfl)
theorem l3_ridx_r (r : Fin 100000) (q k : Fin 128) : idx_main_v102 (ridx_main_v103 (ix2 r q) k) = ix2 q k :=
  funext fun a => Fin.ext (by match a with | ⟨0, _⟩ => rfl | ⟨1, _⟩ => rfl)

/-- Entry (r, q) of hidden layer 3. -/
theorem hidden3_apply (r : Fin 100000) (q : Fin 128) :
    val_main_v108 (F := Ideal) x0 x1 x2 x3 x4 x5 x6 (ix2 r q)
      = Cert.Spec.hiddenAt (val_main_v94 (F := Ideal) x0 x1 x2 x3 x4 x5 x6) (val_main_v78 (F := Ideal) x0 x1 x2 x3 x4 x5 x6) (val_main_v17 (F := Ideal) x0 x2 x3)
          (fun r => val_main_v11 (F := Ideal) x1 (ix1 r)) (val_main_v80 (F := Ideal) x4) (fun q => val_main_v82 (F := Ideal) x5 (ix1 q)) (val_main_v84 (F := Ideal) x6) r q := by
  rw [val_main_v108_apply, val_main_v105_apply, val_main_v104_apply, val_main_v101_apply, val_main_v98_apply,
    val_main_v100_apply, val_main_v99_apply, val_main_v103_apply, val_main_call3_v0_apply, val_main_call3_cst_apply,
    val_main_v107_apply, val_main_v106_apply, val_main_cst_13_apply]
  simp -implicitDefEqProofs only [val_main_v96_apply, val_main_v95_apply, val_main_v12_apply, val_main_v97_apply, val_main_v102_apply,
    l3_lidx_l, l3_deg, l3_ridx_l, l3_bias, l3_lidx_r, l3_ridx_r,
    Ideal.addf_def, Ideal.mulf_def, Ideal.maximumf_def, Ideal.ofBits_def]
  unfold Cert.Spec.hiddenAt Cert.Spec.affAt
  rfl

theorem hidden3_eq :
    val_main_v108 (F := Ideal) x0 x1 x2 x3 x4 x5 x6
      = Cert.Spec.hidden (val_main_v94 (F := Ideal) x0 x1 x2 x3 x4 x5 x6) (val_main_v78 (F := Ideal) x0 x1 x2 x3 x4 x5 x6) (val_main_v17 (F := Ideal) x0 x2 x3)
          (fun r => val_main_v11 (F := Ideal) x1 (ix1 r)) (val_main_v80 (F := Ideal) x4) (fun q => val_main_v82 (F := Ideal) x5 (ix1 q)) (val_main_v84 (F := Ideal) x6) := by
  funext i
  obtain ⟨r, q, rfl⟩ : ∃ (r : Fin 100000) (q : Fin 128), i = ix2 r q := ⟨i 0, i 1, eq_ix2 i⟩
  exact hidden3_apply x0 x1 x2 x3 x4 x5 x6 r q

end Cert.RefStages

end
-- ==== Proof.RefOut.lean ====
/-
  The reference's last stage is the output layer of the network written in Spec.

  Read entry by entry: the logits are the affine combination (s ⊙ d) · Wlᵀ + bl + h · Wrᵀ with 64 columns, the two
  products finite sums over the 128 shared columns with the transposes read back; the row maximum is a fold of
  max from minus infinity over the row's 64 logits, and taking the maximum of minus infinity with it changes
  nothing, because the start value is below every fold from it; the row sum of the exponentials starts from zero;
  and the result is the shifted logit minus the logarithm of that sum.  The neighbour sums and the last hidden
  state stay opaque arrays.
-/
import proofs.«179555_j16097537425900_1_alg».proof.Proof.RefRead
import proofs.«179555_j16097537425900_1_alg».proof.Proof.Spec
import Idealize.ShloMosaic.Lib.ValueIdx
import Idealize.ShloMosaic.Lib.Pipeline.Value
import Idealize.ShloMosaic.PureOps.Ideal.Laws

set_option maxHeartbeats 400000

noncomputable section

namespace Cert.RefOut

open Idealize.ShloMosaic Idealize.ShloMosaic.ValueIdx Cert.ReferenceIdeal Cert.ReferenceIdeal.Gen Cert.ReferenceIdeal.Read

variable (x0 : (⟨S100000x128, .f32⟩ : BufTy).Contents (Elt Ideal)) (x1 : (⟨S2x1600000, .i32⟩ : BufTy).Contents (Elt Ideal))
  (x2 : (⟨S128x128, .f32⟩ : BufTy).Contents (Elt Ideal)) (x3 : (⟨S128, .f32⟩ : BufTy).Contents (Elt Ideal))
  (x4 : (⟨S3x128x128, .f32⟩ : BufTy).Contents (Elt Ideal)) (x5 : (⟨S3x128, .f32⟩ : BufTy).Contents (Elt Ideal))
  (x6 : (⟨S3x128x128, .f32⟩ : BufTy).Contents (Elt Ideal)) (x7 : (⟨S64x128, .f32⟩ : BufTy).Contents (Elt Ideal))
  (x8 : (⟨S64, .f32⟩ : BufTy).Contents (Elt Ideal)) (x9 : (⟨S64x128, .f32⟩ : BufTy).Contents (Elt Ideal))

/-! ## The index functions at an index given by its coordinates -/

theorem i_lhs1 (r : Fin 100000) (q : Fin 64) (k : Fin 128) : lidx_main_v122 (ix2 r q) k = ix2 r k :=
  funext fun a => Fin.ext (by match a with | ⟨0, _⟩ => rfl | ⟨1, _⟩ => rfl)
theorem i_rhs1 (r : Fin 100000) (q : Fin 64) (k : Fin 128) : idx_main_v121 (ridx_main_v122 (ix2 r q) k) = ix2 q k :=
  funext fun a => Fin.ext (by match a with | ⟨0, _⟩ => rfl | ⟨1, _⟩ => rfl)
theorem i_deg (r : Fin 100000) (k : Fin 128) : idx_main_v12 (idx_main_v119 (ix2 r k)) = ix1 r :=
  funext fun a => Fin.ext (by match a with | ⟨0, _⟩ => rfl)
theorem i_bias (r : Fin 100000) (q : Fin 64) : idx_main_v123 (idx_main_v124 (ix2 r q)) = ix1 q :=
  funext fun a => Fin.ext (by match a with | ⟨0, _⟩ => rfl)
theorem i_lhs2 (r : Fin 100000) (q : Fin 64) (k : Fin 128) : lidx_main_v127 (ix2 r q) k = ix2 r k :=
  funext fun a => Fin.ext (by match a with | ⟨0, _⟩ => rfl | ⟨1, _⟩ => rfl)
theorem i_rhs2 (r : Fin 100000) (q : Fin 64) (k : Fin 128) : idx_main_v126 (ridx_main_v127 (ix2 r q) k) = ix2 q k :=
  funext fun a => Fin.ext (by match a with | ⟨0, _⟩ => rfl | ⟨1, _⟩ => rfl)
theorem i_max (r : Fin 100000) (q : Fin 64) : idx_main_call4_v3 (idx_main_call4_v4 (ix2 r q)) = ix1 r :=
  funext fun a => Fin.ext (by match a with | ⟨0, _⟩ => rfl)
theorem i_sum (r : Fin 100000) (q : Fin 64) : idx_main_call4_v8 (idx_main_call4_v10 (ix2 r q)) = ix1 r :=
  funext fun a => Fin.ext (by match a with | ⟨0, _⟩ => rfl)
theorem i_row (r : Fin 100000) (k : Fin 64) : idx_main_call4_v7 (ix1 r) k = ix2 r k :=
  funext fun a => Fin.ext (by match a with | ⟨0, _⟩ => rfl | ⟨1, _⟩ => rfl)

/-! ## The logits -/

/-- Entry (r, q) of the logits. -/
theorem logit_apply (r : Fin 100000) (q : Fin 64) :
    val_main_v128 (F := Ideal) x0 x1 x2 x3 x4 x5 x6 x7 x8 x9 (ix2 r q) = Cert.Spec.affAt (val_main_v118 (F := Ideal) x0 x1 x2 x3 x4 x5 x6) (val_main_v108 (F := Ideal) x0 x1 x2 x3 x4 x5 x6) (fun r => val_main_v11 (F := Ideal) x1 (ix1 r)) x7 (fun q => x8 (ix1 q)) x9 r q := by
  rw [val_main_v128_apply, val_main_v125_apply, val_main_v122_apply, val_main_v124_apply, val_main_v123_apply, val_main_v127_apply]
  simp -implicitDefEqProofs only [val_main_v120_apply, val_main_v119_apply, val_main_v12_apply, val_main_v121_apply, val_main_v126_apply,
    i_lhs1, i_rhs1, i_deg, i_bias, i_lhs2, i_rhs2, Ideal.addf_def, Ideal.mulf_def]
  generalize val_main_v118 (F := Ideal) x0 x1 x2 x3 x4 x5 x6 = s
  generalize val_main_v108 (F := Ideal) x0 x1 x2 x3 x4 x5 x6 = h
  generalize val_main_v11 (F := Ideal) x1 = d
  rfl

/-! ## The row maximum -/

/-- The start value of a fold of max is below the fold, so taking the maximum with it changes nothing. -/
theorem max_fold_self (a : EReal) (f : Fin 64 → EReal) :
    max a ((Finset.univ : Finset (Fin 64)).fold max a f) = (Finset.univ : Finset (Fin 64)).fold max a f :=
  max_eq_right ((Finset.le_fold_max a).mpr (Or.inl le_rfl))

/-- A 100000×64 array loses its second axis when reduced along it. -/
theorem red_fact : S100000x64.Reduces [1] S100000 := by decide

/-- Row r with the column k put back is the index (r, k). -/
theorem lift_row (h : S100000x64.Reduces [1] S100000) (r : Fin 100000) (k : Fin (S100000x64.size 1)) :
    h.lift (ix1 r) k = ix2 r (⟨k.val, k.isLt⟩ : Fin 64) := by
  funext c; apply Fin.ext
  match c with
  | ⟨0, _⟩ => rfl
  | ⟨1, _⟩ => rfl

/-- Reading an array along the row r after putting the column back is reading it at (r, ·). -/
theorem comp_lift_row (y : S100000x64.Idx → Ideal .f32) (r : Fin 100000) :
    (y ∘ red_fact.lift (ix1 r)) = fun k : Fin 64 => y (ix2 r k) :=
  funext fun k => congrArg y (lift_row red_fact r k)

/-- The maximum along the second axis of any 100000×64 array, at row r, is the fold of max over the row's 64 entries
    from the start value. -/
theorem reduce_row (y : S100000x64.Idx → Ideal .f32) (init : S_.Idx → Ideal .f32) (h' : S100000x64.ReducesTo [1] S100000)
    (hu : 0 < S_.numel) (r : Fin 100000) :
    Host.reduce (FloatOps.maximumf (F := Ideal) (φ := .f32)) y init h' hu (ix1 r)
      = (Finset.univ : Finset (Fin 64)).fold max (init (Shape.Idx.first hu)) (fun k => y (ix2 r k)) := by
  refine (Host.reduce_eq_fold_single (FloatOps.maximumf (F := Ideal) (φ := .f32)) y init h' red_fact hu (ix1 r)).trans ?_
  rw [comp_lift_row y r]
  rfl

/-- The row maximum of the logits, before the maximum with −∞ is taken. -/
theorem rowmax0_apply (r : Fin 100000) :
    val_main_call4_v0 (F := Ideal) x0 x1 x2 x3 x4 x5 x6 x7 x8 x9 (ix1 r)
      = (Finset.univ : Finset (Fin 64)).fold max (val_main_call4_cst (F := Ideal) (Shape.Idx.first h_S_))
          (fun k => val_main_v128 (F := Ideal) x0 x1 x2 x3 x4 x5 x6 x7 x8 x9 (ix2 r k)) := by
  unfold val_main_call4_v0
  generalize val_main_v128 (F := Ideal) x0 x1 x2 x3 x4 x5 x6 x7 x8 x9 = Lg
  exact reduce_row Lg _ _ _ r

/-- The row maximum the reference subtracts, at row r. -/
theorem rowmax_apply (r : Fin 100000) :
    val_main_call4_v2 (F := Ideal) x0 x1 x2 x3 x4 x5 x6 x7 x8 x9 (ix1 r)
      = (Finset.univ : Finset (Fin 64)).fold max Cert.Spec.negInf (fun k => val_main_v128 (F := Ideal) x0 x1 x2 x3 x4 x5 x6 x7 x8 x9 (ix2 r k)) := by
  rw [val_main_call4_v2_apply, val_main_call4_v1_apply, val_main_call4_cst_0_apply, rowmax0_apply, val_main_call4_cst_apply,
    Ideal.ofBits_def, Ideal.maximumf_def]
  generalize val_main_v128 (F := Ideal) x0 x1 x2 x3 x4 x5 x6 x7 x8 x9 = Lg
  exact max_fold_self _ _

/-! ## The last stage -/

/-- Entry (r, q) of the reference's result. -/
theorem out_apply (r : Fin 100000) (q : Fin 64) :
    val_main_v129 (F := Ideal) x0 x1 x2 x3 x4 x5 x6 x7 x8 x9 (ix2 r q) = Cert.Spec.outAt (val_main_v118 (F := Ideal) x0 x1 x2 x3 x4 x5 x6) (val_main_v108 (F := Ideal) x0 x1 x2 x3 x4 x5 x6) (fun r => val_main_v11 (F := Ideal) x1 (ix1 r)) x7 (fun q => x8 (ix1 q)) x9 r q := by
  rw [val_main_v129_apply, val_main_call4_v10_apply, val_main_call4_v9_apply, val_main_call4_v8_apply, val_main_call4_v7_apply]
  simp -implicitDefEqProofs only [val_main_call4_v6_apply, val_main_call4_v5_apply, val_main_call4_v4_apply, val_main_call4_v3_apply,
    val_main_call4_cst_1_apply, i_max, i_sum, i_row, rowmax_apply, logit_apply,
    Ideal.subf_def, Ideal.hostUnary_exp_def, Ideal.hostUnary_log_def]
  generalize val_main_v118 (F := Ideal) x0 x1 x2 x3 x4 x5 x6 = s
  generalize val_main_v108 (F := Ideal) x0 x1 x2 x3 x4 x5 x6 = h
  generalize val_main_v11 (F := Ideal) x1 = d
  unfold Cert.Spec.outAt Cert.Spec.logSoftmaxAt
  rw [show FloatOps.ofBits (F := Ideal) .f32 0x00000000#32 = (0 : EReal) from Ideal.ofBits_zero_f32, zero_add]

theorem out_eq :
    val_main_v129 (F := Ideal) x0 x1 x2 x3 x4 x5 x6 x7 x8 x9 = Cert.Spec.out (val_main_v118 (F := Ideal) x0 x1 x2 x3 x4 x5 x6) (val_main_v108 (F := Ideal) x0 x1 x2 x3 x4 x5 x6) (fun r => val_main_v11 (F := Ideal) x1 (ix1 r)) x7 (fun q => x8 (ix1 q)) x9 := by
  funext i
  obtain ⟨r, q, rfl⟩ : ∃ (r : Fin 100000) (q : Fin 64), i = ix2 r q := ⟨i 0, i 1, eq_ix2 i⟩
  exact out_apply x0 x1 x2 x3 x4 x5 x6 x7 x8 x9 r q

end Cert.RefOut

end
-- ==== Proof.KChain.lean ====
/-
  The contents of the buffers at each boundary of the idealized kernel program, named by the reference's stages.

  The program alternates stretches of host operations with five launches.  Walking the boundaries in order: after
  the first stretch the source and destination index vectors, the reciprocal in-degrees and the reshaped bias are
  the values the reference computes from the same arguments by the same operations; each launch leaves in its
  output array the layer function of the arrays it found (one module per launch), which the reference's stage is as
  well; each later stretch gathers the rows of the current hidden state along the edges and adds them up by
  destination with the very operations of the reference, applied to equal arrays, and slices the layer's weights
  out of the stacked arguments.  So the last launch's output is the reference's result, as a function of the
  arguments.
-/
import proofs.«179555_j16097537425900_1_alg».proof.Proof.Gen.KernelIdeal.Frame
import proofs.«179555_j16097537425900_1_alg».proof.Proof.Reg0
import proofs.«179555_j16097537425900_1_alg».proof.Proof.Reg1
import proofs.«179555_j16097537425900_1_alg».proof.Proof.Reg2
import proofs.«179555_j16097537425900_1_alg».proof.Proof.Reg3
import proofs.«179555_j16097537425900_1_alg».proof.Proof.Reg4
import proofs.«179555_j16097537425900_1_alg».proof.Proof.RefStages
import proofs.«179555_j16097537425900_1_alg».proof.Proof.RefOut
import Idealize.ShloMosaic.Lib.ValueLayout
import Idealize.ShloMosaic.Lib.StableHlo.Run

set_option maxRecDepth 16384

noncomputable section

namespace Cert.KernelIdeal.Chain

open Cert.KernelIdeal Cert.KernelIdeal.Gen
open Idealize.ShloMosaic Idealize.ShloMosaic.TcCoe Idealize.ShloMosaic.ValueIdx
open Idealize.SL.Sem
open Idealize.ShloMosaic.Pipeline (Dat Cfg Window)
open Idealize.ShloMosaic.StableHlo
open Cert.ReferenceIdeal.Read

variable (m : (ℓ : Loc nD τ sig) → Buf (Elt Ideal) ℓ) (ρ : Dev nD → PrngReg) (c : Dev nD)

abbrev A0 := m ((c.tc : Thread nD τ).loc main_arg0)
abbrev A1 := m ((c.tc : Thread nD τ).loc main_arg1)
abbrev A2 := m ((c.tc : Thread nD τ).loc main_arg2)
abbrev A3 := m ((c.tc : Thread nD τ).loc main_arg3)
abbrev A4 := m ((c.tc : Thread nD τ).loc main_arg4)
abbrev A5 := m ((c.tc : Thread nD τ).loc main_arg5)
abbrev A6 := m ((c.tc : Thread nD τ).loc main_arg6)
abbrev A7 := m ((c.tc : Thread nD τ).loc main_arg7)
abbrev A8 := m ((c.tc : Thread nD τ).loc main_arg8)
abbrev A9 := m ((c.tc : Thread nD τ).loc main_arg9)

/-! ## Boundary 1 -/

theorem f1_arg0 : W1 m ρ c (Proc.devRef .tc main_arg0) = (A0 m c) := by
  show StableHlo.after hostOps0 (W0 m ρ c) (Proc.devRef .tc main_arg0) = _
  after_results
  try rfl

theorem f1_arg2 : W1 m ρ c (Proc.devRef .tc main_arg2) = (A2 m c) := by
  show StableHlo.after hostOps0 (W0 m ρ c) (Proc.devRef .tc main_arg2) = _
  after_results
  try rfl

theorem f1_v13 : W1 m ρ c (Proc.devRef .tc main_v13) = (shapeCast S1x128 ((A3 m c)) shapeCasts_S128_S1x128) := by
  show StableHlo.after hostOps0 (W0 m ρ c) (Proc.devRef .tc main_v13) = _
  after_results
  try rfl

theorem f1_v1 : W1 m ρ c (Proc.devRef .tc main_v1) = val_main_v1 (F := Ideal) (A1 m c) := by
  show StableHlo.after hostOps0 (W0 m ρ c) (Proc.devRef .tc main_v1) = _
  after_results
  try rfl

theorem f1_v3 : W1 m ρ c (Proc.devRef .tc main_v3) = val_main_v3 (F := Ideal) (A1 m c) := by
  show StableHlo.after hostOps0 (W0 m ρ c) (Proc.devRef .tc main_v3) = _
  after_results
  try rfl

theorem f1_v12 : W1 m ρ c (Proc.devRef .tc main_v12) = (shapeCast S100000x1 (val_main_v11 (F := Ideal) (A1 m c)) shapeCasts_S100000_S100000x1) := by
  show StableHlo.after hostOps0 (W0 m ρ c) (Proc.devRef .tc main_v12) = _
  after_results
  try rfl

theorem f1_arg4 : W1 m ρ c (Proc.devRef .tc main_arg4) = (A4 m c) := by
  show StableHlo.after hostOps0 (W0 m ρ c) (Proc.devRef .tc main_arg4) = _
  after_results
  try rfl

theorem f1_arg5 : W1 m ρ c (Proc.devRef .tc main_arg5) = (A5 m c) := by
  show StableHlo.after hostOps0 (W0 m ρ c) (Proc.devRef .tc main_arg5) = _
  after_results
  try rfl

theorem f1_arg6 : W1 m ρ c (Proc.devRef .tc main_arg6) = (A6 m c) := by
  show StableHlo.after hostOps0 (W0 m ρ c) (Proc.devRef .tc main_arg6) = _
  after_results
  try rfl

theorem f1_arg7 : W1 m ρ c (Proc.devRef .tc main_arg7) = (A7 m c) := by
  show StableHlo.after hostOps0 (W0 m ρ c) (Proc.devRef .tc main_arg7) = _
  after_results
  try rfl

theorem f1_arg8 : W1 m ρ c (Proc.devRef .tc main_arg8) = (A8 m c) := by
  show StableHlo.after hostOps0 (W0 m ρ c) (Proc.devRef .tc main_arg8) = _
  after_results
  try rfl

theorem f1_arg9 : W1 m ρ c (Proc.devRef .tc main_arg9) = (A9 m c) := by
  show StableHlo.after hostOps0 (W0 m ρ c) (Proc.devRef .tc main_arg9) = _
  after_results
  try rfl

/-! ## Boundary 2 -/

theorem f2_v14_0 : W2 m ρ c (Proc.devRef .tc main_v14_0) = val_main_v17 (F := Ideal) (A0 m c) (A2 m c) (A3 m c) := by
  refine (W2_arr m ρ c 3).trans ?_
  refine (Reg0.final3 (V1 m ρ) c).trans ?_
  dsimp only [Reg0.G3, V1]
  rw [f1_arg0 m ρ c, f1_arg2 m ρ c, f1_v13 m ρ c]
  simp only [fun q : Fin 128 => shapeCast_a_1a_apply ((A3 m c)) shapeCasts_S128_S1x128 0 q]
  exact (Cert.RefStages.proj_eq (A0 m c) (A2 m c) (A3 m c)).symm

theorem f2_v14_1 : W2 m ρ c (Proc.devRef .tc main_v14_1) = val_main_v18 (F := Ideal) (A0 m c) (A2 m c) (A3 m c) := by
  refine (W2_arr m ρ c 4).trans ?_
  refine (Reg0.final4 (V1 m ρ) c).trans ?_
  dsimp only [Reg0.G4, V1]
  rw [f1_arg0 m ρ c, f1_arg2 m ρ c, f1_v13 m ρ c]
  simp only [fun q : Fin 128 => shapeCast_a_1a_apply ((A3 m c)) shapeCasts_S128_S1x128 0 q]
  exact (Cert.RefStages.projRelu_eq (A0 m c) (A2 m c) (A3 m c)).symm

theorem f2_v1 : W2 m ρ c (Proc.devRef .tc main_v1) = val_main_v1 (F := Ideal) (A1 m c) :=
  (W2_of_ne m ρ c main_v1 (by decide)).trans (f1_v1 m ρ c)

theorem f2_v3 : W2 m ρ c (Proc.devRef .tc main_v3) = val_main_v3 (F := Ideal) (A1 m c) :=
  (W2_of_ne m ρ c main_v3 (by decide)).trans (f1_v3 m ρ c)

theorem f2_v12 : W2 m ρ c (Proc.devRef .tc main_v12) = (shapeCast S100000x1 (val_main_v11 (F := Ideal) (A1 m c)) shapeCasts_S100000_S100000x1) :=
  (W2_of_ne m ρ c main_v12 (by decide)).trans (f1_v12 m ρ c)

theorem f2_arg4 : W2 m ρ c (Proc.devRef .tc main_arg4) = (A4 m c) :=
  (W2_of_ne m ρ c main_arg4 (by decide)).trans (f1_arg4 m ρ c)

theorem f2_arg5 : W2 m ρ c (Proc.devRef .tc main_arg5) = (A5 m c) :=
  (W2_of_ne m ρ c main_arg5 (by decide)).trans (f1_arg5 m ρ c)

theorem f2_arg6 : W2 m ρ c (Proc.devRef .tc main_arg6) = (A6 m c) :=
  (W2_of_ne m ρ c main_arg6 (by decide)).trans (f1_arg6 m ρ c)

theorem f2_arg7 : W2 m ρ c (Proc.devRef .tc main_arg7) = (A7 m c) :=
  (W2_of_ne m ρ c main_arg7 (by decide)).trans (f1_arg7 m ρ c)

theorem f2_arg8 : W2 m ρ c (Proc.devRef .tc main_arg8) = (A8 m c) :=
  (W2_of_ne m ρ c main_arg8 (by decide)).trans (f1_arg8 m ρ c)

theorem f2_arg9 : W2 m ρ c (Proc.devRef .tc main_arg9) = (A9 m c) :=
  (W2_of_ne m ρ c main_arg9 (by decide)).trans (f1_arg9 m ρ c)

/-! ## Boundary 3 -/

set_option maxHeartbeats 2000000 in
theorem f3_v24 : W3 m ρ c (Proc.devRef .tc main_v24) = val_main_v34 (F := Ideal) (A0 m c) (A1 m c) (A2 m c) (A3 m c) := by
  show StableHlo.after hostOps1 (W2 m ρ c) (Proc.devRef .tc main_v24) = _
  after_results_simp
  rw [f2_v14_1 m ρ c, f2_v1 m ρ c, f2_v3 m ρ c]
  rfl

theorem f3_v14_1 : W3 m ρ c (Proc.devRef .tc main_v14_1) = val_main_v18 (F := Ideal) (A0 m c) (A2 m c) (A3 m c) := by
  show StableHlo.after hostOps1 (W2 m ρ c) (Proc.devRef .tc main_v14_1) = _
  after_results
  exact f2_v14_1 m ρ c

theorem f3_v14_0 : W3 m ρ c (Proc.devRef .tc main_v14_0) = val_main_v17 (F := Ideal) (A0 m c) (A2 m c) (A3 m c) := by
  show StableHlo.after hostOps1 (W2 m ρ c) (Proc.devRef .tc main_v14_0) = _
  after_results
  exact f2_v14_0 m ρ c

theorem f3_v12 : W3 m ρ c (Proc.devRef .tc main_v12) = (shapeCast S100000x1 (val_main_v11 (F := Ideal) (A1 m c)) shapeCasts_S100000_S100000x1) := by
  show StableHlo.after hostOps1 (W2 m ρ c) (Proc.devRef .tc main_v12) = _
  after_results
  exact f2_v12 m ρ c

theorem f3_v26 : W3 m ρ c (Proc.devRef .tc main_v26) = val_main_v20 (F := Ideal) (A4 m c) := by
  show StableHlo.after hostOps1 (W2 m ρ c) (Proc.devRef .tc main_v26) = _
  after_results
  rw [f2_arg4 m ρ c]
  rfl

theorem f3_v31 : W3 m ρ c (Proc.devRef .tc main_v31) = (shapeCast S1x128 (val_main_v22 (F := Ideal) (A5 m c)) shapeCasts_S128_S1x128) := by
  show StableHlo.after hostOps1 (W2 m ρ c) (Proc.devRef .tc main_v31) = _
  after_results
  rw [f2_arg5 m ρ c]
  rfl

theorem f3_v30 : W3 m ρ c (Proc.devRef .tc main_v30) = val_main_v24 (F := Ideal) (A6 m c) := by
  show StableHlo.after hostOps1 (W2 m ρ c) (Proc.devRef .tc main_v30) = _
  after_results
  rw [f2_arg6 m ρ c]
  rfl

theorem f3_v1 : W3 m ρ c (Proc.devRef .tc main_v1) = val_main_v1 (F := Ideal) (A1 m c) := by
  show StableHlo.after hostOps1 (W2 m ρ c) (Proc.devRef .tc main_v1) = _
  after_results
  exact f2_v1 m ρ c

theorem f3_v3 : W3 m ρ c (Proc.devRef .tc main_v3) = val_main_v3 (F := Ideal) (A1 m c) := by
  show StableHlo.after hostOps1 (W2 m ρ c) (Proc.devRef .tc main_v3) = _
  after_results
  exact f2_v3 m ρ c

theorem f3_arg4 : W3 m ρ c (Proc.devRef .tc main_arg4) = (A4 m c) := by
  show StableHlo.after hostOps1 (W2 m ρ c) (Proc.devRef .tc main_arg4) = _
  after_results
  exact f2_arg4 m ρ c

theorem f3_arg5 : W3 m ρ c (Proc.devRef .tc main_arg5) = (A5 m c) := by
  show StableHlo.after hostOps1 (W2 m ρ c) (Proc.devRef .tc main_arg5) = _
  after_results
  exact f2_arg5 m ρ c

theorem f3_arg6 : W3 m ρ c (Proc.devRef .tc main_arg6) = (A6 m c) := by
  show StableHlo.after hostOps1 (W2 m ρ c) (Proc.devRef .tc main_arg6) = _
  after_results
  exact f2_arg6 m ρ c

theorem f3_arg7 : W3 m ρ c (Proc.devRef .tc main_arg7) = (A7 m c) := by
  show StableHlo.after hostOps1 (W2 m ρ c) (Proc.devRef .tc main_arg7) = _
  after_results
  exact f2_arg7 m ρ c

theorem f3_arg8 : W3 m ρ c (Proc.devRef .tc main_arg8) = (A8 m c) := by
  show StableHlo.after hostOps1 (W2 m ρ c) (Proc.devRef .tc main_arg8) = _
  after_results
  exact f2_arg8 m ρ c

theorem f3_arg9 : W3 m ρ c (Proc.devRef .tc main_arg9) = (A9 m c) := by
  show StableHlo.after hostOps1 (W2 m ρ c) (Proc.devRef .tc main_arg9) = _
  after_results
  exact f2_arg9 m ρ c

/-! ## Boundary 4 -/

theorem f4_v32 : W4 m ρ c (Proc.devRef .tc main_v32) = val_main_v48 (F := Ideal) (A0 m c) (A1 m c) (A2 m c) (A3 m c) (A4 m c) (A5 m c) (A6 m c) := by
  refine (W4_arr m ρ c 7).trans ?_
  refine (Reg1.final (V3 m ρ) c).trans ?_
  dsimp only [Reg1.G, V3]
  rw [f3_v24 m ρ c, f3_v14_1 m ρ c, f3_v14_0 m ρ c, f3_v12 m ρ c, f3_v26 m ρ c, f3_v31 m ρ c, f3_v30 m ρ c]
  simp only [fun q : Fin 128 => shapeCast_a_1a_apply (val_main_v22 (F := Ideal) (A5 m c)) shapeCasts_S128_S1x128 0 q, fun r : Fin 100000 => Cert.KPay.shapeCast_a_a1_apply (val_main_v11 (F := Ideal) (A1 m c)) shapeCasts_S100000_S100000x1 r 0]
  exact (Cert.RefStages.hidden1_eq (A0 m c) (A1 m c) (A2 m c) (A3 m c) (A4 m c) (A5 m c) (A6 m c)).symm

theorem f4_v14_0 : W4 m ρ c (Proc.devRef .tc main_v14_0) = val_main_v17 (F := Ideal) (A0 m c) (A2 m c) (A3 m c) :=
  ((W4_arr m ρ c 2).trans (((dat1 (V3 m ρ) c).arrAt_in 2 rfl _).trans (A_eq1 (V3 m ρ) c 2))).trans (f3_v14_0 m ρ c)

theorem f4_v12 : W4 m ρ c (Proc.devRef .tc main_v12) = (shapeCast S100000x1 (val_main_v11 (F := Ideal) (A1 m c)) shapeCasts_S100000_S100000x1) :=
  ((W4_arr m ρ c 3).trans (((dat1 (V3 m ρ) c).arrAt_in 3 rfl _).trans (A_eq1 (V3 m ρ) c 3))).trans (f3_v12 m ρ c)

theorem f4_v1 : W4 m ρ c (Proc.devRef .tc main_v1) = val_main_v1 (F := Ideal) (A1 m c) :=
  (W4_of_ne m ρ c main_v1 (by decide)).trans (f3_v1 m ρ c)

theorem f4_v3 : W4 m ρ c (Proc.devRef .tc main_v3) = val_main_v3 (F := Ideal) (A1 m c) :=
  (W4_of_ne m ρ c main_v3 (by decide)).trans (f3_v3 m ρ c)

theorem f4_arg4 : W4 m ρ c (Proc.devRef .tc main_arg4) = (A4 m c) :=
  (W4_of_ne m ρ c main_arg4 (by decide)).trans (f3_arg4 m ρ c)

theorem f4_arg5 : W4 m ρ c (Proc.devRef .tc main_arg5) = (A5 m c) :=
  (W4_of_ne m ρ c main_arg5 (by decide)).trans (f3_arg5 m ρ c)

theorem f4_arg6 : W4 m ρ c (Proc.devRef .tc main_arg6) = (A6 m c) :=
  (W4_of_ne m ρ c main_arg6 (by decide)).trans (f3_arg6 m ρ c)

theorem f4_arg7 : W4 m ρ c (Proc.devRef .tc main_arg7) = (A7 m c) :=
  (W4_of_ne m ρ c main_arg7 (by decide)).trans (f3_arg7 m ρ c)

theorem f4_arg8 : W4 m ρ c (Proc.devRef .tc main_arg8) = (A8 m c) :=
  (W4_of_ne m ρ c main_arg8 (by decide)).trans (f3_arg8 m ρ c)

theorem f4_arg9 : W4 m ρ c (Proc.devRef .tc main_arg9) = (A9 m c) :=
  (W4_of_ne m ρ c main_arg9 (by decide)).trans (f3_arg9 m ρ c)

/-! ## Boundary 5 -/

set_option maxHeartbeats 2000000 in
theorem f5_v42 : W5 m ρ c (Proc.devRef .tc main_v42) = val_main_v64 (F := Ideal) (A0 m c) (A1 m c) (A2 m c) (A3 m c) (A4 m c) (A5 m c) (A6 m c) := by
  show StableHlo.after hostOps2 (W4 m ρ c) (Proc.devRef .tc main_v42) = _
  after_results_simp
  rw [f4_v32 m ρ c, f4_v1 m ρ c, f4_v3 m ρ c]
  rfl

theorem f5_v32 : W5 m ρ c (Proc.devRef .tc main_v32) = val_main_v48 (F := Ideal) (A0 m c) (A1 m c) (A2 m c) (A3 m c) (A4 m c) (A5 m c) (A6 m c) := by
  show StableHlo.after hostOps2 (W4 m ρ c) (Proc.devRef .tc main_v32) = _
  after_results
  exact f4_v32 m ρ c

theorem f5_v14_0 : W5 m ρ c (Proc.devRef .tc main_v14_0) = val_main_v17 (F := Ideal) (A0 m c) (A2 m c) (A3 m c) := by
  show StableHlo.after hostOps2 (W4 m ρ c) (Proc.devRef .tc main_v14_0) = _
  after_results
  exact f4_v14_0 m ρ c

theorem f5_v12 : W5 m ρ c (Proc.devRef .tc main_v12) = (shapeCast S100000x1 (val_main_v11 (F := Ideal) (A1 m c)) shapeCasts_S100000_S100000x1) := by
  show StableHlo.after hostOps2 (W4 m ρ c) (Proc.devRef .tc main_v12) = _
  after_results
  exact f4_v12 m ρ c

theorem f5_v44 : W5 m ρ c (Proc.devRef .tc main_v44) = val_main_v50 (F := Ideal) (A4 m c) := by
  show StableHlo.after hostOps2 (W4 m ρ c) (Proc.devRef .tc main_v44) = _
  after_results
  rw [f4_arg4 m ρ c]
  rfl

theorem f5_v49 : W5 m ρ c (Proc.devRef .tc main_v49) = (shapeCast S1x128 (val_main_v52 (F := Ideal) (A5 m c)) shapeCasts_S128_S1x128) := by
  show StableHlo.after hostOps2 (W4 m ρ c) (Proc.devRef .tc main_v49) = _
  after_results
  rw [f4_arg5 m ρ c]
  rfl

theorem f5_v48 : W5 m ρ c (Proc.devRef .tc main_v48) = val_main_v54 (F := Ideal) (A6 m c) := by
  show StableHlo.after hostOps2 (W4 m ρ c) (Proc.devRef .tc main_v48) = _
  after_results
  rw [f4_arg6 m ρ c]
  rfl

theorem f5_v1 : W5 m ρ c (Proc.devRef .tc main_v1) = val_main_v1 (F := Ideal) (A1 m c) := by
  show StableHlo.after hostOps2 (W4 m ρ c) (Proc.devRef .tc main_v1) = _
  after_results
  exact f4_v1 m ρ c

theorem f5_v3 : W5 m ρ c (Proc.devRef .tc main_v3) = val_main_v3 (F := Ideal) (A1 m c) := by
  show StableHlo.after hostOps2 (W4 m ρ c) (Proc.devRef .tc main_v3) = _
  after_results
  exact f4_v3 m ρ c

theorem f5_arg4 : W5 m ρ c (Proc.devRef .tc main_arg4) = (A4 m c) := by
  show StableHlo.after hostOps2 (W4 m ρ c) (Proc.devRef .tc main_arg4) = _
  after_results
  exact f4_arg4 m ρ c

theorem f5_arg5 : W5 m ρ c (Proc.devRef .tc main_arg5) = (A5 m c) := by
  show StableHlo.after hostOps2 (W4 m ρ c) (Proc.devRef .tc main_arg5) = _
  after_results
  exact f4_arg5 m ρ c

theorem f5_arg6 : W5 m ρ c (Proc.devRef .tc main_arg6) = (A6 m c) := by
  show StableHlo.after hostOps2 (W4 m ρ c) (Proc.devRef .tc main_arg6) = _
  after_results
  exact f4_arg6 m ρ c

theorem f5_arg7 : W5 m ρ c (Proc.devRef .tc main_arg7) = (A7 m c) := by
  show StableHlo.after hostOps2 (W4 m ρ c) (Proc.devRef .tc main_arg7) = _
  after_results
  exact f4_arg7 m ρ c

theorem f5_arg8 : W5 m ρ c (Proc.devRef .tc main_arg8) = (A8 m c) := by
  show StableHlo.after hostOps2 (W4 m ρ c) (Proc.devRef .tc main_arg8) = _
  after_results
  exact f4_arg8 m ρ c

theorem f5_arg9 : W5 m ρ c (Proc.devRef .tc main_arg9) = (A9 m c) := by
  show StableHlo.after hostOps2 (W4 m ρ c) (Proc.devRef .tc main_arg9) = _
  after_results
  exact f4_arg9 m ρ c

/-! ## Boundary 6 -/

theorem f6_v50 : W6 m ρ c (Proc.devRef .tc main_v50) = val_main_v78 (F := Ideal) (A0 m c) (A1 m c) (A2 m c) (A3 m c) (A4 m c) (A5 m c) (A6 m c) := by
  refine (W6_arr m ρ c 7).trans ?_
  refine (Reg2.final (V5 m ρ) c).trans ?_
  dsimp only [Reg2.G, V5]
  rw [f5_v42 m ρ c, f5_v32 m ρ c, f5_v14_0 m ρ c, f5_v12 m ρ c, f5_v44 m ρ c, f5_v49 m ρ c, f5_v48 m ρ c]
  simp only [fun q : Fin 128 => shapeCast_a_1a_apply (val_main_v52 (F := Ideal) (A5 m c)) shapeCasts_S128_S1x128 0 q, fun r : Fin 100000 => Cert.KPay.shapeCast_a_a1_apply (val_main_v11 (F := Ideal) (A1 m c)) shapeCasts_S100000_S100000x1 r 0]
  exact (Cert.RefStages.hidden2_eq (A0 m c) (A1 m c) (A2 m c) (A3 m c) (A4 m c) (A5 m c) (A6 m c)).symm

theorem f6_v14_0 : W6 m ρ c (Proc.devRef .tc main_v14_0) = val_main_v17 (F := Ideal) (A0 m c) (A2 m c) (A3 m c) :=
  ((W6_arr m ρ c 2).trans (((dat2 (V5 m ρ) c).arrAt_in 2 rfl _).trans (A_eq2 (V5 m ρ) c 2))).trans (f5_v14_0 m ρ c)

theorem f6_v12 : W6 m ρ c (Proc.devRef .tc main_v12) = (shapeCast S100000x1 (val_main_v11 (F := Ideal) (A1 m c)) shapeCasts_S100000_S100000x1) :=
  ((W6_arr m ρ c 3).trans (((dat2 (V5 m ρ) c).arrAt_in 3 rfl _).trans (A_eq2 (V5 m ρ) c 3))).trans (f5_v12 m ρ c)

theorem f6_v1 : W6 m ρ c (Proc.devRef .tc main_v1) = val_main_v1 (F := Ideal) (A1 m c) :=
  (W6_of_ne m ρ c main_v1 (by decide)).trans (f5_v1 m ρ c)

theorem f6_v3 : W6 m ρ c (Proc.devRef .tc main_v3) = val_main_v3 (F := Ideal) (A1 m c) :=
  (W6_of_ne m ρ c main_v3 (by decide)).trans (f5_v3 m ρ c)

theorem f6_arg4 : W6 m ρ c (Proc.devRef .tc main_arg4) = (A4 m c) :=
  (W6_of_ne m ρ c main_arg4 (by decide)).trans (f5_arg4 m ρ c)

theorem f6_arg5 : W6 m ρ c (Proc.devRef .tc main_arg5) = (A5 m c) :=
  (W6_of_ne m ρ c main_arg5 (by decide)).trans (f5_arg5 m ρ c)

theorem f6_arg6 : W6 m ρ c (Proc.devRef .tc main_arg6) = (A6 m c) :=
  (W6_of_ne m ρ c main_arg6 (by decide)).trans (f5_arg6 m ρ c)

theorem f6_arg7 : W6 m ρ c (Proc.devRef .tc main_arg7) = (A7 m c) :=
  (W6_of_ne m ρ c main_arg7 (by decide)).trans (f5_arg7 m ρ c)

theorem f6_arg8 : W6 m ρ c (Proc.devRef .tc main_arg8) = (A8 m c) :=
  (W6_of_ne m ρ c main_arg8 (by decide)).trans (f5_arg8 m ρ c)

theorem f6_arg9 : W6 m ρ c (Proc.devRef .tc main_arg9) = (A9 m c) :=
  (W6_of_ne m ρ c main_arg9 (by decide)).trans (f5_arg9 m ρ c)

/-! ## Boundary 7 -/

set_option maxHeartbeats 2000000 in
theorem f7_v60 : W7 m ρ c (Proc.devRef .tc main_v60) = val_main_v94 (F := Ideal) (A0 m c) (A1 m c) (A2 m c) (A3 m c) (A4 m c) (A5 m c) (A6 m c) := by
  show StableHlo.after hostOps3 (W6 m ρ c) (Proc.devRef .tc main_v60) = _
  after_results_simp
  rw [f6_v50 m ρ c, f6_v1 m ρ c, f6_v3 m ρ c]
  rfl

theorem f7_v50 : W7 m ρ c (Proc.devRef .tc main_v50) = val_main_v78 (F := Ideal) (A0 m c) (A1 m c) (A2 m c) (A3 m c) (A4 m c) (A5 m c) (A6 m c) := by
  show StableHlo.after hostOps3 (W6 m ρ c) (Proc.devRef .tc main_v50) = _
  after_results
  exact f6_v50 m ρ c

theorem f7_v14_0 : W7 m ρ c (Proc.devRef .tc main_v14_0) = val_main_v17 (F := Ideal) (A0 m c) (A2 m c) (A3 m c) := by
  show StableHlo.after hostOps3 (W6 m ρ c) (Proc.devRef .tc main_v14_0) = _
  after_results
  exact f6_v14_0 m ρ c

theorem f7_v12 : W7 m ρ c (Proc.devRef .tc main_v12) = (shapeCast S100000x1 (val_main_v11 (F := Ideal) (A1 m c)) shapeCasts_S100000_S100000x1) := by
  show StableHlo.after hostOps3 (W6 m ρ c) (Proc.devRef .tc main_v12) = _
  after_results
  exact f6_v12 m ρ c

theorem f7_v62 : W7 m ρ c (Proc.devRef .tc main_v62) = val_main_v80 (F := Ideal) (A4 m c) := by
  show StableHlo.after hostOps3 (W6 m ρ c) (Proc.devRef .tc main_v62) = _
  after_results
  rw [f6_arg4 m ρ c]
  rfl

theorem f7_v67 : W7 m ρ c (Proc.devRef .tc main_v67) = (shapeCast S1x128 (val_main_v82 (F := Ideal) (A5 m c)) shapeCasts_S128_S1x128) := by
  show StableHlo.after hostOps3 (W6 m ρ c) (Proc.devRef .tc main_v67) = _
  after_results
  rw [f6_arg5 m ρ c]
  rfl

theorem f7_v66 : W7 m ρ c (Proc.devRef .tc main_v66) = val_main_v84 (F := Ideal) (A6 m c) := by
  show StableHlo.after hostOps3 (W6 m ρ c) (Proc.devRef .tc main_v66) = _
  after_results
  rw [f6_arg6 m ρ c]
  rfl

theorem f7_v1 : W7 m ρ c (Proc.devRef .tc main_v1) = val_main_v1 (F := Ideal) (A1 m c) := by
  show StableHlo.after hostOps3 (W6 m ρ c) (Proc.devRef .tc main_v1) = _
  after_results
  exact f6_v1 m ρ c

theorem f7_v3 : W7 m ρ c (Proc.devRef .tc main_v3) = val_main_v3 (F := Ideal) (A1 m c) := by
  show StableHlo.after hostOps3 (W6 m ρ c) (Proc.devRef .tc main_v3) = _
  after_results
  exact f6_v3 m ρ c

theorem f7_arg7 : W7 m ρ c (Proc.devRef .tc main_arg7) = (A7 m c) := by
  show StableHlo.after hostOps3 (W6 m ρ c) (Proc.devRef .tc main_arg7) = _
  after_results
  exact f6_arg7 m ρ c

theorem f7_arg8 : W7 m ρ c (Proc.devRef .tc main_arg8) = (A8 m c) := by
  show StableHlo.after hostOps3 (W6 m ρ c) (Proc.devRef .tc main_arg8) = _
  after_results
  exact f6_arg8 m ρ c

theorem f7_arg9 : W7 m ρ c (Proc.devRef .tc main_arg9) = (A9 m c) := by
  show StableHlo.after hostOps3 (W6 m ρ c) (Proc.devRef .tc main_arg9) = _
  after_results
  exact f6_arg9 m ρ c

/-! ## Boundary 8 -/

theorem f8_v68 : W8 m ρ c (Proc.devRef .tc main_v68) = val_main_v108 (F := Ideal) (A0 m c) (A1 m c) (A2 m c) (A3 m c) (A4 m c) (A5 m c) (A6 m c) := by
  refine (W8_arr m ρ c 7).trans ?_
  refine (Reg3.final (V7 m ρ) c).trans ?_
  dsimp only [Reg3.G, V7]
  rw [f7_v60 m ρ c, f7_v50 m ρ c, f7_v14_0 m ρ c, f7_v12 m ρ c, f7_v62 m ρ c, f7_v67 m ρ c, f7_v66 m ρ c]
  simp only [fun q : Fin 128 => shapeCast_a_1a_apply (val_main_v82 (F := Ideal) (A5 m c)) shapeCasts_S128_S1x128 0 q, fun r : Fin 100000 => Cert.KPay.shapeCast_a_a1_apply (val_main_v11 (F := Ideal) (A1 m c)) shapeCasts_S100000_S100000x1 r 0]
  exact (Cert.RefStages.hidden3_eq (A0 m c) (A1 m c) (A2 m c) (A3 m c) (A4 m c) (A5 m c) (A6 m c)).symm

theorem f8_v12 : W8 m ρ c (Proc.devRef .tc main_v12) = (shapeCast S100000x1 (val_main_v11 (F := Ideal) (A1 m c)) shapeCasts_S100000_S100000x1) :=
  ((W8_arr m ρ c 3).trans (((dat3 (V7 m ρ) c).arrAt_in 3 rfl _).trans (A_eq3 (V7 m ρ) c 3))).trans (f7_v12 m ρ c)

theorem f8_v1 : W8 m ρ c (Proc.devRef .tc main_v1) = val_main_v1 (F := Ideal) (A1 m c) :=
  (W8_of_ne m ρ c main_v1 (by decide)).trans (f7_v1 m ρ c)

theorem f8_v3 : W8 m ρ c (Proc.devRef .tc main_v3) = val_main_v3 (F := Ideal) (A1 m c) :=
  (W8_of_ne m ρ c main_v3 (by decide)).trans (f7_v3 m ρ c)

theorem f8_arg7 : W8 m ρ c (Proc.devRef .tc main_arg7) = (A7 m c) :=
  (W8_of_ne m ρ c main_arg7 (by decide)).trans (f7_arg7 m ρ c)

theorem f8_arg8 : W8 m ρ c (Proc.devRef .tc main_arg8) = (A8 m c) :=
  (W8_of_ne m ρ c main_arg8 (by decide)).trans (f7_arg8 m ρ c)

theorem f8_arg9 : W8 m ρ c (Proc.devRef .tc main_arg9) = (A9 m c) :=
  (W8_of_ne m ρ c main_arg9 (by decide)).trans (f7_arg9 m ρ c)

/-! ## Boundary 9 -/

set_option maxHeartbeats 2000000 in
theorem f9_v78 : W9 m ρ c (Proc.devRef .tc main_v78) = val_main_v118 (F := Ideal) (A0 m c) (A1 m c) (A2 m c) (A3 m c) (A4 m c) (A5 m c) (A6 m c) := by
  show StableHlo.after hostOps4 (W8 m ρ c) (Proc.devRef .tc main_v78) = _
  after_results_simp
  rw [f8_v68 m ρ c, f8_v1 m ρ c, f8_v3 m ρ c]
  rfl

theorem f9_v68 : W9 m ρ c (Proc.devRef .tc main_v68) = val_main_v108 (F := Ideal) (A0 m c) (A1 m c) (A2 m c) (A3 m c) (A4 m c) (A5 m c) (A6 m c) := by
  show StableHlo.after hostOps4 (W8 m ρ c) (Proc.devRef .tc main_v68) = _
  after_results
  exact f8_v68 m ρ c

theorem f9_v12 : W9 m ρ c (Proc.devRef .tc main_v12) = (shapeCast S100000x1 (val_main_v11 (F := Ideal) (A1 m c)) shapeCasts_S100000_S100000x1) := by
  show StableHlo.after hostOps4 (W8 m ρ c) (Proc.devRef .tc main_v12) = _
  after_results
  exact f8_v12 m ρ c

theorem f9_arg7 : W9 m ρ c (Proc.devRef .tc main_arg7) = (A7 m c) := by
  show StableHlo.after hostOps4 (W8 m ρ c) (Proc.devRef .tc main_arg7) = _
  after_results
  exact f8_arg7 m ρ c

theorem f9_v79 : W9 m ρ c (Proc.devRef .tc main_v79) = (shapeCast S1x64 ((A8 m c)) shapeCasts_S64_S1x64) := by
  show StableHlo.after hostOps4 (W8 m ρ c) (Proc.devRef .tc main_v79) = _
  after_results
  rw [f8_arg8 m ρ c]
  rfl

theorem f9_arg9 : W9 m ρ c (Proc.devRef .tc main_arg9) = (A9 m c) := by
  show StableHlo.after hostOps4 (W8 m ρ c) (Proc.devRef .tc main_arg9) = _
  after_results
  exact f8_arg9 m ρ c

/-! ## Boundary 10 -/

theorem f10_v80 : W10 m ρ c (Proc.devRef .tc main_v80) = val_main_v129 (F := Ideal) (A0 m c) (A1 m c) (A2 m c) (A3 m c) (A4 m c) (A5 m c) (A6 m c) (A7 m c) (A8 m c) (A9 m c) := by
  refine (W10_arr m ρ c 6).trans ?_
  refine (Reg4.final (V9 m ρ) c).trans ?_
  dsimp only [Reg4.G, V9]
  rw [f9_v78 m ρ c, f9_v68 m ρ c, f9_v12 m ρ c, f9_arg7 m ρ c, f9_v79 m ρ c, f9_arg9 m ρ c]
  simp only [fun q : Fin 64 => shapeCast_a_1a_apply ((A8 m c)) shapeCasts_S64_S1x64 0 q, fun r : Fin 100000 => Cert.KPay.shapeCast_a_a1_apply (val_main_v11 (F := Ideal) (A1 m c)) shapeCasts_S100000_S100000x1 r 0]
  exact (Cert.RefOut.out_eq (A0 m c) (A1 m c) (A2 m c) (A3 m c) (A4 m c) (A5 m c) (A6 m c) (A7 m c) (A8 m c) (A9 m c)).symm

end Cert.KernelIdeal.Chain

end
-- ==== Proof.lean ====
/-
  The five claims of this certificate.

  Both programs compute a four-layer message-passing network over 100000 nodes and 1600000 edges: a projection of
  the node features, three hidden layers (the mean of the in-neighbours' states times one matrix, plus a bias, plus
  the node's own state times another matrix, then relu, plus a fifth of the projected input) and an output layer
  followed by the logarithm of the softmax of each row.  The kernel program does the dense part of every layer in a
  launch over 25 blocks of 4000 rows and leaves the sums over the edges to host operations; the reference is one
  host program.  Over the extended reals the two agree entry by entry: each launch's output is the layer function
  of the arrays it finds, a block product into a zero accumulator being the same finite sum as the host's product,
  and the host operations between the launches are the reference's own, applied to equal arrays.  No finiteness
  of the inputs is used: the two sides are the same sums of the same products.

  The frames of the two kernel programs are the generated ones; the reference's frame is its run with the result
  dropped; the idealization rewrote no operation, so there is nothing to preserve.
-/
import proofs.«179555_j16097537425900_1_alg».proof.Defs
import proofs.«179555_j16097537425900_1_alg».proof.Proof.Gen.Kernel
import proofs.«179555_j16097537425900_1_alg».proof.Proof.Gen.Kernel.Skeleton
import proofs.«179555_j16097537425900_1_alg».proof.Proof.Gen.Kernel.Launch
import proofs.«179555_j16097537425900_1_alg».proof.Proof.Gen.Kernel.Points
import proofs.«179555_j16097537425900_1_alg».proof.Proof.Gen.Kernel.Frame
import proofs.«179555_j16097537425900_1_alg».proof.Proof.Gen.KernelIdeal
import proofs.«179555_j16097537425900_1_alg».proof.Proof.Gen.KernelIdeal.Skeleton
import proofs.«179555_j16097537425900_1_alg».proof.Proof.Gen.KernelIdeal.Launch
import proofs.«179555_j16097537425900_1_alg».proof.Proof.Gen.KernelIdeal.Points
import proofs.«179555_j16097537425900_1_alg».proof.Proof.Gen.KernelIdeal.Frame
import proofs.«179555_j16097537425900_1_alg».proof.Proof.Gen.ReferenceIdeal
import proofs.«179555_j16097537425900_1_alg».proof.Proof.Gen.Pre_finite_inputs
import proofs.«179555_j16097537425900_1_alg».proof.Proof.RefRun
import proofs.«179555_j16097537425900_1_alg».proof.Proof.RefRead
import proofs.«179555_j16097537425900_1_alg».proof.Proof.KRun
import proofs.«179555_j16097537425900_1_alg».proof.Proof.KChain
import Idealize.ShloMosaic.Adequacy
import Idealize.ShloMosaic.Init

noncomputable section

namespace Cert.Proof

open Idealize.ShloMosaic Idealize.ShloMosaic.TcCoe Idealize.SL.Sem

/-- The word-level kernel program runs and keeps its arguments: its generated frame. -/
theorem frame_k : Cert.frame_Kernel (hKernel := Cert.Kernel.Gen.facts) (hPre_finite_inputs := Cert.Pre_finite_inputs.Gen.facts) :=
  fun m ρ _ => Cert.Kernel.Gen.frame m ρ

/-- The idealized kernel program runs and keeps its arguments: its generated frame. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference runs and keeps its arguments: its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- From memories agreeing on the arguments both idealized programs run and end with equal results: the kernel
    program's result array is the last launch's output, which is the reference's last stage of the arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Gen.W10 m ρ c (Proc.devRef .tc Cert.KernelIdeal.main_v80), Cert.KernelIdeal.Named.run_named m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2.1, (hagree c).2.2.2.2.2.1,
    (hagree c).2.2.2.2.2.2.1, (hagree c).2.2.2.2.2.2.2.1, (hagree c).2.2.2.2.2.2.2.2.1, (hagree c).2.2.2.2.2.2.2.2.2]
  exact (Cert.KernelIdeal.Chain.f10_v80 m ρ c).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
